-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S16x1024x1024 : Shape := ⟨3, ![16, 1024, 1024]⟩
abbrev S256x256 : Shape := ⟨2, ![256, 256]⟩
abbrev S256 : Shape := ⟨1, ![256]⟩
abbrev S1024 : Shape := ⟨1, ![1024]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S1024 .f32) (main_arg7 : FVec F S1024 .f32) (main_arg8 : FVec F S1024 .f32) (main_arg9 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S16x1024x256 .f32) (main_arg1 : FVec F S16x1024x1024 .f32) (main_arg2 : FVec F S256x256 .f32) (main_arg3 : FVec F S256 .f32) (main_arg4 : FVec F S256x256 .f32) (main_arg5 : FVec F S256 .f32) (main_arg6 : FVec F S1024 .f32) (main_arg7 : FVec F S1024 .f32) (main_arg8 : FVec F S1024 .f32) (main_arg9 : FVec F S1024 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S16x1024x256 : Shape := ⟨3, ![16, 1024, 256]⟩
abbrev S16x1024x1024 : Shape := ⟨3, ![16, 1024, 1024]⟩
abbrev S256x256 : Shape := ⟨2, ![256, 256]⟩
abbrev S256 : Shape := ⟨1, ![256]⟩
abbrev S1024 : Shape := ⟨1, ![1024]⟩
abbrev S1x256 : Shape := ⟨2, ![1, 256]⟩
abbrev S16x1024x1 : Shape := ⟨3, ![16, 1024, 1]⟩
abbrev S1024x1 : Shape := ⟨2, ![1024, 1]⟩
abbrev S4x1024x256 : Shape := ⟨3, ![4, 1024, 256]⟩
abbrev S4x1024x1024 : Shape := ⟨3, ![4, 1024, 1024]⟩
abbrev S4x1024x1 : Shape := ⟨3, ![4, 1024, 1]⟩
abbrev S1x1024x256 : Shape := ⟨3, ![1, 1024, 256]⟩
abbrev S1024x256 : Shape := ⟨2, ![1024, 256]⟩
abbrev S1x1024x1024 : Shape := ⟨3, ![1, 1024, 1024]⟩
abbrev S1024x1024 : Shape := ⟨2, ![1024, 1024]⟩
abbrev S1x1024x1 : Shape := ⟨3, ![1, 1024, 1]⟩
abbrev S2x1024x256 : Shape := ⟨3, ![2, 1024, 256]⟩
abbrev S2x1024x1024 : Shape := ⟨3, ![2, 1024, 1024]⟩
abbrev S2x1024x1 : Shape := ⟨3, ![2, 1024, 1]⟩
abbrev S8x1024x256 : Shape := ⟨3, ![8, 1024, 256]⟩

abbrev nBuf : Space → Nat
  | .hbm => 23
  | .vmem => 40
  | .smem => 0
  | _ => 0

abbrev bufTy : (tb : Table) → Fin (tcTables nBuf tb) → BufTy
  | .hbm, ⟨0, _⟩ => ⟨S16x1024x256, .f32⟩
  | .hbm, ⟨1, _⟩ => ⟨S16x1024x1024, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x256, .f32⟩
  | .hbm, ⟨11, _⟩ => ⟨S16x1024x256, .bf16⟩
  | .hbm, ⟨12, _⟩ => ⟨S16x1024x1, .f32⟩
  | .hbm, ⟨13, _⟩ => ⟨S16x1024x1, .f32⟩
  | .hbm, ⟨14, _⟩ => ⟨S1x256, .f32⟩
  | .hbm, ⟨15, _⟩ => ⟨S1024x1, .f32⟩
  | .hbm, ⟨16, _⟩ => ⟨S1024x1, .f32⟩
  | .hbm, ⟨17, _⟩ => ⟨S16x1024x256, .bf16⟩
  | .hbm, ⟨18, _⟩ => ⟨S16x1024x1, .f32⟩
  | .hbm, ⟨19, _⟩ => ⟨S16x1024x1, .f32⟩
  | .hbm, ⟨20, _⟩ => ⟨S1024x1, .f32⟩
  | .hbm, ⟨21, _⟩ => ⟨S1024x1, .f32⟩
  | .hbm, ⟨22, _⟩ => ⟨S16x1024x256, .f32⟩
  | .local _ .vmem, ⟨0, _⟩ => ⟨S4x1024x256, .f32⟩
  | .local _ .vmem, ⟨1, _⟩ => ⟨S4x1024x256, .f32⟩
  | .local _ .vmem, ⟨2, _⟩ => ⟨S4x1024x1024, .f32⟩
  | .local _ .vmem, ⟨3, _⟩ => ⟨S4x1024x1024, .f32⟩
  | .local _ .vmem, ⟨4, _⟩ => ⟨S256x256, .f32⟩
  | .local _ .vmem, ⟨5, _⟩ => ⟨S1x256, .f32⟩
  | .local _ .vmem, ⟨6, _⟩ => ⟨S4x1024x256, .bf16⟩
  | .local _ .vmem, ⟨7, _⟩ => ⟨S4x1024x256, .bf16⟩
  | .local _ .vmem, ⟨8, _⟩ => ⟨S4x1024x1, .f32⟩
  | .local _ .vmem, ⟨9, _⟩ => ⟨S4x1024x1, .f32⟩
  | .local _ .vmem, ⟨10, _⟩ => ⟨S4x1024x1, .f32⟩
  | .local _ .vmem, ⟨11, _⟩ => ⟨S4x1024x1, .f32⟩
  | .local _ .vmem, ⟨12, _⟩ => ⟨S2x1024x256, .bf16⟩
  | .local _ .vmem, ⟨13, _⟩ => ⟨S2x1024x256, .bf16⟩
  | .local _ .vmem, ⟨14, _⟩ => ⟨S2x1024x1024, .f32⟩
  | .local _ .vmem, ⟨15, _⟩ => ⟨S2x1024x1024, .f32⟩
  | .local _ .vmem, ⟨16, _⟩ => ⟨S256x256, .f32⟩
  | .local _ .vmem, ⟨17, _⟩ => ⟨S1x256, .f32⟩
  | .local _ .vmem, ⟨18, _⟩ => ⟨S16x1024x1, .f32⟩
  | .local _ .vmem, ⟨19, _⟩ => ⟨S16x1024x1, .f32⟩
  | .local _ .vmem, ⟨20, _⟩ => ⟨S1024x1, .f32⟩
  | .local _ .vmem, ⟨21, _⟩ => ⟨S1024x1, .f32⟩
  | .local _ .vmem, ⟨22, _⟩ => ⟨S2x1024x256, .bf16⟩
  | .local _ .vmem, ⟨23, _⟩ => ⟨S2x1024x256, .bf16⟩
  | .local _ .vmem, ⟨24, _⟩ => ⟨S2x1024x1, .f32⟩
  | .local _ .vmem, ⟨25, _⟩ => ⟨S2x1024x1, .f32⟩
  | .local _ .vmem, ⟨26, _⟩ => ⟨S2x1024x1, .f32⟩
  | .local _ .vmem, ⟨27, _⟩ => ⟨S2x1024x1, .f32⟩
  | .local _ .vmem, ⟨28, _⟩ => ⟨S1024x1, .f32⟩
  | .local _ .vmem, ⟨29, _⟩ => ⟨S1024x1, .f32⟩
  | .local _ .vmem, ⟨30, _⟩ => ⟨S8x1024x256, .bf16⟩
  | .local _ .vmem, ⟨31, _⟩ => ⟨S8x1024x256, .bf16⟩
  | .local _ .vmem, ⟨32, _⟩ => ⟨S16x1024x1, .f32⟩
  | .local _ .vmem, ⟨33, _⟩ => ⟨S16x1024x1, .f32⟩
  | .local _ .vmem, ⟨34, _⟩ => ⟨S1024x1, .f32⟩
  | .local _ .vmem, ⟨35, _⟩ => ⟨S1024x1, .f32⟩
  | .local _ .vmem, ⟨36, _⟩ => ⟨S8x1024x256, .f32⟩
  | .local _ .vmem, ⟨37, _⟩ => ⟨S8x1024x256, .f32⟩
  | .local _ .vmem, ⟨38, _⟩ => ⟨S1024x1, .f32⟩
  | .local _ .vmem, ⟨39, _⟩ => ⟨S1024x1, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1_0 : Ref sig .tc := ⟨.hbm, 11, rfl⟩
abbrev main_call0_v1_1 : Ref sig .tc := ⟨.hbm, 12, rfl⟩
abbrev main_call0_v1_2 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5_0 : Ref sig .tc := ⟨.hbm, 17, rfl⟩
abbrev main_call0_v5_1 : Ref sig .tc := ⟨.hbm, 18, rfl⟩
abbrev main_call0_v5_2 : Ref sig .tc := ⟨.hbm, 19, rfl⟩
abbrev main_call0_v6 : Ref sig .tc := ⟨.hbm, 20, rfl⟩
abbrev main_call0_v7 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc2_scratch0 : Ref sig .tc := ⟨.vmem, 38, rfl⟩
abbrev cc2_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2x1024x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x1024x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2x1024x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8x1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S256_S1x256 : S256.ShapeCasts S1x256
  shapeCasts_S1024_S1024x1 : S1024.ShapeCasts S1024x1
  inb_S4x1024x256_S1x1024x256_0_0_0 : ∀ a, (![0, 0, 0] : Fin 3 → Nat) a + S1x1024x256.size a ≤ S4x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bitsLt_bf16_f32 : FTy.bits .bf16 < FTy.bits .f32
  shapeCasts_S1024x256_S1x1024x256 : S1024x256.ShapeCasts S1x1024x256
  packedbf16_S4x1024x256_S1x1024x256_0_0_0 : (Rect.unit (s := S4x1024x256) ![0, 0, 0] S1x1024x256.size inb_S4x1024x256_S1x1024x256_0_0_0).PackedRows (EltTy.packing .bf16)
  reduces_S1024x256_S1024 : S1024x256.Reduces [1] S1024
  inb_S4x1024x1_S1x1024x1_0_0_0 : ∀ a, (![0, 0, 0] : Fin 3 → Nat) a + S1x1024x1.size a ≤ S4x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S4x1024x256_S1x1024x256_1_0_0 : ∀ a, (![1, 0, 0] : Fin 3 → Nat) a + S1x1024x256.size a ≤ S4x1024x256.size a
  inb_S4x1024x1024_S1x1024x1024_1_0_0 : ∀ a, (![1, 0, 0] : Fin 3 → Nat) a + S1x1024x1024.size a ≤ S4x1024x1024.size a
  packedbf16_S4x1024x256_S1x1024x256_1_0_0 : (Rect.unit (s := S4x1024x256) ![1, 0, 0] S1x1024x256.size inb_S4x1024x256_S1x1024x256_1_0_0).PackedRows (EltTy.packing .bf16)
  inb_S4x1024x1_S1x1024x1_1_0_0 : ∀ a, (![1, 0, 0] : Fin 3 → Nat) a + S1x1024x1.size a ≤ S4x1024x1.size a
  inb_S4x1024x256_S1x1024x256_2_0_0 : ∀ a, (![2, 0, 0] : Fin 3 → Nat) a + S1x1024x256.size a ≤ S4x1024x256.size a
  inb_S4x1024x1024_S1x1024x1024_2_0_0 : ∀ a, (![2, 0, 0] : Fin 3 → Nat) a + S1x1024x1024.size a ≤ S4x1024x1024.size a
  packedbf16_S4x1024x256_S1x1024x256_2_0_0 : (Rect.unit (s := S4x1024x256) ![2, 0, 0] S1x1024x256.size inb_S4x1024x256_S1x1024x256_2_0_0).PackedRows (EltTy.packing .bf16)
  inb_S4x1024x1_S1x1024x1_2_0_0 : ∀ a, (![2, 0, 0] : Fin 3 → Nat) a + S1x1024x1.size a ≤ S4x1024x1.size a
  inb_S4x1024x256_S1x1024x256_3_0_0 : ∀ a, (![3, 0, 0] : Fin 3 → Nat) a + S1x1024x256.size a ≤ S4x1024x256.size a
  inb_S4x1024x1024_S1x1024x1024_3_0_0 : ∀ a, (![3, 0, 0] : Fin 3 → Nat) a + S1x1024x1024.size a ≤ S4x1024x1024.size a
  packedbf16_S4x1024x256_S1x1024x256_3_0_0 : (Rect.unit (s := S4x1024x256) ![3, 0, 0] S1x1024x256.size inb_S4x1024x256_S1x1024x256_3_0_0).PackedRows (EltTy.packing .bf16)
  inb_S4x1024x1_S1x1024x1_3_0_0 : ∀ a, (![3, 0, 0] : Fin 3 → Nat) a + S1x1024x1.size a ≤ S4x1024x1.size a
  inb_S16x1024x1_S16x1024x1_0_0_0 : ∀ a, (![0, 0, 0] : Fin 3 → Nat) a + S16x1024x1.size a ≤ S16x1024x1.size a
  h_S16x1024x1 : 0 < S16x1024x1.numel
  shapeCasts_S16x1024x1_S16x1024x1 : S16x1024x1.ShapeCasts S16x1024x1
  reduces_S16x1024x1_S1024x1 : S16x1024x1.Reduces [0] S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2x1024x256_S1x1024x256_0_0_0 : ∀ a, (![0, 0, 0] : Fin 3 → Nat) a + S1x1024x256.size a ≤ S2x1024x256.size a
  broadcasts_S1024x1_S1024x256 : S1024x1.Broadcasts S1024x256
  inb_S2x1024x1024_S1x1024x1024_0_0_0 : ∀ a, (![0, 0, 0] : Fin 3 → Nat) a + S1x1024x1024.size a ≤ S2x1024x1024.size a
  packedbf16_S2x1024x256_S1x1024x256_0_0_0 : (Rect.unit (s := S2x1024x256) ![0, 0, 0] S1x1024x256.size inb_S2x1024x256_S1x1024x256_0_0_0).PackedRows (EltTy.packing .bf16)
  inb_S2x1024x1_S1x1024x1_0_0_0 : ∀ a, (![0, 0, 0] : Fin 3 → Nat) a + S1x1024x1.size a ≤ S2x1024x1.size a
  inb_S2x1024x256_S1x1024x256_1_0_0 : ∀ a, (![1, 0, 0] : Fin 3 → Nat) a + S1x1024x256.size a ≤ S2x1024x256.size a
  inb_S2x1024x1024_S1x1024x1024_1_0_0 : ∀ a, (![1, 0, 0] : Fin 3 → Nat) a + S1x1024x1024.size a ≤ S2x1024x1024.size a
  packedbf16_S2x1024x256_S1x1024x256_1_0_0 : (Rect.unit (s := S2x1024x256) ![1, 0, 0] S1x1024x256.size inb_S2x1024x256_S1x1024x256_1_0_0).PackedRows (EltTy.packing .bf16)
  inb_S2x1024x1_S1x1024x1_1_0_0 : ∀ a, (![1, 0, 0] : Fin 3 → Nat) a + S1x1024x1.size a ≤ S2x1024x1.size a
  inb_S8x1024x256_S8x1024x256_0_0_0 : ∀ a, (![0, 0, 0] : Fin 3 → Nat) a + S8x1024x256.size a ≤ S8x1024x256.size a
  h_S8x1024x256 : 0 < S8x1024x256.numel
  shapeCasts_S8x1024x256_S8x1024x256 : S8x1024x256.ShapeCasts S8x1024x256
  broadcasts_S1x1024x1_S8x1024x256 : S1x1024x1.Broadcasts S8x1024x256
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x256.size a ≤ S16x1024x256.size a
  hwx0_0 : ∀ i : grid0.Coords, EltTy.bits .f32 = 32 ∨ (Rect.block (s := S16x1024x256) S4x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x1024.size a ≤ S16x1024x1024.size a
  hwx0_1 : ∀ i : grid0.Coords, EltTy.bits .f32 = 32 ∨ (Rect.block (s := S16x1024x1024) S4x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024x256.size a ≤ S16x1024x256.size a
  hwx0_4 : ∀ i : grid0.Coords, EltTy.bits .bf16 = 32 ∨ (Rect.block (s := S16x1024x256) S4x1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1024x1.size a ≤ S16x1024x1.size a
  hwx0_5 : ∀ i : grid0.Coords, EltTy.bits .f32 = 32 ∨ (Rect.block (s := S16x1024x1) S4x1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1024x1.size a ≤ S16x1024x1.size a
  hwx0_6 : ∀ i : grid0.Coords, EltTy.bits .f32 = 32 ∨ (Rect.block (s := S16x1024x1) S4x1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1024x256.size a ≤ S16x1024x256.size a
  hwx1_0 : ∀ i : grid1.Coords, EltTy.bits .bf16 = 32 ∨ (Rect.block (s := S16x1024x256) S2x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1024x1024.size a ≤ S16x1024x1024.size a
  hwx1_1 : ∀ i : grid1.Coords, EltTy.bits .f32 = 32 ∨ (Rect.block (s := S16x1024x1024) S2x1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1024x1.size a ≤ S16x1024x1.size a
  hwx1_4 : ∀ i : grid1.Coords, EltTy.bits .f32 = 32 ∨ (Rect.block (s := S16x1024x1) S16x1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1024x1.size a ≤ S16x1024x1.size a
  hwx1_5 : ∀ i : grid1.Coords, EltTy.bits .f32 = 32 ∨ (Rect.block (s := S16x1024x1) S16x1024x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S1024x1.size a
  hwx1_6 : ∀ i : grid1.Coords, EltTy.bits .f32 = 32 ∨ (Rect.block (s := S1024x1) S1024x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S1024x1.size a
  hwx1_7 : ∀ i : grid1.Coords, EltTy.bits .f32 = 32 ∨ (Rect.block (s := S1024x1) S1024x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2x1024x256.size a ≤ S16x1024x256.size a
  hwx1_8 : ∀ i : grid1.Coords, EltTy.bits .bf16 = 32 ∨ (Rect.block (s := S16x1024x256) S2x1024x256.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2x1024x1.size a ≤ S16x1024x1.size a
  hwx1_9 : ∀ i : grid1.Coords, EltTy.bits .f32 = 32 ∨ (Rect.block (s := S16x1024x1) S2x1024x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2x1024x1.size a ≤ S16x1024x1.size a
  hwx1_10 : ∀ i : grid1.Coords, EltTy.bits .f32 = 32 ∨ (Rect.block (s := S16x1024x1) S2x1024x1.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x1024x256.size a ≤ S16x1024x256.size a
  hwx2_0 : ∀ i : grid2.Coords, EltTy.bits .bf16 = 32 ∨ (Rect.block (s := S16x1024x256) S8x1024x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1024x1.size a ≤ S16x1024x1.size a
  hwx2_1 : ∀ i : grid2.Coords, EltTy.bits .f32 = 32 ∨ (Rect.block (s := S16x1024x1) S16x1024x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1024x1.size a ≤ S16x1024x1.size a
  hwx2_2 : ∀ i : grid2.Coords, EltTy.bits .f32 = 32 ∨ (Rect.block (s := S16x1024x1) S16x1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S1024x1.size a
  hwx2_3 : ∀ i : grid2.Coords, EltTy.bits .f32 = 32 ∨ (Rect.block (s := S1024x1) S1024x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S1024x1.size a
  hwx2_4 : ∀ i : grid2.Coords, EltTy.bits .f32 = 32 ∨ (Rect.block (s := S1024x1) S1024x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x1024x256.size a ≤ S16x1024x256.size a
  hwx2_5 : ∀ i : grid2.Coords, EltTy.bits .f32 = 32 ∨ (Rect.block (s := S16x1024x256) S8x1024x256.size (cc2_transform_5 i) (hinb2_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S4x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_0) S4x1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1_1) S4x1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1_2) S4x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v1_0) S2x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1_1) S16x1024x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v1_2) S16x1024x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v3) S1024x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v4) S1024x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v5_0) S2x1024x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_call0_v5_1) S2x1024x1.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_call0_v5_2) S2x1024x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_call0_v5_0) S8x1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v5_1) S16x1024x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5_2) S16x1024x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v6) S1024x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v7) S1024x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S8x1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16x1024x256 : Shape := ⟨3, ![16, 1024, 256]⟩
abbrev S16x1024x1024 : Shape := ⟨3, ![16, 1024, 1024]⟩
abbrev S256x256 : Shape := ⟨2, ![256, 256]⟩
abbrev S256 : Shape := ⟨1, ![256]⟩
abbrev S1024 : Shape := ⟨1, ![1024]⟩
abbrev S1x1x256 : Shape := ⟨3, ![1, 1, 256]⟩
abbrev S_ : Shape := ⟨0, ![]⟩
abbrev S1x1024x1 : Shape := ⟨3, ![1, 1024, 1]⟩

abbrev nBuf : Space → Nat
  | .hbm => 114
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S16x1024x1024, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S16x1024x256, .f32⟩
  | .hbm, ⟨11, _⟩ => ⟨S16x1024x256, .f32⟩
  | .hbm, ⟨12, _⟩ => ⟨S1x1x256, .f32⟩
  | .hbm, ⟨13, _⟩ => ⟨S16x1024x256, .f32⟩
  | .hbm, ⟨14, _⟩ => ⟨S16x1024x256, .f32⟩
  | .hbm, ⟨15, _⟩ => ⟨S_, .f32⟩
  | .hbm, ⟨16, _⟩ => ⟨S16x1024x256, .f32⟩
  | .hbm, ⟨17, _⟩ => ⟨S16x1024x256, .f32⟩
  | .hbm, ⟨18, _⟩ => ⟨S_, .f32⟩
  | .hbm, ⟨19, _⟩ => ⟨S1024, .f32⟩
  | .hbm, ⟨20, _⟩ => ⟨S1x1024x1, .f32⟩
  | .hbm, ⟨21, _⟩ => ⟨S_, .f32⟩
  | .hbm, ⟨22, _⟩ => ⟨S1x1024x1, .f32⟩
  | .hbm, ⟨23, _⟩ => ⟨S1x1024x1, .f32⟩
  | .hbm, ⟨24, _⟩ => ⟨S_, .i32⟩
  | .hbm, ⟨25, _⟩ => ⟨S_, .f32⟩
  | .hbm, ⟨26, _⟩ => ⟨S1024, .f32⟩
  | .hbm, ⟨27, _⟩ => ⟨S1x1024x1, .f32⟩
  | .hbm, ⟨28, _⟩ => ⟨S_, .f32⟩
  | .hbm, ⟨29, _⟩ => ⟨S1x1024x1, .f32⟩
  | .hbm, ⟨30, _⟩ => ⟨S1x1024x1, .f32⟩
  | .hbm, ⟨31, _⟩ => ⟨S16x1024x256, .f32⟩
  | .hbm, ⟨32, _⟩ => ⟨S16x1024x256, .f32⟩
  | .hbm, ⟨33, _⟩ => ⟨S16x1024x256, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024, .f32⟩
  | .hbm, ⟨39, _⟩ => ⟨S1x1024x1, .f32⟩
  | .hbm, ⟨40, _⟩ => ⟨S1x1024x1, .f32⟩
  | .hbm, ⟨41, _⟩ => ⟨S1x1024x1, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S1x1024x1, .f32⟩
  | .hbm, ⟨47, _⟩ => ⟨S1x1024x1, .f32⟩
  | .hbm, ⟨48, _⟩ => ⟨S16x1024x256, .f32⟩
  | .hbm, ⟨49, _⟩ => ⟨S16x1024x256, .f32⟩
  | .hbm, ⟨50, _⟩ => ⟨S_, .f32⟩
  | .hbm, ⟨51, _⟩ => ⟨S1x1024x1, .f32⟩
  | .hbm, ⟨52, _⟩ => ⟨S1x1024x1, .f32⟩
  | .hbm, ⟨53, _⟩ => ⟨S1x1024x1, .f32⟩
  | .hbm, ⟨54, _⟩ => ⟨S16x1024x256, .f32⟩
  | .hbm, ⟨55, _⟩ => ⟨S16x1024x256, .f32⟩
  | .hbm, ⟨56, _⟩ => ⟨S1x1024x1, .f32⟩
  | .hbm, ⟨57, _⟩ => ⟨S16x1024x256, .f32⟩
  | .hbm, ⟨58, _⟩ => ⟨S16x1024x256, .f32⟩
  | .hbm, ⟨59, _⟩ => ⟨S1x1024x1, .f32⟩
  | .hbm, ⟨60, _⟩ => ⟨S16x1024x256, .f32⟩
  | .hbm, ⟨61, _⟩ => ⟨S16x1024x256, .f32⟩
  | .hbm, ⟨62, _⟩ => ⟨S16x1024x256, .f32⟩
  | .hbm, ⟨63, _⟩ => ⟨S16x1024x256, .f32⟩
  | .hbm, ⟨64, _⟩ => ⟨S1x1x256, .f32⟩
  | .hbm, ⟨65, _⟩ => ⟨S16x1024x256, .f32⟩
  | .hbm, ⟨66, _⟩ => ⟨S16x1024x256, .f32⟩
  | .hbm, ⟨67, _⟩ => ⟨S_, .f32⟩
  | .hbm, ⟨68, _⟩ => ⟨S16x1024x256, .f32⟩
  | .hbm, ⟨69, _⟩ => ⟨S16x1024x256, .f32⟩
  | .hbm, ⟨70, _⟩ => ⟨S_, .f32⟩
  | .hbm, ⟨71, _⟩ => ⟨S1024, .f32⟩
  | .hbm, ⟨72, _⟩ => ⟨S1x1024x1, .f32⟩
  | .hbm, ⟨73, _⟩ => ⟨S_, .f32⟩
  | .hbm, ⟨74, _⟩ => ⟨S1x1024x1, .f32⟩
  | .hbm, ⟨75, _⟩ => ⟨S1x1024x1, .f32⟩
  | .hbm, ⟨76, _⟩ => ⟨S_, .i32⟩
  | .hbm, ⟨77, _⟩ => ⟨S_, .f32⟩
  | .hbm, ⟨78, _⟩ => ⟨S1024, .f32⟩
  | .hbm, ⟨79, _⟩ => ⟨S1x1024x1, .f32⟩
  | .hbm, ⟨80, _⟩ => ⟨S_, .f32⟩
  | .hbm, ⟨81, _⟩ => ⟨S1x1024x1, .f32⟩
  | .hbm, ⟨82, _⟩ => ⟨S1x1024x1, .f32⟩
  | .hbm, ⟨83, _⟩ => ⟨S16x1024x256, .f32⟩
  | .hbm, ⟨84, _⟩ => ⟨S16x1024x256, .f32⟩
  | .hbm, ⟨85, _⟩ => ⟨S16x1024x256, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1024, .f32⟩
  | .hbm, ⟨91, _⟩ => ⟨S1x1024x1, .f32⟩
  | .hbm, ⟨92, _⟩ => ⟨S1x1024x1, .f32⟩
  | .hbm, ⟨93, _⟩ => ⟨S1x1024x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S1x1024x1, .f32⟩
  | .hbm, ⟨99, _⟩ => ⟨S1x1024x1, .f32⟩
  | .hbm, ⟨100, _⟩ => ⟨S16x1024x256, .f32⟩
  | .hbm, ⟨101, _⟩ => ⟨S16x1024x256, .f32⟩
  | .hbm, ⟨102, _⟩ => ⟨S_, .f32⟩
  | .hbm, ⟨103, _⟩ => ⟨S1x1024x1, .f32⟩
  | .hbm, ⟨104, _⟩ => ⟨S1x1024x1, .f32⟩
  | .hbm, ⟨105, _⟩ => ⟨S1x1024x1, .f32⟩
  | .hbm, ⟨106, _⟩ => ⟨S16x1024x256, .f32⟩
  | .hbm, ⟨107, _⟩ => ⟨S16x1024x256, .f32⟩
  | .hbm, ⟨108, _⟩ => ⟨S1x1024x1, .f32⟩
  | .hbm, ⟨109, _⟩ => ⟨S16x1024x256, .f32⟩
  | .hbm, ⟨110, _⟩ => ⟨S16x1024x256, .f32⟩
  | .hbm, ⟨111, _⟩ => ⟨S1x1024x1, .f32⟩
  | .hbm, ⟨112, _⟩ => ⟨S16x1024x256, .f32⟩
  | .hbm, ⟨113, _⟩ => ⟨S16x1024x256, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_cst_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_cst_2 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_cst_3 : Ref sig .tc := ⟨.hbm, 42, rfl⟩
abbrev main_call1_v13 : Ref sig .tc := ⟨.hbm, 43, rfl⟩
abbrev main_call1_cst_4 : Ref sig .tc := ⟨.hbm, 44, rfl⟩
abbrev main_call1_call0_v0 : Ref sig .tc := ⟨.hbm, 45, rfl⟩
abbrev main_call1_call0_v1 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_cst_1 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_call2_cst : Ref sig .tc := ⟨.hbm, 67, rfl⟩
abbrev main_call2_v0 : Ref sig .tc := ⟨.hbm, 68, rfl⟩
abbrev main_v29 : Ref sig .tc := ⟨.hbm, 69, rfl⟩
abbrev main_cst_2 : Ref sig .tc := ⟨.hbm, 70, rfl⟩
abbrev main_v30 : Ref sig .tc := ⟨.hbm, 71, rfl⟩
abbrev main_v31 : Ref sig .tc := ⟨.hbm, 72, rfl⟩
abbrev main_cst_3 : Ref sig .tc := ⟨.hbm, 73, rfl⟩
abbrev main_v32 : Ref sig .tc := ⟨.hbm, 74, rfl⟩
abbrev main_v33 : Ref sig .tc := ⟨.hbm, 75, rfl⟩
abbrev main_c_4 : Ref sig .tc := ⟨.hbm, 76, rfl⟩
abbrev main_call3_cst : Ref sig .tc := ⟨.hbm, 77, rfl⟩
abbrev main_call3_v0 : Ref sig .tc := ⟨.hbm, 78, rfl⟩
abbrev main_call3_v1 : Ref sig .tc := ⟨.hbm, 79, rfl⟩
abbrev main_call3_cst_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_cst_1 : Ref sig .tc := ⟨.hbm, 87, rfl⟩
abbrev main_call3_v8 : Ref sig .tc := ⟨.hbm, 88, rfl⟩
abbrev main_call3_cst_2 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_cst_3 : Ref sig .tc := ⟨.hbm, 94, rfl⟩
abbrev main_call3_v13 : Ref sig .tc := ⟨.hbm, 95, rfl⟩
abbrev main_call3_cst_4 : Ref sig .tc := ⟨.hbm, 96, rfl⟩
abbrev main_call3_call0_v0 : Ref sig .tc := ⟨.hbm, 97, rfl⟩
abbrev main_call3_call0_v1 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_cst_5 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  bcast_S_S16x1024x256 : S_.BroadcastsInDim S16x1024x256 (![] : Fin 0 → Fin S16x1024x256.rank)
  reducesTo_S16x1024x256_S1024_d0_2 : S16x1024x256.ReducesTo [0, 2] S1024
  h_S_ : 0 < S_.numel
  bcast_S1024_S1x1024x1_1 : S1024.BroadcastsInDim S1x1024x1 (![1] : Fin 1 → Fin S1x1024x1.rank)
  bcast_S_S1x1024x1 : S_.BroadcastsInDim S1x1024x1 (![] : Fin 0 → Fin S1x1024x1.rank)
  bcast_S1x1024x1_S16x1024x256_0_1_2 : S1x1024x1.BroadcastsInDim S16x1024x256 (![0, 1, 2] : Fin 3 → Fin S16x1024x256.rank)
  dot_S16x1024x256_S256x256_S16x1024x256_2_0_01_1_n_n_wf : DotDims.WF S16x1024x256 S256x256 S16x1024x256 [2] [0] [0, 1] [1] [] []
  dot_S16x1024x1024_S16x1024x256_S16x1024x256_2_1_1_2_0_0_wf : DotDims.WF S16x1024x1024 S16x1024x256 S16x1024x256 [2] [1] [1] [2] [0] [0]

variable [Facts₀]

def dot_S16x1024x256_S256x256_S16x1024x256_2_0_01_1_n_n : DotDims S16x1024x256 S256x256 S16x1024x256 where
  lhsContracting := [2]
  rhsContracting := [0]
  lhsNonContracting := [0, 1]
  rhsNonContracting := [1]
  lhsBatch := []
  rhsBatch := []
  wf := dot_S16x1024x256_S256x256_S16x1024x256_2_0_01_1_n_n_wf
def dot_S16x1024x1024_S16x1024x256_S16x1024x256_2_1_1_2_0_0 : DotDims S16x1024x1024 S16x1024x256 S16x1024x256 where
  lhsContracting := [2]
  rhsContracting := [1]
  lhsNonContracting := [1]
  rhsNonContracting := [2]
  lhsBatch := [0]
  rhsBatch := [0]
  wf := dot_S16x1024x1024_S16x1024x256_S16x1024x256_2_1_1_2_0_0_wf

class Facts : Prop extends Facts₀ where

variable [Facts]
-- ==== Proof.BK0.lean ====
/- Region 0 of the kernel program (the first pallas_call): the frame half, at any float instance.
   Per grid point the body reads four batches of the x block and of the adjacency block, the whole
   weight matrix and the bias row, and fills each of its three output blocks by four slab stores,
   one per batch.  What each output buffer holds after the body is therefore the canonical reading
   of four pieces, each a pure function of the input blocks. -/
import proofs.«160428_g88656714924069_cont_sun_m_1396_13_alg».proof.Proof.Gen.Kernel.Launch
import proofs.«160428_g88656714924069_cont_sun_m_1396_13_alg».proof.Proof.Gen.Kernel.Skeleton
import proofs.«160428_g88656714924069_cont_sun_m_1396_13_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

-- batch `j` of the x block, and the slab of the first output it fills
abbrev r0_x0 : Rect S4x1024x256 := Rect.unit (s := S4x1024x256) ![0, 0, 0] S1x1024x256.size inb_S4x1024x256_S1x1024x256_0_0_0
abbrev r0_x1 : Rect S4x1024x256 := Rect.unit (s := S4x1024x256) ![1, 0, 0] S1x1024x256.size inb_S4x1024x256_S1x1024x256_1_0_0
abbrev r0_x2 : Rect S4x1024x256 := Rect.unit (s := S4x1024x256) ![2, 0, 0] S1x1024x256.size inb_S4x1024x256_S1x1024x256_2_0_0
abbrev r0_x3 : Rect S4x1024x256 := Rect.unit (s := S4x1024x256) ![3, 0, 0] S1x1024x256.size inb_S4x1024x256_S1x1024x256_3_0_0
-- batch `j` of the adjacency block
abbrev r0_a0 : Rect S4x1024x1024 := Rect.unit (s := S4x1024x1024) ![0, 0, 0] S1x1024x1024.size inb_S4x1024x1024_S1x1024x1024_0_0_0
abbrev r0_a1 : Rect S4x1024x1024 := Rect.unit (s := S4x1024x1024) ![1, 0, 0] S1x1024x1024.size inb_S4x1024x1024_S1x1024x1024_1_0_0
abbrev r0_a2 : Rect S4x1024x1024 := Rect.unit (s := S4x1024x1024) ![2, 0, 0] S1x1024x1024.size inb_S4x1024x1024_S1x1024x1024_2_0_0
abbrev r0_a3 : Rect S4x1024x1024 := Rect.unit (s := S4x1024x1024) ![3, 0, 0] S1x1024x1024.size inb_S4x1024x1024_S1x1024x1024_3_0_0
-- the whole weight matrix and the whole bias row
abbrev r0_w : Rect S256x256 := Rect.unit (s := S256x256) ![0, 0] S256x256.size inb_S256x256_S256x256_0_0
abbrev r0_b : Rect S1x256 := Rect.unit (s := S1x256) ![0, 0] S1x256.size inb_S1x256_S1x256_0_0
-- batch `j`'s slab of a column output
abbrev r0_s0 : Rect S4x1024x1 := Rect.unit (s := S4x1024x1) ![0, 0, 0] S1x1024x1.size inb_S4x1024x1_S1x1024x1_0_0_0
abbrev r0_s1 : Rect S4x1024x1 := Rect.unit (s := S4x1024x1) ![1, 0, 0] S1x1024x1.size inb_S4x1024x1_S1x1024x1_1_0_0
abbrev r0_s2 : Rect S4x1024x1 := Rect.unit (s := S4x1024x1) ![2, 0, 0] S1x1024x1.size inb_S4x1024x1_S1x1024x1_2_0_0
abbrev r0_s3 : Rect S4x1024x1 := Rect.unit (s := S4x1024x1) ![3, 0, 0] S1x1024x1.size inb_S4x1024x1_S1x1024x1_3_0_0

/-! ## What the body leaves in each output window's buffer -/

/-- The first output's buffer after the body (the layer's values, rounded to the narrow format):
    its four slab stores as pieces, last first. -/
def out0_4 (x0 : Vec F S4x1024x256 .f32) (x1 : Vec F S4x1024x1024 .f32) (x2 : Vec F S256x256 .f32) (x3 : Vec F S1x256 .f32) : Vec F S4x1024x256 .bf16 :=
  View.canon [⟨r0_x3, k0_pay2 (k0_pay18 (View.ld x0 r0_x3) (View.ld x2 r0_w)) (View.ld x1 r0_a3) (View.ld x3 r0_b)⟩,
    ⟨r0_x2, k0_pay15 (k0_pay13 (View.ld x0 r0_x2)) (View.ld x2 r0_w) (constant S1024x256 .f32 0x00000000#32) (View.ld x1 r0_a2) (View.ld x3 r0_b)⟩,
    ⟨r0_x1, k0_pay10 (View.ld x0 r0_x1) (View.ld x2 r0_w) (View.ld x1 r0_a1) (View.ld x3 r0_b)⟩,
    ⟨r0_x0, k0_pay6 (View.ld x0 r0_x0) (View.ld x2 r0_w) (View.ld x1 r0_a0) (View.ld x3 r0_b)⟩]

/-- The second output's buffer after the body (each row's sum over the channels). -/
def out0_5 (x0 : Vec F S4x1024x256 .f32) (x1 : Vec F S4x1024x1024 .f32) (x2 : Vec F S256x256 .f32) (x3 : Vec F S1x256 .f32) : Vec F S4x1024x1 .f32 :=
  View.canon [⟨r0_s3, k0_pay3 (k0_pay18 (View.ld x0 r0_x3) (View.ld x2 r0_w)) (View.ld x1 r0_a3) (View.ld x3 r0_b)⟩,
    ⟨r0_s2, k0_pay16 (k0_pay13 (View.ld x0 r0_x2)) (View.ld x2 r0_w) (constant S1024x256 .f32 0x00000000#32) (View.ld x1 r0_a2) (View.ld x3 r0_b)⟩,
    ⟨r0_s1, k0_pay11 (View.ld x0 r0_x1) (View.ld x2 r0_w) (View.ld x1 r0_a1) (View.ld x3 r0_b)⟩,
    ⟨r0_s0, k0_pay7 (View.ld x0 r0_x0) (View.ld x2 r0_w) (View.ld x1 r0_a0) (View.ld x3 r0_b)⟩]

/-- The third output's buffer after the body (each row's sum of squares over the channels). -/
def out0_6 (x0 : Vec F S4x1024x256 .f32) (x1 : Vec F S4x1024x1024 .f32) (x2 : Vec F S256x256 .f32) (x3 : Vec F S1x256 .f32) : Vec F S4x1024x1 .f32 :=
  View.canon [⟨r0_s3, k0_pay4 (k0_pay18 (View.ld x0 r0_x3) (View.ld x2 r0_w)) (View.ld x1 r0_a3) (View.ld x3 r0_b)⟩,
    ⟨r0_s2, k0_pay17 (k0_pay13 (View.ld x0 r0_x2)) (View.ld x2 r0_w) (constant S1024x256 .f32 0x00000000#32) (View.ld x1 r0_a2) (View.ld x3 r0_b)⟩,
    ⟨r0_s1, k0_pay12 (View.ld x0 r0_x1) (View.ld x2 r0_w) (View.ld x1 r0_a1) (View.ld x3 r0_b)⟩,
    ⟨r0_s0, k0_pay8 (View.ld x0 r0_x0) (View.ld x2 r0_w) (View.ld x1 r0_a0) (View.ld x3 r0_b)⟩]

/-- The four slabs tile the first output's buffer, so they cover it. -/
theorem cover0_4 (p0 p1 p2 p3 : Vec F S1x1024x256 .bf16) (y : S4x1024x256.Idx) :
    ∃ pc ∈ ([⟨r0_x3, p0⟩, ⟨r0_x2, p1⟩, ⟨r0_x1, p2⟩, ⟨r0_x0, p3⟩] : List (View.Piece (Elt F) S4x1024x256 .bf16)), y ∈ pc.1.set :=
  View.cover_of_tiled [⟨r0_x3, p0⟩, ⟨r0_x2, p1⟩, ⟨r0_x1, p2⟩, ⟨r0_x0, p3⟩] S1x1024x256.size (by rfl) y

/-- The four slabs tile a column output's buffer, so they cover it. -/
theorem cover0_5 (p0 p1 p2 p3 : Vec F S1x1024x1 .f32) (y : S4x1024x1.Idx) :
    ∃ pc ∈ ([⟨r0_s3, p0⟩, ⟨r0_s2, p1⟩, ⟨r0_s1, p2⟩, ⟨r0_s0, p3⟩] : List (View.Piece (Elt F) S4x1024x1 .f32)), y ∈ pc.1.set :=
  View.cover_of_tiled [⟨r0_s3, p0⟩, ⟨r0_s2, p1⟩, ⟨r0_s1, p2⟩, ⟨r0_s0, p3⟩] S1x1024x1.size (by rfl) y

/-- The third output's slabs are the second's rectangles. -/
theorem cover0_6 (p0 p1 p2 p3 : Vec F S1x1024x1 .f32) (y : S4x1024x1.Idx) :
    ∃ pc ∈ ([⟨r0_s3, p0⟩, ⟨r0_s2, p1⟩, ⟨r0_s1, p2⟩, ⟨r0_s0, p3⟩] : List (View.Piece (Elt F) S4x1024x1 .f32)), y ∈ pc.1.set :=
  cover0_5 p0 p1 p2 p3 y

/-! ## The body's triple -/

set_option maxHeartbeats 4000000 in
/-- The kernel body on whole staging memrefs, the inputs' at read contents and the outputs' at anything, runs to
    the continuation holding the inputs' as they were and each output's at its four pieces over the inputs'. -/
theorem sound_kernel0 (c : Dev nD) (E : Set ℕ) (i : grid0.Coords) (arg1 : Memref sig .tc .vmem S4x1024x256 .f32) (harg1 : arg1.IsWhole) (arg2 : Memref sig .tc .vmem S4x1024x1024 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S4x1024x256 .bf16) (harg5 : arg5.IsWhole) (arg6 : Memref sig .tc .vmem S4x1024x1 .f32) (harg6 : arg6.IsWhole) (arg7 : Memref sig .tc .vmem S4x1024x1 .f32) (harg7 : arg7.IsWhole)
    (x0 : Vec F S4x1024x256 .f32) (x1 : Vec F S4x1024x1024 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0__k1 i arg1 harg1 arg2 harg2 arg3 harg3 arg4 harg4 arg5 harg5 arg6 harg6 arg7 harg7) K := by
  simp only [cc0__k1_eq_skeleton]; unfold cc0__k1_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_4 _ _ _ _)
  isplitl [H5]
  · iexists _; isplitr
    swap; · iexact H5
    ipureintro
    try dsimp only
    exact View.read_writes_eq_canon _ _ _ (cover0_5 _ _ _ _)
  iexists _; isplitr
  swap; · iexact H6
  ipureintro
  try dsimp only
  exact View.read_writes_eq_canon _ _ _ (cover0_6 _ _ _ _)

/-! ## The pipeline's proof data -/

/-- The proof data of the first pipeline on core `c`: the arrays as the region finds them; after the body at
    point `t` each input's buffer at its block and each output's at its four pieces over the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H
-- ==== Proof.BK1Defs.lean ====
/-
  The second layer's kernel, as the pipeline runs it at one grid point: what its loads read, what its stores
  leave, and the run of its body in each of its two control cases.

  At the first point the body first reduces the layer-1 partial sums over the batch axis and folds the scale and
  shift of the batch normalisation into two per-node vectors it keeps in scratch memory; at every point it then
  reads those two vectors, normalises two batches of the first layer's activations, multiplies by the weights and the
  adjacency, adds the bias, clamps at zero, and stores the result with its per-node channel sums and sums of squares.
  The scratch vectors depend only on the whole-array windows, so they are the same at every later point.
-/
import proofs.«160428_g88656714924069_cont_sun_m_1396_13_alg».proof.Proof.Gen.Kernel.Launch
import proofs.«160428_g88656714924069_cont_sun_m_1396_13_alg».proof.Proof.Gen.Kernel.Skeleton
import proofs.«160428_g88656714924069_cont_sun_m_1396_13_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: unfetched, the
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Batch 0 and batch 1 of the two activation blocks, of the adjacency block and of the two statistics blocks. -/
abbrev rY_0 : Rect S2x1024x256 := Rect.unit (s := S2x1024x256) ![0, 0, 0] S1x1024x256.size inb_S2x1024x256_S1x1024x256_0_0_0
abbrev rY_1 : Rect S2x1024x256 := Rect.unit (s := S2x1024x256) ![1, 0, 0] S1x1024x256.size inb_S2x1024x256_S1x1024x256_1_0_0
abbrev rA_0 : Rect S2x1024x1024 := Rect.unit (s := S2x1024x1024) ![0, 0, 0] S1x1024x1024.size inb_S2x1024x1024_S1x1024x1024_0_0_0
abbrev rA_1 : Rect S2x1024x1024 := Rect.unit (s := S2x1024x1024) ![1, 0, 0] S1x1024x1024.size inb_S2x1024x1024_S1x1024x1024_1_0_0
abbrev rS_0 : Rect S2x1024x1 := Rect.unit (s := S2x1024x1) ![0, 0, 0] S1x1024x1.size inb_S2x1024x1_S1x1024x1_0_0_0
abbrev rS_1 : Rect S2x1024x1 := Rect.unit (s := S2x1024x1) ![1, 0, 0] S1x1024x1.size inb_S2x1024x1_S1x1024x1_1_0_0
/-- The whole of the weights, of the bias, of the layer-1 statistics and of a per-node vector. -/
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rP : Rect S16x1024x1 := Rect.unit (s := S16x1024x1) ![0, 0, 0] S16x1024x1.size inb_S16x1024x1_S16x1024x1_0_0_0
abbrev rN1 : Rect S1024x1 := Rect.unit (s := S1024x1) ![0, 0] S1024x1.size inb_S1024x1_S1024x1_0_0

/-! ## What the body keeps in scratch, and what it leaves in each output window's buffer -/

/-- The per-node scale the first point stores in scratch: γ · rsqrt(var + ε), from the layer-1 sums, sums of squares and γ. -/
def scrA (x4 x5 : Vec F S16x1024x1 .f32) (x6 : Vec F S1024x1 .f32) : Vec F S1024x1 .f32 :=
  k1_pay5 (View.ld x4 rP) (View.ld x5 rP) (View.ld x6 rN1)

/-- The per-node shift the first point stores in scratch: β − mean · scale. -/
def scrC (x4 x5 : Vec F S16x1024x1 .f32) (x6 x7 : Vec F S1024x1 .f32) : Vec F S1024x1 .f32 :=
  k1_pay6 (View.ld x4 rP) (View.ld x5 rP) (View.ld x6 rN1) (View.ld x7 rN1)

/-- The clamped layer-2 activation of batch 0 of the block, before rounding, from the blocks and the two scratch vectors. -/
def act_0 (x0 : Vec F S2x1024x256 .bf16) (x1 : Vec F S2x1024x1024 .f32) (x2 : Vec F S256x256 .f32) (x3 : Vec F S1x256 .f32)
    (sa sc : Vec F S1024x1 .f32) : FVec F S1024x256 .f32 :=
  k1_pay7 (View.ld x0 rY_0) sa sc (View.ld x2 rW) (View.ld x1 rA_0) (View.ld x3 rB)
/-- The same of batch 1. -/
def act_1 (x0 : Vec F S2x1024x256 .bf16) (x1 : Vec F S2x1024x1024 .f32) (x2 : Vec F S256x256 .f32) (x3 : Vec F S1x256 .f32)
    (sa sc : Vec F S1024x1 .f32) : FVec F S1024x256 .f32 :=
  k1_pay12 (View.ld x0 rY_1) sa sc (View.ld x2 rW) (View.ld x1 rA_1) (View.ld x3 rB)

/-- The activation window's buffer after the body: its two stores as pieces, last first. -/
def out1_8 (x0 : Vec F S2x1024x256 .bf16) (x1 : Vec F S2x1024x1024 .f32) (x2 : Vec F S256x256 .f32) (x3 : Vec F S1x256 .f32)
    (sa sc : Vec F S1024x1 .f32) : Vec F S2x1024x256 .bf16 :=
  View.canon [⟨rY_1, k1_pay13 (View.ld x0 rY_1) sa sc (View.ld x2 rW) (View.ld x1 rA_1) (View.ld x3 rB)⟩,
    ⟨rY_0, k1_pay8 (View.ld x0 rY_0) sa sc (View.ld x2 rW) (View.ld x1 rA_0) (View.ld x3 rB)⟩]

/-- The channel-sum window's buffer after the body. -/
def out1_9 (x0 : Vec F S2x1024x256 .bf16) (x1 : Vec F S2x1024x1024 .f32) (x2 : Vec F S256x256 .f32) (x3 : Vec F S1x256 .f32)
    (sa sc : Vec F S1024x1 .f32) : Vec F S2x1024x1 .f32 :=
  View.canon [⟨rS_1, k1_pay1 (k1_pay14 (View.ld x0 rY_1) sa sc (View.ld x2 rW) (View.ld x1 rA_1) (View.ld x3 rB))⟩,
    ⟨rS_0, k1_pay10 (k1_pay9 (View.ld x0 rY_0) sa sc (View.ld x2 rW) (View.ld x1 rA_0) (View.ld x3 rB))⟩]

/-- The channel-sum-of-squares window's buffer after the body. -/
def out1_10 (x0 : Vec F S2x1024x256 .bf16) (x1 : Vec F S2x1024x1024 .f32) (x2 : Vec F S256x256 .f32) (x3 : Vec F S1x256 .f32)
    (sa sc : Vec F S1024x1 .f32) : Vec F S2x1024x1 .f32 :=
  View.canon [⟨rS_1, k1_pay2 (k1_pay12 (View.ld x0 rY_1) sa sc (View.ld x2 rW) (View.ld x1 rA_1) (View.ld x3 rB))⟩,
    ⟨rS_0, k1_pay11 (k1_pay7 (View.ld x0 rY_0) sa sc (View.ld x2 rW) (View.ld x1 rA_0) (View.ld x3 rB))⟩]

/-- The two batch stores tile each output buffer (checked by evaluation), so they cover it. -/
theorem cover1_8 (p1 p0 : Vec F S1x1024x256 .bf16) (y : S2x1024x256.Idx) :
    ∃ pc ∈ ([⟨rY_1, p1⟩, ⟨rY_0, p0⟩] : List (View.Piece (Elt F) S2x1024x256 .bf16)), y ∈ pc.1.set :=
  View.cover_of_tiled [⟨rY_1, p1⟩, ⟨rY_0, p0⟩] S1x1024x256.size (by rfl) y

theorem cover1_9 (p1 p0 : Vec F S1x1024x1 .f32) (y : S2x1024x1.Idx) :
    ∃ pc ∈ ([⟨rS_1, p1⟩, ⟨rS_0, p0⟩] : List (View.Piece (Elt F) S2x1024x1 .f32)), y ∈ pc.1.set :=
  View.cover_of_tiled [⟨rS_1, p1⟩, ⟨rS_0, p0⟩] S1x1024x1.size (by rfl) y

/-! ## The body's branch condition -/

/-- The condition of the body's one conditional, from the grid coordinates: the point is the first. -/
abbrev cond1_0 (i : grid1.Coords) : Prop :=
  (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

end Cert.Kernel.H

end
-- ==== Proof.BK1RunA.lean ====
/-
  The body of the second layer's kernel at the first point: the layer-1 sums are reduced over the batch axis, the
  per-node scale and shift are stored in scratch, read back, and the two batches are normalised, multiplied, clamped
  and stored.
-/
import proofs.«160428_g88656714924069_cont_sun_m_1396_13_alg».proof.Proof.BK1Defs

set_option maxRecDepth 16384
set_option pp.maxSteps 5000
set_option pp.deepTerms false
noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1a : (![0, 0] : Fin 2 → Nat) = fun _ => 0 := funext fun a => by fin_cases a <;> rfl

set_option maxHeartbeats 4000000 in
/-- The body at the first point, on whole staging memrefs: the inputs at their blocks, the outputs and the scratch at
    anything. It runs to the continuation holding the inputs as they were, the scratch at the scale and the shift
    computed from the whole-array windows, and each output at the canon of its two batch stores over those. -/
theorem sound_kernel1_first (c : Dev nD) (E : Set ℕ) (i : grid1.Coords) (arg1 : Memref sig .tc .vmem S2x1024x256 .bf16) (harg1 : arg1.IsWhole) (arg2 : Memref sig .tc .vmem S2x1024x1024 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S16x1024x1 .f32) (harg5 : arg5.IsWhole) (arg6 : Memref sig .tc .vmem S16x1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S2x1024x256 .bf16) (harg9 : arg9.IsWhole) (arg10 : Memref sig .tc .vmem S2x1024x1 .f32) (harg10 : arg10.IsWhole) (arg11 : Memref sig .tc .vmem S2x1024x1 .f32) (harg11 : arg11.IsWhole) (arg12 : Memref sig .tc .vmem S1024x1 .f32) (harg12 : arg12.IsWhole) (arg13 : Memref sig .tc .vmem S1024x1 .f32) (harg13 : arg13.IsWhole)
    (hc : cond1_0 i) (x0 : Vec F S2x1024x256 .bf16) (x1 : Vec F S2x1024x1024 .f32) (x2 : Vec F S256x256 .f32) (x3 : Vec F S1x256 .f32)
    (x4 x5 : Vec F S16x1024x1 .f32) (x6 x7 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 (scrA x4 x5 x6) (scrC x4 x5 x6 x7))
            ∗ owns (c : Thread nD τ) arg10 fullShare (out1_9 x0 x1 x2 x3 (scrA x4 x5 x6) (scrC x4 x5 x6 x7))
            ∗ owns (c : Thread nD τ) arg11 fullShare (out1_10 x0 x1 x2 x3 (scrA x4 x5 x6) (scrC x4 x5 x6 x7))
            ∗ owns (c : Thread nD τ) arg12 fullShare (scrA x4 x5 x6) ∗ owns (c : Thread nD τ) arg13 fullShare (scrC x4 x5 x6 x7)) -∗ K ⟨⟩))
      ⊢ wp frame (wpE (defs₀ (F := F)) Variants.none c none) E (cc1__k2 i arg1 harg1 arg2 harg2 arg3 harg3 arg4 harg4 arg5 harg5 arg6 harg6 arg7 harg7 arg8 harg8 arg9 harg9 arg10 harg10 arg11 harg11 arg12 harg12 arg13 harg13) K := by
  simp only [cc1__k2_eq_skeleton]; unfold cc1__k2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%da, %fa, -, HA⟩, ⟨%dc, %fc, -, HC⟩, Hk⟩
  subst hf0 hf1 hf2 hf3 hf4 hf5 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover1_8 _ _)).trans ?_
    unfold out1_8 scrA scrC
    sl_unfold_run_names
    first | rw [View.readCov_unit_zero (S := S1024x1) _ hz2_1a, View.readCov_unit_zero (S := S1024x1) _ hz2_1a] | fail "o8-rw"
    first | rfl | (simp only [View.readAt_eq_ld]; done) | fail "o8-close"
  isplitl [H9]
  · iexists _; isplitr
    swap; · iexact H9
    ipureintro
    refine (View.read_writes_eq_canon _ _ _ (cover1_9 _ _)).trans ?_
    unfold out1_9 scrA scrC
    sl_unfold_run_names
    first | rw [View.readCov_unit_zero (S := S1024x1) _ hz2_1a, View.readCov_unit_zero (S := S1024x1) _ hz2_1a] | fail "o9-rw"
    first | rfl | (simp only [View.readAt_eq_ld]; done) | fail "o9-close"
  isplitl [H10]
  · iexists _; isplitr
    swap; · iexact H10
    ipureintro
    refine (View.read_writes_eq_canon _ _ _ (cover1_9 _ _)).trans ?_
    unfold out1_10 scrA scrC
    sl_unfold_run_names
    first | rw [View.readCov_unit_zero (S := S1024x1) _ hz2_1a, View.readCov_unit_zero (S := S1024x1) _ hz2_1a] | fail "o10-rw"
    first | rfl | (simp only [View.readAt_eq_ld]; done) | fail "o10-close"
  isplitl [HA]
  · iexists _; isplitr
    swap; · iexact HA
    ipureintro
    sl_unfold_run_names
    refine (View.read_writes_eq_canon _ _ _ (fun y => ⟨_, List.mem_singleton_self _, View.mem_set_unit_zero hz2_1a inb_S1024x1_S1024x1_0_0 y⟩)).trans ?_
    first | rw [View.canon_unit_zero hz2_1a] | fail "sA-rw"
    unfold scrA
    first | rfl | (simp only [View.readAt_eq_ld]; done) | fail "sA-close"
  · iexists _; isplitr
    swap; · iexact HC
    ipureintro
    sl_unfold_run_names
    refine (View.read_writes_eq_canon _ _ _ (fun y => ⟨_, List.mem_singleton_self _, View.mem_set_unit_zero hz2_1a inb_S1024x1_S1024x1_0_0 y⟩)).trans ?_
    first | rw [View.canon_unit_zero hz2_1a] | fail "sC-rw"
    unfold scrC
    first | rfl | (simp only [View.readAt_eq_ld]; done) | fail "sC-close"

end Cert.Kernel.H

end
-- ==== Proof.BK1RunB.lean ====
/-
  The body of the second layer's kernel at a point after the first: the two scratch vectors are read as the
  first point left them, and the two batches are normalised, multiplied, clamped and stored.
-/
import proofs.«160428_g88656714924069_cont_sun_m_1396_13_alg».proof.Proof.BK1Defs

set_option maxRecDepth 16384
set_option pp.maxSteps 5000
set_option pp.deepTerms false
noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1b : (![0, 0] : Fin 2 → Nat) = fun _ => 0 := funext fun a => by fin_cases a <;> rfl

set_option maxHeartbeats 4000000 in
/-- The body at a point that is not the first, on whole staging memrefs: the inputs at their blocks, the outputs at
    anything, the scratch at `sa`, `sc`. It runs to the continuation holding the inputs and the scratch as they
    were and each output at the canon of its two batch stores. -/
theorem sound_kernel1_rest (c : Dev nD) (E : Set ℕ) (i : grid1.Coords) (arg1 : Memref sig .tc .vmem S2x1024x256 .bf16) (harg1 : arg1.IsWhole) (arg2 : Memref sig .tc .vmem S2x1024x1024 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S16x1024x1 .f32) (harg5 : arg5.IsWhole) (arg6 : Memref sig .tc .vmem S16x1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S2x1024x256 .bf16) (harg9 : arg9.IsWhole) (arg10 : Memref sig .tc .vmem S2x1024x1 .f32) (harg10 : arg10.IsWhole) (arg11 : Memref sig .tc .vmem S2x1024x1 .f32) (harg11 : arg11.IsWhole) (arg12 : Memref sig .tc .vmem S1024x1 .f32) (harg12 : arg12.IsWhole) (arg13 : Memref sig .tc .vmem S1024x1 .f32) (harg13 : arg13.IsWhole)
    (hc : ¬ cond1_0 i) (x0 : Vec F S2x1024x256 .bf16) (x1 : Vec F S2x1024x1024 .f32) (x2 : Vec F S256x256 .f32) (x3 : Vec F S1x256 .f32)
    (x4 x5 : Vec F S16x1024x1 .f32) (x6 x7 : Vec F S1024x1 .f32) (sa sc : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare sa ∗ owns (c : Thread nD τ) arg13 fullShare sc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 sa sc)
            ∗ owns (c : Thread nD τ) arg10 fullShare (out1_9 x0 x1 x2 x3 sa sc)
            ∗ owns (c : Thread nD τ) arg11 fullShare (out1_10 x0 x1 x2 x3 sa sc)
            ∗ owns (c : Thread nD τ) arg12 fullShare sa ∗ owns (c : Thread nD τ) arg13 fullShare sc) -∗ K ⟨⟩))
      ⊢ wp frame (wpE (defs₀ (F := F)) Variants.none c none) E (cc1__k2 i arg1 harg1 arg2 harg2 arg3 harg3 arg4 harg4 arg5 harg5 arg6 harg6 arg7 harg7 arg8 harg8 arg9 harg9 arg10 harg10 arg11 harg11 arg12 harg12 arg13 harg13) K := by
  simp only [cc1__k2_eq_skeleton]; unfold cc1__k2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fa, %hfa, HA⟩, ⟨%fc, %hfc, HC⟩, Hk⟩
  subst hf0 hf1 hf2 hf3 hf4 hf5 hf6 hf7 hfa hfc
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover1_8 _ _)).trans ?_
    unfold out1_8
    first | (simp only [View.readAt_eq_ld, View.ld_unit_zero (S := S1024x1) hz2_1b]; done) | (simp only [View.readAt_eq_ld, View.ld_unit_zero (S := S1024x1) hz2_1b]; rfl) | fail "out8"
  isplitl [H9]
  · iexists _; isplitr
    swap; · iexact H9
    ipureintro
    refine (View.read_writes_eq_canon _ _ _ (cover1_9 _ _)).trans ?_
    unfold out1_9
    sl_unfold_run_names
    first | (simp only [View.readAt_eq_ld, View.ld_unit_zero (S := S1024x1) hz2_1b]; done) | (simp only [View.readAt_eq_ld, View.ld_unit_zero (S := S1024x1) hz2_1b]; rfl) | fail "out9"
  isplitl [H10]
  · iexists _; isplitr
    swap; · iexact H10
    ipureintro
    refine (View.read_writes_eq_canon _ _ _ (cover1_9 _ _)).trans ?_
    unfold out1_10
    sl_unfold_run_names
    first | (simp only [View.readAt_eq_ld, View.ld_unit_zero (S := S1024x1) hz2_1b]; done) | (simp only [View.readAt_eq_ld, View.ld_unit_zero (S := S1024x1) hz2_1b]; rfl) | fail "out10"
  isplitl [HA]
  · iexists fa; isplitr; · ipureintro; rfl
    iexact HA
  iexists fc; isplitr; · ipureintro; rfl
  iexact HC

end Cert.Kernel.H

end
-- ==== Proof.BK1.lean ====
/-
  The second layer's region: what every window's buffer holds after the body at each grid point, the invariant
  that carries the two scratch vectors from the first point to the later ones, and the body's obligation at
  every point.

  The scratch vectors (the per-node scale and shift of the first batch normalisation) are computed at the first
  point from the whole-array windows alone, so they are one pair of vectors for the whole region. Before the
  first point nothing is known of the scratch; after any point it holds that pair.
-/
import proofs.«160428_g88656714924069_cont_sun_m_1396_13_alg».proof.Proof.BK1RunA
import proofs.«160428_g88656714924069_cont_sun_m_1396_13_alg».proof.Proof.BK1RunB

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch vectors -/

/-- The per-node scale kept in scratch after the first point, from the whole-array windows' blocks there. -/
def scrA1 (c : Dev nD) : Vec F S1024x1 .f32 := scrA (iblk1 V c 4 t1_0) (iblk1 V c 5 t1_0) (iblk1 V c 6 t1_0)
/-- The per-node shift kept in scratch after the first point. -/
def scrC1 (c : Dev nD) : Vec F S1024x1 .f32 := scrC (iblk1 V c 4 t1_0) (iblk1 V c 5 t1_0) (iblk1 V c 6 t1_0) (iblk1 V c 7 t1_0)

/-- The two scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1

/-- The core's scoped buffers that are neither a staging buffer of this region nor its two scratch operands. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The scoped rest split at the two scratch operands, each owned whole at some contents. -/
theorem scopedRest1_owns (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d)) ∗ restBut1 c) := by
  rw [show (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1])
    from Pipeline.scopedRest_split_of_list spec1 c [cc1_scratch0, cc1_scratch1] (by decide) (by decide)]
  simp only [scM1_0, scM1_1, owns_whole]; try rfl

/-- The invariant a region is entered with — the scoped rest and the generator register — with the two scratch
    operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 c) ∗ (∃ r, prngReg c r)) := by
  unfold Pipeline.ΦA; rw [scopedRest1_owns]

/-- The region's invariant before position `n`: before the first point the entry invariant (every scratch at anything);
    afterwards the two scratch operands at the scale and the shift, the other scoped buffers at anything, and the
    generator register at some state. -/
def PhiS1 (c : Dev nD) : ℕ → sProp 𝕄
  | 0 => Pipeline.ΦA spec1 c
  | _ + 1 => iprop(iprop(iprop(owns (c : Thread nD τ) scM1_0 fullShare (scrA1 V c) ∗ owns (c : Thread nD τ) scM1_1 fullShare (scrC1 V c)) ∗ restBut1 c) ∗ (∃ r, prngReg c r))

theorem PhiS1_zero (c : Dev nD) (n : ℕ) (hz : n = 0) : PhiS1 V c n = Pipeline.ΦA spec1 c := by
  subst hz; rfl

theorem PhiS1_succ (c : Dev nD) (n : ℕ) :
    PhiS1 V c (n + 1) = iprop(iprop(iprop(owns (c : Thread nD τ) scM1_0 fullShare (scrA1 V c) ∗ owns (c : Thread nD τ) scM1_1 fullShare (scrC1 V c)) ∗ restBut1 c) ∗ (∃ r, prngReg c r)) := rfl

theorem PhiS1_pos (c : Dev nD) (n : ℕ) (hz : n ≠ 0) :
    PhiS1 V c n = iprop(iprop(iprop(owns (c : Thread nD τ) scM1_0 fullShare (scrA1 V c) ∗ owns (c : Thread nD τ) scM1_1 fullShare (scrC1 V c)) ∗ restBut1 c) ∗ (∃ r, prngReg c r)) := by
  cases n with
  | zero => exact absurd rfl hz
  | succ n => rfl

/-! ## The pipeline's proof data -/

/-- The proof data of the region on core `c`: the arrays as the region finds them; after the body at point `t` each
    input's buffer at its block and each output's at the canon of its two batch stores over the input blocks and the
    two scratch vectors; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (scrA1 V c) (scrC1 V c)
    | ⟨9, _⟩ => out1_9 (iblk1 V c 0 t) (iblk1 V c 1 t) (iblk1 V c 2 t) (iblk1 V c 3 t) (scrA1 V c) (scrC1 V c)
    | ⟨10, _⟩ => out1_10 (iblk1 V c 0 t) (iblk1 V c 1 t) (iblk1 V c 2 t) (iblk1 V c 3 t) (scrA1 V c) (scrC1 V c)
  Φ k := PhiS1 V c k.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (scrA1 V c) (scrC1 V c) := by dsimp only [dat1]
theorem after1_9 (c : Dev nD) (t : Fin cfg1.N) : (dat1 V c).after 9 t = out1_9 (iblk1 V c 0 t) (iblk1 V c 1 t) (iblk1 V c 2 t) (iblk1 V c 3 t) (scrA1 V c) (scrC1 V c) := by dsimp only [dat1]
theorem after1_10 (c : Dev nD) (t : Fin cfg1.N) : (dat1 V c).after 10 t = out1_10 (iblk1 V c 0 t) (iblk1 V c 1 t) (iblk1 V c 2 t) (iblk1 V c 3 t) (scrA1 V c) (scrC1 V c) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- The invariant at a point's start and end, restated at the point's position. -/
theorem Phi1_castSucc (c : Dev nD) (t : Fin cfg1.N) : (dat1 V c).Φ t.castSucc = PhiS1 V c t.val := rfl
theorem Phi1_succ (c : Dev nD) (t : Fin cfg1.N) : (dat1 V c).Φ t.succ = PhiS1 V c (t.val + 1) := rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any point: the inputs' memrefs hold their blocks; the closed form of the condition says whether the
    point is the first; at the first point the invariant hands the scratch at anything and takes it back at the
    scale and the shift, at a later point it hands them and takes them back unchanged; the other scoped buffers, the
    generator register and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10]
  rw [Phi1_succ, Phi1_castSucc, PhiS1_succ]
  have hN : t.val < 8 := lt_of_lt_of_eq t.isLt (show cfg1.N = 8 from N_1)
  by_cases h0 : t.val % 8 = 0
  · have ht : t = t1_0 := Fin.ext (by show t.val = 0; omega)
    rw [PhiS1_zero V c _ (by omega), PhiA1_eq]
    unfold scrA1 scrC1
    rw [← ht]
    iintro ⟨⟨⟨⟨⟨%da, HA⟩, ⟨%dc, HC⟩⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_first c Set.univ (grid1.coords t) _ _ _ _ _ _ _ _ _ _ _ _ _ _ _ _ _ _ _ _ _ _ _ _ _ _ ((hcond1_0 t).mpr h0)
      (iblk1 V c 0 t) (iblk1 V c 1 t) (iblk1 V c 2 t) (iblk1 V c 3 t) (iblk1 V c 4 t) (iblk1 V c 5 t) (iblk1 V c 6 t) (iblk1 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HA]; · iexists _; iexact HA
    isplitl [HC]; · iexists _; iexact HC
    iintro ⟨H0, H1, H2, H3, H4, H5, H6, H7, H8, H9, H10, HA, HC⟩
    isplitl [HA HC Hbut Hg]
    · isplitl [HA HC Hbut]
      · isplitl [HA HC]
        · isplitl [HA]; · iexact HA
          iexact HC
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiS1_pos V c _ (by omega)]
    iintro ⟨⟨⟨⟨HA, HC⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_rest c Set.univ (grid1.coords t) _ _ _ _ _ _ _ _ _ _ _ _ _ _ _ _ _ _ _ _ _ _ _ _ _ _ (fun h => h0 ((hcond1_0 t).mp h))
      (iblk1 V c 0 t) (iblk1 V c 1 t) (iblk1 V c 2 t) (iblk1 V c 3 t) (iblk1 V c 4 t) (iblk1 V c 5 t) (iblk1 V c 6 t) (iblk1 V c 7 t) (scrA1 V c) (scrC1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HA]; · iexact HA
    isplitl [HC]; · iexact HC
    iintro ⟨H0, H1, H2, H3, H4, H5, H6, H7, H8, H9, H10, HA, HC⟩
    isplitl [HA HC Hbut Hg]
    · isplitl [HA HC Hbut]
      · isplitl [HA HC]
        · isplitl [HA]; · iexact HA
          iexact HC
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the launch hands the region — the generator register, the scoped rest — is the invariant before the first
    point. -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- After the last point the invariant gives the generator register and the scoped rest back: what the scratch
    holds is forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val from rfl,
    PhiS1_pos V c _ (by rw [Fin.val_last]; have : cfg1.N = 8 := N_1; omega), scopedRest1_owns]
  iintro ⟨⟨⟨HA, HC⟩, Hbut⟩, Hg⟩
  isplitl [Hg]; · iexact Hg
  isplitl [HA HC]
  · isplitl [HA]
    · iexists _; iexact HA
    iexists _; iexact HC
  iexact Hbut

end Cert.Kernel.H

end
-- ==== Proof.BK2Run.lean ====
import proofs.«160428_g88656714924069_cont_sun_m_1396_13_alg».proof.Proof.Gen.Kernel.Launch
import proofs.«160428_g88656714924069_cont_sun_m_1396_13_alg».proof.Proof.Gen.Kernel.Skeleton
import proofs.«160428_g88656714924069_cont_sun_m_1396_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop :=
  Scalar.cmpi .ne (Scalar.extui (Scalar.cmpi .eq (BitVec.ofNat 32 (i 0).val) 0#32)) 0#32 = 1#1

theorem hcond2_0 : ∀ t : Fin cfg2.N, cond2_0 (grid2.coords t) ↔ t.val % 2 = 0 :=
  (by decide +kernel : ∀ t : Fin grid2.N, cond2_0 (grid2.coords t) ↔ t.val % 2 = 0)

abbrev rX : Rect S8x1024x256 := Rect.unit (s := S8x1024x256) ![0, 0, 0] S8x1024x256.size inb_S8x1024x256_S8x1024x256_0_0_0
abbrev rS : Rect S16x1024x1 := Rect.unit (s := S16x1024x1) ![0, 0, 0] S16x1024x1.size inb_S16x1024x1_S16x1024x1_0_0_0
abbrev rN : Rect S1024x1 := Rect.unit (s := S1024x1) ![0, 0] S1024x1.size inb_S1024x1_S1024x1_0_0

/-! ## What the body leaves in its scratch and in the output window -/

/-- The per-node scale the first point stores into the first scratch: the store's payload over the loaded
    whole windows (batch sums, sums of squares, γ). -/
def sA2 (s q : Vec F S16x1024x1 .f32) (g : Vec F S1024x1 .f32) : Vec F S1024x1 .f32 :=
  View.canon [⟨rN, k2_pay3 (View.ld s rS) (View.ld q rS) (View.ld g rN)⟩]

/-- The per-node shift the first point stores into the second scratch (β enters here). -/
def sC2 (s q : Vec F S16x1024x1 .f32) (g b : Vec F S1024x1 .f32) : Vec F S1024x1 .f32 :=
  View.canon [⟨rN, k2_pay4 (View.ld s rS) (View.ld q rS) (View.ld g rN) (View.ld b rN)⟩]

/-- The output window's buffer after the body: the activations' block times the scale plus the shift, the two
    columns read from the scratch. -/
def out2_5 (x0 : Vec F S8x1024x256 .bf16) (a cc : Vec F S1024x1 .f32) : Vec F S8x1024x256 .f32 :=
  View.canon [⟨rX, k2_pay5 (View.ld x0 rX) (View.ld a rN) (View.ld cc rN)⟩]

/-- One whole-buffer store covers the buffer. -/
theorem coverN (p0 : Vec F S1024x1 .f32) (y : S1024x1.Idx) :
    ∃ pc ∈ ([⟨rN, p0⟩] : List (View.Piece (Elt F) S1024x1 .f32)), y ∈ pc.1.set :=
  ⟨_, List.mem_singleton_self _, View.mem_set_unit_zero (by funext a; fin_cases a <;> rfl) inb_S1024x1_S1024x1_0_0 y⟩

theorem coverX (p0 : Vec F S8x1024x256 .f32) (y : S8x1024x256.Idx) :
    ∃ pc ∈ ([⟨rX, p0⟩] : List (View.Piece (Elt F) S8x1024x256 .f32)), y ∈ pc.1.set :=
  ⟨_, List.mem_singleton_self _, View.mem_set_unit_zero (by funext a; fin_cases a <;> rfl) inb_S8x1024x256_S8x1024x256_0_0_0 y⟩

/-! ## The body's triple, case by case -/

set_option maxHeartbeats 1000000 in
/-- The first point (the branch taken): the whole windows are reduced into the two scratch columns, which are then
    read back for the normalisation. -/
theorem run2_A (c : Dev nD) (i : grid2.Coords)
    (arg1 : Memref sig .tc .vmem S8x1024x256 .bf16) (harg1 : arg1.IsWhole) (arg2 : Memref sig .tc .vmem S16x1024x1 .f32) (harg2 : arg2.IsWhole) (arg3 : Memref sig .tc .vmem S16x1024x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S8x1024x256 .f32) (harg6 : arg6.IsWhole) (arg7 : Memref sig .tc .vmem S1024x1 .f32) (harg7 : arg7.IsWhole) (arg8 : Memref sig .tc .vmem S1024x1 .f32) (harg8 : arg8.IsWhole)
    (hc0 : cond2_0 i)
    (x0 : Vec F S8x1024x256 .bf16) (s q : Vec F S16x1024x1 .f32) (g b : Vec F S1024x1 .f32) (E : Set ℕ) (K : PUnit → sProp 𝕄) :
    iprop(owns (c : Thread nD τ) arg1 fullShare x0 ∗ owns (c : Thread nD τ) arg2 fullShare s ∗ owns (c : Thread nD τ) arg3 fullShare q
        ∗ owns (c : Thread nD τ) arg4 fullShare g ∗ owns (c : Thread nD τ) arg5 fullShare b
        ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (out2_5 x0 (sA2 s q g) (sC2 s q g b))
            ∗ owns (c : Thread nD τ) arg7 fullShare (sA2 s q g) ∗ owns (c : Thread nD τ) arg8 fullShare (sC2 s q g b)) -∗ K ⟨⟩))
      ⊢ wp frame (wpE (defs₀ (F := F)) Variants.none c none) E (cc2__k3 i arg1 harg1 arg2 harg2 arg3 harg3 arg4 harg4 arg5 harg5 arg6 harg6 arg7 harg7 arg8 harg8) K := by
  simp only [cc2__k3_eq_skeleton]; unfold cc2__k3_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec (disch := first | exact hc0)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.readCov_eq_canon', View.readCov_eq_canon']
    exact View.read_writes_eq_canon _ _ _ (coverX _)
  isplitl [H7]
  · iexists _; isplitr
    swap; · iexact H7
    ipureintro
    sl_unfold_run_names
    exact View.read_writes_eq_canon _ _ _ (coverN _)
  iexists _; isplitr
  swap; · iexact H8
  ipureintro
  sl_unfold_run_names
  exact View.read_writes_eq_canon _ _ _ (coverN _)

set_option maxHeartbeats 1000000 in
/-- A later point (the branch not taken): the two scratch columns are only read. -/
theorem run2_B (c : Dev nD) (i : grid2.Coords)
    (arg1 : Memref sig .tc .vmem S8x1024x256 .bf16) (harg1 : arg1.IsWhole) (arg2 : Memref sig .tc .vmem S16x1024x1 .f32) (harg2 : arg2.IsWhole) (arg3 : Memref sig .tc .vmem S16x1024x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S8x1024x256 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i)
    (x0 : Vec F S8x1024x256 .bf16) (a cc : Vec F S1024x1 .f32) (E : Set ℕ) (K : PUnit → sProp 𝕄) :
    iprop(owns (c : Thread nD τ) arg1 fullShare x0 ∗ (∃ d, owns (c : Thread nD τ) arg6 fullShare d)
        ∗ owns (c : Thread nD τ) arg7 fullShare a ∗ owns (c : Thread nD τ) arg8 fullShare cc
        ∗ (iprop(owns (c : Thread nD τ) arg1 fullShare x0 ∗ owns (c : Thread nD τ) arg6 fullShare (out2_5 x0 a cc)
             ∗ owns (c : Thread nD τ) arg7 fullShare a ∗ owns (c : Thread nD τ) arg8 fullShare cc) -∗ K ⟨⟩))
      ⊢ wp frame (wpE (defs₀ (F := F)) Variants.none c none) E (cc2__k3 i arg1 harg1 arg2 harg2 arg3 harg3 arg4 harg4 arg5 harg5 arg6 harg6 arg7 harg7 arg8 harg8) K := by
  simp only [cc2__k3_eq_skeleton]; unfold cc2__k3_skel
  unfold owns
  iintro ⟨⟨%f1, %hf1, H1⟩, ⟨%d6, %f6, -, H6⟩, ⟨%f7, %hf7, H7⟩, ⟨%f8, %hf8, H8⟩, Hk⟩
  subst hf1; subst hf7; subst hf8
  sl_exec (disch := first | exact hc0)
  sl_step
  iapply Hk
  isplitl [H1]
  · iexists f1; isplitr; · ipureintro; rfl
    iexact H1
  isplitl [H6]
  · iexists _; isplitr
    swap; · iexact H6
    ipureintro
    exact View.read_writes_eq_canon _ _ _ (coverX _)
  isplitl [H7]
  · iexists f7; isplitr; · ipureintro; rfl
    iexact H7
  iexists f8; isplitr; · ipureintro; rfl
  iexact H8

end Cert.Kernel.H

end
-- ==== Proof.BK2.lean ====
import proofs.«160428_g88656714924069_cont_sun_m_1396_13_alg».proof.Proof.BK2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third call: normalise the second layer

At its first point the body folds the layer's batch sums, sums of squares, γ and β into a per-node scale and
shift kept in two scratch columns; at every point it writes the activations' block times the scale plus the
shift. The scratch columns depend on the whole windows only, so they are one pair of columns for the whole
region, and every later point finds them where the first left them. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data with these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The scratch columns -/

/-- The per-node scale: what the first point stores into the first scratch, from the whole windows' blocks there. -/
def scrA2 (c : Dev nD) : Vec F S1024x1 .f32 :=
  sA2 (iblk2 V c 1 t2_0) (iblk2 V c 2 t2_0) (iblk2 V c 3 t2_0)

/-- The per-node shift: what the first point stores into the second scratch. -/
def scrC2 (c : Dev nD) : Vec F S1024x1 .f32 :=
  sC2 (iblk2 V c 1 t2_0) (iblk2 V c 2 t2_0) (iblk2 V c 3 t2_0) (iblk2 V c 4 t2_0)

/-- The two scratch operands: whole scoped buffers of the call's own. -/
abbrev scM2_0 : Memref sig .tc .vmem S1024x1 .f32 := Memref.whole cc2_scratch0
abbrev scM2_1 : Memref sig .tc .vmem S1024x1 .f32 := Memref.whole cc2_scratch1

/-- The class invariant with the two scratch operands as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

/-- The region's invariant before position `n`: before the first point the class's (every scratch at anything);
    afterwards the two scratch columns at the scale and the shift, the other scoped buffers at anything, the
    generator register at some state. -/
def Phi2 (c : Dev nD) : ℕ → sProp 𝕄
  | 0 => Pipeline.ΦA spec2 c
  | _ + 1 => iprop(iprop(iprop(owns (c : Thread nD τ) scM2_0 fullShare (scrA2 V c) ∗ owns (c : Thread nD τ) scM2_1 fullShare (scrC2 V c))
          ∗ Pipeline.scopedRestBut (Ix := Unit) (Name := ℕ) (U := UR sig nD τ) (Lvl := ℕ) (Val := Elt F) spec2 c [cc2_scratch0, cc2_scratch1])
          ∗ (∃ r, prngReg c r))

theorem Phi2_zero (c : Dev nD) : Phi2 V c 0 = Pipeline.ΦA spec2 c := rfl

theorem Phi2_succ (c : Dev nD) (n : ℕ) :
    Phi2 V c (n + 1) = iprop(iprop(iprop(owns (c : Thread nD τ) scM2_0 fullShare (scrA2 V c) ∗ owns (c : Thread nD τ) scM2_1 fullShare (scrC2 V c))
          ∗ Pipeline.scopedRestBut (Ix := Unit) (Name := ℕ) (U := UR sig nD τ) (Lvl := ℕ) (Val := Elt F) spec2 c [cc2_scratch0, cc2_scratch1])
          ∗ (∃ r, prngReg c r)) := rfl

/-! ## The pipeline's proof data -/

/-- The proof data of the call on core `c`: the arrays as the region finds them; after the body each input's
    buffer at its block and the output's at the block normalised by the region's scale and shift; the invariant
    carries the two scratch columns from the first point on; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (scrA2 V c) (scrC2 V c)
  Φ k := Phi2 V c k.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (scrA2 V c) (scrC2 V c) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Into and out of the invariant -/

/-- What the launch hands the region is the invariant before the first point. -/
theorem hin2 (c : Dev nD) (P : sProp 𝕄) :
    iprop((∃ r, prngReg c r) ∗ P ∗ Pipeline.scopedRest spec2 c) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After the last point the scratch columns' contents are forgotten again. -/
theorem hout2 (c : Dev nD) :
    (dat2 V c).Φ (Fin.last cfg2.N) ⊢ iprop((∃ r, prngReg c r) ∗ Pipeline.scopedRest spec2 c) := by
  rw [show (dat2 V c).Φ (Fin.last cfg2.N) = Phi2 V c (1 + 1) from rfl, Phi2_succ, scopedRest2_split]
  simp only [scM2_0, scM2_1, owns_whole]
  iintro ⟨⟨⟨HS0, HS1⟩, Hrest⟩, Hg⟩
  isplitl [Hg]; · iexact Hg
  isplitl [HS0 HS1]
  · isplitl [HS0]
    · iexists _; iexact HS0
    iexists _; iexact HS1
  iexact Hrest

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1600000 in
/-- The body at either point. At the first the invariant hands the body the two scratch columns at anything and takes
    them back at the scale and the shift; at the second it hands them over at the scale and the shift and takes
    them back unchanged, the whole windows passing by untouched. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    after2_0, after2_1, after2_2, after2_3, after2_4, after2_5]
  rcases fin_N2 t with rfl | rfl
  · rw [show (dat2 V c).Φ t2_0.castSucc = Pipeline.ΦA spec2 c from rfl,
      show (dat2 V c).Φ t2_0.succ = Phi2 V c (0 + 1) from rfl, Phi2_succ, PhiA2_eq]
    unfold scrA2 scrC2
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (run2_A c (grid2.coords t2_0) _ _ _ _ _ _ _ _ _ _ _ _ _ _ _ _ ((hcond2_0 t2_0).mpr rfl)
      (iblk2 V c 0 t2_0) (iblk2 V c 1 t2_0) (iblk2 V c 2 t2_0) (iblk2 V c 3 t2_0) (iblk2 V c 4 t2_0) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dat2 V c).Φ t2_1.castSucc = Phi2 V c (0 + 1) from rfl,
      show (dat2 V c).Φ t2_1.succ = Phi2 V c (1 + 1) from rfl, Phi2_succ, Phi2_succ]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (run2_B c (grid2.coords t2_1) _ _ _ _ _ _ _ _ _ _ _ _ _ _ _ _ (fun h => absurd ((hcond2_0 t2_1).mp h) (by decide))
      (iblk2 V c 0 t2_1) (scrA2 V c) (scrC2 V c) Set.univ _)
    isplitl [H0]; · iexact H0
    isplitl [H5]; · iexists _; iexact H5
    isplitl [HS0]; · iexact HS0
    isplitl [HS1]; · iexact HS1
    iintro ⟨H0, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation2 (c : Dev nD) :
    BodyObligation (dat2 (F := F) V c) (defs₀ (F := F)) Variants.none () Set.univ := fun t => by
  rw [bigSep_W2, bigSep_W2]
  exact sound_body2 V c t

/-- info: 'Cert.Kernel.H.body_obligation2' depends on axioms: [propext, Classical.choice, Quot.sound] -/
#guard_msgs in #print axioms body_obligation2

end Cert.Kernel.H

end
-- ==== Proof.BKRun.lean ====
/-
  The kernel program's run, assembled: @main is three host stretches (reshapes of the bias and of the four per-node
  vectors) alternating with three kernel regions. The contents of every unscoped buffer are followed from the launch
  to the return: a host stretch applies its operations; a region leaves each of its windows' arrays at what the
  pipeline's write-backs fold to and every other buffer as it found it. Every weakly fair execution terminates,
  without a fault, with every unscoped buffer at the last of these contents.
-/
import proofs.«160428_g88656714924069_cont_sun_m_1396_13_alg».proof.Proof.BK0
import proofs.«160428_g88656714924069_cont_sun_m_1396_13_alg».proof.Proof.BK1
import proofs.«160428_g88656714924069_cont_sun_m_1396_13_alg».proof.Proof.BK2

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-- Region 0's invariant is the scoped rest beside the generator register at every point. -/
theorem hin0 (V : (c : Dev nD) → (b : Ref sig .tc) → Buf (Elt F) ((c : Thread nD τ).loc b)) (c : Dev nD) (P : sProp 𝕄) :
    iprop((∃ r, prngReg c r) ∗ P ∗ Pipeline.scopedRest spec0 c) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp
theorem hout0 (V : (c : Dev nD) → (b : Ref sig .tc) → Buf (Elt F) ((c : Thread nD τ).loc b)) (c : Dev nD) :
    (dat0 V c).Φ (Fin.last cfg0.N) ⊢ iprop((∃ r, prngReg c r) ∗ Pipeline.scopedRest spec0 c) := by
  rw [show (dat0 V c).Φ (Fin.last cfg0.N) = Pipeline.ΦA spec0 c from rfl]; unfold Pipeline.ΦA
  iintro ⟨Hr, Hp⟩
  isplitl [Hp]; · iexact Hp
  iexact Hr

/-! ## The regions as segments -/

set_option backward.isDefEq.respectTransparency.types false in
/-- Region 0 as a segment: entered with every unscoped buffer at the contents before it, left with the region's arrays at
    what its write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    exact hin0 (V1 m) c _
  hout c := by
    rw [Pipeline.ownSems0_none, show (pdats m 0 c).Φ (Fin.last _) = (dat0 (V1 m) c).Φ (Fin.last cfg0.N) from rfl]
    refine (hout0 (V1 m) c).trans ?_
    iintro ⟨Hr, Hp⟩
    isplitl [Hr]; · iexact Hr
    isplitr; · iempintro
    iexact Hp
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's arrays at
    what its write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    exact hin1 (V3 m) c _
  hout c := by
    rw [Pipeline.ownSems0_none, show (pdats m 1 c).Φ (Fin.last _) = (dat1 (V3 m) c).Φ (Fin.last cfg1.N) from rfl]
    refine (hout1 (V3 m) c).trans ?_
    iintro ⟨Hr, Hp⟩
    isplitl [Hr]; · iexact Hr
    isplitr; · iempintro
    iexact Hp
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with the region's arrays at
    what its write-backs leave and every other buffer as entered. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    exact hin2 (V5 m) c _
  hout c := by
    rw [Pipeline.ownSems0_none, show (pdats m 2 c).Φ (Fin.last _) = (dat2 (V5 m) c).Φ (Fin.last cfg2.N) from rfl]
    refine (hout2 (V5 m) c).trans ?_
    iintro ⟨Hr, Hp⟩
    isplitl [Hr]; · iexact Hr
    isplitr; · iempintro
    iexact Hp
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.H

end
-- ==== Proof.BKArgs.lean ====
/-
  The argument arrays end as launched, and the result array ends at what the last region's write-backs fold to.
  No host stretch writes an argument (each reshapes one into a fresh buffer), and a region reads an argument only
  through an input window, whose array the pipeline leaves as it found it; so each argument's buffer, followed back
  through the six boundaries, holds its launch contents.
-/
import proofs.«160428_g88656714924069_cont_sun_m_1396_13_alg».proof.Proof.BKRun

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := (W4_arr m c 1).trans (((dat1 (V3 m) c).arrAt_in 1 rfl _).trans (A_eq1 (V3 m) c 1))
    _ = W2 m c (Proc.devRef .tc main_arg1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := (W4_arr m c 2).trans (((dat1 (V3 m) c).arrAt_in 2 rfl _).trans (A_eq1 (V3 m) c 2))
    _ = W2 m c (Proc.devRef .tc main_arg4) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg7) := W4_of_ne m c main_arg7 (by decide)
    _ = W2 m c (Proc.devRef .tc main_arg7) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg8) := W4_of_ne m c main_arg8 (by decide)
    _ = W2 m c (Proc.devRef .tc main_arg8) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg8) := W2_of_ne m c main_arg8 (by decide)
    _ = W0 m c (Proc.devRef .tc main_arg8) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg9) := W4_of_ne m c main_arg9 (by decide)
    _ = W2 m c (Proc.devRef .tc main_arg9) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg9) := W2_of_ne m c main_arg9 (by decide)
    _ = W0 m c (Proc.devRef .tc main_arg9) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The result array is output window 5 of the last region. -/
theorem W6_main_v0 (c : Dev nD) : W6 m c (Proc.devRef .tc main_v0) = (dat2 (V5 m) c).arrAt 5 cfg2.N :=
  W6_arr m c 5

/-- Every weakly fair execution of @main terminates, nothing faulting; the result array holds the last region's folded
    write-backs and every argument array its launch contents. -/
theorem run_frame : θ_run defs (onTc (τ := τ) (main (F := F))) ⟨m, fun _ => 0, ρ⟩ (fun r => ∀ c : Dev nD,
      r.2.mem ((c.tc : Thread nD τ).loc main_v0) = (dat2 (V5 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v0 (by decide))).trans (W6_main_v0 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c)⟩)
    (run_all m ρ)

end Cert.Kernel.H

end
-- ==== Proof.K0.lean ====
/- Region 0 of the kernel program (the first pallas_call): the frame half, at any float instance.
   Per grid point the body reads four batches of the x block and of the adjacency block, the whole
   weight matrix and the bias row, and fills each of its three output blocks by four slab stores,
   one per batch.  What each output buffer holds after the body is therefore the canonical reading
   of four pieces, each a pure function of the input blocks. -/
import proofs.«160428_g88656714924069_cont_sun_m_1396_13_alg».proof.Proof.Gen.KernelIdeal.Launch
import proofs.«160428_g88656714924069_cont_sun_m_1396_13_alg».proof.Proof.Gen.KernelIdeal.Skeleton
import proofs.«160428_g88656714924069_cont_sun_m_1396_13_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

-- batch `j` of the x block, and the slab of the first output it fills
abbrev r0_x0 : Rect S4x1024x256 := Rect.unit (s := S4x1024x256) ![0, 0, 0] S1x1024x256.size inb_S4x1024x256_S1x1024x256_0_0_0
abbrev r0_x1 : Rect S4x1024x256 := Rect.unit (s := S4x1024x256) ![1, 0, 0] S1x1024x256.size inb_S4x1024x256_S1x1024x256_1_0_0
abbrev r0_x2 : Rect S4x1024x256 := Rect.unit (s := S4x1024x256) ![2, 0, 0] S1x1024x256.size inb_S4x1024x256_S1x1024x256_2_0_0
abbrev r0_x3 : Rect S4x1024x256 := Rect.unit (s := S4x1024x256) ![3, 0, 0] S1x1024x256.size inb_S4x1024x256_S1x1024x256_3_0_0
-- batch `j` of the adjacency block
abbrev r0_a0 : Rect S4x1024x1024 := Rect.unit (s := S4x1024x1024) ![0, 0, 0] S1x1024x1024.size inb_S4x1024x1024_S1x1024x1024_0_0_0
abbrev r0_a1 : Rect S4x1024x1024 := Rect.unit (s := S4x1024x1024) ![1, 0, 0] S1x1024x1024.size inb_S4x1024x1024_S1x1024x1024_1_0_0
abbrev r0_a2 : Rect S4x1024x1024 := Rect.unit (s := S4x1024x1024) ![2, 0, 0] S1x1024x1024.size inb_S4x1024x1024_S1x1024x1024_2_0_0
abbrev r0_a3 : Rect S4x1024x1024 := Rect.unit (s := S4x1024x1024) ![3, 0, 0] S1x1024x1024.size inb_S4x1024x1024_S1x1024x1024_3_0_0
-- the whole weight matrix and the whole bias row
abbrev r0_w : Rect S256x256 := Rect.unit (s := S256x256) ![0, 0] S256x256.size inb_S256x256_S256x256_0_0
abbrev r0_b : Rect S1x256 := Rect.unit (s := S1x256) ![0, 0] S1x256.size inb_S1x256_S1x256_0_0
-- batch `j`'s slab of a column output
abbrev r0_s0 : Rect S4x1024x1 := Rect.unit (s := S4x1024x1) ![0, 0, 0] S1x1024x1.size inb_S4x1024x1_S1x1024x1_0_0_0
abbrev r0_s1 : Rect S4x1024x1 := Rect.unit (s := S4x1024x1) ![1, 0, 0] S1x1024x1.size inb_S4x1024x1_S1x1024x1_1_0_0
abbrev r0_s2 : Rect S4x1024x1 := Rect.unit (s := S4x1024x1) ![2, 0, 0] S1x1024x1.size inb_S4x1024x1_S1x1024x1_2_0_0
abbrev r0_s3 : Rect S4x1024x1 := Rect.unit (s := S4x1024x1) ![3, 0, 0] S1x1024x1.size inb_S4x1024x1_S1x1024x1_3_0_0

/-! ## What the body leaves in each output window's buffer -/

/-- The first output's buffer after the body (the layer's values, rounded to the narrow format):
    its four slab stores as pieces, last first. -/
def out0_4 (x0 : Vec F S4x1024x256 .f32) (x1 : Vec F S4x1024x1024 .f32) (x2 : Vec F S256x256 .f32) (x3 : Vec F S1x256 .f32) : Vec F S4x1024x256 .bf16 :=
  View.canon [⟨r0_x3, k0_pay2 (k0_pay18 (View.ld x0 r0_x3) (View.ld x2 r0_w)) (View.ld x1 r0_a3) (View.ld x3 r0_b)⟩,
    ⟨r0_x2, k0_pay15 (k0_pay13 (View.ld x0 r0_x2)) (View.ld x2 r0_w) (constant S1024x256 .f32 0x00000000#32) (View.ld x1 r0_a2) (View.ld x3 r0_b)⟩,
    ⟨r0_x1, k0_pay10 (View.ld x0 r0_x1) (View.ld x2 r0_w) (View.ld x1 r0_a1) (View.ld x3 r0_b)⟩,
    ⟨r0_x0, k0_pay6 (View.ld x0 r0_x0) (View.ld x2 r0_w) (View.ld x1 r0_a0) (View.ld x3 r0_b)⟩]

/-- The second output's buffer after the body (each row's sum over the channels). -/
def out0_5 (x0 : Vec F S4x1024x256 .f32) (x1 : Vec F S4x1024x1024 .f32) (x2 : Vec F S256x256 .f32) (x3 : Vec F S1x256 .f32) : Vec F S4x1024x1 .f32 :=
  View.canon [⟨r0_s3, k0_pay3 (k0_pay18 (View.ld x0 r0_x3) (View.ld x2 r0_w)) (View.ld x1 r0_a3) (View.ld x3 r0_b)⟩,
    ⟨r0_s2, k0_pay16 (k0_pay13 (View.ld x0 r0_x2)) (View.ld x2 r0_w) (constant S1024x256 .f32 0x00000000#32) (View.ld x1 r0_a2) (View.ld x3 r0_b)⟩,
    ⟨r0_s1, k0_pay11 (View.ld x0 r0_x1) (View.ld x2 r0_w) (View.ld x1 r0_a1) (View.ld x3 r0_b)⟩,
    ⟨r0_s0, k0_pay7 (View.ld x0 r0_x0) (View.ld x2 r0_w) (View.ld x1 r0_a0) (View.ld x3 r0_b)⟩]

/-- The third output's buffer after the body (each row's sum of squares over the channels). -/
def out0_6 (x0 : Vec F S4x1024x256 .f32) (x1 : Vec F S4x1024x1024 .f32) (x2 : Vec F S256x256 .f32) (x3 : Vec F S1x256 .f32) : Vec F S4x1024x1 .f32 :=
  View.canon [⟨r0_s3, k0_pay4 (k0_pay18 (View.ld x0 r0_x3) (View.ld x2 r0_w)) (View.ld x1 r0_a3) (View.ld x3 r0_b)⟩,
    ⟨r0_s2, k0_pay17 (k0_pay13 (View.ld x0 r0_x2)) (View.ld x2 r0_w) (constant S1024x256 .f32 0x00000000#32) (View.ld x1 r0_a2) (View.ld x3 r0_b)⟩,
    ⟨r0_s1, k0_pay12 (View.ld x0 r0_x1) (View.ld x2 r0_w) (View.ld x1 r0_a1) (View.ld x3 r0_b)⟩,
    ⟨r0_s0, k0_pay8 (View.ld x0 r0_x0) (View.ld x2 r0_w) (View.ld x1 r0_a0) (View.ld x3 r0_b)⟩]

/-- The four slabs tile the first output's buffer, so they cover it. -/
theorem cover0_4 (p0 p1 p2 p3 : Vec F S1x1024x256 .bf16) (y : S4x1024x256.Idx) :
    ∃ pc ∈ ([⟨r0_x3, p0⟩, ⟨r0_x2, p1⟩, ⟨r0_x1, p2⟩, ⟨r0_x0, p3⟩] : List (View.Piece (Elt F) S4x1024x256 .bf16)), y ∈ pc.1.set :=
  View.cover_of_tiled [⟨r0_x3, p0⟩, ⟨r0_x2, p1⟩, ⟨r0_x1, p2⟩, ⟨r0_x0, p3⟩] S1x1024x256.size (by rfl) y

/-- The four slabs tile a column output's buffer, so they cover it. -/
theorem cover0_5 (p0 p1 p2 p3 : Vec F S1x1024x1 .f32) (y : S4x1024x1.Idx) :
    ∃ pc ∈ ([⟨r0_s3, p0⟩, ⟨r0_s2, p1⟩, ⟨r0_s1, p2⟩, ⟨r0_s0, p3⟩] : List (View.Piece (Elt F) S4x1024x1 .f32)), y ∈ pc.1.set :=
  View.cover_of_tiled [⟨r0_s3, p0⟩, ⟨r0_s2, p1⟩, ⟨r0_s1, p2⟩, ⟨r0_s0, p3⟩] S1x1024x1.size (by rfl) y

/-- The third output's slabs are the second's rectangles. -/
theorem cover0_6 (p0 p1 p2 p3 : Vec F S1x1024x1 .f32) (y : S4x1024x1.Idx) :
    ∃ pc ∈ ([⟨r0_s3, p0⟩, ⟨r0_s2, p1⟩, ⟨r0_s1, p2⟩, ⟨r0_s0, p3⟩] : List (View.Piece (Elt F) S4x1024x1 .f32)), y ∈ pc.1.set :=
  cover0_5 p0 p1 p2 p3 y

/-! ## The body's triple -/

set_option maxHeartbeats 4000000 in
/-- The kernel body on whole staging memrefs, the inputs' at read contents and the outputs' at anything, runs to
    the continuation holding the inputs' as they were and each output's at its four pieces over the inputs'. -/
theorem sound_kernel0 (c : Dev nD) (E : Set ℕ) (i : grid0.Coords) (arg1 : Memref sig .tc .vmem S4x1024x256 .f32) (harg1 : arg1.IsWhole) (arg2 : Memref sig .tc .vmem S4x1024x1024 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S4x1024x256 .bf16) (harg5 : arg5.IsWhole) (arg6 : Memref sig .tc .vmem S4x1024x1 .f32) (harg6 : arg6.IsWhole) (arg7 : Memref sig .tc .vmem S4x1024x1 .f32) (harg7 : arg7.IsWhole)
    (x0 : Vec F S4x1024x256 .f32) (x1 : Vec F S4x1024x1024 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0__k1 i arg1 harg1 arg2 harg2 arg3 harg3 arg4 harg4 arg5 harg5 arg6 harg6 arg7 harg7) K := by
  simp only [cc0__k1_eq_skeleton]; unfold cc0__k1_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_4 _ _ _ _)
  isplitl [H5]
  · iexists _; isplitr
    swap; · iexact H5
    ipureintro
    try dsimp only
    exact View.read_writes_eq_canon _ _ _ (cover0_5 _ _ _ _)
  iexists _; isplitr
  swap; · iexact H6
  ipureintro
  try dsimp only
  exact View.read_writes_eq_canon _ _ _ (cover0_6 _ _ _ _)

/-! ## The pipeline's proof data -/

/-- The proof data of the first pipeline on core `c`: the arrays as the region finds them; after the body at
    point `t` each input's buffer at its block and each output's at its four pieces over the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H
-- ==== Proof.K1Defs.lean ====
/-
  The second layer's kernel, as the pipeline runs it at one grid point: what its loads read, what its stores
  leave, and the run of its body in each of its two control cases.

  At the first point the body first reduces the layer-1 partial sums over the batch axis and folds the scale and
  shift of the batch normalisation into two per-node vectors it keeps in scratch memory; at every point it then
  reads those two vectors, normalises two batches of the first layer's activations, multiplies by the weights and the
  adjacency, adds the bias, clamps at zero, and stores the result with its per-node channel sums and sums of squares.
  The scratch vectors depend only on the whole-array windows, so they are the same at every later point.
-/
import proofs.«160428_g88656714924069_cont_sun_m_1396_13_alg».proof.Proof.Gen.KernelIdeal.Launch
import proofs.«160428_g88656714924069_cont_sun_m_1396_13_alg».proof.Proof.Gen.KernelIdeal.Skeleton
import proofs.«160428_g88656714924069_cont_sun_m_1396_13_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not: unfetched, the
    block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Batch 0 and batch 1 of the two activation blocks, of the adjacency block and of the two statistics blocks. -/
abbrev rY_0 : Rect S2x1024x256 := Rect.unit (s := S2x1024x256) ![0, 0, 0] S1x1024x256.size inb_S2x1024x256_S1x1024x256_0_0_0
abbrev rY_1 : Rect S2x1024x256 := Rect.unit (s := S2x1024x256) ![1, 0, 0] S1x1024x256.size inb_S2x1024x256_S1x1024x256_1_0_0
abbrev rA_0 : Rect S2x1024x1024 := Rect.unit (s := S2x1024x1024) ![0, 0, 0] S1x1024x1024.size inb_S2x1024x1024_S1x1024x1024_0_0_0
abbrev rA_1 : Rect S2x1024x1024 := Rect.unit (s := S2x1024x1024) ![1, 0, 0] S1x1024x1024.size inb_S2x1024x1024_S1x1024x1024_1_0_0
abbrev rS_0 : Rect S2x1024x1 := Rect.unit (s := S2x1024x1) ![0, 0, 0] S1x1024x1.size inb_S2x1024x1_S1x1024x1_0_0_0
abbrev rS_1 : Rect S2x1024x1 := Rect.unit (s := S2x1024x1) ![1, 0, 0] S1x1024x1.size inb_S2x1024x1_S1x1024x1_1_0_0
/-- The whole of the weights, of the bias, of the layer-1 statistics and of a per-node vector. -/
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rP : Rect S16x1024x1 := Rect.unit (s := S16x1024x1) ![0, 0, 0] S16x1024x1.size inb_S16x1024x1_S16x1024x1_0_0_0
abbrev rN1 : Rect S1024x1 := Rect.unit (s := S1024x1) ![0, 0] S1024x1.size inb_S1024x1_S1024x1_0_0

/-! ## What the body keeps in scratch, and what it leaves in each output window's buffer -/

/-- The per-node scale the first point stores in scratch: γ · rsqrt(var + ε), from the layer-1 sums, sums of squares and γ. -/
def scrA (x4 x5 : Vec F S16x1024x1 .f32) (x6 : Vec F S1024x1 .f32) : Vec F S1024x1 .f32 :=
  k1_pay5 (View.ld x4 rP) (View.ld x5 rP) (View.ld x6 rN1)

/-- The per-node shift the first point stores in scratch: β − mean · scale. -/
def scrC (x4 x5 : Vec F S16x1024x1 .f32) (x6 x7 : Vec F S1024x1 .f32) : Vec F S1024x1 .f32 :=
  k1_pay6 (View.ld x4 rP) (View.ld x5 rP) (View.ld x6 rN1) (View.ld x7 rN1)

/-- The clamped layer-2 activation of batch 0 of the block, before rounding, from the blocks and the two scratch vectors. -/
def act_0 (x0 : Vec F S2x1024x256 .bf16) (x1 : Vec F S2x1024x1024 .f32) (x2 : Vec F S256x256 .f32) (x3 : Vec F S1x256 .f32)
    (sa sc : Vec F S1024x1 .f32) : FVec F S1024x256 .f32 :=
  k1_pay7 (View.ld x0 rY_0) sa sc (View.ld x2 rW) (View.ld x1 rA_0) (View.ld x3 rB)
/-- The same of batch 1. -/
def act_1 (x0 : Vec F S2x1024x256 .bf16) (x1 : Vec F S2x1024x1024 .f32) (x2 : Vec F S256x256 .f32) (x3 : Vec F S1x256 .f32)
    (sa sc : Vec F S1024x1 .f32) : FVec F S1024x256 .f32 :=
  k1_pay12 (View.ld x0 rY_1) sa sc (View.ld x2 rW) (View.ld x1 rA_1) (View.ld x3 rB)

/-- The activation window's buffer after the body: its two stores as pieces, last first. -/
def out1_8 (x0 : Vec F S2x1024x256 .bf16) (x1 : Vec F S2x1024x1024 .f32) (x2 : Vec F S256x256 .f32) (x3 : Vec F S1x256 .f32)
    (sa sc : Vec F S1024x1 .f32) : Vec F S2x1024x256 .bf16 :=
  View.canon [⟨rY_1, k1_pay13 (View.ld x0 rY_1) sa sc (View.ld x2 rW) (View.ld x1 rA_1) (View.ld x3 rB)⟩,
    ⟨rY_0, k1_pay8 (View.ld x0 rY_0) sa sc (View.ld x2 rW) (View.ld x1 rA_0) (View.ld x3 rB)⟩]

/-- The channel-sum window's buffer after the body. -/
def out1_9 (x0 : Vec F S2x1024x256 .bf16) (x1 : Vec F S2x1024x1024 .f32) (x2 : Vec F S256x256 .f32) (x3 : Vec F S1x256 .f32)
    (sa sc : Vec F S1024x1 .f32) : Vec F S2x1024x1 .f32 :=
  View.canon [⟨rS_1, k1_pay1 (k1_pay14 (View.ld x0 rY_1) sa sc (View.ld x2 rW) (View.ld x1 rA_1) (View.ld x3 rB))⟩,
    ⟨rS_0, k1_pay10 (k1_pay9 (View.ld x0 rY_0) sa sc (View.ld x2 rW) (View.ld x1 rA_0) (View.ld x3 rB))⟩]

/-- The channel-sum-of-squares window's buffer after the body. -/
def out1_10 (x0 : Vec F S2x1024x256 .bf16) (x1 : Vec F S2x1024x1024 .f32) (x2 : Vec F S256x256 .f32) (x3 : Vec F S1x256 .f32)
    (sa sc : Vec F S1024x1 .f32) : Vec F S2x1024x1 .f32 :=
  View.canon [⟨rS_1, k1_pay2 (k1_pay12 (View.ld x0 rY_1) sa sc (View.ld x2 rW) (View.ld x1 rA_1) (View.ld x3 rB))⟩,
    ⟨rS_0, k1_pay11 (k1_pay7 (View.ld x0 rY_0) sa sc (View.ld x2 rW) (View.ld x1 rA_0) (View.ld x3 rB))⟩]

/-- The two batch stores tile each output buffer (checked by evaluation), so they cover it. -/
theorem cover1_8 (p1 p0 : Vec F S1x1024x256 .bf16) (y : S2x1024x256.Idx) :
    ∃ pc ∈ ([⟨rY_1, p1⟩, ⟨rY_0, p0⟩] : List (View.Piece (Elt F) S2x1024x256 .bf16)), y ∈ pc.1.set :=
  View.cover_of_tiled [⟨rY_1, p1⟩, ⟨rY_0, p0⟩] S1x1024x256.size (by rfl) y

theorem cover1_9 (p1 p0 : Vec F S1x1024x1 .f32) (y : S2x1024x1.Idx) :
    ∃ pc ∈ ([⟨rS_1, p1⟩, ⟨rS_0, p0⟩] : List (View.Piece (Elt F) S2x1024x1 .f32)), y ∈ pc.1.set :=
  View.cover_of_tiled [⟨rS_1, p1⟩, ⟨rS_0, p0⟩] S1x1024x1.size (by rfl) y

/-! ## The body's branch condition -/

/-- The condition of the body's one conditional, from the grid coordinates: the point is the first. -/
abbrev cond1_0 (i : grid1.Coords) : Prop :=
  (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

end Cert.KernelIdeal.H

end
-- ==== Proof.K1RunA.lean ====
/-
  The body of the second layer's kernel at the first point: the layer-1 sums are reduced over the batch axis, the
  per-node scale and shift are stored in scratch, read back, and the two batches are normalised, multiplied, clamped
  and stored.
-/
import proofs.«160428_g88656714924069_cont_sun_m_1396_13_alg».proof.Proof.K1Defs

set_option maxRecDepth 16384
set_option pp.maxSteps 5000
set_option pp.deepTerms false
noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1a : (![0, 0] : Fin 2 → Nat) = fun _ => 0 := funext fun a => by fin_cases a <;> rfl

set_option maxHeartbeats 4000000 in
/-- The body at the first point, on whole staging memrefs: the inputs at their blocks, the outputs and the scratch at
    anything. It runs to the continuation holding the inputs as they were, the scratch at the scale and the shift
    computed from the whole-array windows, and each output at the canon of its two batch stores over those. -/
theorem sound_kernel1_first (c : Dev nD) (E : Set ℕ) (i : grid1.Coords) (arg1 : Memref sig .tc .vmem S2x1024x256 .bf16) (harg1 : arg1.IsWhole) (arg2 : Memref sig .tc .vmem S2x1024x1024 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S16x1024x1 .f32) (harg5 : arg5.IsWhole) (arg6 : Memref sig .tc .vmem S16x1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S2x1024x256 .bf16) (harg9 : arg9.IsWhole) (arg10 : Memref sig .tc .vmem S2x1024x1 .f32) (harg10 : arg10.IsWhole) (arg11 : Memref sig .tc .vmem S2x1024x1 .f32) (harg11 : arg11.IsWhole) (arg12 : Memref sig .tc .vmem S1024x1 .f32) (harg12 : arg12.IsWhole) (arg13 : Memref sig .tc .vmem S1024x1 .f32) (harg13 : arg13.IsWhole)
    (hc : cond1_0 i) (x0 : Vec F S2x1024x256 .bf16) (x1 : Vec F S2x1024x1024 .f32) (x2 : Vec F S256x256 .f32) (x3 : Vec F S1x256 .f32)
    (x4 x5 : Vec F S16x1024x1 .f32) (x6 x7 : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 (scrA x4 x5 x6) (scrC x4 x5 x6 x7))
            ∗ owns (c : Thread nD τ) arg10 fullShare (out1_9 x0 x1 x2 x3 (scrA x4 x5 x6) (scrC x4 x5 x6 x7))
            ∗ owns (c : Thread nD τ) arg11 fullShare (out1_10 x0 x1 x2 x3 (scrA x4 x5 x6) (scrC x4 x5 x6 x7))
            ∗ owns (c : Thread nD τ) arg12 fullShare (scrA x4 x5 x6) ∗ owns (c : Thread nD τ) arg13 fullShare (scrC x4 x5 x6 x7)) -∗ K ⟨⟩))
      ⊢ wp frame (wpE (defs₀ (F := F)) Variants.none c none) E (cc1__k2 i arg1 harg1 arg2 harg2 arg3 harg3 arg4 harg4 arg5 harg5 arg6 harg6 arg7 harg7 arg8 harg8 arg9 harg9 arg10 harg10 arg11 harg11 arg12 harg12 arg13 harg13) K := by
  simp only [cc1__k2_eq_skeleton]; unfold cc1__k2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%da, %fa, -, HA⟩, ⟨%dc, %fc, -, HC⟩, Hk⟩
  subst hf0 hf1 hf2 hf3 hf4 hf5 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover1_8 _ _)).trans ?_
    unfold out1_8 scrA scrC
    sl_unfold_run_names
    first | rw [View.readCov_unit_zero (S := S1024x1) _ hz2_1a, View.readCov_unit_zero (S := S1024x1) _ hz2_1a] | fail "o8-rw"
    first | rfl | (simp only [View.readAt_eq_ld]; done) | fail "o8-close"
  isplitl [H9]
  · iexists _; isplitr
    swap; · iexact H9
    ipureintro
    refine (View.read_writes_eq_canon _ _ _ (cover1_9 _ _)).trans ?_
    unfold out1_9 scrA scrC
    sl_unfold_run_names
    first | rw [View.readCov_unit_zero (S := S1024x1) _ hz2_1a, View.readCov_unit_zero (S := S1024x1) _ hz2_1a] | fail "o9-rw"
    first | rfl | (simp only [View.readAt_eq_ld]; done) | fail "o9-close"
  isplitl [H10]
  · iexists _; isplitr
    swap; · iexact H10
    ipureintro
    refine (View.read_writes_eq_canon _ _ _ (cover1_9 _ _)).trans ?_
    unfold out1_10 scrA scrC
    sl_unfold_run_names
    first | rw [View.readCov_unit_zero (S := S1024x1) _ hz2_1a, View.readCov_unit_zero (S := S1024x1) _ hz2_1a] | fail "o10-rw"
    first | rfl | (simp only [View.readAt_eq_ld]; done) | fail "o10-close"
  isplitl [HA]
  · iexists _; isplitr
    swap; · iexact HA
    ipureintro
    sl_unfold_run_names
    refine (View.read_writes_eq_canon _ _ _ (fun y => ⟨_, List.mem_singleton_self _, View.mem_set_unit_zero hz2_1a inb_S1024x1_S1024x1_0_0 y⟩)).trans ?_
    first | rw [View.canon_unit_zero hz2_1a] | fail "sA-rw"
    unfold scrA
    first | rfl | (simp only [View.readAt_eq_ld]; done) | fail "sA-close"
  · iexists _; isplitr
    swap; · iexact HC
    ipureintro
    sl_unfold_run_names
    refine (View.read_writes_eq_canon _ _ _ (fun y => ⟨_, List.mem_singleton_self _, View.mem_set_unit_zero hz2_1a inb_S1024x1_S1024x1_0_0 y⟩)).trans ?_
    first | rw [View.canon_unit_zero hz2_1a] | fail "sC-rw"
    unfold scrC
    first | rfl | (simp only [View.readAt_eq_ld]; done) | fail "sC-close"

end Cert.KernelIdeal.H

end
-- ==== Proof.K1RunB.lean ====
/-
  The body of the second layer's kernel at a point after the first: the two scratch vectors are read as the
  first point left them, and the two batches are normalised, multiplied, clamped and stored.
-/
import proofs.«160428_g88656714924069_cont_sun_m_1396_13_alg».proof.Proof.K1Defs

set_option maxRecDepth 16384
set_option pp.maxSteps 5000
set_option pp.deepTerms false
noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1b : (![0, 0] : Fin 2 → Nat) = fun _ => 0 := funext fun a => by fin_cases a <;> rfl

set_option maxHeartbeats 4000000 in
/-- The body at a point that is not the first, on whole staging memrefs: the inputs at their blocks, the outputs at
    anything, the scratch at `sa`, `sc`. It runs to the continuation holding the inputs and the scratch as they
    were and each output at the canon of its two batch stores. -/
theorem sound_kernel1_rest (c : Dev nD) (E : Set ℕ) (i : grid1.Coords) (arg1 : Memref sig .tc .vmem S2x1024x256 .bf16) (harg1 : arg1.IsWhole) (arg2 : Memref sig .tc .vmem S2x1024x1024 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S16x1024x1 .f32) (harg5 : arg5.IsWhole) (arg6 : Memref sig .tc .vmem S16x1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S2x1024x256 .bf16) (harg9 : arg9.IsWhole) (arg10 : Memref sig .tc .vmem S2x1024x1 .f32) (harg10 : arg10.IsWhole) (arg11 : Memref sig .tc .vmem S2x1024x1 .f32) (harg11 : arg11.IsWhole) (arg12 : Memref sig .tc .vmem S1024x1 .f32) (harg12 : arg12.IsWhole) (arg13 : Memref sig .tc .vmem S1024x1 .f32) (harg13 : arg13.IsWhole)
    (hc : ¬ cond1_0 i) (x0 : Vec F S2x1024x256 .bf16) (x1 : Vec F S2x1024x1024 .f32) (x2 : Vec F S256x256 .f32) (x3 : Vec F S1x256 .f32)
    (x4 x5 : Vec F S16x1024x1 .f32) (x6 x7 : Vec F S1024x1 .f32) (sa sc : Vec F S1024x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ owns (c : Thread nD τ) arg12 fullShare sa ∗ owns (c : Thread nD τ) arg13 fullShare sc
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 sa sc)
            ∗ owns (c : Thread nD τ) arg10 fullShare (out1_9 x0 x1 x2 x3 sa sc)
            ∗ owns (c : Thread nD τ) arg11 fullShare (out1_10 x0 x1 x2 x3 sa sc)
            ∗ owns (c : Thread nD τ) arg12 fullShare sa ∗ owns (c : Thread nD τ) arg13 fullShare sc) -∗ K ⟨⟩))
      ⊢ wp frame (wpE (defs₀ (F := F)) Variants.none c none) E (cc1__k2 i arg1 harg1 arg2 harg2 arg3 harg3 arg4 harg4 arg5 harg5 arg6 harg6 arg7 harg7 arg8 harg8 arg9 harg9 arg10 harg10 arg11 harg11 arg12 harg12 arg13 harg13) K := by
  simp only [cc1__k2_eq_skeleton]; unfold cc1__k2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fa, %hfa, HA⟩, ⟨%fc, %hfc, HC⟩, Hk⟩
  subst hf0 hf1 hf2 hf3 hf4 hf5 hf6 hf7 hfa hfc
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover1_8 _ _)).trans ?_
    unfold out1_8
    first | (simp only [View.readAt_eq_ld, View.ld_unit_zero (S := S1024x1) hz2_1b]; done) | (simp only [View.readAt_eq_ld, View.ld_unit_zero (S := S1024x1) hz2_1b]; rfl) | fail "out8"
  isplitl [H9]
  · iexists _; isplitr
    swap; · iexact H9
    ipureintro
    refine (View.read_writes_eq_canon _ _ _ (cover1_9 _ _)).trans ?_
    unfold out1_9
    sl_unfold_run_names
    first | (simp only [View.readAt_eq_ld, View.ld_unit_zero (S := S1024x1) hz2_1b]; done) | (simp only [View.readAt_eq_ld, View.ld_unit_zero (S := S1024x1) hz2_1b]; rfl) | fail "out9"
  isplitl [H10]
  · iexists _; isplitr
    swap; · iexact H10
    ipureintro
    refine (View.read_writes_eq_canon _ _ _ (cover1_9 _ _)).trans ?_
    unfold out1_10
    sl_unfold_run_names
    first | (simp only [View.readAt_eq_ld, View.ld_unit_zero (S := S1024x1) hz2_1b]; done) | (simp only [View.readAt_eq_ld, View.ld_unit_zero (S := S1024x1) hz2_1b]; rfl) | fail "out10"
  isplitl [HA]
  · iexists fa; isplitr; · ipureintro; rfl
    iexact HA
  iexists fc; isplitr; · ipureintro; rfl
  iexact HC

end Cert.KernelIdeal.H

end
-- ==== Proof.K1.lean ====
/-
  The second layer's region: what every window's buffer holds after the body at each grid point, the invariant
  that carries the two scratch vectors from the first point to the later ones, and the body's obligation at
  every point.

  The scratch vectors (the per-node scale and shift of the first batch normalisation) are computed at the first
  point from the whole-array windows alone, so they are one pair of vectors for the whole region. Before the
  first point nothing is known of the scratch; after any point it holds that pair.
-/
import proofs.«160428_g88656714924069_cont_sun_m_1396_13_alg».proof.Proof.K1RunA
import proofs.«160428_g88656714924069_cont_sun_m_1396_13_alg».proof.Proof.K1RunB

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch vectors -/

/-- The per-node scale kept in scratch after the first point, from the whole-array windows' blocks there. -/
def scrA1 (c : Dev nD) : Vec F S1024x1 .f32 := scrA (iblk1 V c 4 t1_0) (iblk1 V c 5 t1_0) (iblk1 V c 6 t1_0)
/-- The per-node shift kept in scratch after the first point. -/
def scrC1 (c : Dev nD) : Vec F S1024x1 .f32 := scrC (iblk1 V c 4 t1_0) (iblk1 V c 5 t1_0) (iblk1 V c 6 t1_0) (iblk1 V c 7 t1_0)

/-- The two scratch operands: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1

/-- The core's scoped buffers that are neither a staging buffer of this region nor its two scratch operands. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The scoped rest split at the two scratch operands, each owned whole at some contents. -/
theorem scopedRest1_owns (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d)) ∗ restBut1 c) := by
  rw [show (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1])
    from Pipeline.scopedRest_split_of_list spec1 c [cc1_scratch0, cc1_scratch1] (by decide) (by decide)]
  simp only [scM1_0, scM1_1, owns_whole]; try rfl

/-- The invariant a region is entered with — the scoped rest and the generator register — with the two scratch
    operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 c) ∗ (∃ r, prngReg c r)) := by
  unfold Pipeline.ΦA; rw [scopedRest1_owns]

/-- The region's invariant before position `n`: before the first point the entry invariant (every scratch at anything);
    afterwards the two scratch operands at the scale and the shift, the other scoped buffers at anything, and the
    generator register at some state. -/
def PhiS1 (c : Dev nD) : ℕ → sProp 𝕄
  | 0 => Pipeline.ΦA spec1 c
  | _ + 1 => iprop(iprop(iprop(owns (c : Thread nD τ) scM1_0 fullShare (scrA1 V c) ∗ owns (c : Thread nD τ) scM1_1 fullShare (scrC1 V c)) ∗ restBut1 c) ∗ (∃ r, prngReg c r))

theorem PhiS1_zero (c : Dev nD) (n : ℕ) (hz : n = 0) : PhiS1 V c n = Pipeline.ΦA spec1 c := by
  subst hz; rfl

theorem PhiS1_succ (c : Dev nD) (n : ℕ) :
    PhiS1 V c (n + 1) = iprop(iprop(iprop(owns (c : Thread nD τ) scM1_0 fullShare (scrA1 V c) ∗ owns (c : Thread nD τ) scM1_1 fullShare (scrC1 V c)) ∗ restBut1 c) ∗ (∃ r, prngReg c r)) := rfl

theorem PhiS1_pos (c : Dev nD) (n : ℕ) (hz : n ≠ 0) :
    PhiS1 V c n = iprop(iprop(iprop(owns (c : Thread nD τ) scM1_0 fullShare (scrA1 V c) ∗ owns (c : Thread nD τ) scM1_1 fullShare (scrC1 V c)) ∗ restBut1 c) ∗ (∃ r, prngReg c r)) := by
  cases n with
  | zero => exact absurd rfl hz
  | succ n => rfl

/-! ## The pipeline's proof data -/

/-- The proof data of the region on core `c`: the arrays as the region finds them; after the body at point `t` each
    input's buffer at its block and each output's at the canon of its two batch stores over the input blocks and the
    two scratch vectors; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (scrA1 V c) (scrC1 V c)
    | ⟨9, _⟩ => out1_9 (iblk1 V c 0 t) (iblk1 V c 1 t) (iblk1 V c 2 t) (iblk1 V c 3 t) (scrA1 V c) (scrC1 V c)
    | ⟨10, _⟩ => out1_10 (iblk1 V c 0 t) (iblk1 V c 1 t) (iblk1 V c 2 t) (iblk1 V c 3 t) (scrA1 V c) (scrC1 V c)
  Φ k := PhiS1 V c k.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (scrA1 V c) (scrC1 V c) := by dsimp only [dat1]
theorem after1_9 (c : Dev nD) (t : Fin cfg1.N) : (dat1 V c).after 9 t = out1_9 (iblk1 V c 0 t) (iblk1 V c 1 t) (iblk1 V c 2 t) (iblk1 V c 3 t) (scrA1 V c) (scrC1 V c) := by dsimp only [dat1]
theorem after1_10 (c : Dev nD) (t : Fin cfg1.N) : (dat1 V c).after 10 t = out1_10 (iblk1 V c 0 t) (iblk1 V c 1 t) (iblk1 V c 2 t) (iblk1 V c 3 t) (scrA1 V c) (scrC1 V c) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- The invariant at a point's start and end, restated at the point's position. -/
theorem Phi1_castSucc (c : Dev nD) (t : Fin cfg1.N) : (dat1 V c).Φ t.castSucc = PhiS1 V c t.val := rfl
theorem Phi1_succ (c : Dev nD) (t : Fin cfg1.N) : (dat1 V c).Φ t.succ = PhiS1 V c (t.val + 1) := rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 4000000 in
/-- The body at any point: the inputs' memrefs hold their blocks; the closed form of the condition says whether the
    point is the first; at the first point the invariant hands the scratch at anything and takes it back at the
    scale and the shift, at a later point it hands them and takes them back unchanged; the other scoped buffers, the
    generator register and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10]
  rw [Phi1_succ, Phi1_castSucc, PhiS1_succ]
  have hN : t.val < 8 := lt_of_lt_of_eq t.isLt (show cfg1.N = 8 from N_1)
  by_cases h0 : t.val % 8 = 0
  · have ht : t = t1_0 := Fin.ext (by show t.val = 0; omega)
    rw [PhiS1_zero V c _ (by omega), PhiA1_eq]
    unfold scrA1 scrC1
    rw [← ht]
    iintro ⟨⟨⟨⟨⟨%da, HA⟩, ⟨%dc, HC⟩⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_first c Set.univ (grid1.coords t) _ _ _ _ _ _ _ _ _ _ _ _ _ _ _ _ _ _ _ _ _ _ _ _ _ _ ((hcond1_0 t).mpr h0)
      (iblk1 V c 0 t) (iblk1 V c 1 t) (iblk1 V c 2 t) (iblk1 V c 3 t) (iblk1 V c 4 t) (iblk1 V c 5 t) (iblk1 V c 6 t) (iblk1 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HA]; · iexists _; iexact HA
    isplitl [HC]; · iexists _; iexact HC
    iintro ⟨H0, H1, H2, H3, H4, H5, H6, H7, H8, H9, H10, HA, HC⟩
    isplitl [HA HC Hbut Hg]
    · isplitl [HA HC Hbut]
      · isplitl [HA HC]
        · isplitl [HA]; · iexact HA
          iexact HC
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiS1_pos V c _ (by omega)]
    iintro ⟨⟨⟨⟨HA, HC⟩, Hbut⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1_rest c Set.univ (grid1.coords t) _ _ _ _ _ _ _ _ _ _ _ _ _ _ _ _ _ _ _ _ _ _ _ _ _ _ (fun h => h0 ((hcond1_0 t).mp h))
      (iblk1 V c 0 t) (iblk1 V c 1 t) (iblk1 V c 2 t) (iblk1 V c 3 t) (iblk1 V c 4 t) (iblk1 V c 5 t) (iblk1 V c 6 t) (iblk1 V c 7 t) (scrA1 V c) (scrC1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HA]; · iexact HA
    isplitl [HC]; · iexact HC
    iintro ⟨H0, H1, H2, H3, H4, H5, H6, H7, H8, H9, H10, HA, HC⟩
    isplitl [HA HC Hbut Hg]
    · isplitl [HA HC Hbut]
      · isplitl [HA HC]
        · isplitl [HA]; · iexact HA
          iexact HC
        iexact Hbut
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the launch hands the region — the generator register, the scoped rest — is the invariant before the first
    point. -/
theorem hin1 (c : Dev nD) (P : sProp 𝕄) :
    iprop((∃ r, prngReg c r) ∗ P ∗ Pipeline.scopedRest (Ix := Unit) (Name := ℕ) (U := UR sig nD τ) (Lvl := ℕ) (Val := Elt F) spec1 c) ⊢ (dat1 V c).Φ 0 := by
  rw [show (dat1 V c).Φ 0 = Pipeline.ΦA spec1 c from rfl]; unfold Pipeline.ΦA
  iintro ⟨Hp, -, Hr⟩
  isplitl [Hr]; · iexact Hr
  iexact Hp

/-- After the last point the invariant gives the generator register and the scoped rest back: what the scratch
    holds is forgotten. -/
theorem hout1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS1 V c (Fin.last cfg1.N).val from rfl,
    PhiS1_pos V c _ (by rw [Fin.val_last]; have : cfg1.N = 8 := N_1; omega), scopedRest1_owns]
  iintro ⟨⟨⟨HA, HC⟩, Hbut⟩, Hg⟩
  isplitl [Hg]; · iexact Hg
  isplitl [HA HC]
  · isplitl [HA]
    · iexists _; iexact HA
    iexists _; iexact HC
  iexact Hbut

end Cert.KernelIdeal.H

end
-- ==== Proof.K2Run.lean ====
import proofs.«160428_g88656714924069_cont_sun_m_1396_13_alg».proof.Proof.Gen.KernelIdeal.Launch
import proofs.«160428_g88656714924069_cont_sun_m_1396_13_alg».proof.Proof.Gen.KernelIdeal.Skeleton
import proofs.«160428_g88656714924069_cont_sun_m_1396_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond2_0 (i : grid2.Coords) : Prop :=
  Scalar.cmpi .ne (Scalar.extui (Scalar.cmpi .eq (BitVec.ofNat 32 (i 0).val) 0#32)) 0#32 = 1#1

theorem hcond2_0 : ∀ t : Fin cfg2.N, cond2_0 (grid2.coords t) ↔ t.val % 2 = 0 :=
  (by decide +kernel : ∀ t : Fin grid2.N, cond2_0 (grid2.coords t) ↔ t.val % 2 = 0)

abbrev rX : Rect S8x1024x256 := Rect.unit (s := S8x1024x256) ![0, 0, 0] S8x1024x256.size inb_S8x1024x256_S8x1024x256_0_0_0
abbrev rS : Rect S16x1024x1 := Rect.unit (s := S16x1024x1) ![0, 0, 0] S16x1024x1.size inb_S16x1024x1_S16x1024x1_0_0_0
abbrev rN : Rect S1024x1 := Rect.unit (s := S1024x1) ![0, 0] S1024x1.size inb_S1024x1_S1024x1_0_0

/-! ## What the body leaves in its scratch and in the output window -/

/-- The per-node scale the first point stores into the first scratch: the store's payload over the loaded
    whole windows (batch sums, sums of squares, γ). -/
def sA2 (s q : Vec F S16x1024x1 .f32) (g : Vec F S1024x1 .f32) : Vec F S1024x1 .f32 :=
  View.canon [⟨rN, k2_pay3 (View.ld s rS) (View.ld q rS) (View.ld g rN)⟩]

/-- The per-node shift the first point stores into the second scratch (β enters here). -/
def sC2 (s q : Vec F S16x1024x1 .f32) (g b : Vec F S1024x1 .f32) : Vec F S1024x1 .f32 :=
  View.canon [⟨rN, k2_pay4 (View.ld s rS) (View.ld q rS) (View.ld g rN) (View.ld b rN)⟩]

/-- The output window's buffer after the body: the activations' block times the scale plus the shift, the two
    columns read from the scratch. -/
def out2_5 (x0 : Vec F S8x1024x256 .bf16) (a cc : Vec F S1024x1 .f32) : Vec F S8x1024x256 .f32 :=
  View.canon [⟨rX, k2_pay5 (View.ld x0 rX) (View.ld a rN) (View.ld cc rN)⟩]

/-- One whole-buffer store covers the buffer. -/
theorem coverN (p0 : Vec F S1024x1 .f32) (y : S1024x1.Idx) :
    ∃ pc ∈ ([⟨rN, p0⟩] : List (View.Piece (Elt F) S1024x1 .f32)), y ∈ pc.1.set :=
  ⟨_, List.mem_singleton_self _, View.mem_set_unit_zero (by funext a; fin_cases a <;> rfl) inb_S1024x1_S1024x1_0_0 y⟩

theorem coverX (p0 : Vec F S8x1024x256 .f32) (y : S8x1024x256.Idx) :
    ∃ pc ∈ ([⟨rX, p0⟩] : List (View.Piece (Elt F) S8x1024x256 .f32)), y ∈ pc.1.set :=
  ⟨_, List.mem_singleton_self _, View.mem_set_unit_zero (by funext a; fin_cases a <;> rfl) inb_S8x1024x256_S8x1024x256_0_0_0 y⟩

/-! ## The body's triple, case by case -/

set_option maxHeartbeats 1000000 in
/-- The first point (the branch taken): the whole windows are reduced into the two scratch columns, which are then
    read back for the normalisation. -/
theorem run2_A (c : Dev nD) (i : grid2.Coords)
    (arg1 : Memref sig .tc .vmem S8x1024x256 .bf16) (harg1 : arg1.IsWhole) (arg2 : Memref sig .tc .vmem S16x1024x1 .f32) (harg2 : arg2.IsWhole) (arg3 : Memref sig .tc .vmem S16x1024x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S8x1024x256 .f32) (harg6 : arg6.IsWhole) (arg7 : Memref sig .tc .vmem S1024x1 .f32) (harg7 : arg7.IsWhole) (arg8 : Memref sig .tc .vmem S1024x1 .f32) (harg8 : arg8.IsWhole)
    (hc0 : cond2_0 i)
    (x0 : Vec F S8x1024x256 .bf16) (s q : Vec F S16x1024x1 .f32) (g b : Vec F S1024x1 .f32) (E : Set ℕ) (K : PUnit → sProp 𝕄) :
    iprop(owns (c : Thread nD τ) arg1 fullShare x0 ∗ owns (c : Thread nD τ) arg2 fullShare s ∗ owns (c : Thread nD τ) arg3 fullShare q
        ∗ owns (c : Thread nD τ) arg4 fullShare g ∗ owns (c : Thread nD τ) arg5 fullShare b
        ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare s ∗ owns (c : Thread nD τ) arg3 fullShare q
            ∗ owns (c : Thread nD τ) arg4 fullShare g ∗ owns (c : Thread nD τ) arg5 fullShare b
            ∗ owns (c : Thread nD τ) arg6 fullShare (out2_5 x0 (sA2 s q g) (sC2 s q g b))
            ∗ owns (c : Thread nD τ) arg7 fullShare (sA2 s q g) ∗ owns (c : Thread nD τ) arg8 fullShare (sC2 s q g b)) -∗ K ⟨⟩))
      ⊢ wp frame (wpE (defs₀ (F := F)) Variants.none c none) E (cc2__k3 i arg1 harg1 arg2 harg2 arg3 harg3 arg4 harg4 arg5 harg5 arg6 harg6 arg7 harg7 arg8 harg8) K := by
  simp only [cc2__k3_eq_skeleton]; unfold cc2__k3_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1; subst hf2; subst hf3; subst hf4; subst hf5
  sl_exec (disch := first | exact hc0)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.readCov_eq_canon', View.readCov_eq_canon']
    exact View.read_writes_eq_canon _ _ _ (coverX _)
  isplitl [H7]
  · iexists _; isplitr
    swap; · iexact H7
    ipureintro
    sl_unfold_run_names
    exact View.read_writes_eq_canon _ _ _ (coverN _)
  iexists _; isplitr
  swap; · iexact H8
  ipureintro
  sl_unfold_run_names
  exact View.read_writes_eq_canon _ _ _ (coverN _)

set_option maxHeartbeats 1000000 in
/-- A later point (the branch not taken): the two scratch columns are only read. -/
theorem run2_B (c : Dev nD) (i : grid2.Coords)
    (arg1 : Memref sig .tc .vmem S8x1024x256 .bf16) (harg1 : arg1.IsWhole) (arg2 : Memref sig .tc .vmem S16x1024x1 .f32) (harg2 : arg2.IsWhole) (arg3 : Memref sig .tc .vmem S16x1024x1 .f32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S8x1024x256 .f32) (harg6 : arg6.IsWhole) (arg7 : Memref sig .tc .vmem S1024x1 .f32) (harg7 : arg7.IsWhole) (arg8 : Memref sig .tc .vmem S1024x1 .f32) (harg8 : arg8.IsWhole)
    (hc0 : ¬cond2_0 i)
    (x0 : Vec F S8x1024x256 .bf16) (a cc : Vec F S1024x1 .f32) (E : Set ℕ) (K : PUnit → sProp 𝕄) :
    iprop(owns (c : Thread nD τ) arg1 fullShare x0 ∗ (∃ d, owns (c : Thread nD τ) arg6 fullShare d)
        ∗ owns (c : Thread nD τ) arg7 fullShare a ∗ owns (c : Thread nD τ) arg8 fullShare cc
        ∗ (iprop(owns (c : Thread nD τ) arg1 fullShare x0 ∗ owns (c : Thread nD τ) arg6 fullShare (out2_5 x0 a cc)
             ∗ owns (c : Thread nD τ) arg7 fullShare a ∗ owns (c : Thread nD τ) arg8 fullShare cc) -∗ K ⟨⟩))
      ⊢ wp frame (wpE (defs₀ (F := F)) Variants.none c none) E (cc2__k3 i arg1 harg1 arg2 harg2 arg3 harg3 arg4 harg4 arg5 harg5 arg6 harg6 arg7 harg7 arg8 harg8) K := by
  simp only [cc2__k3_eq_skeleton]; unfold cc2__k3_skel
  unfold owns
  iintro ⟨⟨%f1, %hf1, H1⟩, ⟨%d6, %f6, -, H6⟩, ⟨%f7, %hf7, H7⟩, ⟨%f8, %hf8, H8⟩, Hk⟩
  subst hf1; subst hf7; subst hf8
  sl_exec (disch := first | exact hc0)
  sl_step
  iapply Hk
  isplitl [H1]
  · iexists f1; isplitr; · ipureintro; rfl
    iexact H1
  isplitl [H6]
  · iexists _; isplitr
    swap; · iexact H6
    ipureintro
    exact View.read_writes_eq_canon _ _ _ (coverX _)
  isplitl [H7]
  · iexists f7; isplitr; · ipureintro; rfl
    iexact H7
  iexists f8; isplitr; · ipureintro; rfl
  iexact H8

end Cert.KernelIdeal.H

end
-- ==== Proof.K2.lean ====
import proofs.«160428_g88656714924069_cont_sun_m_1396_13_alg».proof.Proof.K2Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third call: normalise the second layer

At its first point the body folds the layer's batch sums, sums of squares, γ and β into a per-node scale and
shift kept in two scratch columns; at every point it writes the activations' block times the scale plus the
shift. The scratch columns depend on the whole windows only, so they are one pair of columns for the whole
region, and every later point finds them where the first left them. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data with these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The scratch columns -/

/-- The per-node scale: what the first point stores into the first scratch, from the whole windows' blocks there. -/
def scrA2 (c : Dev nD) : Vec F S1024x1 .f32 :=
  sA2 (iblk2 V c 1 t2_0) (iblk2 V c 2 t2_0) (iblk2 V c 3 t2_0)

/-- The per-node shift: what the first point stores into the second scratch. -/
def scrC2 (c : Dev nD) : Vec F S1024x1 .f32 :=
  sC2 (iblk2 V c 1 t2_0) (iblk2 V c 2 t2_0) (iblk2 V c 3 t2_0) (iblk2 V c 4 t2_0)

/-- The two scratch operands: whole scoped buffers of the call's own. -/
abbrev scM2_0 : Memref sig .tc .vmem S1024x1 .f32 := Memref.whole cc2_scratch0
abbrev scM2_1 : Memref sig .tc .vmem S1024x1 .f32 := Memref.whole cc2_scratch1

/-- The class invariant with the two scratch operands as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

/-- The region's invariant before position `n`: before the first point the class's (every scratch at anything);
    afterwards the two scratch columns at the scale and the shift, the other scoped buffers at anything, the
    generator register at some state. -/
def Phi2 (c : Dev nD) : ℕ → sProp 𝕄
  | 0 => Pipeline.ΦA spec2 c
  | _ + 1 => iprop(iprop(iprop(owns (c : Thread nD τ) scM2_0 fullShare (scrA2 V c) ∗ owns (c : Thread nD τ) scM2_1 fullShare (scrC2 V c))
          ∗ Pipeline.scopedRestBut (Ix := Unit) (Name := ℕ) (U := UR sig nD τ) (Lvl := ℕ) (Val := Elt F) spec2 c [cc2_scratch0, cc2_scratch1])
          ∗ (∃ r, prngReg c r))

theorem Phi2_zero (c : Dev nD) : Phi2 V c 0 = Pipeline.ΦA spec2 c := rfl

theorem Phi2_succ (c : Dev nD) (n : ℕ) :
    Phi2 V c (n + 1) = iprop(iprop(iprop(owns (c : Thread nD τ) scM2_0 fullShare (scrA2 V c) ∗ owns (c : Thread nD τ) scM2_1 fullShare (scrC2 V c))
          ∗ Pipeline.scopedRestBut (Ix := Unit) (Name := ℕ) (U := UR sig nD τ) (Lvl := ℕ) (Val := Elt F) spec2 c [cc2_scratch0, cc2_scratch1])
          ∗ (∃ r, prngReg c r)) := rfl

/-! ## The pipeline's proof data -/

/-- The proof data of the call on core `c`: the arrays as the region finds them; after the body each input's
    buffer at its block and the output's at the block normalised by the region's scale and shift; the invariant
    carries the two scratch columns from the first point on; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (scrA2 V c) (scrC2 V c)
  Φ k := Phi2 V c k.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (scrA2 V c) (scrC2 V c) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Into and out of the invariant -/

/-- What the launch hands the region is the invariant before the first point. -/
theorem hin2 (c : Dev nD) (P : sProp 𝕄) :
    iprop((∃ r, prngReg c r) ∗ P ∗ Pipeline.scopedRest spec2 c) ⊢ (dat2 V c).Φ 0 := by
  rw [show (dat2 V c).Φ 0 = Pipeline.ΦA spec2 c from rfl]; unfold Pipeline.ΦA
  iintro ⟨Hp, -, Hr⟩
  isplitl [Hr]; · iexact Hr
  iexact Hp

/-- After the last point the scratch columns' contents are forgotten again. -/
theorem hout2 (c : Dev nD) :
    (dat2 V c).Φ (Fin.last cfg2.N) ⊢ iprop((∃ r, prngReg c r) ∗ Pipeline.scopedRest spec2 c) := by
  rw [show (dat2 V c).Φ (Fin.last cfg2.N) = Phi2 V c (1 + 1) from rfl, Phi2_succ, scopedRest2_split]
  simp only [scM2_0, scM2_1, owns_whole]
  iintro ⟨⟨⟨HS0, HS1⟩, Hrest⟩, Hg⟩
  isplitl [Hg]; · iexact Hg
  isplitl [HS0 HS1]
  · isplitl [HS0]
    · iexists _; iexact HS0
    iexists _; iexact HS1
  iexact Hrest

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 1600000 in
/-- The body at either point. At the first the invariant hands the body the two scratch columns at anything and takes
    them back at the scale and the shift; at the second it hands them over at the scale and the shift and takes
    them back unchanged, the whole windows passing by untouched. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl,
    after2_0, after2_1, after2_2, after2_3, after2_4, after2_5]
  rcases fin_N2 t with rfl | rfl
  · rw [show (dat2 V c).Φ t2_0.castSucc = Pipeline.ΦA spec2 c from rfl,
      show (dat2 V c).Φ t2_0.succ = Phi2 V c (0 + 1) from rfl, Phi2_succ, PhiA2_eq]
    unfold scrA2 scrC2
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (run2_A c (grid2.coords t2_0) _ _ _ _ _ _ _ _ _ _ _ _ _ _ _ _ ((hcond2_0 t2_0).mpr rfl)
      (iblk2 V c 0 t2_0) (iblk2 V c 1 t2_0) (iblk2 V c 2 t2_0) (iblk2 V c 3 t2_0) (iblk2 V c 4 t2_0) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dat2 V c).Φ t2_1.castSucc = Phi2 V c (0 + 1) from rfl,
      show (dat2 V c).Φ t2_1.succ = Phi2 V c (1 + 1) from rfl, Phi2_succ, Phi2_succ]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (run2_B c (grid2.coords t2_1) _ _ _ _ _ _ _ _ _ _ _ _ _ _ _ _ (fun h => absurd ((hcond2_0 t2_1).mp h) (by decide))
      (iblk2 V c 0 t2_1) (scrA2 V c) (scrC2 V c) Set.univ _)
    isplitl [H0]; · iexact H0
    isplitl [H5]; · iexists _; iexact H5
    isplitl [HS0]; · iexact HS0
    isplitl [HS1]; · iexact HS1
    iintro ⟨H0, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation2 (c : Dev nD) :
    BodyObligation (dat2 (F := F) V c) (defs₀ (F := F)) Variants.none () Set.univ := fun t => by
  rw [bigSep_W2, bigSep_W2]
  exact sound_body2 V c t

/-- info: 'Cert.KernelIdeal.H.body_obligation2' depends on axioms: [propext, Classical.choice, Quot.sound] -/
#guard_msgs in #print axioms body_obligation2

end Cert.KernelIdeal.H

end
-- ==== Proof.KRun.lean ====
/-
  The kernel program's run, assembled: @main is three host stretches (reshapes of the bias and of the four per-node
  vectors) alternating with three kernel regions. The contents of every unscoped buffer are followed from the launch
  to the return: a host stretch applies its operations; a region leaves each of its windows' arrays at what the
  pipeline's write-backs fold to and every other buffer as it found it. Every weakly fair execution terminates,
  without a fault, with every unscoped buffer at the last of these contents.
-/
import proofs.«160428_g88656714924069_cont_sun_m_1396_13_alg».proof.Proof.K0
import proofs.«160428_g88656714924069_cont_sun_m_1396_13_alg».proof.Proof.K1
import proofs.«160428_g88656714924069_cont_sun_m_1396_13_alg».proof.Proof.K2

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0
/-- What rides beside the buffers: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-- Region 0's invariant is the scoped rest beside the generator register at every point. -/
theorem hin0 (V : (c : Dev nD) → (b : Ref sig .tc) → Buf (Elt F) ((c : Thread nD τ).loc b)) (c : Dev nD) (P : sProp 𝕄) :
    iprop((∃ r, prngReg c r) ∗ P ∗ Pipeline.scopedRest spec0 c) ⊢ (dat0 V c).Φ 0 := by
  rw [show (dat0 V c).Φ 0 = Pipeline.ΦA spec0 c from rfl]; unfold Pipeline.ΦA
  iintro ⟨Hp, -, Hr⟩
  isplitl [Hr]; · iexact Hr
  iexact Hp
theorem hout0 (V : (c : Dev nD) → (b : Ref sig .tc) → Buf (Elt F) ((c : Thread nD τ).loc b)) (c : Dev nD) :
    (dat0 V c).Φ (Fin.last cfg0.N) ⊢ iprop((∃ r, prngReg c r) ∗ Pipeline.scopedRest spec0 c) := by
  rw [show (dat0 V c).Φ (Fin.last cfg0.N) = Pipeline.ΦA spec0 c from rfl]; unfold Pipeline.ΦA
  iintro ⟨Hr, Hp⟩
  isplitl [Hp]; · iexact Hp
  iexact Hr

/-! ## The regions as segments -/

set_option backward.isDefEq.respectTransparency.types false in
/-- Region 0 as a segment: entered with every unscoped buffer at the contents before it, left with the region's arrays at
    what its write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    exact hin0 (V1 m) c _
  hout c := by
    rw [Pipeline.ownSems0_none, show (pdats m 0 c).Φ (Fin.last _) = (dat0 (V1 m) c).Φ (Fin.last cfg0.N) from rfl]
    refine (hout0 (V1 m) c).trans ?_
    iintro ⟨Hr, Hp⟩
    isplitl [Hr]; · iexact Hr
    isplitr; · iempintro
    iexact Hp
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's arrays at
    what its write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    exact hin1 (V3 m) c _
  hout c := by
    rw [Pipeline.ownSems0_none, show (pdats m 1 c).Φ (Fin.last _) = (dat1 (V3 m) c).Φ (Fin.last cfg1.N) from rfl]
    refine (hout1 (V3 m) c).trans ?_
    iintro ⟨Hr, Hp⟩
    isplitl [Hr]; · iexact Hr
    isplitr; · iempintro
    iexact Hp
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with the region's arrays at
    what its write-backs leave and every other buffer as entered. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    exact hin2 (V5 m) c _
  hout c := by
    rw [Pipeline.ownSems0_none, show (pdats m 2 c).Φ (Fin.last _) = (dat2 (V5 m) c).Φ (Fin.last cfg2.N) from rfl]
    refine (hout2 (V5 m) c).trans ?_
    iintro ⟨Hr, Hp⟩
    isplitl [Hr]; · iexact Hr
    isplitr; · iempintro
    iexact Hp
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of @main terminates, nothing faulting, with every unscoped buffer of every core at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.H

end
-- ==== Proof.KArgs.lean ====
/-
  The argument arrays end as launched, and the result array ends at what the last region's write-backs fold to.
  No host stretch writes an argument (each reshapes one into a fresh buffer), and a region reads an argument only
  through an input window, whose array the pipeline leaves as it found it; so each argument's buffer, followed back
  through the six boundaries, holds its launch contents.
-/
import proofs.«160428_g88656714924069_cont_sun_m_1396_13_alg».proof.Proof.KRun

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := (W4_arr m c 1).trans (((dat1 (V3 m) c).arrAt_in 1 rfl _).trans (A_eq1 (V3 m) c 1))
    _ = W2 m c (Proc.devRef .tc main_arg1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := (W2_arr m c 2).trans (((dat0 (V1 m) c).arrAt_in 2 rfl _).trans (A_eq0 (V1 m) c 2))
    _ = W0 m c (Proc.devRef .tc main_arg2) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := (W4_arr m c 2).trans (((dat1 (V3 m) c).arrAt_in 2 rfl _).trans (A_eq1 (V3 m) c 2))
    _ = W2 m c (Proc.devRef .tc main_arg4) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg6) := W2_of_ne m c main_arg6 (by decide)
    _ = W0 m c (Proc.devRef .tc main_arg6) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_of_ne m c main_arg7 (by decide)
    _ = W4 m c (Proc.devRef .tc main_arg7) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg7) := W4_of_ne m c main_arg7 (by decide)
    _ = W2 m c (Proc.devRef .tc main_arg7) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg7) := W2_of_ne m c main_arg7 (by decide)
    _ = W0 m c (Proc.devRef .tc main_arg7) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_of_ne m c main_arg8 (by decide)
    _ = W4 m c (Proc.devRef .tc main_arg8) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg8) := W4_of_ne m c main_arg8 (by decide)
    _ = W2 m c (Proc.devRef .tc main_arg8) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg8) := W2_of_ne m c main_arg8 (by decide)
    _ = W0 m c (Proc.devRef .tc main_arg8) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg9) := W4_of_ne m c main_arg9 (by decide)
    _ = W2 m c (Proc.devRef .tc main_arg9) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg9) := W2_of_ne m c main_arg9 (by decide)
    _ = W0 m c (Proc.devRef .tc main_arg9) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The result array is output window 5 of the last region. -/
theorem W6_main_v0 (c : Dev nD) : W6 m c (Proc.devRef .tc main_v0) = (dat2 (V5 m) c).arrAt 5 cfg2.N :=
  W6_arr m c 5

/-- Every weakly fair execution of @main terminates, nothing faulting; the result array holds the last region's folded
    write-backs and every argument array its launch contents. -/
theorem run_frame : θ_run defs (onTc (τ := τ) (main (F := F))) ⟨m, fun _ => 0, ρ⟩ (fun r => ∀ c : Dev nD,
      r.2.mem ((c.tc : Thread nD τ).loc main_v0) = (dat2 (V5 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v0 (by decide))).trans (W6_main_v0 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c)⟩)
    (run_all m ρ)

end Cert.KernelIdeal.H

end
-- ==== Proof.KHost.lean ====
/-
  What each region's windows hold when the region is entered. The host stretches only reshape: the bias vectors
  [256] as rows [1,256], the per-node vectors [1024] as columns [1024,1]; every other buffer passes through them. So
  region 0 is entered with x, adj, W1 as launched and the row of b1; region 1 with region 0's three outputs, adj and
  W2 as launched, the row of b2 and the columns of γ1, β1; region 2 with region 1's three outputs and the columns of
  γ2, β2.
-/
import proofs.«160428_g88656714924069_cont_sun_m_1396_13_alg».proof.Proof.KArgs
import Idealize.ShloMosaic.Lib.StableHlo.Run

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The host stretches, over any contents -/

section Host
variable (W : Valuation τ sig (Elt F))

theorem host0_arg0 : StableHlo.after hostOps0 W (Proc.devRef .tc main_arg0) = W (Proc.devRef .tc main_arg0) := by after_results
theorem host0_arg1 : StableHlo.after hostOps0 W (Proc.devRef .tc main_arg1) = W (Proc.devRef .tc main_arg1) := by after_results
theorem host0_arg2 : StableHlo.after hostOps0 W (Proc.devRef .tc main_arg2) = W (Proc.devRef .tc main_arg2) := by after_results
theorem host0_row : (StableHlo.after hostOps0 W (Proc.devRef .tc main_call0_v0) : S1x256.Idx → Elt F .f32)
    = shapeCast S1x256 (W (Proc.devRef .tc main_arg3) : Vec F S256 .f32) shapeCasts_S256_S1x256 := by after_results; rfl

theorem host1_y : StableHlo.after hostOps1 W (Proc.devRef .tc main_call0_v1_0) = W (Proc.devRef .tc main_call0_v1_0) := by after_results
theorem host1_s : StableHlo.after hostOps1 W (Proc.devRef .tc main_call0_v1_1) = W (Proc.devRef .tc main_call0_v1_1) := by after_results
theorem host1_q : StableHlo.after hostOps1 W (Proc.devRef .tc main_call0_v1_2) = W (Proc.devRef .tc main_call0_v1_2) := by after_results
theorem host1_arg1 : StableHlo.after hostOps1 W (Proc.devRef .tc main_arg1) = W (Proc.devRef .tc main_arg1) := by after_results
theorem host1_arg4 : StableHlo.after hostOps1 W (Proc.devRef .tc main_arg4) = W (Proc.devRef .tc main_arg4) := by after_results
theorem host1_row : (StableHlo.after hostOps1 W (Proc.devRef .tc main_call0_v2) : S1x256.Idx → Elt F .f32)
    = shapeCast S1x256 (W (Proc.devRef .tc main_arg5) : Vec F S256 .f32) shapeCasts_S256_S1x256 := by after_results; rfl
theorem host1_gamma : (StableHlo.after hostOps1 W (Proc.devRef .tc main_call0_v3) : S1024x1.Idx → Elt F .f32)
    = shapeCast S1024x1 (W (Proc.devRef .tc main_arg6) : Vec F S1024 .f32) shapeCasts_S1024_S1024x1 := by after_results; rfl
theorem host1_beta : (StableHlo.after hostOps1 W (Proc.devRef .tc main_call0_v4) : S1024x1.Idx → Elt F .f32)
    = shapeCast S1024x1 (W (Proc.devRef .tc main_arg7) : Vec F S1024 .f32) shapeCasts_S1024_S1024x1 := by after_results; rfl

theorem host2_y : StableHlo.after hostOps2 W (Proc.devRef .tc main_call0_v5_0) = W (Proc.devRef .tc main_call0_v5_0) := by after_results
theorem host2_s : StableHlo.after hostOps2 W (Proc.devRef .tc main_call0_v5_1) = W (Proc.devRef .tc main_call0_v5_1) := by after_results
theorem host2_q : StableHlo.after hostOps2 W (Proc.devRef .tc main_call0_v5_2) = W (Proc.devRef .tc main_call0_v5_2) := by after_results
theorem host2_gamma : (StableHlo.after hostOps2 W (Proc.devRef .tc main_call0_v6) : S1024x1.Idx → Elt F .f32)
    = shapeCast S1024x1 (W (Proc.devRef .tc main_arg8) : Vec F S1024 .f32) shapeCasts_S1024_S1024x1 := by after_results; rfl
theorem host2_beta : (StableHlo.after hostOps2 W (Proc.devRef .tc main_call0_v7) : S1024x1.Idx → Elt F .f32)
    = shapeCast S1024x1 (W (Proc.devRef .tc main_arg9) : Vec F S1024 .f32) shapeCasts_S1024_S1024x1 := by after_results; rfl

end Host

/-! ## An argument followed back from an inner boundary to the launch -/

theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_main_arg6 (c : Dev nD) : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_main_arg7 (c : Dev nD) : W2 m c (Proc.devRef .tc main_arg7) = m ((c : Thread nD τ).loc main_arg7) :=
  calc W2 m c (Proc.devRef .tc main_arg7)
    _ = W1 m c (Proc.devRef .tc main_arg7) := W2_of_ne m c main_arg7 (by decide)
    _ = W0 m c (Proc.devRef .tc main_arg7) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg8) := W2_of_ne m c main_arg8 (by decide)
    _ = W0 m c (Proc.devRef .tc main_arg8) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg9) := W2_of_ne m c main_arg9 (by decide)
    _ = W0 m c (Proc.devRef .tc main_arg9) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## Region 0's entry -/

theorem V1_x (c : Dev nD) : V1 m c main_arg0 = m ((c : Thread nD τ).loc main_arg0) := host0_arg0 (W0 m c)
theorem V1_adj (c : Dev nD) : V1 m c main_arg1 = m ((c : Thread nD τ).loc main_arg1) := host0_arg1 (W0 m c)
theorem V1_w (c : Dev nD) : V1 m c main_arg2 = m ((c : Thread nD τ).loc main_arg2) := host0_arg2 (W0 m c)
theorem V1_row (c : Dev nD) : (V1 m c main_call0_v0 : S1x256.Idx → Elt F .f32)
    = shapeCast S1x256 (m ((c : Thread nD τ).loc main_arg3) : Vec F S256 .f32) shapeCasts_S256_S1x256 := host0_row (W0 m c)

/-! ## Region 1's entry -/

theorem V3_y (c : Dev nD) : V3 m c main_call0_v1_0 = (dat0 (V1 m) c).arrAt 4 cfg0.N := (host1_y (W2 m c)).trans (W2_arr m c 4)
theorem V3_s (c : Dev nD) : V3 m c main_call0_v1_1 = (dat0 (V1 m) c).arrAt 5 cfg0.N := (host1_s (W2 m c)).trans (W2_arr m c 5)
theorem V3_q (c : Dev nD) : V3 m c main_call0_v1_2 = (dat0 (V1 m) c).arrAt 6 cfg0.N := (host1_q (W2 m c)).trans (W2_arr m c 6)
theorem V3_adj (c : Dev nD) : V3 m c main_arg1 = m ((c : Thread nD τ).loc main_arg1) := (host1_arg1 (W2 m c)).trans (W2_main_arg1 m c)
theorem V3_w (c : Dev nD) : V3 m c main_arg4 = m ((c : Thread nD τ).loc main_arg4) := (host1_arg4 (W2 m c)).trans (W2_main_arg4 m c)
theorem V3_row (c : Dev nD) : (V3 m c main_call0_v2 : S1x256.Idx → Elt F .f32)
    = shapeCast S1x256 (m ((c : Thread nD τ).loc main_arg5) : Vec F S256 .f32) shapeCasts_S256_S1x256 := by
  rw [← W2_main_arg5 m c]; exact host1_row (W2 m c)
theorem V3_gamma (c : Dev nD) : (V3 m c main_call0_v3 : S1024x1.Idx → Elt F .f32)
    = shapeCast S1024x1 (m ((c : Thread nD τ).loc main_arg6) : Vec F S1024 .f32) shapeCasts_S1024_S1024x1 := by
  rw [← W2_main_arg6 m c]; exact host1_gamma (W2 m c)
theorem V3_beta (c : Dev nD) : (V3 m c main_call0_v4 : S1024x1.Idx → Elt F .f32)
    = shapeCast S1024x1 (m ((c : Thread nD τ).loc main_arg7) : Vec F S1024 .f32) shapeCasts_S1024_S1024x1 := by
  rw [← W2_main_arg7 m c]; exact host1_beta (W2 m c)

/-! ## Region 2's entry -/

theorem V5_y (c : Dev nD) : V5 m c main_call0_v5_0 = (dat1 (V3 m) c).arrAt 8 cfg1.N := (host2_y (W4 m c)).trans (W4_arr m c 8)
theorem V5_s (c : Dev nD) : V5 m c main_call0_v5_1 = (dat1 (V3 m) c).arrAt 9 cfg1.N := (host2_s (W4 m c)).trans (W4_arr m c 9)
theorem V5_q (c : Dev nD) : V5 m c main_call0_v5_2 = (dat1 (V3 m) c).arrAt 10 cfg1.N := (host2_q (W4 m c)).trans (W4_arr m c 10)
theorem V5_gamma (c : Dev nD) : (V5 m c main_call0_v6 : S1024x1.Idx → Elt F .f32)
    = shapeCast S1024x1 (m ((c : Thread nD τ).loc main_arg8) : Vec F S1024 .f32) shapeCasts_S1024_S1024x1 := by
  rw [← W4_main_arg8 m c]; exact host2_gamma (W4 m c)
theorem V5_beta (c : Dev nD) : (V5 m c main_call0_v7 : S1024x1.Idx → Elt F .f32)
    = shapeCast S1024x1 (m ((c : Thread nD τ).loc main_arg9) : Vec F S1024 .f32) shapeCasts_S1024_S1024x1 := by
  rw [← W4_main_arg9 m c]; exact host2_beta (W4 m c)

end Cert.KernelIdeal.H

end
-- ==== Proof.Spec.lean ====
/-
  The mathematics both programs compute, stated once over plain coordinates on the extended reals.

  A dense graph-convolution layer followed by a per-node batch normalisation, twice:
    y   = max (adj · (x · W) + b) 0                         (per batch p, node n, channel d)
    h   = BN(y; γ, β), the statistics of node n taken over all batches p and channels d (16 · 256 = 4096 entries).
  The two programs spell BN differently.
  * Running-sums form (`bnK`): mean = (Σ_p Σ_d y) · 2⁻¹², var = (Σ_p Σ_d y²) · 2⁻¹² − mean², a = γ · rsqrt (var + ε),
    c = β − mean · a, h = y · a + c.
  * Two-pass form (`bnR`): mean = (Σ_p Σ_d y) / 4096, var = (Σ_p Σ_d (y − mean)²) / (4096 − 0),
    h = (y − mean) · rsqrt (var + ε) · γ + β.
  On real (finite) entries the two agree: E[y²] − E[y]² = E[(y − E[y])²], 2⁻¹² = 1/4096, and a real factor distributes.
-/
import Idealize.ShloMosaic.PureOps.Ideal

noncomputable section

namespace Cert.Spec

open Idealize.ShloMosaic

/-- Activations: batch, node, channel. -/
abbrev Act : Type := Fin 16 → Fin 1024 → Fin 256 → EReal
/-- Adjacency: batch, node, node. -/
abbrev Adj : Type := Fin 16 → Fin 1024 → Fin 1024 → EReal
/-- A weight matrix: channel in, channel out. -/
abbrev Mat : Type := Fin 256 → Fin 256 → EReal
/-- A per-channel vector (a bias). -/
abbrev ChanVec : Type := Fin 256 → EReal
/-- A per-node vector (γ, β, a mean, a variance). -/
abbrev NodeVec : Type := Fin 1024 → EReal

/-- The f32 word of ε = 1e-5 both programs add to the variance. -/
abbrev eps : EReal := Ideal.ofBits .f32 0x3727C5AC#32
/-- The f32 word 2⁻¹² the running-sums form multiplies by. -/
abbrev inv4096 : EReal := Ideal.ofBits .f32 0x39800000#32
/-- The f32 word 4096 the two-pass form divides by. -/
abbrev n4096 : EReal := Ideal.ofBits .f32 0x45800000#32
/-- The f32 word 0. -/
abbrev zero32 : EReal := Ideal.ofBits .f32 0x00000000#32

/-- One dense graph-convolution layer, clamped at zero: `max (Σ_k adj[p,n,k] · (Σ_c x[p,k,c] · W[c,d]) + b[d]) 0`. -/
def conv (x : Act) (adj : Adj) (W : Mat) (b : ChanVec) : Act :=
  fun p n d => max ((∑ k : Fin 1024, adj p n k * (∑ c : Fin 256, x p k c * W c d)) + b d) zero32

/-- Node `n`'s sum over batches of the per-batch channel sums. -/
def sumPD (y : Act) (n : Fin 1024) : EReal := ∑ p : Fin 16, ∑ d : Fin 256, y p n d
/-- Node `n`'s sum over batches of the per-batch channel sums of squares. -/
def sumSqPD (y : Act) (n : Fin 1024) : EReal := ∑ p : Fin 16, ∑ d : Fin 256, y p n d * y p n d

/-! ### Running-sums form -/
def meanK (y : Act) : NodeVec := fun n => sumPD y n * inv4096
def varK (y : Act) : NodeVec := fun n => sumSqPD y n * inv4096 - meanK y n * meanK y n
def scaleK (y : Act) (γ : NodeVec) : NodeVec := fun n => γ n * Ideal.rsqrt (varK y n + eps)
def shiftK (y : Act) (γ β : NodeVec) : NodeVec := fun n => β n - meanK y n * scaleK y γ n
def bnK (y : Act) (γ β : NodeVec) : Act := fun p n d => y p n d * scaleK y γ n + shiftK y γ β n

/-! ### Two-pass form -/
def meanR (y : Act) : NodeVec := fun n => Ideal.div (sumPD y n) n4096
def varR (y : Act) : NodeVec := fun n =>
  Ideal.div (∑ p : Fin 16, ∑ d : Fin 256, (y p n d - meanR y n) * (y p n d - meanR y n)) (n4096 - zero32)
def bnR (y : Act) (γ β : NodeVec) : Act := fun p n d =>
  (y p n d - meanR y n) * Ideal.rsqrt (varR y n + eps) * γ n + β n

/-- The whole network in the running-sums form. -/
def netK (x : Act) (adj : Adj) (W1 : Mat) (b1 : ChanVec) (W2 : Mat) (b2 : ChanVec) (γ1 β1 γ2 β2 : NodeVec) : Act :=
  bnK (conv (bnK (conv x adj W1 b1) γ1 β1) adj W2 b2) γ2 β2
/-- The whole network in the two-pass form. -/
def netR (x : Act) (adj : Adj) (W1 : Mat) (b1 : ChanVec) (W2 : Mat) (b2 : ChanVec) (γ1 β1 γ2 β2 : NodeVec) : Act :=
  bnR (conv (bnR (conv x adj W1 b1) γ1 β1) adj W2 b2) γ2 β2

/-- Every entry a real number. -/
def RealAct (y : Act) : Prop := ∀ p n d, ∃ r : ℝ, y p n d = (r : EReal)
def RealAdj (a : Adj) : Prop := ∀ p n k, ∃ r : ℝ, a p n k = (r : EReal)
def RealMat (W : Mat) : Prop := ∀ c d, ∃ r : ℝ, W c d = (r : EReal)
def RealChan (b : ChanVec) : Prop := ∀ d, ∃ r : ℝ, b d = (r : EReal)
def RealNode (g : NodeVec) : Prop := ∀ n, ∃ r : ℝ, g n = (r : EReal)

end Cert.Spec

end
-- ==== Proof.SpecIdx.lean ====
/-
  Arrays and coordinates: an array of a literal shape is a function of that shape's index; the specification speaks of
  plain coordinates. These are the two readings of one array, and the round trip.
-/
import Idealize.ShloMosaic.Lib.ValueIdx
import proofs.«160428_g88656714924069_cont_sun_m_1396_13_alg».proof.Proof.Spec

noncomputable section

namespace Cert.Spec

open Idealize.ShloMosaic Idealize.ShloMosaic.ValueIdx

abbrev SAct : Shape := ⟨3, ![16, 1024, 256]⟩
abbrev SAdj : Shape := ⟨3, ![16, 1024, 1024]⟩
abbrev SMat : Shape := ⟨2, ![256, 256]⟩
abbrev SChan : Shape := ⟨1, ![256]⟩
abbrev SNode : Shape := ⟨1, ![1024]⟩

/-- An activation array read at coordinates. -/
def actOf (v : SAct.Idx → EReal) : Act := fun p n d => v (ix3 p n d)
/-- An adjacency array read at coordinates. -/
def adjOf (v : SAdj.Idx → EReal) : Adj := fun p n k => v (ix3 p n k)
/-- A weight matrix read at coordinates. -/
def matOf (v : SMat.Idx → EReal) : Mat := fun c d => v (ix2 c d)
/-- A per-channel vector read at its coordinate. -/
def chanOf (v : SChan.Idx → EReal) : ChanVec := fun d => v (ix1 d)
/-- A per-node vector read at its coordinate. -/
def nodeOf (v : SNode.Idx → EReal) : NodeVec := fun n => v (ix1 n)

/-- A function of coordinates as an array. -/
def arrOf (a : Act) : SAct.Idx → EReal := fun i => a (i 0) (i 1) (i 2)

theorem arrOf_ix3 (a : Act) (p : Fin 16) (n : Fin 1024) (d : Fin 256) : arrOf a (ix3 p n d) = a p n d := rfl

theorem arrOf_actOf (v : SAct.Idx → EReal) : arrOf (actOf v) = v := by
  funext i; exact (congrArg v (eq_ix3 i)).symm

/-- Two arrays are equal when they agree at every triple of coordinates. -/
theorem arr_ext {u v : SAct.Idx → EReal} (h : ∀ p n d, u (ix3 p n d) = v (ix3 p n d)) : u = v := by
  funext i; exact (congrArg u (eq_ix3 i)).trans ((h _ _ _).trans (congrArg v (eq_ix3 i)).symm)

end Cert.Spec

end
-- ==== Proof.SpecK.lean ====
/-
  The running-sums form, cut where the three kernel regions cut it. A region hands the next one the activations y
  together with, per batch p and node n, the channel sum S p n = Σ_d y p n d and the channel sum of squares
  Q p n = Σ_d y p n d². The next region reduces these over the batch, folds γ and β into a per-node scale and shift,
  and applies them: y · a + c. Put together this is `bnK`, by unfolding.
-/
import proofs.«160428_g88656714924069_cont_sun_m_1396_13_alg».proof.Proof.SpecIdx

noncomputable section

namespace Cert.Spec

open Idealize.ShloMosaic Idealize.ShloMosaic.ValueIdx

/-- Per-batch, per-node partial sums. -/
abbrev Part : Type := Fin 16 → Fin 1024 → EReal

def partS (y : Act) : Part := fun p n => ∑ d : Fin 256, y p n d
def partQ (y : Act) : Part := fun p n => ∑ d : Fin 256, y p n d * y p n d
def meanP (S : Part) : NodeVec := fun n => (∑ p : Fin 16, S p n) * inv4096
def varP (S Q : Part) : NodeVec := fun n => (∑ p : Fin 16, Q p n) * inv4096 - meanP S n * meanP S n
def scaleP (S Q : Part) (γ : NodeVec) : NodeVec := fun n => γ n * Ideal.rsqrt (varP S Q n + eps)
def shiftP (S Q : Part) (γ β : NodeVec) : NodeVec := fun n => β n - meanP S n * scaleP S Q γ n
/-- A per-node scale and shift applied to every batch and channel. -/
def affine (y : Act) (a c : NodeVec) : Act := fun p n d => y p n d * a n + c n

theorem bnK_eq_affine (y : Act) (γ β : NodeVec) :
    bnK y γ β = affine y (scaleP (partS y) (partQ y) γ) (shiftP (partS y) (partQ y) γ β) := rfl

abbrev SPart : Shape := ⟨3, ![16, 1024, 1]⟩
abbrev SCol : Shape := ⟨2, ![1024, 1]⟩
abbrev SRow : Shape := ⟨2, ![1, 256]⟩

/-- A [16,1024,1] array of partial sums read at coordinates. -/
def partOf (v : SPart.Idx → EReal) : Part := fun p n => v (ix3 p n 0)
/-- A [1024,1] column read at its node. -/
def colOf (v : SCol.Idx → EReal) : NodeVec := fun n => v (ix2 n 0)
/-- A [1,256] row read at its channel. -/
def rowOf (v : SRow.Idx → EReal) : ChanVec := fun d => v (ix2 0 d)
/-- Partial sums as a [16,1024,1] array. -/
def partArr (P : Part) : SPart.Idx → EReal := fun i => P (i 0) (i 1)

theorem actOf_arrOf (a : Act) : actOf (arrOf a) = a := rfl
theorem partOf_partArr (P : Part) : partOf (partArr P) = P := rfl

end Cert.Spec

end
-- ==== Proof.LibUnitAxis.lean ====
/-
  Casts and broadcasts across a unit axis, read at an index, at any extents.

  A `keepdims` reduction leaves a unit axis behind, and a row-wise statistic is spread back over its row through one:
  a matrix `[a, b]` is viewed as `[a, 1, b]` and back, a vector `[a]` as the column `[a, 1]`, and a unit axis is
  broadcast over many. A cast keeps every element's row-major position, and a unit axis contributes nothing to it;
  a broadcast reads the operand at the same coordinates, except 0 on each unit axis. The five forms below are stated
  over the literal-size index constructors `ix1 … ix3`, so that they fire on indices built from coordinates.
-/
import Idealize.ShloMosaic.Lib.Pipeline.Value
import Idealize.ShloMosaic.Lib.ValueIdx
import Idealize.ShloMosaic.Lib.ValueLayout
noncomputable section
open Idealize.ShloMosaic Idealize.ShloMosaic.ValueIdx
namespace Cert.Lib.UnitAxis

/-! ## The five forms

A matrix viewed with a unit middle axis and back, a vector viewed as one column, and a unit axis broadcast over
many. Each is a statement about row-major positions (a cast) or about which coordinates are kept (a broadcast). -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array broadcast to `[a, m, b]` reads, at `(p, q, c)`, the operand at `(p, 0, c)`. -/
theorem broadcastTo_a1b_amb_apply {a m b : ℕ} (v : (⟨3, ![a, 1, b]⟩ : Shape).Idx → α)
    (h : (⟨3, ![a, 1, b]⟩ : Shape).Broadcasts ⟨3, ![a, m, b]⟩) (p : Fin a) (q : Fin m) (c : Fin b) :
    broadcastTo ⟨3, ![a, m, b]⟩ v h (ix3 p q c) = v (ix3 p (0 : Fin 1) c) := by
  refine broadcastTo_apply v h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

end Layout

end Cert.Lib.UnitAxis

end
-- ==== Proof.KNet.lean ====
/-
  The kernel side's composition: the three regions' whole-array results, chained through the host's reshapes, are the
  running-sums network of the launch arguments read at coordinates.

  Region 0 leaves the clamped convolution y₁ of the launch arguments together with its per-batch channel sums and sums
  of squares. Region 1 is entered with these, folds them with γ₁ and β₁ into a per-node scale and shift, applies them,
  and leaves the clamped convolution y₂ of the result with its own partial sums. Region 2 is entered with these, folds
  them with γ₂ and β₂ and applies the scale and shift. Between the regions the host only reshapes: a bias [256] as the
  row [1, 256], a per-node vector [1024] as the column [1024, 1]. A scale and shift folded from a layer's own partial
  sums is that layer's batch normalisation in the running-sums form, so the chain is the running-sums network.
-/
import proofs.«160428_g88656714924069_cont_sun_m_1396_13_alg».proof.Proof.KHost
import proofs.«160428_g88656714924069_cont_sun_m_1396_13_alg».proof.Proof.SpecK
import proofs.«160428_g88656714924069_cont_sun_m_1396_13_alg».proof.Proof.LibUnitAxis
import Idealize.ShloMosaic.Lib.ValueLayout

set_option maxRecDepth 16384

noncomputable section

namespace Cert.KernelIdeal.H

open Cert.KernelIdeal Cert.KernelIdeal.Gen Cert.Spec
open Idealize.ShloMosaic Idealize.ShloMosaic.TcCoe Idealize.ShloMosaic.ValueIdx
open Idealize.ShloMosaic.Pipeline (Dat Cfg Window)

/-! ## The two reshapes read at coordinates -/

/-- A vector [256] reshaped to the row [1, 256], read as a row, is the vector read as a vector. -/
theorem rowOf_shapeCast (v : (⟨1, ![256]⟩ : Shape).Idx → EReal)
    (h : (⟨1, ![256]⟩ : Shape).ShapeCasts ⟨2, ![1, 256]⟩) :
    rowOf (shapeCast ⟨2, ![1, 256]⟩ v h) = chanOf v :=
  funext fun d => shapeCast_a_1a_apply v h 0 d

/-- A vector [1024] reshaped to the column [1024, 1], read as a column, is the vector read as a vector. -/
theorem colOf_shapeCast (v : (⟨1, ![1024]⟩ : Shape).Idx → EReal)
    (h : (⟨1, ![1024]⟩ : Shape).ShapeCasts ⟨2, ![1024, 1]⟩) :
    colOf (shapeCast ⟨2, ![1024, 1]⟩ v h) = nodeOf v :=
  funext fun n => Cert.Lib.UnitAxis.shapeCast_a_a1_apply v h n 0

/-! ## The composition -/

/-- The three regions' whole-array results, chained, are the running-sums network of the launch arguments. -/
theorem net_of_arrays (m : (ℓ : Loc nD τ sig) → Buf (Elt Ideal) ℓ) (c : Dev nD)
    (h0y : (dat0 (F := Ideal) (V1 m) c).arrAt 4 cfg0.N = arrOf (conv (actOf (V1 m c main_arg0)) (adjOf (V1 m c main_arg1)) (matOf (V1 m c main_arg2)) (rowOf (V1 m c main_call0_v0))))
    (h0s : (dat0 (F := Ideal) (V1 m) c).arrAt 5 cfg0.N = partArr (partS (conv (actOf (V1 m c main_arg0)) (adjOf (V1 m c main_arg1)) (matOf (V1 m c main_arg2)) (rowOf (V1 m c main_call0_v0)))))
    (h0q : (dat0 (F := Ideal) (V1 m) c).arrAt 6 cfg0.N = partArr (partQ (conv (actOf (V1 m c main_arg0)) (adjOf (V1 m c main_arg1)) (matOf (V1 m c main_arg2)) (rowOf (V1 m c main_call0_v0)))))
    (h1y : (dat1 (F := Ideal) (V3 m) c).arrAt 8 cfg1.N = arrOf (conv (affine (actOf (V3 m c main_call0_v1_0)) (scaleP (partOf (V3 m c main_call0_v1_1)) (partOf (V3 m c main_call0_v1_2)) (colOf (V3 m c main_call0_v3))) (shiftP (partOf (V3 m c main_call0_v1_1)) (partOf (V3 m c main_call0_v1_2)) (colOf (V3 m c main_call0_v3)) (colOf (V3 m c main_call0_v4)))) (adjOf (V3 m c main_arg1)) (matOf (V3 m c main_arg4)) (rowOf (V3 m c main_call0_v2))))
    (h1s : (dat1 (F := Ideal) (V3 m) c).arrAt 9 cfg1.N = partArr (partS (conv (affine (actOf (V3 m c main_call0_v1_0)) (scaleP (partOf (V3 m c main_call0_v1_1)) (partOf (V3 m c main_call0_v1_2)) (colOf (V3 m c main_call0_v3))) (shiftP (partOf (V3 m c main_call0_v1_1)) (partOf (V3 m c main_call0_v1_2)) (colOf (V3 m c main_call0_v3)) (colOf (V3 m c main_call0_v4)))) (adjOf (V3 m c main_arg1)) (matOf (V3 m c main_arg4)) (rowOf (V3 m c main_call0_v2)))))
    (h1q : (dat1 (F := Ideal) (V3 m) c).arrAt 10 cfg1.N = partArr (partQ (conv (affine (actOf (V3 m c main_call0_v1_0)) (scaleP (partOf (V3 m c main_call0_v1_1)) (partOf (V3 m c main_call0_v1_2)) (colOf (V3 m c main_call0_v3))) (shiftP (partOf (V3 m c main_call0_v1_1)) (partOf (V3 m c main_call0_v1_2)) (colOf (V3 m c main_call0_v3)) (colOf (V3 m c main_call0_v4)))) (adjOf (V3 m c main_arg1)) (matOf (V3 m c main_arg4)) (rowOf (V3 m c main_call0_v2)))))
    (h2 : (dat2 (F := Ideal) (V5 m) c).arrAt 5 cfg2.N
      = arrOf (affine (actOf (V5 m c main_call0_v5_0)) (scaleP (partOf (V5 m c main_call0_v5_1)) (partOf (V5 m c main_call0_v5_2)) (colOf (V5 m c main_call0_v6))) (shiftP (partOf (V5 m c main_call0_v5_1)) (partOf (V5 m c main_call0_v5_2)) (colOf (V5 m c main_call0_v6)) (colOf (V5 m c main_call0_v7))))) :
    (dat2 (F := Ideal) (V5 m) c).arrAt 5 cfg2.N
      = arrOf (netK (actOf (m ((c : Thread nD τ).loc main_arg0))) (adjOf (m ((c : Thread nD τ).loc main_arg1))) (matOf (m ((c : Thread nD τ).loc main_arg2))) (chanOf (m ((c : Thread nD τ).loc main_arg3)))
          (matOf (m ((c : Thread nD τ).loc main_arg4))) (chanOf (m ((c : Thread nD τ).loc main_arg5))) (nodeOf (m ((c : Thread nD τ).loc main_arg6))) (nodeOf (m ((c : Thread nD τ).loc main_arg7)))
          (nodeOf (m ((c : Thread nD τ).loc main_arg8))) (nodeOf (m ((c : Thread nD τ).loc main_arg9)))) := by
  -- the goal in the cut form: each layer's batch normalisation as a scale and shift folded from its partial sums
  unfold netK
  rw [bnK_eq_affine, bnK_eq_affine]
  -- region 0: its entry contents are the launch arguments, the bias reshaped to a row
  have e1 : (conv (actOf (V1 m c main_arg0)) (adjOf (V1 m c main_arg1)) (matOf (V1 m c main_arg2)) (rowOf (V1 m c main_call0_v0))) = conv (actOf (m ((c : Thread nD τ).loc main_arg0))) (adjOf (m ((c : Thread nD τ).loc main_arg1))) (matOf (m ((c : Thread nD τ).loc main_arg2))) (chanOf (m ((c : Thread nD τ).loc main_arg3))) := by
    rw [V1_x m c, V1_adj m c, V1_w m c, V1_row m c, rowOf_shapeCast]
  rw [e1] at h0y h0s h0q
  generalize conv (actOf (m ((c : Thread nD τ).loc main_arg0))) (adjOf (m ((c : Thread nD τ).loc main_arg1))) (matOf (m ((c : Thread nD τ).loc main_arg2))) (chanOf (m ((c : Thread nD τ).loc main_arg3))) = Y1 at h0y h0s h0q ⊢
  -- region 1: entered with region 0's three results, adj and W2 as launched, b2 as a row, γ1 and β1 as columns
  have e2 : (conv (affine (actOf (V3 m c main_call0_v1_0)) (scaleP (partOf (V3 m c main_call0_v1_1)) (partOf (V3 m c main_call0_v1_2)) (colOf (V3 m c main_call0_v3))) (shiftP (partOf (V3 m c main_call0_v1_1)) (partOf (V3 m c main_call0_v1_2)) (colOf (V3 m c main_call0_v3)) (colOf (V3 m c main_call0_v4)))) (adjOf (V3 m c main_arg1)) (matOf (V3 m c main_arg4)) (rowOf (V3 m c main_call0_v2)))
      = conv (affine Y1 (scaleP (partS Y1) (partQ Y1) (nodeOf (m ((c : Thread nD τ).loc main_arg6)))) (shiftP (partS Y1) (partQ Y1) (nodeOf (m ((c : Thread nD τ).loc main_arg6))) (nodeOf (m ((c : Thread nD τ).loc main_arg7))))) (adjOf (m ((c : Thread nD τ).loc main_arg1))) (matOf (m ((c : Thread nD τ).loc main_arg4))) (chanOf (m ((c : Thread nD τ).loc main_arg5))) := by
    rw [V3_y m c, V3_s m c, V3_q m c, V3_adj m c, V3_w m c, V3_row m c, V3_gamma m c, V3_beta m c, h0y, h0s, h0q,
      actOf_arrOf, partOf_partArr, partOf_partArr, rowOf_shapeCast, colOf_shapeCast, colOf_shapeCast]
  rw [e2] at h1y h1s h1q
  generalize conv (affine Y1 (scaleP (partS Y1) (partQ Y1) (nodeOf (m ((c : Thread nD τ).loc main_arg6)))) (shiftP (partS Y1) (partQ Y1) (nodeOf (m ((c : Thread nD τ).loc main_arg6))) (nodeOf (m ((c : Thread nD τ).loc main_arg7))))) (adjOf (m ((c : Thread nD τ).loc main_arg1))) (matOf (m ((c : Thread nD τ).loc main_arg4))) (chanOf (m ((c : Thread nD τ).loc main_arg5))) = Y2
    at h1y h1s h1q ⊢
  -- region 2: entered with region 1's three results, γ2 and β2 as columns
  rw [h2, V5_y m c, V5_s m c, V5_q m c, V5_gamma m c, V5_beta m c, h1y, h1s, h1q,
    actOf_arrOf, partOf_partArr, partOf_partArr, colOf_shapeCast, colOf_shapeCast]

end Cert.KernelIdeal.H

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«160428_g88656714924069_cont_sun_m_1396_13_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.LibColumn.lean ====
/-
  Column ("keepdims") layout forms read at an index given by coordinates, and one-axis float reductions of a matrix
  along its rows read as `Fin`-indexed sums and maxima. General lemmas in the style of the library's
  Lib/ValueLayout.lean: each fixes a rank and what the operation does there, with every index written `ixN …`.
  • `shapeCast_a_a1_apply`: a vector `[a]` cast to the column `[a, 1]`.
  • `broadcastTo_a1_ab_apply`: a column `[a, 1]` broadcast along the rows of `[a, b]`.
  • `transpose_a1_1a_apply`: a column `[a, 1]` transposed to the row `[1, a]`.
  • `multiReduction_add_rows_apply`: a float `<add>` reduction of `[a, b]` over axis 1, at the ideal values, is the
    sum over the row; `multiReduction_maximumf_rows_apply`: the `<maximumf>` one is the fold of `max` over the row.
  • `fold_max_bot_eq_sup`, `sup_indicator`: a fold of `max` from `⊥` is the supremum, and the supremum of a 0/1
    indicator over a nonempty range is 1 exactly when the indicator fires somewhere.
-/
import Idealize.ShloMosaic.Lib.ValueLayout
import Idealize.ShloMosaic.PureOps.Ideal.Laws

open scoped BigOperators

namespace Cert.Lib.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(u, i)`, the column at `(i, u)`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_ix2_apply x h u i

/-- At the ideal values a float `vector.multi_reduction <add>` of a matrix over axis 1, read at row `r`, is the sum of
    the row. -/
theorem multiReduction_add_rows_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext d
  match d with
  | ⟨0, _⟩ => exact Fin.ext rfl
  | ⟨1, _⟩ => exact Fin.ext rfl

/-- At the ideal values a float `vector.multi_reduction <maximumf>` of a matrix over axis 1, read at row `r`, is the
    fold of `max` from the accumulator's value over the row. -/
theorem multiReduction_maximumf_rows_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => (Finset.univ : Finset (Fin b)).fold max (Ideal.ofBits φ acc) f) ?_
  funext k
  refine congrArg src ?_
  funext d
  match d with
  | ⟨0, _⟩ => exact Fin.ext rfl
  | ⟨1, _⟩ => exact Fin.ext rfl

/-- The f32 word `0xFF800000` is `-∞`, the least extended real. -/
theorem ofBits_negInf_f32 : Ideal.ofBits .f32 0xFF800000#32 = ⊥ := by simp [Ideal.ofBits, Ideal.ieee]

/-- A fold of `max` from `⊥` is the supremum. -/
theorem fold_max_bot_eq_sup {ι : Type} (s : Finset ι) (f : ι → EReal) : s.fold max ⊥ f = s.sup f := rfl

/-- The supremum over a nonempty finite range of a 0/1 indicator is `1` when the indicator fires somewhere, else `0`. -/
theorem sup_indicator {ι : Type} [Fintype ι] [Nonempty ι] (p : ι → Prop) [DecidablePred p] [Decidable (∃ c, p c)] :
    (Finset.univ : Finset ι).sup (fun c => if p c then (1 : EReal) else 0) = if ∃ c, p c then 1 else 0 := by
  apply le_antisymm
  · refine Finset.sup_le fun c _ => ?_
    by_cases hc : p c
    · rw [if_pos hc, if_pos ⟨c, hc⟩]
    · rw [if_neg hc]; split
      · exact zero_le_one
      · exact le_rfl
  · split
    · rename_i hex
      obtain ⟨c, hc⟩ := hex
      have := Finset.le_sup (f := fun c => if p c then (1 : EReal) else 0) (Finset.mem_univ c)
      simpa [hc] using this
    · obtain ⟨c⟩ := ‹Nonempty ι›
      have := Finset.le_sup (f := fun c => if p c then (1 : EReal) else 0) (Finset.mem_univ c)
      refine le_trans ?_ this
      split
      · exact zero_le_one
      · exact le_rfl

end Cert.Lib.Column
-- ==== Proof.K0Value.lean ====
/- Region 0 of the kernel program: what its three output blocks hold, on the extended reals.
   For batch i of a block, node n and channel d the first output is the layer's value
     y i n d = max (Σ_k adj[i,n,k] · (Σ_c x[i,k,c] · W[c,d]) + b[d]) 0,
   the second is Σ_d y i n d and the third Σ_d (y i n d)².  The body computes batch by batch, so each
   output is four slabs; every slab is the same function of the block's index. -/
import proofs.«160428_g88656714924069_cont_sun_m_1396_13_alg».proof.Proof.K0
import proofs.«160428_g88656714924069_cont_sun_m_1396_13_alg».proof.Proof.SpecIdx
import proofs.«160428_g88656714924069_cont_sun_m_1396_13_alg».proof.Proof.LibDenseLayer
import proofs.«160428_g88656714924069_cont_sun_m_1396_13_alg».proof.Proof.LibColumn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.H

open Cert.KernelIdeal Cert.KernelIdeal.Gen
open Idealize.ShloMosaic Idealize.ShloMosaic.ValueIdx
open Cert.Bridge

/-! ## One batch's layer value at an entry -/

/-- The two dimension records of the body's products are the plain matrix products. -/
theorem dotX_eq0 : dot_S1024x256_S256x256_S1024x256_1_0_0_1_n_n = DotDims.plain 1024 256 256 := rfl
theorem dotA_eq0 : dot_S1024x1024_S1024x256_S1024x256_1_0_0_1_n_n = DotDims.plain 1024 1024 256 := rfl

/-- One batch's clamped layer, read at node `n` and channel `d`: the adjacency row against the projected
    features, plus the bias, clamped below at zero. -/
theorem pay0_5_apply (xb : Vec Ideal S1x1024x256 .f32) (w : Vec Ideal S256x256 .f32) (ab : Vec Ideal S1x1024x1024 .f32)
    (b : Vec Ideal S1x256 .f32) (n : Fin 1024) (d : Fin 256) :
    k0_pay5 (F := Ideal) xb w ab b (ix2 n d)
      = max ((∑ k : Fin 1024, ab (ix3 (0 : Fin 1) n k) * (∑ c : Fin 256, xb (ix3 (0 : Fin 1) k c) * w (ix2 c d))) + b (ix2 (0 : Fin 1) d))
          (Ideal.ofBits .f32 0x00000000#32) := by
  unfold k0_pay5
  refine (LayerAt.layer_apply (M := 1024) (K := 1024) (N := 256) none _ _ _ _ n d).trans ?_
  show max ((∑ k : Fin 1024, _ * _) + _) _ = _
  refine congrArg₂ max (congrArg₂ (· + ·) (Finset.sum_congr rfl fun k _ => congrArg₂ (· * ·) ?_ ?_) ?_) rfl
  · exact shapeCast_1ab_ab_apply ab _ n k
  · refine (LibMatmul.matmul_zero_apply (M := 1024) (K := 256) (N := 256) none _ w k d).trans ?_
    exact Finset.sum_congr rfl fun c _ => congrArg (· * w (ix2 c d)) (shapeCast_1ab_ab_apply xb _ k c)
  · exact congrFun (shapeCast_self b _) (ix2 (0 : Fin 1) d)

/-- The other three batches run the same layer: their clamped values are the first batch's function of their
    own loads (definitional unfolding; the third batch's zero accumulator and the fourth's projected features
    are computed at the end of the preceding part). -/
theorem pay0_9_eq (xb : Vec Ideal S1x1024x256 .f32) (w : Vec Ideal S256x256 .f32) (ab : Vec Ideal S1x1024x1024 .f32) (b : Vec Ideal S1x256 .f32) :
    k0_pay9 (F := Ideal) xb w ab b = k0_pay5 xb w ab b := rfl
theorem pay0_14_eq (xb : Vec Ideal S1x1024x256 .f32) (w : Vec Ideal S256x256 .f32) (ab : Vec Ideal S1x1024x1024 .f32) (b : Vec Ideal S1x256 .f32) :
    k0_pay14 (F := Ideal) (k0_pay13 xb) w (constant (F := Ideal) S1024x256 .f32 0x00000000#32) ab b = k0_pay5 xb w ab b := rfl
theorem pay0_1_eq (xb : Vec Ideal S1x1024x256 .f32) (w : Vec Ideal S256x256 .f32) (ab : Vec Ideal S1x1024x1024 .f32) (b : Vec Ideal S1x256 .f32) :
    k0_pay1 (F := Ideal) (k0_pay18 xb w) ab b = k0_pay5 xb w ab b := rfl

/-! ## The three stored slabs of a batch, from its clamped layer -/

/-- The first output's slab: the layer's value (the change of float format is the identity on the extended reals),
    under a leading unit axis. -/
theorem slabY0_apply (v : FVec Ideal S1024x256 .f32) (u : Fin 1) (n : Fin 1024) (d : Fin 256) :
    shapeCast S1x1024x256 (truncf .bf16 v bitsLt_bf16_f32) shapeCasts_S1024x256_S1x1024x256 (ix3 u n d) = v (ix2 n d) :=
  shapeCast_ab_1ab_apply (truncf .bf16 v bitsLt_bf16_f32) _ u n d

/-- A column slab: the row sums of a matrix, as a column under a leading unit axis. -/
theorem slabS0_apply (v : FVec Ideal S1024x256 .f32) (u : Fin 1) (n : Fin 1024) (z : Fin 1) :
    shapeCast S1x1024x1 (shapeCast S1024x1 (multiReduction (F := Ideal) .add [1] S1024 v 0x00000000#32 reduces_S1024x256_S1024 (.inl rfl) rfl)
        shapeCasts_S1024_S1024x1) shapeCasts_S1024x1_S1x1024x1 (ix3 u n z)
      = ∑ d : Fin 256, v (ix2 n d) := by
  refine (shapeCast_ab_1ab_apply _ _ u n z).trans ?_
  refine (Cert.Lib.Column.shapeCast_a_a1_apply _ _ n z).trans ?_
  exact Cert.Lib.Column.multiReduction_add_rows_apply v _ _ _ _ n

/-! ## A slab's place in its block -/

/-- The unit-stride slab at batch `j` of a rank-3 block places its local index (u, n, d) at (j, n, d). -/
theorem slab_idx0 {n0 n1 n2 : ℕ} (j : ℕ) (hj : j < n0)
    (inb : ∀ a, (![j, 0, 0] : Fin 3 → ℕ) a + (⟨3, ![1, n1, n2]⟩ : Shape).size a ≤ (⟨3, ![n0, n1, n2]⟩ : Shape).size a)
    (u : Fin 1) (n : Fin n1) (d : Fin n2) :
    (Rect.unit (s := ⟨3, ![n0, n1, n2]⟩) ![j, 0, 0] (⟨3, ![1, n1, n2]⟩ : Shape).size inb).idx (ix3 u n d) = ix3 ⟨j, hj⟩ n d := by
  funext a
  refine Fin.ext ?_
  have hu : u.val = 0 := by omega
  match a with
  | ⟨0, _⟩ => show j + 1 * u.val = j; omega
  | ⟨1, _⟩ => show 0 + 1 * n.val = n.val; omega
  | ⟨2, _⟩ => show 0 + 1 * d.val = d.val; omega

theorem hz2_0 : (![0, 0] : Fin 2 → ℕ) = fun _ => 0 := by
  funext a; match a with | ⟨0, _⟩ => rfl | ⟨1, _⟩ => rfl

/-! ## The layer's value over a block -/

section Block

variable (x0 : Vec Ideal S4x1024x256 .f32) (x1 : Vec Ideal S4x1024x1024 .f32) (x2 : Vec Ideal S256x256 .f32) (x3 : Vec Ideal S1x256 .f32)

/-- The layer's value at batch `i`, node `n`, channel `d` of a block. -/
def y1v (i : Fin 4) (n : Fin 1024) (d : Fin 256) : EReal :=
  max ((∑ k : Fin 1024, x1 (ix3 i n k) * (∑ c : Fin 256, x0 (ix3 i k c) * x2 (ix2 c d))) + x3 (ix2 (0 : Fin 1) d))
    (Ideal.ofBits .f32 0x00000000#32)

/-- Batch `j`'s clamped layer, computed from batch `j`'s slabs of the x and adjacency blocks, the whole weight
    matrix and the whole bias row, is the layer's value at batch `j`. -/
theorem batch0_apply (j : ℕ) (hj : j < 4)
    (inbx : ∀ a, (![j, 0, 0] : Fin 3 → ℕ) a + S1x1024x256.size a ≤ S4x1024x256.size a)
    (inba : ∀ a, (![j, 0, 0] : Fin 3 → ℕ) a + S1x1024x1024.size a ≤ S4x1024x1024.size a)
    (n : Fin 1024) (d : Fin 256) :
    k0_pay5 (F := Ideal) (View.ld x0 (Rect.unit (s := S4x1024x256) ![j, 0, 0] S1x1024x256.size inbx)) (View.ld x2 r0_w)
        (View.ld x1 (Rect.unit (s := S4x1024x1024) ![j, 0, 0] S1x1024x1024.size inba)) (View.ld x3 r0_b) (ix2 n d)
      = y1v x0 x1 x2 x3 ⟨j, hj⟩ n d := by
  refine (pay0_5_apply _ _ _ _ n d).trans ?_
  unfold y1v
  refine congrArg₂ max (congrArg₂ (· + ·) (Finset.sum_congr rfl fun k _ => congrArg₂ (· * ·) ?_
    (Finset.sum_congr rfl fun c _ => congrArg₂ (· * ·) ?_ ?_)) ?_) rfl
  · exact congrArg x1 (slab_idx0 j hj inba 0 n k)
  · exact congrArg x0 (slab_idx0 j hj inbx 0 k c)
  · exact congrFun (View.ld_unit_zero (S := S256x256) hz2_0 _ x2) (ix2 c d)
  · exact congrFun (View.ld_unit_zero (S := S1x256) hz2_0 _ x3) (ix2 (0 : Fin 1) d)

/-- The first output block as one function of its index, -/
def G0_4 : Vec Ideal S4x1024x256 .bf16 := fun y => y1v x0 x1 x2 x3 (y 0) (y 1) (y 2)
/-- the second, -/
def G0_5 : Vec Ideal S4x1024x1 .f32 := fun y => ∑ d : Fin 256, y1v x0 x1 x2 x3 (y 0) (y 1) d
/-- and the third. -/
def G0_6 : Vec Ideal S4x1024x1 .f32 := fun y => ∑ d : Fin 256, y1v x0 x1 x2 x3 (y 0) (y 1) d * y1v x0 x1 x2 x3 (y 0) (y 1) d

/-- A slab of the first output whose entries are batch `j`'s clamped layer is the block's function on its rectangle. -/
theorem piece0_4 (j : ℕ) (hj : j < 4)
    (inbx : ∀ a, (![j, 0, 0] : Fin 3 → ℕ) a + S1x1024x256.size a ≤ S4x1024x256.size a)
    (inba : ∀ a, (![j, 0, 0] : Fin 3 → ℕ) a + S1x1024x1024.size a ≤ S4x1024x1024.size a)
    (pay : Vec Ideal S1x1024x256 .bf16)
    (hpay : ∀ (u : Fin 1) (n : Fin 1024) (d : Fin 256), pay (ix3 u n d)
      = k0_pay5 (F := Ideal) (View.ld x0 (Rect.unit (s := S4x1024x256) ![j, 0, 0] S1x1024x256.size inbx)) (View.ld x2 r0_w)
          (View.ld x1 (Rect.unit (s := S4x1024x1024) ![j, 0, 0] S1x1024x1024.size inba)) (View.ld x3 r0_b) (ix2 n d))
    (x : S1x1024x256.Idx) :
    pay x = G0_4 x0 x1 x2 x3 ((Rect.unit (s := S4x1024x256) ![j, 0, 0] S1x1024x256.size inbx).idx x) := by
  obtain ⟨u, n, d, rfl⟩ : ∃ (u : Fin 1) (n : Fin 1024) (d : Fin 256), x = ix3 u n d := ⟨x 0, x 1, x 2, eq_ix3 x⟩
  exact (hpay u n d).trans ((batch0_apply x0 x1 x2 x3 j hj inbx inba n d).trans
    (congrArg (G0_4 x0 x1 x2 x3) (slab_idx0 j hj inbx u n d)).symm)

/-- The same for a column slab holding batch `j`'s channel sums, -/
theorem piece0_5 (j : ℕ) (hj : j < 4)
    (inbx : ∀ a, (![j, 0, 0] : Fin 3 → ℕ) a + S1x1024x256.size a ≤ S4x1024x256.size a)
    (inba : ∀ a, (![j, 0, 0] : Fin 3 → ℕ) a + S1x1024x1024.size a ≤ S4x1024x1024.size a)
    (inbs : ∀ a, (![j, 0, 0] : Fin 3 → ℕ) a + S1x1024x1.size a ≤ S4x1024x1.size a)
    (pay : Vec Ideal S1x1024x1 .f32)
    (hpay : ∀ (u : Fin 1) (n : Fin 1024) (z : Fin 1), pay (ix3 u n z)
      = ∑ d : Fin 256, k0_pay5 (F := Ideal) (View.ld x0 (Rect.unit (s := S4x1024x256) ![j, 0, 0] S1x1024x256.size inbx)) (View.ld x2 r0_w)
          (View.ld x1 (Rect.unit (s := S4x1024x1024) ![j, 0, 0] S1x1024x1024.size inba)) (View.ld x3 r0_b) (ix2 n d))
    (x : S1x1024x1.Idx) :
    pay x = G0_5 x0 x1 x2 x3 ((Rect.unit (s := S4x1024x1) ![j, 0, 0] S1x1024x1.size inbs).idx x) := by
  obtain ⟨u, n, z, rfl⟩ : ∃ (u : Fin 1) (n : Fin 1024) (z : Fin 1), x = ix3 u n z := ⟨x 0, x 1, x 2, eq_ix3 x⟩
  refine (hpay u n z).trans (Eq.trans ?_ (congrArg (G0_5 x0 x1 x2 x3) (slab_idx0 j hj inbs u n z)).symm)
  exact Finset.sum_congr rfl fun d _ => batch0_apply x0 x1 x2 x3 j hj inbx inba n d

/-- and for one holding its channel sums of squares. -/
theorem piece0_6 (j : ℕ) (hj : j < 4)
    (inbx : ∀ a, (![j, 0, 0] : Fin 3 → ℕ) a + S1x1024x256.size a ≤ S4x1024x256.size a)
    (inba : ∀ a, (![j, 0, 0] : Fin 3 → ℕ) a + S1x1024x1024.size a ≤ S4x1024x1024.size a)
    (inbs : ∀ a, (![j, 0, 0] : Fin 3 → ℕ) a + S1x1024x1.size a ≤ S4x1024x1.size a)
    (pay : Vec Ideal S1x1024x1 .f32)
    (hpay : ∀ (u : Fin 1) (n : Fin 1024) (z : Fin 1), pay (ix3 u n z)
      = ∑ d : Fin 256, k0_pay5 (F := Ideal) (View.ld x0 (Rect.unit (s := S4x1024x256) ![j, 0, 0] S1x1024x256.size inbx)) (View.ld x2 r0_w)
            (View.ld x1 (Rect.unit (s := S4x1024x1024) ![j, 0, 0] S1x1024x1024.size inba)) (View.ld x3 r0_b) (ix2 n d)
          * k0_pay5 (F := Ideal) (View.ld x0 (Rect.unit (s := S4x1024x256) ![j, 0, 0] S1x1024x256.size inbx)) (View.ld x2 r0_w)
            (View.ld x1 (Rect.unit (s := S4x1024x1024) ![j, 0, 0] S1x1024x1024.size inba)) (View.ld x3 r0_b) (ix2 n d))
    (x : S1x1024x1.Idx) :
    pay x = G0_6 x0 x1 x2 x3 ((Rect.unit (s := S4x1024x1) ![j, 0, 0] S1x1024x1.size inbs).idx x) := by
  obtain ⟨u, n, z, rfl⟩ : ∃ (u : Fin 1) (n : Fin 1024) (z : Fin 1), x = ix3 u n z := ⟨x 0, x 1, x 2, eq_ix3 x⟩
  refine (hpay u n z).trans (Eq.trans ?_ (congrArg (G0_6 x0 x1 x2 x3) (slab_idx0 j hj inbs u n z)).symm)
  exact Finset.sum_congr rfl fun d _ => congrArg₂ (· * ·) (batch0_apply x0 x1 x2 x3 j hj inbx inba n d) (batch0_apply x0 x1 x2 x3 j hj inbx inba n d)

end Block

/-! ## The three output blocks at an entry -/

section Out

variable (x0 : Vec Ideal S4x1024x256 .f32) (x1 : Vec Ideal S4x1024x1024 .f32) (x2 : Vec Ideal S256x256 .f32) (x3 : Vec Ideal S1x256 .f32)

/-- The first output block holds the layer's value: its four slabs are the block's one function on their rectangles,
    and they cover the block. -/
theorem out0_4_y1v (i : Fin 4) (n : Fin 1024) (d : Fin 256) :
    out0_4 (F := Ideal) x0 x1 x2 x3 (ix3 i n d) = y1v x0 x1 x2 x3 i n d := by
  unfold out0_4
  refine View.canon_apply_of_pieces (G0_4 x0 x1 x2 x3) _ ?_ (ix3 i n d) (cover0_4 _ _ _ _ _)
  refine List.forall_mem_cons.mpr ⟨?_, List.forall_mem_cons.mpr ⟨?_, List.forall_mem_cons.mpr ⟨?_,
    List.forall_mem_cons.mpr ⟨?_, fun _ h => absurd h List.not_mem_nil⟩⟩⟩⟩
  · exact piece0_4 x0 x1 x2 x3 3 (by decide) inb_S4x1024x256_S1x1024x256_3_0_0 inb_S4x1024x1024_S1x1024x1024_3_0_0 _
      (fun u n d => by unfold k0_pay2; exact slabY0_apply _ u n d)
  · exact piece0_4 x0 x1 x2 x3 2 (by decide) inb_S4x1024x256_S1x1024x256_2_0_0 inb_S4x1024x1024_S1x1024x1024_2_0_0 _
      (fun u n d => by unfold k0_pay15; exact slabY0_apply _ u n d)
  · exact piece0_4 x0 x1 x2 x3 1 (by decide) inb_S4x1024x256_S1x1024x256_1_0_0 inb_S4x1024x1024_S1x1024x1024_1_0_0 _
      (fun u n d => by unfold k0_pay10; exact slabY0_apply _ u n d)
  · exact piece0_4 x0 x1 x2 x3 0 (by decide) inb_S4x1024x256_S1x1024x256_0_0_0 inb_S4x1024x1024_S1x1024x1024_0_0_0 _
      (fun u n d => by unfold k0_pay6; exact slabY0_apply _ u n d)

/-- The second output block holds each row's sum of the layer's values over the channels. -/
theorem out0_5_y1v (i : Fin 4) (n : Fin 1024) (z : Fin 1) :
    out0_5 (F := Ideal) x0 x1 x2 x3 (ix3 i n z) = ∑ d : Fin 256, y1v x0 x1 x2 x3 i n d := by
  unfold out0_5
  refine View.canon_apply_of_pieces (G0_5 x0 x1 x2 x3) _ ?_ (ix3 i n z) (cover0_5 _ _ _ _ _)
  refine List.forall_mem_cons.mpr ⟨?_, List.forall_mem_cons.mpr ⟨?_, List.forall_mem_cons.mpr ⟨?_,
    List.forall_mem_cons.mpr ⟨?_, fun _ h => absurd h List.not_mem_nil⟩⟩⟩⟩
  · exact piece0_5 x0 x1 x2 x3 3 (by decide) inb_S4x1024x256_S1x1024x256_3_0_0 inb_S4x1024x1024_S1x1024x1024_3_0_0 inb_S4x1024x1_S1x1024x1_3_0_0 _
      (fun u n z => by unfold k0_pay3; exact slabS0_apply _ u n z)
  · exact piece0_5 x0 x1 x2 x3 2 (by decide) inb_S4x1024x256_S1x1024x256_2_0_0 inb_S4x1024x1024_S1x1024x1024_2_0_0 inb_S4x1024x1_S1x1024x1_2_0_0 _
      (fun u n z => by unfold k0_pay16; exact slabS0_apply _ u n z)
  · exact piece0_5 x0 x1 x2 x3 1 (by decide) inb_S4x1024x256_S1x1024x256_1_0_0 inb_S4x1024x1024_S1x1024x1024_1_0_0 inb_S4x1024x1_S1x1024x1_1_0_0 _
      (fun u n z => by unfold k0_pay11; exact slabS0_apply _ u n z)
  · exact piece0_5 x0 x1 x2 x3 0 (by decide) inb_S4x1024x256_S1x1024x256_0_0_0 inb_S4x1024x1024_S1x1024x1024_0_0_0 inb_S4x1024x1_S1x1024x1_0_0_0 _
      (fun u n z => by unfold k0_pay7; exact slabS0_apply _ u n z)

/-- The third output block holds each row's sum of the squared layer's values over the channels. -/
theorem out0_6_y1v (i : Fin 4) (n : Fin 1024) (z : Fin 1) :
    out0_6 (F := Ideal) x0 x1 x2 x3 (ix3 i n z) = ∑ d : Fin 256, y1v x0 x1 x2 x3 i n d * y1v x0 x1 x2 x3 i n d := by
  unfold out0_6
  refine View.canon_apply_of_pieces (G0_6 x0 x1 x2 x3) _ ?_ (ix3 i n z) (cover0_6 _ _ _ _ _)
  refine List.forall_mem_cons.mpr ⟨?_, List.forall_mem_cons.mpr ⟨?_, List.forall_mem_cons.mpr ⟨?_,
    List.forall_mem_cons.mpr ⟨?_, fun _ h => absurd h List.not_mem_nil⟩⟩⟩⟩
  · exact piece0_6 x0 x1 x2 x3 3 (by decide) inb_S4x1024x256_S1x1024x256_3_0_0 inb_S4x1024x1024_S1x1024x1024_3_0_0 inb_S4x1024x1_S1x1024x1_3_0_0 _
      (fun u n z => by unfold k0_pay4; exact slabS0_apply _ u n z)
  · exact piece0_6 x0 x1 x2 x3 2 (by decide) inb_S4x1024x256_S1x1024x256_2_0_0 inb_S4x1024x1024_S1x1024x1024_2_0_0 inb_S4x1024x1_S1x1024x1_2_0_0 _
      (fun u n z => by unfold k0_pay17; exact slabS0_apply _ u n z)
  · exact piece0_6 x0 x1 x2 x3 1 (by decide) inb_S4x1024x256_S1x1024x256_1_0_0 inb_S4x1024x1024_S1x1024x1024_1_0_0 inb_S4x1024x1_S1x1024x1_1_0_0 _
      (fun u n z => by unfold k0_pay12; exact slabS0_apply _ u n z)
  · exact piece0_6 x0 x1 x2 x3 0 (by decide) inb_S4x1024x256_S1x1024x256_0_0_0 inb_S4x1024x1024_S1x1024x1024_0_0_0 inb_S4x1024x1_S1x1024x1_0_0_0 _
      (fun u n z => by unfold k0_pay8; exact slabS0_apply _ u n z)

/-- The same three facts with the layer's value written out. -/
theorem out0_4_apply (i : Fin 4) (n : Fin 1024) (d : Fin 256) :
    out0_4 (F := Ideal) x0 x1 x2 x3 (ix3 i n d)
      = max ((∑ k : Fin 1024, x1 (ix3 i n k) * (∑ c : Fin 256, x0 (ix3 i k c) * x2 (ix2 c d))) + x3 (ix2 (0 : Fin 1) d))
          (Ideal.ofBits .f32 0x00000000#32) :=
  out0_4_y1v x0 x1 x2 x3 i n d

theorem out0_5_apply (i : Fin 4) (n : Fin 1024) :
    out0_5 (F := Ideal) x0 x1 x2 x3 (ix3 i n (0 : Fin 1))
      = ∑ d : Fin 256, max ((∑ k : Fin 1024, x1 (ix3 i n k) * (∑ c : Fin 256, x0 (ix3 i k c) * x2 (ix2 c d))) + x3 (ix2 (0 : Fin 1) d))
          (Ideal.ofBits .f32 0x00000000#32) :=
  out0_5_y1v x0 x1 x2 x3 i n 0

theorem out0_6_apply (i : Fin 4) (n : Fin 1024) :
    out0_6 (F := Ideal) x0 x1 x2 x3 (ix3 i n (0 : Fin 1))
      = ∑ d : Fin 256, max ((∑ k : Fin 1024, x1 (ix3 i n k) * (∑ c : Fin 256, x0 (ix3 i k c) * x2 (ix2 c d))) + x3 (ix2 (0 : Fin 1) d))
            (Ideal.ofBits .f32 0x00000000#32)
          * max ((∑ k : Fin 1024, x1 (ix3 i n k) * (∑ c : Fin 256, x0 (ix3 i k c) * x2 (ix2 c d))) + x3 (ix2 (0 : Fin 1) d))
            (Ideal.ofBits .f32 0x00000000#32) :=
  out0_6_y1v x0 x1 x2 x3 i n 0

end Out

end Cert.KernelIdeal.H
-- ==== Proof.KCover.lean ====
/-
  Where a window's block sits in its array, and that the output windows' blocks tile their arrays.

  Every window of the three calls is cut along the batch axis only: at grid point t the block of a batched window holds
  the batches B·t … B·t + B − 1 (B the batches per point) and all of the other axes, and a whole-array window's block is
  the array itself. So an element of a block sits in the array at batch B·t + (its batch inside the block) and at its
  own other coordinates, and every index of an output array lies in the block of the point (its batch) / B.
-/
import proofs.«160428_g88656714924069_cont_sun_m_1396_13_alg».proof.Proof.Gen.KernelIdeal.Launch
import proofs.«160428_g88656714924069_cont_sun_m_1396_13_alg».proof.Proof.Gen.KernelIdeal.Points
import Idealize.ShloMosaic.Lib.Pipeline.Value
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.ValueIdx

/-! ## The first call: four points, four batches each -/

/-- Window 0's block index, decided over the 4 points: the point on the batch axis, zero elsewhere. -/
theorem cov_idx0_0 : ∀ t : Fin cfg0.N, win0_0.index t (0 : Fin 3) = t.val ∧ win0_0.index t (1 : Fin 3) = 0 ∧ win0_0.index t (2 : Fin 3) = 0 ∧ t.val < 4 :=
  (by decide +kernel : ∀ t : Fin grid0.N, _)

/-- An element of window 0's block at point t sits in the array at batch 4·t + its batch inside the block. -/
theorem emb0_0 (t : Fin cfg0.N) (i : Fin 4) (n : Fin 1024) (d : Fin 256) (h : 4 * t.val + i.val < 16) :
    ((cfg0.win 0).blk t).view.emb (ix3 i n d) = (ix3 ⟨4 * t.val + i.val, h⟩ n d : S16x1024x256.Idx) := by
  obtain ⟨e0, e1, e2, ht⟩ := cov_idx0_0 t
  funext a; apply Fin.ext
  match a with
  | ⟨0, _⟩ => show win0_0.index t (0 : Fin 3) * 4 + 1 * i.val = 4 * t.val + i.val; omega
  | ⟨1, _⟩ => show win0_0.index t (1 : Fin 3) * 1024 + 1 * n.val = n.val; omega
  | ⟨2, _⟩ => show win0_0.index t (2 : Fin 3) * 256 + 1 * d.val = d.val; omega

/-- Window 1's block index, decided over the 4 points: the point on the batch axis, zero elsewhere. -/
theorem cov_idx0_1 : ∀ t : Fin cfg0.N, win0_1.index t (0 : Fin 3) = t.val ∧ win0_1.index t (1 : Fin 3) = 0 ∧ win0_1.index t (2 : Fin 3) = 0 ∧ t.val < 4 :=
  (by decide +kernel : ∀ t : Fin grid0.N, _)

/-- An element of window 1's block at point t sits in the array at batch 4·t + its batch inside the block. -/
theorem emb0_1 (t : Fin cfg0.N) (i : Fin 4) (n : Fin 1024) (d : Fin 1024) (h : 4 * t.val + i.val < 16) :
    ((cfg0.win 1).blk t).view.emb (ix3 i n d) = (ix3 ⟨4 * t.val + i.val, h⟩ n d : S16x1024x1024.Idx) := by
  obtain ⟨e0, e1, e2, ht⟩ := cov_idx0_1 t
  funext a; apply Fin.ext
  match a with
  | ⟨0, _⟩ => show win0_1.index t (0 : Fin 3) * 4 + 1 * i.val = 4 * t.val + i.val; omega
  | ⟨1, _⟩ => show win0_1.index t (1 : Fin 3) * 1024 + 1 * n.val = n.val; omega
  | ⟨2, _⟩ => show win0_1.index t (2 : Fin 3) * 1024 + 1 * d.val = d.val; omega

/-- Window 2's block index, decided over the 4 points: zero on every axis (the block is the whole array). -/
theorem cov_idx0_2 : ∀ t : Fin cfg0.N, win0_2.index t (0 : Fin 2) = 0 ∧ win0_2.index t (1 : Fin 2) = 0 ∧ t.val < 4 :=
  (by decide +kernel : ∀ t : Fin grid0.N, _)

/-- Window 2's block is its whole array: an element sits at its own coordinates. -/
theorem emb0_2 (t : Fin cfg0.N) (j : S256x256.Idx) : ((cfg0.win 2).blk t).view.emb j = j := by
  obtain ⟨e0, e1, ht⟩ := cov_idx0_2 t
  funext a; apply Fin.ext
  match a with
  | ⟨0, _⟩ => show win0_2.index t (0 : Fin 2) * 256 + 1 * (j 0).val = (j 0).val; omega
  | ⟨1, _⟩ => show win0_2.index t (1 : Fin 2) * 256 + 1 * (j 1).val = (j 1).val; omega

/-- Window 3's block index, decided over the 4 points: zero on every axis (the block is the whole array). -/
theorem cov_idx0_3 : ∀ t : Fin cfg0.N, win0_3.index t (0 : Fin 2) = 0 ∧ win0_3.index t (1 : Fin 2) = 0 ∧ t.val < 4 :=
  (by decide +kernel : ∀ t : Fin grid0.N, _)

/-- Window 3's block is its whole array: an element sits at its own coordinates. -/
theorem emb0_3 (t : Fin cfg0.N) (j : S1x256.Idx) : ((cfg0.win 3).blk t).view.emb j = j := by
  obtain ⟨e0, e1, ht⟩ := cov_idx0_3 t
  funext a; apply Fin.ext
  match a with
  | ⟨0, _⟩ => show win0_3.index t (0 : Fin 2) * 1 + 1 * (j 0).val = (j 0).val; omega
  | ⟨1, _⟩ => show win0_3.index t (1 : Fin 2) * 256 + 1 * (j 1).val = (j 1).val; omega

/-- Window 4's block index, decided over the 4 points: the point on the batch axis, zero elsewhere. -/
theorem cov_idx0_4 : ∀ t : Fin cfg0.N, win0_4.index t (0 : Fin 3) = t.val ∧ win0_4.index t (1 : Fin 3) = 0 ∧ win0_4.index t (2 : Fin 3) = 0 ∧ t.val < 4 :=
  (by decide +kernel : ∀ t : Fin grid0.N, _)

/-- An element of window 4's block at point t sits in the array at batch 4·t + its batch inside the block. -/
theorem emb0_4 (t : Fin cfg0.N) (i : Fin 4) (n : Fin 1024) (d : Fin 256) (h : 4 * t.val + i.val < 16) :
    ((cfg0.win 4).blk t).view.emb (ix3 i n d) = (ix3 ⟨4 * t.val + i.val, h⟩ n d : S16x1024x256.Idx) := by
  obtain ⟨e0, e1, e2, ht⟩ := cov_idx0_4 t
  funext a; apply Fin.ext
  match a with
  | ⟨0, _⟩ => show win0_4.index t (0 : Fin 3) * 4 + 1 * i.val = 4 * t.val + i.val; omega
  | ⟨1, _⟩ => show win0_4.index t (1 : Fin 3) * 1024 + 1 * n.val = n.val; omega
  | ⟨2, _⟩ => show win0_4.index t (2 : Fin 3) * 256 + 1 * d.val = d.val; omega

/-- Every batch block of window 4 is some point's. -/
theorem cov_onto0_4 : ∀ q : Fin 4, ∃ t : Fin cfg0.N, win0_4.index t (0 : Fin 3) = q.val
    ∧ win0_4.index t (1 : Fin 3) = 0 ∧ win0_4.index t (2 : Fin 3) = 0 :=
  (by decide +kernel : ∀ q : Fin 4, ∃ t : Fin grid0.N, _)

/-- An index of window 4's array is in point t's block iff each coordinate is in the block's range on its axis. -/
theorem mem_blk0_4 (t : Fin cfg0.N) (i : S16x1024x256.Idx) :
    i ∈ ((cfg0.win 4).blk t).view.set ↔ ∀ a : Fin 3, win0_4.index t a * S4x1024x256.size a ≤ (i a).val
      ∧ (i a).val < win0_4.index t a * S4x1024x256.size a + S4x1024x256.size a := by
  show i ∈ ((View.whole main_call0_v1_0).slice (win0_4.rect t)).set ↔ _
  rw [View.set_slice_whole, Rect.mem_set_unit]
  exact Iff.rfl

/-- Window 4's blocks tile its array: the index with batch b lies in the block of the point b / 4. -/
theorem tile0_4 (i : S16x1024x256.Idx) :
    ∃ t : Fin cfg0.N, (cfg0.win 4).flush t = true ∧ i ∈ ((cfg0.win 4).blk t).view.set := by
  have hi0 : (i 0).val < 16 := (i 0).isLt
  have hi1 : (i 1).val < 1024 := (i 1).isLt
  have hi2 : (i 2).val < 256 := (i 2).isLt
  obtain ⟨t, q0, q1, q2⟩ := cov_onto0_4 ⟨(i 0).val / 4, by omega⟩
  refine ⟨t, flush0_4 t, ?_⟩
  rw [mem_blk0_4]
  intro a
  match a with
  | ⟨0, _⟩ => show win0_4.index t (0 : Fin 3) * 4 ≤ (i 0).val ∧ (i 0).val < win0_4.index t (0 : Fin 3) * 4 + 4; simp only [q0]; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- Window 5's block index, decided over the 4 points: the point on the batch axis, zero elsewhere. -/
theorem cov_idx0_5 : ∀ t : Fin cfg0.N, win0_5.index t (0 : Fin 3) = t.val ∧ win0_5.index t (1 : Fin 3) = 0 ∧ win0_5.index t (2 : Fin 3) = 0 ∧ t.val < 4 :=
  (by decide +kernel : ∀ t : Fin grid0.N, _)

/-- An element of window 5's block at point t sits in the array at batch 4·t + its batch inside the block. -/
theorem emb0_5 (t : Fin cfg0.N) (i : Fin 4) (n : Fin 1024) (d : Fin 1) (h : 4 * t.val + i.val < 16) :
    ((cfg0.win 5).blk t).view.emb (ix3 i n d) = (ix3 ⟨4 * t.val + i.val, h⟩ n d : S16x1024x1.Idx) := by
  obtain ⟨e0, e1, e2, ht⟩ := cov_idx0_5 t
  funext a; apply Fin.ext
  match a with
  | ⟨0, _⟩ => show win0_5.index t (0 : Fin 3) * 4 + 1 * i.val = 4 * t.val + i.val; omega
  | ⟨1, _⟩ => show win0_5.index t (1 : Fin 3) * 1024 + 1 * n.val = n.val; omega
  | ⟨2, _⟩ => show win0_5.index t (2 : Fin 3) * 1 + 1 * d.val = d.val; omega

/-- Every batch block of window 5 is some point's. -/
theorem cov_onto0_5 : ∀ q : Fin 4, ∃ t : Fin cfg0.N, win0_5.index t (0 : Fin 3) = q.val
    ∧ win0_5.index t (1 : Fin 3) = 0 ∧ win0_5.index t (2 : Fin 3) = 0 :=
  (by decide +kernel : ∀ q : Fin 4, ∃ t : Fin grid0.N, _)

/-- An index of window 5's array is in point t's block iff each coordinate is in the block's range on its axis. -/
theorem mem_blk0_5 (t : Fin cfg0.N) (i : S16x1024x1.Idx) :
    i ∈ ((cfg0.win 5).blk t).view.set ↔ ∀ a : Fin 3, win0_5.index t a * S4x1024x1.size a ≤ (i a).val
      ∧ (i a).val < win0_5.index t a * S4x1024x1.size a + S4x1024x1.size a := by
  show i ∈ ((View.whole main_call0_v1_1).slice (win0_5.rect t)).set ↔ _
  rw [View.set_slice_whole, Rect.mem_set_unit]
  exact Iff.rfl

/-- Window 5's blocks tile its array: the index with batch b lies in the block of the point b / 4. -/
theorem tile0_5 (i : S16x1024x1.Idx) :
    ∃ t : Fin cfg0.N, (cfg0.win 5).flush t = true ∧ i ∈ ((cfg0.win 5).blk t).view.set := by
  have hi0 : (i 0).val < 16 := (i 0).isLt
  have hi1 : (i 1).val < 1024 := (i 1).isLt
  have hi2 : (i 2).val < 1 := (i 2).isLt
  obtain ⟨t, q0, q1, q2⟩ := cov_onto0_5 ⟨(i 0).val / 4, by omega⟩
  refine ⟨t, flush0_5 t, ?_⟩
  rw [mem_blk0_5]
  intro a
  match a with
  | ⟨0, _⟩ => show win0_5.index t (0 : Fin 3) * 4 ≤ (i 0).val ∧ (i 0).val < win0_5.index t (0 : Fin 3) * 4 + 4; simp only [q0]; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1 ≤ (i 2).val ∧ (i 2).val < win0_5.index t (2 : Fin 3) * 1 + 1; omega

/-- Window 6's block index, decided over the 4 points: the point on the batch axis, zero elsewhere. -/
theorem cov_idx0_6 : ∀ t : Fin cfg0.N, win0_6.index t (0 : Fin 3) = t.val ∧ win0_6.index t (1 : Fin 3) = 0 ∧ win0_6.index t (2 : Fin 3) = 0 ∧ t.val < 4 :=
  (by decide +kernel : ∀ t : Fin grid0.N, _)

/-- An element of window 6's block at point t sits in the array at batch 4·t + its batch inside the block. -/
theorem emb0_6 (t : Fin cfg0.N) (i : Fin 4) (n : Fin 1024) (d : Fin 1) (h : 4 * t.val + i.val < 16) :
    ((cfg0.win 6).blk t).view.emb (ix3 i n d) = (ix3 ⟨4 * t.val + i.val, h⟩ n d : S16x1024x1.Idx) := by
  obtain ⟨e0, e1, e2, ht⟩ := cov_idx0_6 t
  funext a; apply Fin.ext
  match a with
  | ⟨0, _⟩ => show win0_6.index t (0 : Fin 3) * 4 + 1 * i.val = 4 * t.val + i.val; omega
  | ⟨1, _⟩ => show win0_6.index t (1 : Fin 3) * 1024 + 1 * n.val = n.val; omega
  | ⟨2, _⟩ => show win0_6.index t (2 : Fin 3) * 1 + 1 * d.val = d.val; omega

/-- Every batch block of window 6 is some point's. -/
theorem cov_onto0_6 : ∀ q : Fin 4, ∃ t : Fin cfg0.N, win0_6.index t (0 : Fin 3) = q.val
    ∧ win0_6.index t (1 : Fin 3) = 0 ∧ win0_6.index t (2 : Fin 3) = 0 :=
  (by decide +kernel : ∀ q : Fin 4, ∃ t : Fin grid0.N, _)

/-- An index of window 6's array is in point t's block iff each coordinate is in the block's range on its axis. -/
theorem mem_blk0_6 (t : Fin cfg0.N) (i : S16x1024x1.Idx) :
    i ∈ ((cfg0.win 6).blk t).view.set ↔ ∀ a : Fin 3, win0_6.index t a * S4x1024x1.size a ≤ (i a).val
      ∧ (i a).val < win0_6.index t a * S4x1024x1.size a + S4x1024x1.size a := by
  show i ∈ ((View.whole main_call0_v1_2).slice (win0_6.rect t)).set ↔ _
  rw [View.set_slice_whole, Rect.mem_set_unit]
  exact Iff.rfl

/-- Window 6's blocks tile its array: the index with batch b lies in the block of the point b / 4. -/
theorem tile0_6 (i : S16x1024x1.Idx) :
    ∃ t : Fin cfg0.N, (cfg0.win 6).flush t = true ∧ i ∈ ((cfg0.win 6).blk t).view.set := by
  have hi0 : (i 0).val < 16 := (i 0).isLt
  have hi1 : (i 1).val < 1024 := (i 1).isLt
  have hi2 : (i 2).val < 1 := (i 2).isLt
  obtain ⟨t, q0, q1, q2⟩ := cov_onto0_6 ⟨(i 0).val / 4, by omega⟩
  refine ⟨t, flush0_6 t, ?_⟩
  rw [mem_blk0_6]
  intro a
  match a with
  | ⟨0, _⟩ => show win0_6.index t (0 : Fin 3) * 4 ≤ (i 0).val ∧ (i 0).val < win0_6.index t (0 : Fin 3) * 4 + 4; simp only [q0]; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1 ≤ (i 2).val ∧ (i 2).val < win0_6.index t (2 : Fin 3) * 1 + 1; omega

/-! ## The second call: eight points, two batches each -/

/-- Window 0's block index, decided over the 8 points: the point on the batch axis, zero elsewhere. -/
theorem cov_idx1_0 : ∀ t : Fin cfg1.N, win1_0.index t (0 : Fin 3) = t.val ∧ win1_0.index t (1 : Fin 3) = 0 ∧ win1_0.index t (2 : Fin 3) = 0 ∧ t.val < 8 :=
  (by decide +kernel : ∀ t : Fin grid1.N, _)

/-- An element of window 0's block at point t sits in the array at batch 2·t + its batch inside the block. -/
theorem emb1_0 (t : Fin cfg1.N) (i : Fin 2) (n : Fin 1024) (d : Fin 256) (h : 2 * t.val + i.val < 16) :
    ((cfg1.win 0).blk t).view.emb (ix3 i n d) = (ix3 ⟨2 * t.val + i.val, h⟩ n d : S16x1024x256.Idx) := by
  obtain ⟨e0, e1, e2, ht⟩ := cov_idx1_0 t
  funext a; apply Fin.ext
  match a with
  | ⟨0, _⟩ => show win1_0.index t (0 : Fin 3) * 2 + 1 * i.val = 2 * t.val + i.val; omega
  | ⟨1, _⟩ => show win1_0.index t (1 : Fin 3) * 1024 + 1 * n.val = n.val; omega
  | ⟨2, _⟩ => show win1_0.index t (2 : Fin 3) * 256 + 1 * d.val = d.val; omega

/-- Window 1's block index, decided over the 8 points: the point on the batch axis, zero elsewhere. -/
theorem cov_idx1_1 : ∀ t : Fin cfg1.N, win1_1.index t (0 : Fin 3) = t.val ∧ win1_1.index t (1 : Fin 3) = 0 ∧ win1_1.index t (2 : Fin 3) = 0 ∧ t.val < 8 :=
  (by decide +kernel : ∀ t : Fin grid1.N, _)

/-- An element of window 1's block at point t sits in the array at batch 2·t + its batch inside the block. -/
theorem emb1_1 (t : Fin cfg1.N) (i : Fin 2) (n : Fin 1024) (d : Fin 1024) (h : 2 * t.val + i.val < 16) :
    ((cfg1.win 1).blk t).view.emb (ix3 i n d) = (ix3 ⟨2 * t.val + i.val, h⟩ n d : S16x1024x1024.Idx) := by
  obtain ⟨e0, e1, e2, ht⟩ := cov_idx1_1 t
  funext a; apply Fin.ext
  match a with
  | ⟨0, _⟩ => show win1_1.index t (0 : Fin 3) * 2 + 1 * i.val = 2 * t.val + i.val; omega
  | ⟨1, _⟩ => show win1_1.index t (1 : Fin 3) * 1024 + 1 * n.val = n.val; omega
  | ⟨2, _⟩ => show win1_1.index t (2 : Fin 3) * 1024 + 1 * d.val = d.val; omega

/-- Window 2's block index, decided over the 8 points: zero on every axis (the block is the whole array). -/
theorem cov_idx1_2 : ∀ t : Fin cfg1.N, win1_2.index t (0 : Fin 2) = 0 ∧ win1_2.index t (1 : Fin 2) = 0 ∧ t.val < 8 :=
  (by decide +kernel : ∀ t : Fin grid1.N, _)

/-- Window 2's block is its whole array: an element sits at its own coordinates. -/
theorem emb1_2 (t : Fin cfg1.N) (j : S256x256.Idx) : ((cfg1.win 2).blk t).view.emb j = j := by
  obtain ⟨e0, e1, ht⟩ := cov_idx1_2 t
  funext a; apply Fin.ext
  match a with
  | ⟨0, _⟩ => show win1_2.index t (0 : Fin 2) * 256 + 1 * (j 0).val = (j 0).val; omega
  | ⟨1, _⟩ => show win1_2.index t (1 : Fin 2) * 256 + 1 * (j 1).val = (j 1).val; omega

/-- Window 3's block index, decided over the 8 points: zero on every axis (the block is the whole array). -/
theorem cov_idx1_3 : ∀ t : Fin cfg1.N, win1_3.index t (0 : Fin 2) = 0 ∧ win1_3.index t (1 : Fin 2) = 0 ∧ t.val < 8 :=
  (by decide +kernel : ∀ t : Fin grid1.N, _)

/-- Window 3's block is its whole array: an element sits at its own coordinates. -/
theorem emb1_3 (t : Fin cfg1.N) (j : S1x256.Idx) : ((cfg1.win 3).blk t).view.emb j = j := by
  obtain ⟨e0, e1, ht⟩ := cov_idx1_3 t
  funext a; apply Fin.ext
  match a with
  | ⟨0, _⟩ => show win1_3.index t (0 : Fin 2) * 1 + 1 * (j 0).val = (j 0).val; omega
  | ⟨1, _⟩ => show win1_3.index t (1 : Fin 2) * 256 + 1 * (j 1).val = (j 1).val; omega

/-- Window 4's block index, decided over the 8 points: zero on every axis (the block is the whole array). -/
theorem cov_idx1_4 : ∀ t : Fin cfg1.N, win1_4.index t (0 : Fin 3) = 0 ∧ win1_4.index t (1 : Fin 3) = 0 ∧ win1_4.index t (2 : Fin 3) = 0 ∧ t.val < 8 :=
  (by decide +kernel : ∀ t : Fin grid1.N, _)

/-- Window 4's block is its whole array: an element sits at its own coordinates. -/
theorem emb1_4 (t : Fin cfg1.N) (j : S16x1024x1.Idx) : ((cfg1.win 4).blk t).view.emb j = j := by
  obtain ⟨e0, e1, e2, ht⟩ := cov_idx1_4 t
  funext a; apply Fin.ext
  match a with
  | ⟨0, _⟩ => show win1_4.index t (0 : Fin 3) * 16 + 1 * (j 0).val = (j 0).val; omega
  | ⟨1, _⟩ => show win1_4.index t (1 : Fin 3) * 1024 + 1 * (j 1).val = (j 1).val; omega
  | ⟨2, _⟩ => show win1_4.index t (2 : Fin 3) * 1 + 1 * (j 2).val = (j 2).val; omega

/-- Window 5's block index, decided over the 8 points: zero on every axis (the block is the whole array). -/
theorem cov_idx1_5 : ∀ t : Fin cfg1.N, win1_5.index t (0 : Fin 3) = 0 ∧ win1_5.index t (1 : Fin 3) = 0 ∧ win1_5.index t (2 : Fin 3) = 0 ∧ t.val < 8 :=
  (by decide +kernel : ∀ t : Fin grid1.N, _)

/-- Window 5's block is its whole array: an element sits at its own coordinates. -/
theorem emb1_5 (t : Fin cfg1.N) (j : S16x1024x1.Idx) : ((cfg1.win 5).blk t).view.emb j = j := by
  obtain ⟨e0, e1, e2, ht⟩ := cov_idx1_5 t
  funext a; apply Fin.ext
  match a with
  | ⟨0, _⟩ => show win1_5.index t (0 : Fin 3) * 16 + 1 * (j 0).val = (j 0).val; omega
  | ⟨1, _⟩ => show win1_5.index t (1 : Fin 3) * 1024 + 1 * (j 1).val = (j 1).val; omega
  | ⟨2, _⟩ => show win1_5.index t (2 : Fin 3) * 1 + 1 * (j 2).val = (j 2).val; omega

/-- Window 6's block index, decided over the 8 points: zero on every axis (the block is the whole array). -/
theorem cov_idx1_6 : ∀ t : Fin cfg1.N, win1_6.index t (0 : Fin 2) = 0 ∧ win1_6.index t (1 : Fin 2) = 0 ∧ t.val < 8 :=
  (by decide +kernel : ∀ t : Fin grid1.N, _)

/-- Window 6's block is its whole array: an element sits at its own coordinates. -/
theorem emb1_6 (t : Fin cfg1.N) (j : S1024x1.Idx) : ((cfg1.win 6).blk t).view.emb j = j := by
  obtain ⟨e0, e1, ht⟩ := cov_idx1_6 t
  funext a; apply Fin.ext
  match a with
  | ⟨0, _⟩ => show win1_6.index t (0 : Fin 2) * 1024 + 1 * (j 0).val = (j 0).val; omega
  | ⟨1, _⟩ => show win1_6.index t (1 : Fin 2) * 1 + 1 * (j 1).val = (j 1).val; omega

/-- Window 7's block index, decided over the 8 points: zero on every axis (the block is the whole array). -/
theorem cov_idx1_7 : ∀ t : Fin cfg1.N, win1_7.index t (0 : Fin 2) = 0 ∧ win1_7.index t (1 : Fin 2) = 0 ∧ t.val < 8 :=
  (by decide +kernel : ∀ t : Fin grid1.N, _)

/-- Window 7's block is its whole array: an element sits at its own coordinates. -/
theorem emb1_7 (t : Fin cfg1.N) (j : S1024x1.Idx) : ((cfg1.win 7).blk t).view.emb j = j := by
  obtain ⟨e0, e1, ht⟩ := cov_idx1_7 t
  funext a; apply Fin.ext
  match a with
  | ⟨0, _⟩ => show win1_7.index t (0 : Fin 2) * 1024 + 1 * (j 0).val = (j 0).val; omega
  | ⟨1, _⟩ => show win1_7.index t (1 : Fin 2) * 1 + 1 * (j 1).val = (j 1).val; omega

/-- Window 8's block index, decided over the 8 points: the point on the batch axis, zero elsewhere. -/
theorem cov_idx1_8 : ∀ t : Fin cfg1.N, win1_8.index t (0 : Fin 3) = t.val ∧ win1_8.index t (1 : Fin 3) = 0 ∧ win1_8.index t (2 : Fin 3) = 0 ∧ t.val < 8 :=
  (by decide +kernel : ∀ t : Fin grid1.N, _)

/-- An element of window 8's block at point t sits in the array at batch 2·t + its batch inside the block. -/
theorem emb1_8 (t : Fin cfg1.N) (i : Fin 2) (n : Fin 1024) (d : Fin 256) (h : 2 * t.val + i.val < 16) :
    ((cfg1.win 8).blk t).view.emb (ix3 i n d) = (ix3 ⟨2 * t.val + i.val, h⟩ n d : S16x1024x256.Idx) := by
  obtain ⟨e0, e1, e2, ht⟩ := cov_idx1_8 t
  funext a; apply Fin.ext
  match a with
  | ⟨0, _⟩ => show win1_8.index t (0 : Fin 3) * 2 + 1 * i.val = 2 * t.val + i.val; omega
  | ⟨1, _⟩ => show win1_8.index t (1 : Fin 3) * 1024 + 1 * n.val = n.val; omega
  | ⟨2, _⟩ => show win1_8.index t (2 : Fin 3) * 256 + 1 * d.val = d.val; omega

/-- Every batch block of window 8 is some point's. -/
theorem cov_onto1_8 : ∀ q : Fin 8, ∃ t : Fin cfg1.N, win1_8.index t (0 : Fin 3) = q.val
    ∧ win1_8.index t (1 : Fin 3) = 0 ∧ win1_8.index t (2 : Fin 3) = 0 :=
  (by decide +kernel : ∀ q : Fin 8, ∃ t : Fin grid1.N, _)

/-- An index of window 8's array is in point t's block iff each coordinate is in the block's range on its axis. -/
theorem mem_blk1_8 (t : Fin cfg1.N) (i : S16x1024x256.Idx) :
    i ∈ ((cfg1.win 8).blk t).view.set ↔ ∀ a : Fin 3, win1_8.index t a * S2x1024x256.size a ≤ (i a).val
      ∧ (i a).val < win1_8.index t a * S2x1024x256.size a + S2x1024x256.size a := by
  show i ∈ ((View.whole main_call0_v5_0).slice (win1_8.rect t)).set ↔ _
  rw [View.set_slice_whole, Rect.mem_set_unit]
  exact Iff.rfl

/-- Window 8's blocks tile its array: the index with batch b lies in the block of the point b / 2. -/
theorem tile1_8 (i : S16x1024x256.Idx) :
    ∃ t : Fin cfg1.N, (cfg1.win 8).flush t = true ∧ i ∈ ((cfg1.win 8).blk t).view.set := by
  have hi0 : (i 0).val < 16 := (i 0).isLt
  have hi1 : (i 1).val < 1024 := (i 1).isLt
  have hi2 : (i 2).val < 256 := (i 2).isLt
  obtain ⟨t, q0, q1, q2⟩ := cov_onto1_8 ⟨(i 0).val / 2, by omega⟩
  refine ⟨t, flush1_8 t, ?_⟩
  rw [mem_blk1_8]
  intro a
  match a with
  | ⟨0, _⟩ => show win1_8.index t (0 : Fin 3) * 2 ≤ (i 0).val ∧ (i 0).val < win1_8.index t (0 : Fin 3) * 2 + 2; simp only [q0]; omega
  | ⟨1, _⟩ => show win1_8.index t (1 : Fin 3) * 1024 ≤ (i 1).val ∧ (i 1).val < win1_8.index t (1 : Fin 3) * 1024 + 1024; omega
  | ⟨2, _⟩ => show win1_8.index t (2 : Fin 3) * 256 ≤ (i 2).val ∧ (i 2).val < win1_8.index t (2 : Fin 3) * 256 + 256; omega

/-- Window 9's block index, decided over the 8 points: the point on the batch axis, zero elsewhere. -/
theorem cov_idx1_9 : ∀ t : Fin cfg1.N, win1_9.index t (0 : Fin 3) = t.val ∧ win1_9.index t (1 : Fin 3) = 0 ∧ win1_9.index t (2 : Fin 3) = 0 ∧ t.val < 8 :=
  (by decide +kernel : ∀ t : Fin grid1.N, _)

/-- An element of window 9's block at point t sits in the array at batch 2·t + its batch inside the block. -/
theorem emb1_9 (t : Fin cfg1.N) (i : Fin 2) (n : Fin 1024) (d : Fin 1) (h : 2 * t.val + i.val < 16) :
    ((cfg1.win 9).blk t).view.emb (ix3 i n d) = (ix3 ⟨2 * t.val + i.val, h⟩ n d : S16x1024x1.Idx) := by
  obtain ⟨e0, e1, e2, ht⟩ := cov_idx1_9 t
  funext a; apply Fin.ext
  match a with
  | ⟨0, _⟩ => show win1_9.index t (0 : Fin 3) * 2 + 1 * i.val = 2 * t.val + i.val; omega
  | ⟨1, _⟩ => show win1_9.index t (1 : Fin 3) * 1024 + 1 * n.val = n.val; omega
  | ⟨2, _⟩ => show win1_9.index t (2 : Fin 3) * 1 + 1 * d.val = d.val; omega

/-- Every batch block of window 9 is some point's. -/
theorem cov_onto1_9 : ∀ q : Fin 8, ∃ t : Fin cfg1.N, win1_9.index t (0 : Fin 3) = q.val
    ∧ win1_9.index t (1 : Fin 3) = 0 ∧ win1_9.index t (2 : Fin 3) = 0 :=
  (by decide +kernel : ∀ q : Fin 8, ∃ t : Fin grid1.N, _)

/-- An index of window 9's array is in point t's block iff each coordinate is in the block's range on its axis. -/
theorem mem_blk1_9 (t : Fin cfg1.N) (i : S16x1024x1.Idx) :
    i ∈ ((cfg1.win 9).blk t).view.set ↔ ∀ a : Fin 3, win1_9.index t a * S2x1024x1.size a ≤ (i a).val
      ∧ (i a).val < win1_9.index t a * S2x1024x1.size a + S2x1024x1.size a := by
  show i ∈ ((View.whole main_call0_v5_1).slice (win1_9.rect t)).set ↔ _
  rw [View.set_slice_whole, Rect.mem_set_unit]
  exact Iff.rfl

/-- Window 9's blocks tile its array: the index with batch b lies in the block of the point b / 2. -/
theorem tile1_9 (i : S16x1024x1.Idx) :
    ∃ t : Fin cfg1.N, (cfg1.win 9).flush t = true ∧ i ∈ ((cfg1.win 9).blk t).view.set := by
  have hi0 : (i 0).val < 16 := (i 0).isLt
  have hi1 : (i 1).val < 1024 := (i 1).isLt
  have hi2 : (i 2).val < 1 := (i 2).isLt
  obtain ⟨t, q0, q1, q2⟩ := cov_onto1_9 ⟨(i 0).val / 2, by omega⟩
  refine ⟨t, flush1_9 t, ?_⟩
  rw [mem_blk1_9]
  intro a
  match a with
  | ⟨0, _⟩ => show win1_9.index t (0 : Fin 3) * 2 ≤ (i 0).val ∧ (i 0).val < win1_9.index t (0 : Fin 3) * 2 + 2; simp only [q0]; omega
  | ⟨1, _⟩ => show win1_9.index t (1 : Fin 3) * 1024 ≤ (i 1).val ∧ (i 1).val < win1_9.index t (1 : Fin 3) * 1024 + 1024; omega
  | ⟨2, _⟩ => show win1_9.index t (2 : Fin 3) * 1 ≤ (i 2).val ∧ (i 2).val < win1_9.index t (2 : Fin 3) * 1 + 1; omega

/-- Window 10's block index, decided over the 8 points: the point on the batch axis, zero elsewhere. -/
theorem cov_idx1_10 : ∀ t : Fin cfg1.N, win1_10.index t (0 : Fin 3) = t.val ∧ win1_10.index t (1 : Fin 3) = 0 ∧ win1_10.index t (2 : Fin 3) = 0 ∧ t.val < 8 :=
  (by decide +kernel : ∀ t : Fin grid1.N, _)

/-- An element of window 10's block at point t sits in the array at batch 2·t + its batch inside the block. -/
theorem emb1_10 (t : Fin cfg1.N) (i : Fin 2) (n : Fin 1024) (d : Fin 1) (h : 2 * t.val + i.val < 16) :
    ((cfg1.win 10).blk t).view.emb (ix3 i n d) = (ix3 ⟨2 * t.val + i.val, h⟩ n d : S16x1024x1.Idx) := by
  obtain ⟨e0, e1, e2, ht⟩ := cov_idx1_10 t
  funext a; apply Fin.ext
  match a with
  | ⟨0, _⟩ => show win1_10.index t (0 : Fin 3) * 2 + 1 * i.val = 2 * t.val + i.val; omega
  | ⟨1, _⟩ => show win1_10.index t (1 : Fin 3) * 1024 + 1 * n.val = n.val; omega
  | ⟨2, _⟩ => show win1_10.index t (2 : Fin 3) * 1 + 1 * d.val = d.val; omega

/-- Every batch block of window 10 is some point's. -/
theorem cov_onto1_10 : ∀ q : Fin 8, ∃ t : Fin cfg1.N, win1_10.index t (0 : Fin 3) = q.val
    ∧ win1_10.index t (1 : Fin 3) = 0 ∧ win1_10.index t (2 : Fin 3) = 0 :=
  (by decide +kernel : ∀ q : Fin 8, ∃ t : Fin grid1.N, _)

/-- An index of window 10's array is in point t's block iff each coordinate is in the block's range on its axis. -/
theorem mem_blk1_10 (t : Fin cfg1.N) (i : S16x1024x1.Idx) :
    i ∈ ((cfg1.win 10).blk t).view.set ↔ ∀ a : Fin 3, win1_10.index t a * S2x1024x1.size a ≤ (i a).val
      ∧ (i a).val < win1_10.index t a * S2x1024x1.size a + S2x1024x1.size a := by
  show i ∈ ((View.whole main_call0_v5_2).slice (win1_10.rect t)).set ↔ _
  rw [View.set_slice_whole, Rect.mem_set_unit]
  exact Iff.rfl

/-- Window 10's blocks tile its array: the index with batch b lies in the block of the point b / 2. -/
theorem tile1_10 (i : S16x1024x1.Idx) :
    ∃ t : Fin cfg1.N, (cfg1.win 10).flush t = true ∧ i ∈ ((cfg1.win 10).blk t).view.set := by
  have hi0 : (i 0).val < 16 := (i 0).isLt
  have hi1 : (i 1).val < 1024 := (i 1).isLt
  have hi2 : (i 2).val < 1 := (i 2).isLt
  obtain ⟨t, q0, q1, q2⟩ := cov_onto1_10 ⟨(i 0).val / 2, by omega⟩
  refine ⟨t, flush1_10 t, ?_⟩
  rw [mem_blk1_10]
  intro a
  match a with
  | ⟨0, _⟩ => show win1_10.index t (0 : Fin 3) * 2 ≤ (i 0).val ∧ (i 0).val < win1_10.index t (0 : Fin 3) * 2 + 2; simp only [q0]; omega
  | ⟨1, _⟩ => show win1_10.index t (1 : Fin 3) * 1024 ≤ (i 1).val ∧ (i 1).val < win1_10.index t (1 : Fin 3) * 1024 + 1024; omega
  | ⟨2, _⟩ => show win1_10.index t (2 : Fin 3) * 1 ≤ (i 2).val ∧ (i 2).val < win1_10.index t (2 : Fin 3) * 1 + 1; omega

/-! ## The third call: two points, eight batches each -/

/-- Window 0's block index, decided over the 2 points: the point on the batch axis, zero elsewhere. -/
theorem cov_idx2_0 : ∀ t : Fin cfg2.N, win2_0.index t (0 : Fin 3) = t.val ∧ win2_0.index t (1 : Fin 3) = 0 ∧ win2_0.index t (2 : Fin 3) = 0 ∧ t.val < 2 :=
  (by decide +kernel : ∀ t : Fin grid2.N, _)

/-- An element of window 0's block at point t sits in the array at batch 8·t + its batch inside the block. -/
theorem emb2_0 (t : Fin cfg2.N) (i : Fin 8) (n : Fin 1024) (d : Fin 256) (h : 8 * t.val + i.val < 16) :
    ((cfg2.win 0).blk t).view.emb (ix3 i n d) = (ix3 ⟨8 * t.val + i.val, h⟩ n d : S16x1024x256.Idx) := by
  obtain ⟨e0, e1, e2, ht⟩ := cov_idx2_0 t
  funext a; apply Fin.ext
  match a with
  | ⟨0, _⟩ => show win2_0.index t (0 : Fin 3) * 8 + 1 * i.val = 8 * t.val + i.val; omega
  | ⟨1, _⟩ => show win2_0.index t (1 : Fin 3) * 1024 + 1 * n.val = n.val; omega
  | ⟨2, _⟩ => show win2_0.index t (2 : Fin 3) * 256 + 1 * d.val = d.val; omega

/-- Window 1's block index, decided over the 2 points: zero on every axis (the block is the whole array). -/
theorem cov_idx2_1 : ∀ t : Fin cfg2.N, win2_1.index t (0 : Fin 3) = 0 ∧ win2_1.index t (1 : Fin 3) = 0 ∧ win2_1.index t (2 : Fin 3) = 0 ∧ t.val < 2 :=
  (by decide +kernel : ∀ t : Fin grid2.N, _)

/-- Window 1's block is its whole array: an element sits at its own coordinates. -/
theorem emb2_1 (t : Fin cfg2.N) (j : S16x1024x1.Idx) : ((cfg2.win 1).blk t).view.emb j = j := by
  obtain ⟨e0, e1, e2, ht⟩ := cov_idx2_1 t
  funext a; apply Fin.ext
  match a with
  | ⟨0, _⟩ => show win2_1.index t (0 : Fin 3) * 16 + 1 * (j 0).val = (j 0).val; omega
  | ⟨1, _⟩ => show win2_1.index t (1 : Fin 3) * 1024 + 1 * (j 1).val = (j 1).val; omega
  | ⟨2, _⟩ => show win2_1.index t (2 : Fin 3) * 1 + 1 * (j 2).val = (j 2).val; omega

/-- Window 2's block index, decided over the 2 points: zero on every axis (the block is the whole array). -/
theorem cov_idx2_2 : ∀ t : Fin cfg2.N, win2_2.index t (0 : Fin 3) = 0 ∧ win2_2.index t (1 : Fin 3) = 0 ∧ win2_2.index t (2 : Fin 3) = 0 ∧ t.val < 2 :=
  (by decide +kernel : ∀ t : Fin grid2.N, _)

/-- Window 2's block is its whole array: an element sits at its own coordinates. -/
theorem emb2_2 (t : Fin cfg2.N) (j : S16x1024x1.Idx) : ((cfg2.win 2).blk t).view.emb j = j := by
  obtain ⟨e0, e1, e2, ht⟩ := cov_idx2_2 t
  funext a; apply Fin.ext
  match a with
  | ⟨0, _⟩ => show win2_2.index t (0 : Fin 3) * 16 + 1 * (j 0).val = (j 0).val; omega
  | ⟨1, _⟩ => show win2_2.index t (1 : Fin 3) * 1024 + 1 * (j 1).val = (j 1).val; omega
  | ⟨2, _⟩ => show win2_2.index t (2 : Fin 3) * 1 + 1 * (j 2).val = (j 2).val; omega

/-- Window 3's block index, decided over the 2 points: zero on every axis (the block is the whole array). -/
theorem cov_idx2_3 : ∀ t : Fin cfg2.N, win2_3.index t (0 : Fin 2) = 0 ∧ win2_3.index t (1 : Fin 2) = 0 ∧ t.val < 2 :=
  (by decide +kernel : ∀ t : Fin grid2.N, _)

/-- Window 3's block is its whole array: an element sits at its own coordinates. -/
theorem emb2_3 (t : Fin cfg2.N) (j : S1024x1.Idx) : ((cfg2.win 3).blk t).view.emb j = j := by
  obtain ⟨e0, e1, ht⟩ := cov_idx2_3 t
  funext a; apply Fin.ext
  match a with
  | ⟨0, _⟩ => show win2_3.index t (0 : Fin 2) * 1024 + 1 * (j 0).val = (j 0).val; omega
  | ⟨1, _⟩ => show win2_3.index t (1 : Fin 2) * 1 + 1 * (j 1).val = (j 1).val; omega

/-- Window 4's block index, decided over the 2 points: zero on every axis (the block is the whole array). -/
theorem cov_idx2_4 : ∀ t : Fin cfg2.N, win2_4.index t (0 : Fin 2) = 0 ∧ win2_4.index t (1 : Fin 2) = 0 ∧ t.val < 2 :=
  (by decide +kernel : ∀ t : Fin grid2.N, _)

/-- Window 4's block is its whole array: an element sits at its own coordinates. -/
theorem emb2_4 (t : Fin cfg2.N) (j : S1024x1.Idx) : ((cfg2.win 4).blk t).view.emb j = j := by
  obtain ⟨e0, e1, ht⟩ := cov_idx2_4 t
  funext a; apply Fin.ext
  match a with
  | ⟨0, _⟩ => show win2_4.index t (0 : Fin 2) * 1024 + 1 * (j 0).val = (j 0).val; omega
  | ⟨1, _⟩ => show win2_4.index t (1 : Fin 2) * 1 + 1 * (j 1).val = (j 1).val; omega

/-- Window 5's block index, decided over the 2 points: the point on the batch axis, zero elsewhere. -/
theorem cov_idx2_5 : ∀ t : Fin cfg2.N, win2_5.index t (0 : Fin 3) = t.val ∧ win2_5.index t (1 : Fin 3) = 0 ∧ win2_5.index t (2 : Fin 3) = 0 ∧ t.val < 2 :=
  (by decide +kernel : ∀ t : Fin grid2.N, _)

/-- An element of window 5's block at point t sits in the array at batch 8·t + its batch inside the block. -/
theorem emb2_5 (t : Fin cfg2.N) (i : Fin 8) (n : Fin 1024) (d : Fin 256) (h : 8 * t.val + i.val < 16) :
    ((cfg2.win 5).blk t).view.emb (ix3 i n d) = (ix3 ⟨8 * t.val + i.val, h⟩ n d : S16x1024x256.Idx) := by
  obtain ⟨e0, e1, e2, ht⟩ := cov_idx2_5 t
  funext a; apply Fin.ext
  match a with
  | ⟨0, _⟩ => show win2_5.index t (0 : Fin 3) * 8 + 1 * i.val = 8 * t.val + i.val; omega
  | ⟨1, _⟩ => show win2_5.index t (1 : Fin 3) * 1024 + 1 * n.val = n.val; omega
  | ⟨2, _⟩ => show win2_5.index t (2 : Fin 3) * 256 + 1 * d.val = d.val; omega

/-- Every batch block of window 5 is some point's. -/
theorem cov_onto2_5 : ∀ q : Fin 2, ∃ t : Fin cfg2.N, win2_5.index t (0 : Fin 3) = q.val
    ∧ win2_5.index t (1 : Fin 3) = 0 ∧ win2_5.index t (2 : Fin 3) = 0 :=
  (by decide +kernel : ∀ q : Fin 2, ∃ t : Fin grid2.N, _)

/-- An index of window 5's array is in point t's block iff each coordinate is in the block's range on its axis. -/
theorem mem_blk2_5 (t : Fin cfg2.N) (i : S16x1024x256.Idx) :
    i ∈ ((cfg2.win 5).blk t).view.set ↔ ∀ a : Fin 3, win2_5.index t a * S8x1024x256.size a ≤ (i a).val
      ∧ (i a).val < win2_5.index t a * S8x1024x256.size a + S8x1024x256.size a := by
  show i ∈ ((View.whole main_v0).slice (win2_5.rect t)).set ↔ _
  rw [View.set_slice_whole, Rect.mem_set_unit]
  exact Iff.rfl

/-- Window 5's blocks tile its array: the index with batch b lies in the block of the point b / 8. -/
theorem tile2_5 (i : S16x1024x256.Idx) :
    ∃ t : Fin cfg2.N, (cfg2.win 5).flush t = true ∧ i ∈ ((cfg2.win 5).blk t).view.set := by
  have hi0 : (i 0).val < 16 := (i 0).isLt
  have hi1 : (i 1).val < 1024 := (i 1).isLt
  have hi2 : (i 2).val < 256 := (i 2).isLt
  obtain ⟨t, q0, q1, q2⟩ := cov_onto2_5 ⟨(i 0).val / 8, by omega⟩
  refine ⟨t, flush2_5 t, ?_⟩
  rw [mem_blk2_5]
  intro a
  match a with
  | ⟨0, _⟩ => show win2_5.index t (0 : Fin 3) * 8 ≤ (i 0).val ∧ (i 0).val < win2_5.index t (0 : Fin 3) * 8 + 8; simp only [q0]; omega
  | ⟨1, _⟩ => show win2_5.index t (1 : Fin 3) * 1024 ≤ (i 1).val ∧ (i 1).val < win2_5.index t (1 : Fin 3) * 1024 + 1024; omega
  | ⟨2, _⟩ => show win2_5.index t (2 : Fin 3) * 256 ≤ (i 2).val ∧ (i 2).val < win2_5.index t (2 : Fin 3) * 256 + 256; omega

end Cert.KernelIdeal.H

end
-- ==== Proof.K0Array.lean ====
/-
  The first call's three result arrays as functions of the arrays it is given.

  At every point the body writes, for the four batches of its block, the layer's values
  max (adj · (x · W) + b) 0, their channel sums and their channel sums of squares. A block of x, of the adjacency
  and of each result holds the batches 4·t … 4·t + 3 of its array, the weights and the bias are whole, and the four
  result blocks tile each result array: so the arrays end holding, index by index, the layer, its channel sums and its
  channel sums of squares.
-/
import proofs.«160428_g88656714924069_cont_sun_m_1396_13_alg».proof.Proof.K0
import proofs.«160428_g88656714924069_cont_sun_m_1396_13_alg».proof.Proof.K0Value
import proofs.«160428_g88656714924069_cont_sun_m_1396_13_alg».proof.Proof.KCover
import proofs.«160428_g88656714924069_cont_sun_m_1396_13_alg».proof.Proof.SpecK

set_option maxRecDepth 16384

noncomputable section

namespace Cert.KernelIdeal.H

open Cert.KernelIdeal Cert.KernelIdeal.Gen
open Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

/-! ## The blocks, read off the arrays -/

/-- The x block at point t holds the batches 4·t … 4·t + 3. -/
theorem iblk0_0_apply (c : Dev nD) (t : Fin cfg0.N) (i : Fin 4) (n : Fin 1024) (d : Fin 256) (h : 4 * t.val + i.val < 16) :
    (iblk0 V c 0 t : S4x1024x256.Idx → EReal) (ix3 i n d)
      = (V c main_arg0 : S16x1024x256.Idx → EReal) (ix3 ⟨4 * t.val + i.val, h⟩ n d) := by
  show (V c main_arg0 : S16x1024x256.Idx → EReal) (((cfg0.win 0).blk t).view.emb (ix3 i n d)) = _
  rw [emb0_0 t i n d h]

/-- The adjacency block at point t holds the batches 4·t … 4·t + 3. -/
theorem iblk0_1_apply (c : Dev nD) (t : Fin cfg0.N) (i : Fin 4) (n : Fin 1024) (k : Fin 1024) (h : 4 * t.val + i.val < 16) :
    (iblk0 V c 1 t : S4x1024x1024.Idx → EReal) (ix3 i n k)
      = (V c main_arg1 : S16x1024x1024.Idx → EReal) (ix3 ⟨4 * t.val + i.val, h⟩ n k) := by
  show (V c main_arg1 : S16x1024x1024.Idx → EReal) (((cfg0.win 1).blk t).view.emb (ix3 i n k)) = _
  rw [emb0_1 t i n k h]

/-- The weights' and the bias' blocks are the arrays. -/
theorem iblk0_2_eq (c : Dev nD) (t : Fin cfg0.N) : (iblk0 V c 2 t : S256x256.Idx → EReal) = V c main_arg2 := by
  funext j
  show (V c main_arg2 : S256x256.Idx → EReal) (((cfg0.win 2).blk t).view.emb j) = _
  rw [emb0_2 t j]

theorem iblk0_3_eq (c : Dev nD) (t : Fin cfg0.N) : (iblk0 V c 3 t : S1x256.Idx → EReal) = V c main_call0_v0 := by
  funext j
  show (V c main_call0_v0 : S1x256.Idx → EReal) (((cfg0.win 3).blk t).view.emb j) = _
  rw [emb0_3 t j]

/-! ## The result arrays -/

/-- The layer of the arrays the call is given. -/
abbrev layer0Of (c : Dev nD) : Act := conv (actOf (V c main_arg0)) (adjOf (V c main_arg1)) (matOf (V c main_arg2)) (rowOf (V c main_call0_v0))

/-- What point t writes back to the first result is block t of the layer. -/
theorem flushed0_4_eq (c : Dev nD) (t : Fin cfg0.N) :
    (dat0 V c).flushed 4 t = ((cfg0.win 4).blk t).view.read (Elt Ideal) (arrOf (layer0Of V c)) := by
  show (cfg0.win 4).cut (grid0.coords t) ((dat0 V c).after 4 t) = _
  rw [after0_4]
  funext j
  obtain ⟨i, n, d, rfl⟩ : ∃ (i : Fin 4) (n : Fin 1024) (d : Fin 256), j = ix3 i n d := ⟨j 0, j 1, j 2, eq_ix3 j⟩
  have ht : t.val < 4 := (cov_idx0_4 t).2.2.2
  have h : 4 * t.val + i.val < 16 := by have := i.isLt; omega
  show out0_4 (iblk0 V c 0 t) (iblk0 V c 1 t) (iblk0 V c 2 t) (iblk0 V c 3 t) (ix3 i n d)
    = arrOf (layer0Of V c) (((cfg0.win 4).blk t).view.emb (ix3 i n d))
  rw [emb0_4 t i n d h, arrOf_ix3, out0_4_apply, iblk0_2_eq, iblk0_3_eq]
  simp only [iblk0_0_apply V c t _ _ _ h, iblk0_1_apply V c t _ _ _ h]
  rfl

/-- What point t writes back to the second result is block t of the layer's channel sums. -/
theorem flushed0_5_eq (c : Dev nD) (t : Fin cfg0.N) :
    (dat0 V c).flushed 5 t = ((cfg0.win 5).blk t).view.read (Elt Ideal) (partArr (partS (layer0Of V c))) := by
  show (cfg0.win 5).cut (grid0.coords t) ((dat0 V c).after 5 t) = _
  rw [after0_5]
  funext j
  obtain ⟨i, n, z, rfl⟩ : ∃ (i : Fin 4) (n : Fin 1024) (z : Fin 1), j = ix3 i n z := ⟨j 0, j 1, j 2, eq_ix3 j⟩
  obtain rfl : z = 0 := Subsingleton.elim _ _
  have ht : t.val < 4 := (cov_idx0_5 t).2.2.2
  have h : 4 * t.val + i.val < 16 := by have := i.isLt; omega
  show out0_5 (iblk0 V c 0 t) (iblk0 V c 1 t) (iblk0 V c 2 t) (iblk0 V c 3 t) (ix3 i n 0)
    = partArr (partS (layer0Of V c)) (((cfg0.win 5).blk t).view.emb (ix3 i n 0))
  rw [emb0_5 t i n 0 h, out0_5_apply, iblk0_2_eq, iblk0_3_eq]
  simp only [iblk0_0_apply V c t _ _ _ h, iblk0_1_apply V c t _ _ _ h]
  rfl

/-- What point t writes back to the third result is block t of the layer's channel sums of squares. -/
theorem flushed0_6_eq (c : Dev nD) (t : Fin cfg0.N) :
    (dat0 V c).flushed 6 t = ((cfg0.win 6).blk t).view.read (Elt Ideal) (partArr (partQ (layer0Of V c))) := by
  show (cfg0.win 6).cut (grid0.coords t) ((dat0 V c).after 6 t) = _
  rw [after0_6]
  funext j
  obtain ⟨i, n, z, rfl⟩ : ∃ (i : Fin 4) (n : Fin 1024) (z : Fin 1), j = ix3 i n z := ⟨j 0, j 1, j 2, eq_ix3 j⟩
  obtain rfl : z = 0 := Subsingleton.elim _ _
  have ht : t.val < 4 := (cov_idx0_6 t).2.2.2
  have h : 4 * t.val + i.val < 16 := by have := i.isLt; omega
  show out0_6 (iblk0 V c 0 t) (iblk0 V c 1 t) (iblk0 V c 2 t) (iblk0 V c 3 t) (ix3 i n 0)
    = partArr (partQ (layer0Of V c)) (((cfg0.win 6).blk t).view.emb (ix3 i n 0))
  rw [emb0_6 t i n 0 h, out0_6_apply, iblk0_2_eq, iblk0_3_eq]
  simp only [iblk0_0_apply V c t _ _ _ h, iblk0_1_apply V c t _ _ _ h]
  rfl

/-- The layer's array after the call. -/
theorem arr0_y (c : Dev nD) :
    (dat0 (F := Ideal) V c).arrAt 4 cfg0.N
      = arrOf (conv (actOf (V c main_arg0)) (adjOf (V c main_arg1)) (matOf (V c main_arg2)) (rowOf (V c main_call0_v0))) :=
  (dat0 V c).arrAt_eq_of_cover 4 (arrOf (layer0Of V c)) (fun t _ => flushed0_4_eq V c t) tile0_4

/-- The array of channel sums after the call. -/
theorem arr0_s (c : Dev nD) :
    (dat0 (F := Ideal) V c).arrAt 5 cfg0.N
      = partArr (partS (conv (actOf (V c main_arg0)) (adjOf (V c main_arg1)) (matOf (V c main_arg2)) (rowOf (V c main_call0_v0)))) :=
  (dat0 V c).arrAt_eq_of_cover 5 (partArr (partS (layer0Of V c))) (fun t _ => flushed0_5_eq V c t) tile0_5

/-- The array of channel sums of squares after the call. -/
theorem arr0_q (c : Dev nD) :
    (dat0 (F := Ideal) V c).arrAt 6 cfg0.N
      = partArr (partQ (conv (actOf (V c main_arg0)) (adjOf (V c main_arg1)) (matOf (V c main_arg2)) (rowOf (V c main_call0_v0)))) :=
  (dat0 V c).arrAt_eq_of_cover 6 (partArr (partQ (layer0Of V c))) (fun t _ => flushed0_6_eq V c t) tile0_6

end Cert.KernelIdeal.H

end
-- ==== Proof.K1Value.lean ====
/- Region 1 of the kernel program: what its two scratch columns and its three output blocks hold, on the
   extended reals.  The scratch columns are the folded batch normalisation of the first layer: with
     mean n = (Σ_p s1[p,n]) · 2⁻¹²   and   var n = (Σ_p q1[p,n]) · 2⁻¹² − mean n · mean n,
   the scale is  γ[n] · rsqrt (var n + ε)  and the shift is  β[n] − mean n · scale n.
   For batch i of a block, node n and channel d the first output is the second layer's value on the
   normalised activations,
     max (Σ_k adj[i,n,k] · (Σ_c (y1[i,k,c] · scale k + shift k) · W[c,d]) + b[d]) 0,
   the second its sum over d and the third the sum over d of its square. -/
import proofs.«160428_g88656714924069_cont_sun_m_1396_13_alg».proof.Proof.K1Defs
import proofs.«160428_g88656714924069_cont_sun_m_1396_13_alg».proof.Proof.K0Value
import proofs.«160428_g88656714924069_cont_sun_m_1396_13_alg».proof.Proof.LibDenseLayer
import proofs.«160428_g88656714924069_cont_sun_m_1396_13_alg».proof.Proof.LibColumn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.H

open Cert.KernelIdeal Cert.KernelIdeal.Gen
open Idealize.ShloMosaic Idealize.ShloMosaic.ValueIdx
open Cert.Bridge

/-! ## The first layer's statistics folded into a scale and a shift -/

theorem hz3_1 : (![0, 0, 0] : Fin 3 → ℕ) = fun _ => 0 := by
  funext a; match a with | ⟨0, _⟩ => rfl | ⟨1, _⟩ => rfl | ⟨2, _⟩ => rfl

/-- A [16, 1024, 1] array summed over its leading axis, read at node `n`: the sum over the sixteen batches. -/
theorem sumLead1_apply (src : FVec Ideal S16x1024x1 .f32) (n : Fin 1024) (z : Fin 1) :
    multiReduction (F := Ideal) .add [0] S1024x1 src 0x00000000#32 reduces_S16x1024x1_S1024x1 (.inl rfl) rfl (ix2 n z)
      = ∑ p : Fin 16, src (ix3 p n z) := by
  refine (Ideal.multiReduction_add_single src _ reduces_S16x1024x1_S1024x1 _ _ (ix2 n z)).trans ?_
  refine Finset.sum_congr rfl fun p _ => congrArg src ?_
  funext a
  match a with
  | ⟨0, _⟩ => exact Fin.ext rfl
  | ⟨1, _⟩ => exact Fin.ext rfl
  | ⟨2, _⟩ => exact Fin.ext rfl

/-- The per-node mean: the batch sum of the channel sums, times the word 2⁻¹². -/
theorem pay1_3_apply (s : Vec Ideal S16x1024x1 .f32) (n : Fin 1024) (z : Fin 1) :
    k1_pay3 (F := Ideal) s (ix2 n z) = (∑ p : Fin 16, s (ix3 p n z)) * Ideal.ofBits .f32 0x39800000#32 := by
  unfold k1_pay3
  show _ * _ = _
  refine congrArg₂ (· * ·) ?_ rfl
  refine (sumLead1_apply _ n z).trans ?_
  exact Finset.sum_congr rfl fun p _ => congrFun (shapeCast_self s _) (ix3 p n z)

/-- The per-node scale: γ times the reciprocal root of the variance plus ε, the variance being the mean of squares
    minus the squared mean. -/
theorem pay1_4_apply (s q : Vec Ideal S16x1024x1 .f32) (g : Vec Ideal S1024x1 .f32) (n : Fin 1024) (z : Fin 1) :
    k1_pay4 (F := Ideal) s q g (ix2 n z)
      = g (ix2 n z) * Ideal.rsqrt ((∑ p : Fin 16, q (ix3 p n z)) * Ideal.ofBits .f32 0x39800000#32
          - ((∑ p : Fin 16, s (ix3 p n z)) * Ideal.ofBits .f32 0x39800000#32) * ((∑ p : Fin 16, s (ix3 p n z)) * Ideal.ofBits .f32 0x39800000#32)
          + Ideal.ofBits .f32 0x3727C5AC#32) := by
  unfold k1_pay4
  show _ * Ideal.rsqrt (_ * _ - _ * _ + _) = _
  refine congrArg₂ (· * ·) ?_ (congrArg Ideal.rsqrt (congrArg₂ (· + ·) (congrArg₂ (· - ·) (congrArg₂ (· * ·) ?_ rfl)
    (congrArg₂ (· * ·) ?_ ?_)) rfl))
  · exact congrFun (shapeCast_self g _) (ix2 n z)
  · refine (sumLead1_apply _ n z).trans ?_
    exact Finset.sum_congr rfl fun p _ => congrFun (shapeCast_self q _) (ix3 p n z)
  · exact pay1_3_apply s n z
  · exact pay1_3_apply s n z

section Scratch

variable (x4 x5 : Vec Ideal S16x1024x1 .f32) (x6 x7 : Vec Ideal S1024x1 .f32)

theorem ld_rP (x : Vec Ideal S16x1024x1 .f32) : View.ld x rP = x := View.ld_unit_zero (S := S16x1024x1) hz3_1 _ x
theorem ld_rN1 (x : Vec Ideal S1024x1 .f32) : View.ld x rN1 = x := View.ld_unit_zero (S := S1024x1) hz2_0 _ x

/-- The scale column the first grid point keeps in scratch. -/
theorem scrA_apply (n : Fin 1024) :
    scrA (F := Ideal) x4 x5 x6 (ix2 n (0 : Fin 1))
      = x6 (ix2 n (0 : Fin 1)) * Ideal.rsqrt ((∑ p : Fin 16, x5 (ix3 p n (0 : Fin 1))) * Ideal.ofBits .f32 0x39800000#32
          - ((∑ p : Fin 16, x4 (ix3 p n (0 : Fin 1))) * Ideal.ofBits .f32 0x39800000#32)
            * ((∑ p : Fin 16, x4 (ix3 p n (0 : Fin 1))) * Ideal.ofBits .f32 0x39800000#32)
          + Ideal.ofBits .f32 0x3727C5AC#32) := by
  unfold scrA k1_pay5
  rw [ld_rP, ld_rP, ld_rN1]
  exact (congrFun (shapeCast_self (k1_pay4 (F := Ideal) x4 x5 x6) _) (ix2 n (0 : Fin 1))).trans (pay1_4_apply x4 x5 x6 n 0)

/-- The shift column the first grid point keeps in scratch: β minus the mean times the scale. -/
theorem scrC_apply (n : Fin 1024) :
    scrC (F := Ideal) x4 x5 x6 x7 (ix2 n (0 : Fin 1))
      = x7 (ix2 n (0 : Fin 1)) - ((∑ p : Fin 16, x4 (ix3 p n (0 : Fin 1))) * Ideal.ofBits .f32 0x39800000#32)
          * scrA (F := Ideal) x4 x5 x6 (ix2 n (0 : Fin 1)) := by
  unfold scrC scrA k1_pay5 k1_pay6
  rw [ld_rP, ld_rP, ld_rN1, ld_rN1]
  refine (congrFun (shapeCast_self _ _) (ix2 n (0 : Fin 1))).trans ?_
  show _ - _ * _ = _
  refine congrArg₂ (· - ·) ?_ (congrArg₂ (· * ·) ?_ ?_)
  · exact congrFun (shapeCast_self x7 _) (ix2 n (0 : Fin 1))
  · exact pay1_3_apply x4 n 0
  · exact (congrFun (shapeCast_self (k1_pay4 (F := Ideal) x4 x5 x6) _) (ix2 n (0 : Fin 1))).symm

end Scratch

/-! ## One batch's second-layer value at an entry -/

/-- One batch's clamped layer on the normalised activations, read at node `n` and channel `d`. -/
theorem pay1_7_apply (yb : Vec Ideal S1x1024x256 .bf16) (sa sc : Vec Ideal S1024x1 .f32) (w : Vec Ideal S256x256 .f32)
    (ab : Vec Ideal S1x1024x1024 .f32) (b : Vec Ideal S1x256 .f32) (n : Fin 1024) (d : Fin 256) :
    k1_pay7 (F := Ideal) yb sa sc w ab b (ix2 n d)
      = max ((∑ k : Fin 1024, ab (ix3 (0 : Fin 1) n k)
            * (∑ c : Fin 256, (yb (ix3 (0 : Fin 1) k c) * sa (ix2 k (0 : Fin 1)) + sc (ix2 k (0 : Fin 1))) * w (ix2 c d)))
          + b (ix2 (0 : Fin 1) d)) (Ideal.ofBits .f32 0x00000000#32) := by
  unfold k1_pay7
  refine (LayerAt.layer_apply (M := 1024) (K := 1024) (N := 256) none _ _ _ _ n d).trans ?_
  show max ((∑ k : Fin 1024, _ * _) + _) _ = _
  refine congrArg₂ max (congrArg₂ (· + ·) (Finset.sum_congr rfl fun k _ => congrArg₂ (· * ·) ?_ ?_) ?_) rfl
  · exact shapeCast_1ab_ab_apply ab _ n k
  · refine (LibMatmul.matmul_zero_apply (M := 1024) (K := 256) (N := 256) none _ w k d).trans ?_
    refine Finset.sum_congr rfl fun c _ => congrArg (· * w (ix2 c d)) ?_
    show _ * _ + _ = _
    refine congrArg₂ (· + ·) (congrArg₂ (· * ·) ?_ ?_) ?_
    · exact shapeCast_1ab_ab_apply yb _ k c
    · exact Cert.Lib.Column.broadcastTo_a1_ab_apply sa _ k c
    · exact Cert.Lib.Column.broadcastTo_a1_ab_apply sc _ k c
  · exact congrFun (shapeCast_self b _) (ix2 (0 : Fin 1) d)

/-- The second batch runs the same layer. -/
theorem pay1_12_eq (yb : Vec Ideal S1x1024x256 .bf16) (sa sc : Vec Ideal S1024x1 .f32) (w : Vec Ideal S256x256 .f32)
    (ab : Vec Ideal S1x1024x1024 .f32) (b : Vec Ideal S1x256 .f32) :
    k1_pay12 (F := Ideal) yb sa sc w ab b = k1_pay7 yb sa sc w ab b := rfl

/-! ## The second layer's value over a block -/

section Block1

variable (x0 : Vec Ideal S2x1024x256 .bf16) (x1 : Vec Ideal S2x1024x1024 .f32) (x2 : Vec Ideal S256x256 .f32) (x3 : Vec Ideal S1x256 .f32)
  (sa sc : Vec Ideal S1024x1 .f32)

/-- The second layer's value at batch `i`, node `n`, channel `d` of a block, from the scale and shift columns. -/
def y2v (i : Fin 2) (n : Fin 1024) (d : Fin 256) : EReal :=
  max ((∑ k : Fin 1024, x1 (ix3 i n k)
        * (∑ c : Fin 256, (x0 (ix3 i k c) * sa (ix2 k (0 : Fin 1)) + sc (ix2 k (0 : Fin 1))) * x2 (ix2 c d)))
      + x3 (ix2 (0 : Fin 1) d)) (Ideal.ofBits .f32 0x00000000#32)

theorem ld_rW (x : Vec Ideal S256x256 .f32) : View.ld x rW = x := View.ld_unit_zero (S := S256x256) hz2_0 _ x
theorem ld_rB (x : Vec Ideal S1x256 .f32) : View.ld x rB = x := View.ld_unit_zero (S := S1x256) hz2_0 _ x

/-- Batch `j`'s clamped layer, computed from batch `j`'s slabs of the activation and adjacency blocks, the whole
    weight matrix, the whole bias row and the two columns, is the layer's value at batch `j`. -/
theorem batch1_apply (j : ℕ) (hj : j < 2)
    (inby : ∀ a, (![j, 0, 0] : Fin 3 → ℕ) a + S1x1024x256.size a ≤ S2x1024x256.size a)
    (inba : ∀ a, (![j, 0, 0] : Fin 3 → ℕ) a + S1x1024x1024.size a ≤ S2x1024x1024.size a)
    (n : Fin 1024) (d : Fin 256) :
    k1_pay7 (F := Ideal) (View.ld x0 (Rect.unit (s := S2x1024x256) ![j, 0, 0] S1x1024x256.size inby)) sa sc (View.ld x2 rW)
        (View.ld x1 (Rect.unit (s := S2x1024x1024) ![j, 0, 0] S1x1024x1024.size inba)) (View.ld x3 rB) (ix2 n d)
      = y2v x0 x1 x2 x3 sa sc ⟨j, hj⟩ n d := by
  refine (pay1_7_apply _ _ _ _ _ _ n d).trans ?_
  unfold y2v
  refine congrArg₂ max (congrArg₂ (· + ·) (Finset.sum_congr rfl fun k _ => congrArg₂ (· * ·) ?_
    (Finset.sum_congr rfl fun c _ => congrArg₂ (· * ·) (congrArg₂ (· + ·) (congrArg₂ (· * ·) ?_ rfl) rfl) ?_)) ?_) rfl
  · exact congrArg x1 (slab_idx0 j hj inba 0 n k)
  · exact congrArg x0 (slab_idx0 j hj inby 0 k c)
  · exact congrFun (ld_rW x2) (ix2 c d)
  · exact congrFun (ld_rB x3) (ix2 (0 : Fin 1) d)

/-- The first output block as one function of its index, -/
def G1_8 : Vec Ideal S2x1024x256 .bf16 := fun y => y2v x0 x1 x2 x3 sa sc (y 0) (y 1) (y 2)
/-- the second, -/
def G1_9 : Vec Ideal S2x1024x1 .f32 := fun y => ∑ d : Fin 256, y2v x0 x1 x2 x3 sa sc (y 0) (y 1) d
/-- and the third. -/
def G1_10 : Vec Ideal S2x1024x1 .f32 := fun y => ∑ d : Fin 256, y2v x0 x1 x2 x3 sa sc (y 0) (y 1) d * y2v x0 x1 x2 x3 sa sc (y 0) (y 1) d

/-- A slab of the first output whose entries are batch `j`'s clamped layer is the block's function on its rectangle. -/
theorem piece1_8 (j : ℕ) (hj : j < 2)
    (inby : ∀ a, (![j, 0, 0] : Fin 3 → ℕ) a + S1x1024x256.size a ≤ S2x1024x256.size a)
    (inba : ∀ a, (![j, 0, 0] : Fin 3 → ℕ) a + S1x1024x1024.size a ≤ S2x1024x1024.size a)
    (pay : Vec Ideal S1x1024x256 .bf16)
    (hpay : ∀ (u : Fin 1) (n : Fin 1024) (d : Fin 256), pay (ix3 u n d)
      = k1_pay7 (F := Ideal) (View.ld x0 (Rect.unit (s := S2x1024x256) ![j, 0, 0] S1x1024x256.size inby)) sa sc (View.ld x2 rW)
          (View.ld x1 (Rect.unit (s := S2x1024x1024) ![j, 0, 0] S1x1024x1024.size inba)) (View.ld x3 rB) (ix2 n d))
    (x : S1x1024x256.Idx) :
    pay x = G1_8 x0 x1 x2 x3 sa sc ((Rect.unit (s := S2x1024x256) ![j, 0, 0] S1x1024x256.size inby).idx x) := by
  obtain ⟨u, n, d, rfl⟩ : ∃ (u : Fin 1) (n : Fin 1024) (d : Fin 256), x = ix3 u n d := ⟨x 0, x 1, x 2, eq_ix3 x⟩
  exact (hpay u n d).trans ((batch1_apply x0 x1 x2 x3 sa sc j hj inby inba n d).trans
    (congrArg (G1_8 x0 x1 x2 x3 sa sc) (slab_idx0 j hj inby u n d)).symm)

/-- The same for a column slab holding batch `j`'s channel sums, -/
theorem piece1_9 (j : ℕ) (hj : j < 2)
    (inby : ∀ a, (![j, 0, 0] : Fin 3 → ℕ) a + S1x1024x256.size a ≤ S2x1024x256.size a)
    (inba : ∀ a, (![j, 0, 0] : Fin 3 → ℕ) a + S1x1024x1024.size a ≤ S2x1024x1024.size a)
    (inbs : ∀ a, (![j, 0, 0] : Fin 3 → ℕ) a + S1x1024x1.size a ≤ S2x1024x1.size a)
    (pay : Vec Ideal S1x1024x1 .f32)
    (hpay : ∀ (u : Fin 1) (n : Fin 1024) (z : Fin 1), pay (ix3 u n z)
      = ∑ d : Fin 256, k1_pay7 (F := Ideal) (View.ld x0 (Rect.unit (s := S2x1024x256) ![j, 0, 0] S1x1024x256.size inby)) sa sc (View.ld x2 rW)
          (View.ld x1 (Rect.unit (s := S2x1024x1024) ![j, 0, 0] S1x1024x1024.size inba)) (View.ld x3 rB) (ix2 n d))
    (x : S1x1024x1.Idx) :
    pay x = G1_9 x0 x1 x2 x3 sa sc ((Rect.unit (s := S2x1024x1) ![j, 0, 0] S1x1024x1.size inbs).idx x) := by
  obtain ⟨u, n, z, rfl⟩ : ∃ (u : Fin 1) (n : Fin 1024) (z : Fin 1), x = ix3 u n z := ⟨x 0, x 1, x 2, eq_ix3 x⟩
  refine (hpay u n z).trans (Eq.trans ?_ (congrArg (G1_9 x0 x1 x2 x3 sa sc) (slab_idx0 j hj inbs u n z)).symm)
  exact Finset.sum_congr rfl fun d _ => batch1_apply x0 x1 x2 x3 sa sc j hj inby inba n d

/-- and for one holding its channel sums of squares. -/
theorem piece1_10 (j : ℕ) (hj : j < 2)
    (inby : ∀ a, (![j, 0, 0] : Fin 3 → ℕ) a + S1x1024x256.size a ≤ S2x1024x256.size a)
    (inba : ∀ a, (![j, 0, 0] : Fin 3 → ℕ) a + S1x1024x1024.size a ≤ S2x1024x1024.size a)
    (inbs : ∀ a, (![j, 0, 0] : Fin 3 → ℕ) a + S1x1024x1.size a ≤ S2x1024x1.size a)
    (pay : Vec Ideal S1x1024x1 .f32)
    (hpay : ∀ (u : Fin 1) (n : Fin 1024) (z : Fin 1), pay (ix3 u n z)
      = ∑ d : Fin 256, k1_pay7 (F := Ideal) (View.ld x0 (Rect.unit (s := S2x1024x256) ![j, 0, 0] S1x1024x256.size inby)) sa sc (View.ld x2 rW)
            (View.ld x1 (Rect.unit (s := S2x1024x1024) ![j, 0, 0] S1x1024x1024.size inba)) (View.ld x3 rB) (ix2 n d)
          * k1_pay7 (F := Ideal) (View.ld x0 (Rect.unit (s := S2x1024x256) ![j, 0, 0] S1x1024x256.size inby)) sa sc (View.ld x2 rW)
            (View.ld x1 (Rect.unit (s := S2x1024x1024) ![j, 0, 0] S1x1024x1024.size inba)) (View.ld x3 rB) (ix2 n d))
    (x : S1x1024x1.Idx) :
    pay x = G1_10 x0 x1 x2 x3 sa sc ((Rect.unit (s := S2x1024x1) ![j, 0, 0] S1x1024x1.size inbs).idx x) := by
  obtain ⟨u, n, z, rfl⟩ : ∃ (u : Fin 1) (n : Fin 1024) (z : Fin 1), x = ix3 u n z := ⟨x 0, x 1, x 2, eq_ix3 x⟩
  refine (hpay u n z).trans (Eq.trans ?_ (congrArg (G1_10 x0 x1 x2 x3 sa sc) (slab_idx0 j hj inbs u n z)).symm)
  exact Finset.sum_congr rfl fun d _ => congrArg₂ (· * ·) (batch1_apply x0 x1 x2 x3 sa sc j hj inby inba n d)
    (batch1_apply x0 x1 x2 x3 sa sc j hj inby inba n d)

/-! ## The three output blocks at an entry -/

/-- The first output block holds the second layer's value: its two slabs are the block's one function on their
    rectangles, and they cover the block. -/
theorem out1_8_y2v (i : Fin 2) (n : Fin 1024) (d : Fin 256) :
    out1_8 (F := Ideal) x0 x1 x2 x3 sa sc (ix3 i n d) = y2v x0 x1 x2 x3 sa sc i n d := by
  unfold out1_8
  refine View.canon_apply_of_pieces (G1_8 x0 x1 x2 x3 sa sc) _ ?_ (ix3 i n d) (cover1_8 _ _ _)
  refine List.forall_mem_cons.mpr ⟨?_, List.forall_mem_cons.mpr ⟨?_, fun _ h => absurd h List.not_mem_nil⟩⟩
  · exact piece1_8 x0 x1 x2 x3 sa sc 1 (by decide) inb_S2x1024x256_S1x1024x256_1_0_0 inb_S2x1024x1024_S1x1024x1024_1_0_0 _
      (fun u n d => by unfold k1_pay13; exact slabY0_apply _ u n d)
  · exact piece1_8 x0 x1 x2 x3 sa sc 0 (by decide) inb_S2x1024x256_S1x1024x256_0_0_0 inb_S2x1024x1024_S1x1024x1024_0_0_0 _
      (fun u n d => by unfold k1_pay8; exact slabY0_apply _ u n d)

/-- The second output block holds each row's sum of the layer's values over the channels. -/
theorem out1_9_y2v (i : Fin 2) (n : Fin 1024) (z : Fin 1) :
    out1_9 (F := Ideal) x0 x1 x2 x3 sa sc (ix3 i n z) = ∑ d : Fin 256, y2v x0 x1 x2 x3 sa sc i n d := by
  unfold out1_9
  refine View.canon_apply_of_pieces (G1_9 x0 x1 x2 x3 sa sc) _ ?_ (ix3 i n z) (cover1_9 _ _ _)
  refine List.forall_mem_cons.mpr ⟨?_, List.forall_mem_cons.mpr ⟨?_, fun _ h => absurd h List.not_mem_nil⟩⟩
  · exact piece1_9 x0 x1 x2 x3 sa sc 1 (by decide) inb_S2x1024x256_S1x1024x256_1_0_0 inb_S2x1024x1024_S1x1024x1024_1_0_0 inb_S2x1024x1_S1x1024x1_1_0_0 _
      (fun u n z => by unfold k1_pay1 k1_pay14; exact slabS0_apply _ u n z)
  · exact piece1_9 x0 x1 x2 x3 sa sc 0 (by decide) inb_S2x1024x256_S1x1024x256_0_0_0 inb_S2x1024x1024_S1x1024x1024_0_0_0 inb_S2x1024x1_S1x1024x1_0_0_0 _
      (fun u n z => by unfold k1_pay10 k1_pay9; exact slabS0_apply _ u n z)

/-- The third output block holds each row's sum of the squared layer's values over the channels. -/
theorem out1_10_y2v (i : Fin 2) (n : Fin 1024) (z : Fin 1) :
    out1_10 (F := Ideal) x0 x1 x2 x3 sa sc (ix3 i n z)
      = ∑ d : Fin 256, y2v x0 x1 x2 x3 sa sc i n d * y2v x0 x1 x2 x3 sa sc i n d := by
  unfold out1_10
  refine View.canon_apply_of_pieces (G1_10 x0 x1 x2 x3 sa sc) _ ?_ (ix3 i n z) (cover1_9 _ _ _)
  refine List.forall_mem_cons.mpr ⟨?_, List.forall_mem_cons.mpr ⟨?_, fun _ h => absurd h List.not_mem_nil⟩⟩
  · exact piece1_10 x0 x1 x2 x3 sa sc 1 (by decide) inb_S2x1024x256_S1x1024x256_1_0_0 inb_S2x1024x1024_S1x1024x1024_1_0_0 inb_S2x1024x1_S1x1024x1_1_0_0 _
      (fun u n z => by unfold k1_pay2; exact slabS0_apply _ u n z)
  · exact piece1_10 x0 x1 x2 x3 sa sc 0 (by decide) inb_S2x1024x256_S1x1024x256_0_0_0 inb_S2x1024x1024_S1x1024x1024_0_0_0 inb_S2x1024x1_S1x1024x1_0_0_0 _
      (fun u n z => by unfold k1_pay11; exact slabS0_apply _ u n z)

/-- The same three facts with the layer's value written out. -/
theorem out1_8_apply (i : Fin 2) (n : Fin 1024) (d : Fin 256) :
    out1_8 (F := Ideal) x0 x1 x2 x3 sa sc (ix3 i n d)
      = max ((∑ k : Fin 1024, x1 (ix3 i n k)
            * (∑ c : Fin 256, (x0 (ix3 i k c) * sa (ix2 k (0 : Fin 1)) + sc (ix2 k (0 : Fin 1))) * x2 (ix2 c d)))
          + x3 (ix2 (0 : Fin 1) d)) (Ideal.ofBits .f32 0x00000000#32) :=
  out1_8_y2v x0 x1 x2 x3 sa sc i n d

theorem out1_9_apply (i : Fin 2) (n : Fin 1024) :
    out1_9 (F := Ideal) x0 x1 x2 x3 sa sc (ix3 i n (0 : Fin 1))
      = ∑ d : Fin 256, max ((∑ k : Fin 1024, x1 (ix3 i n k)
            * (∑ c : Fin 256, (x0 (ix3 i k c) * sa (ix2 k (0 : Fin 1)) + sc (ix2 k (0 : Fin 1))) * x2 (ix2 c d)))
          + x3 (ix2 (0 : Fin 1) d)) (Ideal.ofBits .f32 0x00000000#32) :=
  out1_9_y2v x0 x1 x2 x3 sa sc i n 0

theorem out1_10_apply (i : Fin 2) (n : Fin 1024) :
    out1_10 (F := Ideal) x0 x1 x2 x3 sa sc (ix3 i n (0 : Fin 1))
      = ∑ d : Fin 256, max ((∑ k : Fin 1024, x1 (ix3 i n k)
              * (∑ c : Fin 256, (x0 (ix3 i k c) * sa (ix2 k (0 : Fin 1)) + sc (ix2 k (0 : Fin 1))) * x2 (ix2 c d)))
            + x3 (ix2 (0 : Fin 1) d)) (Ideal.ofBits .f32 0x00000000#32)
          * max ((∑ k : Fin 1024, x1 (ix3 i n k)
              * (∑ c : Fin 256, (x0 (ix3 i k c) * sa (ix2 k (0 : Fin 1)) + sc (ix2 k (0 : Fin 1))) * x2 (ix2 c d)))
            + x3 (ix2 (0 : Fin 1) d)) (Ideal.ofBits .f32 0x00000000#32) :=
  out1_10_y2v x0 x1 x2 x3 sa sc i n 0

end Block1

end Cert.KernelIdeal.H
-- ==== Proof.K1Array.lean ====
/-
  The second call's three result arrays as functions of the arrays it is given.

  At its first point the body folds the first layer's batch sums, sums of squares, γ and β into a per-node scale and
  shift; at every point it applies them to two batches of the first layer's activations and runs the second layer on the
  result: max (adj · ((y · a + c) · W) + b) 0, with its channel sums and channel sums of squares. A block of the
  activations, of the adjacency and of each result holds the batches 2·t, 2·t + 1 of its array, the other arrays are
  whole, and the eight result blocks tile each result array.
-/
import proofs.«160428_g88656714924069_cont_sun_m_1396_13_alg».proof.Proof.K1
import proofs.«160428_g88656714924069_cont_sun_m_1396_13_alg».proof.Proof.K1Value
import proofs.«160428_g88656714924069_cont_sun_m_1396_13_alg».proof.Proof.KCover
import proofs.«160428_g88656714924069_cont_sun_m_1396_13_alg».proof.Proof.SpecK

set_option maxRecDepth 16384

noncomputable section

namespace Cert.KernelIdeal.H

open Cert.KernelIdeal Cert.KernelIdeal.Gen
open Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

/-! ## The blocks, read off the arrays -/

/-- The activations' block at point t holds the batches 2·t, 2·t + 1. -/
theorem iblk1_0_apply (c : Dev nD) (t : Fin cfg1.N) (i : Fin 2) (n : Fin 1024) (d : Fin 256) (h : 2 * t.val + i.val < 16) :
    (iblk1 V c 0 t : S2x1024x256.Idx → EReal) (ix3 i n d)
      = (V c main_call0_v1_0 : S16x1024x256.Idx → EReal) (ix3 ⟨2 * t.val + i.val, h⟩ n d) := by
  show (V c main_call0_v1_0 : S16x1024x256.Idx → EReal) (((cfg1.win 0).blk t).view.emb (ix3 i n d)) = _
  rw [emb1_0 t i n d h]

/-- The adjacency block at point t holds the batches 2·t, 2·t + 1. -/
theorem iblk1_1_apply (c : Dev nD) (t : Fin cfg1.N) (i : Fin 2) (n : Fin 1024) (k : Fin 1024) (h : 2 * t.val + i.val < 16) :
    (iblk1 V c 1 t : S2x1024x1024.Idx → EReal) (ix3 i n k)
      = (V c main_arg1 : S16x1024x1024.Idx → EReal) (ix3 ⟨2 * t.val + i.val, h⟩ n k) := by
  show (V c main_arg1 : S16x1024x1024.Idx → EReal) (((cfg1.win 1).blk t).view.emb (ix3 i n k)) = _
  rw [emb1_1 t i n k h]

/-- The whole-array windows' blocks are the arrays. -/
theorem iblk1_2_eq (c : Dev nD) (t : Fin cfg1.N) : (iblk1 V c 2 t : S256x256.Idx → EReal) = V c main_arg4 := by
  funext j
  show (V c main_arg4 : S256x256.Idx → EReal) (((cfg1.win 2).blk t).view.emb j) = _
  rw [emb1_2 t j]

theorem iblk1_3_eq (c : Dev nD) (t : Fin cfg1.N) : (iblk1 V c 3 t : S1x256.Idx → EReal) = V c main_call0_v2 := by
  funext j
  show (V c main_call0_v2 : S1x256.Idx → EReal) (((cfg1.win 3).blk t).view.emb j) = _
  rw [emb1_3 t j]

theorem iblk1_4_eq (c : Dev nD) (t : Fin cfg1.N) : (iblk1 V c 4 t : S16x1024x1.Idx → EReal) = V c main_call0_v1_1 := by
  funext j
  show (V c main_call0_v1_1 : S16x1024x1.Idx → EReal) (((cfg1.win 4).blk t).view.emb j) = _
  rw [emb1_4 t j]

theorem iblk1_5_eq (c : Dev nD) (t : Fin cfg1.N) : (iblk1 V c 5 t : S16x1024x1.Idx → EReal) = V c main_call0_v1_2 := by
  funext j
  show (V c main_call0_v1_2 : S16x1024x1.Idx → EReal) (((cfg1.win 5).blk t).view.emb j) = _
  rw [emb1_5 t j]

theorem iblk1_6_eq (c : Dev nD) (t : Fin cfg1.N) : (iblk1 V c 6 t : S1024x1.Idx → EReal) = V c main_call0_v3 := by
  funext j
  show (V c main_call0_v3 : S1024x1.Idx → EReal) (((cfg1.win 6).blk t).view.emb j) = _
  rw [emb1_6 t j]

theorem iblk1_7_eq (c : Dev nD) (t : Fin cfg1.N) : (iblk1 V c 7 t : S1024x1.Idx → EReal) = V c main_call0_v4 := by
  funext j
  show (V c main_call0_v4 : S1024x1.Idx → EReal) (((cfg1.win 7).blk t).view.emb j) = _
  rw [emb1_7 t j]

/-! ## The scale and the shift -/

/-- The scale kept in scratch, at node n, is the scale folded from the first layer's batch sums, sums of squares and γ. -/
theorem scrA1_scaleP (c : Dev nD) (n : Fin 1024) :
    scrA1 V c (ix2 n 0) = scaleP (partOf (V c main_call0_v1_1)) (partOf (V c main_call0_v1_2)) (colOf (V c main_call0_v3)) n := by
  unfold scrA1
  rw [iblk1_4_eq, iblk1_5_eq, iblk1_6_eq, scrA_apply]
  rfl

/-- The shift kept in scratch, at node n, is the shift folded from the same arrays and β. -/
theorem scrC1_shiftP (c : Dev nD) (n : Fin 1024) :
    scrC1 V c (ix2 n 0) = shiftP (partOf (V c main_call0_v1_1)) (partOf (V c main_call0_v1_2)) (colOf (V c main_call0_v3))
      (colOf (V c main_call0_v4)) n := by
  unfold scrC1
  rw [iblk1_4_eq, iblk1_5_eq, iblk1_6_eq, iblk1_7_eq, scrC_apply, scrA_apply]
  rfl

/-! ## The result arrays -/

/-- The second layer of the arrays the call is given: the first layer's activations, normalised, through the layer. -/
abbrev layer1Of (c : Dev nD) : Act :=
  conv (affine (actOf (V c main_call0_v1_0))
          (scaleP (partOf (V c main_call0_v1_1)) (partOf (V c main_call0_v1_2)) (colOf (V c main_call0_v3)))
          (shiftP (partOf (V c main_call0_v1_1)) (partOf (V c main_call0_v1_2)) (colOf (V c main_call0_v3)) (colOf (V c main_call0_v4))))
        (adjOf (V c main_arg1)) (matOf (V c main_arg4)) (rowOf (V c main_call0_v2))

/-- What point t writes back to the first result is block t of the layer. -/
theorem flushed1_8_eq (c : Dev nD) (t : Fin cfg1.N) :
    (dat1 V c).flushed 8 t = ((cfg1.win 8).blk t).view.read (Elt Ideal) (arrOf (layer1Of V c)) := by
  show (cfg1.win 8).cut (grid1.coords t) ((dat1 V c).after 8 t) = _
  rw [after1_8]
  funext j
  obtain ⟨i, n, d, rfl⟩ : ∃ (i : Fin 2) (n : Fin 1024) (d : Fin 256), j = ix3 i n d := ⟨j 0, j 1, j 2, eq_ix3 j⟩
  have ht : t.val < 8 := (cov_idx1_8 t).2.2.2
  have h : 2 * t.val + i.val < 16 := by have := i.isLt; omega
  show out1_8 (iblk1 V c 0 t) (iblk1 V c 1 t) (iblk1 V c 2 t) (iblk1 V c 3 t) (scrA1 V c) (scrC1 V c) (ix3 i n d)
    = arrOf (layer1Of V c) (((cfg1.win 8).blk t).view.emb (ix3 i n d))
  rw [emb1_8 t i n d h, arrOf_ix3, out1_8_apply, iblk1_2_eq, iblk1_3_eq]
  simp only [iblk1_0_apply V c t _ _ _ h, iblk1_1_apply V c t _ _ _ h, scrA1_scaleP V c, scrC1_shiftP V c]
  rfl

/-- What point t writes back to the second result is block t of the layer's channel sums. -/
theorem flushed1_9_eq (c : Dev nD) (t : Fin cfg1.N) :
    (dat1 V c).flushed 9 t = ((cfg1.win 9).blk t).view.read (Elt Ideal) (partArr (partS (layer1Of V c))) := by
  show (cfg1.win 9).cut (grid1.coords t) ((dat1 V c).after 9 t) = _
  rw [after1_9]
  funext j
  obtain ⟨i, n, z, rfl⟩ : ∃ (i : Fin 2) (n : Fin 1024) (z : Fin 1), j = ix3 i n z := ⟨j 0, j 1, j 2, eq_ix3 j⟩
  obtain rfl : z = 0 := Subsingleton.elim _ _
  have ht : t.val < 8 := (cov_idx1_9 t).2.2.2
  have h : 2 * t.val + i.val < 16 := by have := i.isLt; omega
  show out1_9 (iblk1 V c 0 t) (iblk1 V c 1 t) (iblk1 V c 2 t) (iblk1 V c 3 t) (scrA1 V c) (scrC1 V c) (ix3 i n 0)
    = partArr (partS (layer1Of V c)) (((cfg1.win 9).blk t).view.emb (ix3 i n 0))
  rw [emb1_9 t i n 0 h, out1_9_apply, iblk1_2_eq, iblk1_3_eq]
  simp only [iblk1_0_apply V c t _ _ _ h, iblk1_1_apply V c t _ _ _ h, scrA1_scaleP V c, scrC1_shiftP V c]
  rfl

/-- What point t writes back to the third result is block t of the layer's channel sums of squares. -/
theorem flushed1_10_eq (c : Dev nD) (t : Fin cfg1.N) :
    (dat1 V c).flushed 10 t = ((cfg1.win 10).blk t).view.read (Elt Ideal) (partArr (partQ (layer1Of V c))) := by
  show (cfg1.win 10).cut (grid1.coords t) ((dat1 V c).after 10 t) = _
  rw [after1_10]
  funext j
  obtain ⟨i, n, z, rfl⟩ : ∃ (i : Fin 2) (n : Fin 1024) (z : Fin 1), j = ix3 i n z := ⟨j 0, j 1, j 2, eq_ix3 j⟩
  obtain rfl : z = 0 := Subsingleton.elim _ _
  have ht : t.val < 8 := (cov_idx1_10 t).2.2.2
  have h : 2 * t.val + i.val < 16 := by have := i.isLt; omega
  show out1_10 (iblk1 V c 0 t) (iblk1 V c 1 t) (iblk1 V c 2 t) (iblk1 V c 3 t) (scrA1 V c) (scrC1 V c) (ix3 i n 0)
    = partArr (partQ (layer1Of V c)) (((cfg1.win 10).blk t).view.emb (ix3 i n 0))
  rw [emb1_10 t i n 0 h, out1_10_apply, iblk1_2_eq, iblk1_3_eq]
  simp only [iblk1_0_apply V c t _ _ _ h, iblk1_1_apply V c t _ _ _ h, scrA1_scaleP V c, scrC1_shiftP V c]
  rfl

/-- The layer's array after the call. -/
theorem arr1_y (c : Dev nD) :
    (dat1 (F := Ideal) V c).arrAt 8 cfg1.N
      = arrOf (conv (affine (actOf (V c main_call0_v1_0))
          (scaleP (partOf (V c main_call0_v1_1)) (partOf (V c main_call0_v1_2)) (colOf (V c main_call0_v3)))
          (shiftP (partOf (V c main_call0_v1_1)) (partOf (V c main_call0_v1_2)) (colOf (V c main_call0_v3)) (colOf (V c main_call0_v4))))
        (adjOf (V c main_arg1)) (matOf (V c main_arg4)) (rowOf (V c main_call0_v2))) :=
  (dat1 V c).arrAt_eq_of_cover 8 (arrOf (layer1Of V c)) (fun t _ => flushed1_8_eq V c t) tile1_8

/-- The array of channel sums after the call. -/
theorem arr1_s (c : Dev nD) :
    (dat1 (F := Ideal) V c).arrAt 9 cfg1.N
      = partArr (partS (conv (affine (actOf (V c main_call0_v1_0))
          (scaleP (partOf (V c main_call0_v1_1)) (partOf (V c main_call0_v1_2)) (colOf (V c main_call0_v3)))
          (shiftP (partOf (V c main_call0_v1_1)) (partOf (V c main_call0_v1_2)) (colOf (V c main_call0_v3)) (colOf (V c main_call0_v4))))
        (adjOf (V c main_arg1)) (matOf (V c main_arg4)) (rowOf (V c main_call0_v2)))) :=
  (dat1 V c).arrAt_eq_of_cover 9 (partArr (partS (layer1Of V c))) (fun t _ => flushed1_9_eq V c t) tile1_9

/-- The array of channel sums of squares after the call. -/
theorem arr1_q (c : Dev nD) :
    (dat1 (F := Ideal) V c).arrAt 10 cfg1.N
      = partArr (partQ (conv (affine (actOf (V c main_call0_v1_0))
          (scaleP (partOf (V c main_call0_v1_1)) (partOf (V c main_call0_v1_2)) (colOf (V c main_call0_v3)))
          (shiftP (partOf (V c main_call0_v1_1)) (partOf (V c main_call0_v1_2)) (colOf (V c main_call0_v3)) (colOf (V c main_call0_v4))))
        (adjOf (V c main_arg1)) (matOf (V c main_arg4)) (rowOf (V c main_call0_v2)))) :=
  (dat1 V c).arrAt_eq_of_cover 10 (partArr (partQ (layer1Of V c))) (fun t _ => flushed1_10_eq V c t) tile1_10

end Cert.KernelIdeal.H

end
-- ==== Proof.K2Value.lean ====
import proofs.«160428_g88656714924069_cont_sun_m_1396_13_alg».proof.Proof.K2Run
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.H

open Cert.KernelIdeal Cert.KernelIdeal.Gen
open Idealize.ShloMosaic Idealize.ShloMosaic.ValueIdx

/-! # The third call's values on the extended reals

Read at coordinates, the scale column is γ · rsqrt (E[y²] − E[y]² + ε), the shift column β − E[y] · scale, the two
means taken from the sixteen per-batch partial sums times 2⁻¹², and the output block is the activations' block
times the node's scale plus the node's shift. -/

variable (x0 : Vec Ideal S8x1024x256 .bf16) (s q : Vec Ideal S16x1024x1 .f32) (g b : Vec Ideal S1024x1 .f32)

/-- Node `n`'s mean: the sixteen partial sums added, times the word 2⁻¹². -/
def mean2 (n : Fin 1024) : EReal := (∑ p : Fin 16, s (ix3 p n 0)) * Ideal.ofBits .f32 0x39800000#32

/-- Node `n`'s scale: γ · rsqrt (E[y²] − mean² + ε). -/
def scale2 (n : Fin 1024) : EReal :=
  g (ix2 n 0) * Ideal.rsqrt ((∑ p : Fin 16, q (ix3 p n 0)) * Ideal.ofBits .f32 0x39800000#32 - mean2 s n * mean2 s n
    + Ideal.ofBits .f32 0x3727C5AC#32)

/-- Node `n`'s shift: β − mean · scale. -/
def shift2 (n : Fin 1024) : EReal := b (ix2 n 0) - mean2 s n * scale2 s q g n

theorem hz2_2 : (![0, 0] : Fin 2 → ℕ) = fun _ => 0 := by funext a; fin_cases a <;> rfl
theorem hz3_2 : (![0, 0, 0] : Fin 3 → ℕ) = fun _ => 0 := by funext a; fin_cases a <;> rfl

/-- Over the reduced index `(n, 0)`, the source index with batch coordinate `k` is `(k, n, 0)`. -/
theorem lift_ix2 (n : Fin 1024) (k : Fin 16) :
    reduces_S16x1024x1_S1024x1.lift (ix2 n (0 : Fin 1)) k = ix3 k n (0 : Fin 1) := by
  funext c
  match c with
  | ⟨0, _⟩ => rfl
  | ⟨1, _⟩ => rfl
  | ⟨2, _⟩ => rfl

/-- A reduction over the batch axis of a `[16, 1024, 1]` array is the sum of its sixteen slabs. -/
theorem red16_2 (v : Vec Ideal S16x1024x1 .f32) (n : Fin 1024) :
    multiReduction (F := Ideal) .add [0] S1024x1 v 0x00000000#32 reduces_S16x1024x1_S1024x1 (.inl rfl) rfl (ix2 n 0)
      = ∑ p : Fin 16, v (ix3 p n 0) := by
  refine (Ideal.multiReduction_add_single v _ reduces_S16x1024x1_S1024x1 (.inl rfl) rfl (ix2 n 0)).trans ?_
  exact Finset.sum_congr rfl fun k _ => congrArg v (lift_ix2 n k)

theorem k2_pay1_apply (n : Fin 1024) : k2_pay1 (F := Ideal) s (ix2 n 0) = mean2 s n := by
  unfold k2_pay1 mean2
  try dsimp only
  rw [shapeCast_self]
  show multiReduction (F := Ideal) .add [0] S1024x1 s 0x00000000#32 reduces_S16x1024x1_S1024x1 (.inl rfl) rfl (ix2 n 0) * _ = _
  rw [red16_2]
  rfl

theorem k2_pay2_apply (n : Fin 1024) : k2_pay2 (F := Ideal) s q g (ix2 n 0) = scale2 s q g n := by
  unfold k2_pay2 scale2
  try dsimp only
  rw [shapeCast_self, shapeCast_self]
  show g (ix2 n 0) * Ideal.rsqrt (multiReduction (F := Ideal) .add [0] S1024x1 q 0x00000000#32 reduces_S16x1024x1_S1024x1 (.inl rfl) rfl (ix2 n 0) * _
    - k2_pay1 (F := Ideal) s (ix2 n 0) * k2_pay1 (F := Ideal) s (ix2 n 0) + _) = _
  rw [red16_2, k2_pay1_apply]
  rfl

theorem sA2_apply (n : Fin 1024) : sA2 (F := Ideal) s q g (ix2 n 0) = scale2 s q g n := by
  unfold sA2
  rw [View.canon_unit_zero hz2_2]
  simp only [View.ld_unit_zero (S := S16x1024x1) hz3_2, View.ld_unit_zero (S := S1024x1) hz2_2]
  unfold k2_pay3
  try dsimp only
  rw [shapeCast_self]
  exact k2_pay2_apply s q g n

theorem sC2_apply (n : Fin 1024) : sC2 (F := Ideal) s q g b (ix2 n 0) = shift2 s q g b n := by
  unfold sC2
  rw [View.canon_unit_zero hz2_2]
  simp only [View.ld_unit_zero (S := S16x1024x1) hz3_2, View.ld_unit_zero (S := S1024x1) hz2_2]
  unfold k2_pay4 shift2
  try dsimp only
  rw [shapeCast_self, shapeCast_self]
  show b (ix2 n 0) - k2_pay1 (F := Ideal) s (ix2 n 0) * k2_pay2 (F := Ideal) s q g (ix2 n 0) = _
  rw [k2_pay1_apply, k2_pay2_apply]

/-- A `[1024, 1]` column broadcast over `[8, 1024, 256]` reads the node's entry. -/
theorem bcast_col2 (a : Vec Ideal S1024x1 .f32) (i : Fin 8) (n : Fin 1024) (d : Fin 256) :
    broadcastTo S8x1024x256 (shapeCast S1x1024x1 a shapeCasts_S1024x1_S1x1024x1) broadcasts_S1x1024x1_S8x1024x256 (ix3 i n d)
      = a (ix2 n 0) := by
  refine (broadcastTo_apply _ broadcasts_S1x1024x1_S8x1024x256 (ix3 i n d) (ix3 (0 : Fin 1) n (0 : Fin 1)) fun ax => ?_).trans ?_
  · match ax with
    | ⟨0, _⟩ => rfl
    | ⟨1, _⟩ => rfl
    | ⟨2, _⟩ => rfl
  · exact shapeCast_ab_1ab_apply a shapeCasts_S1024x1_S1x1024x1 0 n 0

theorem out2_5_apply (a c : Vec Ideal S1024x1 .f32) (i : Fin 8) (n : Fin 1024) (d : Fin 256) :
    out2_5 (F := Ideal) x0 a c (ix3 i n d) = x0 (ix3 i n d) * a (ix2 n 0) + c (ix2 n 0) := by
  unfold out2_5
  rw [View.canon_unit_zero hz3_2]
  simp only [View.ld_unit_zero (S := S8x1024x256) hz3_2, View.ld_unit_zero (S := S1024x1) hz2_2]
  unfold k2_pay5
  try dsimp only
  rw [shapeCast_self]
  show x0 (ix3 i n d) * broadcastTo S8x1024x256 (shapeCast S1x1024x1 a shapeCasts_S1024x1_S1x1024x1) broadcasts_S1x1024x1_S8x1024x256 (ix3 i n d)
    + broadcastTo S8x1024x256 (shapeCast S1x1024x1 c shapeCasts_S1024x1_S1x1024x1) broadcasts_S1x1024x1_S8x1024x256 (ix3 i n d) = _
  rw [bcast_col2, bcast_col2]

end Cert.KernelIdeal.H

end
-- ==== Proof.K2Array.lean ====
/-
  The third call's result array as one function of the arrays it is given.

  At every point the body writes the activations' block times the per-node scale plus the per-node shift, the two
  columns folded at the first point from the whole arrays of batch sums, sums of squares, γ and β. A block of the
  activations is the batches 8·t … 8·t + 7 of the array, the result's block the same batches of the result, and the
  two result blocks tile the array: so the array ends holding, index by index, y · a + c.
-/
import proofs.«160428_g88656714924069_cont_sun_m_1396_13_alg».proof.Proof.K2
import proofs.«160428_g88656714924069_cont_sun_m_1396_13_alg».proof.Proof.K2Value
import proofs.«160428_g88656714924069_cont_sun_m_1396_13_alg».proof.Proof.KCover
import proofs.«160428_g88656714924069_cont_sun_m_1396_13_alg».proof.Proof.SpecK

set_option maxRecDepth 16384

noncomputable section

namespace Cert.KernelIdeal.H

open Cert.KernelIdeal Cert.KernelIdeal.Gen
open Idealize.ShloMosaic Idealize.ShloMosaic.TcCoe Idealize.ShloMosaic.ValueIdx Cert.Spec
open Idealize.ShloMosaic.Pipeline (Dat)

variable (V : (c : Dev nD) → (b : Ref sig .tc) → Buf (Elt Ideal) ((c : Thread nD τ).loc b))

/-! ## The blocks, read off the arrays -/

/-- The activations' block at point t holds the batches 8·t … 8·t + 7. -/
theorem iblk2_0_apply (c : Dev nD) (t : Fin cfg2.N) (i : Fin 8) (n : Fin 1024) (d : Fin 256) (h : 8 * t.val + i.val < 16) :
    (iblk2 V c 0 t : S8x1024x256.Idx → EReal) (ix3 i n d)
      = (V c main_call0_v5_0 : S16x1024x256.Idx → EReal) (ix3 ⟨8 * t.val + i.val, h⟩ n d) := by
  show (V c main_call0_v5_0 : S16x1024x256.Idx → EReal) (((cfg2.win 0).blk t).view.emb (ix3 i n d)) = _
  rw [emb2_0 t i n d h]

/-- The whole-array windows' blocks are the arrays. -/
theorem iblk2_1_eq (c : Dev nD) (t : Fin cfg2.N) : (iblk2 V c 1 t : S16x1024x1.Idx → EReal) = V c main_call0_v5_1 := by
  funext j
  show (V c main_call0_v5_1 : S16x1024x1.Idx → EReal) (((cfg2.win 1).blk t).view.emb j) = _
  rw [emb2_1 t j]

theorem iblk2_2_eq (c : Dev nD) (t : Fin cfg2.N) : (iblk2 V c 2 t : S16x1024x1.Idx → EReal) = V c main_call0_v5_2 := by
  funext j
  show (V c main_call0_v5_2 : S16x1024x1.Idx → EReal) (((cfg2.win 2).blk t).view.emb j) = _
  rw [emb2_2 t j]

theorem iblk2_3_eq (c : Dev nD) (t : Fin cfg2.N) : (iblk2 V c 3 t : S1024x1.Idx → EReal) = V c main_call0_v6 := by
  funext j
  show (V c main_call0_v6 : S1024x1.Idx → EReal) (((cfg2.win 3).blk t).view.emb j) = _
  rw [emb2_3 t j]

theorem iblk2_4_eq (c : Dev nD) (t : Fin cfg2.N) : (iblk2 V c 4 t : S1024x1.Idx → EReal) = V c main_call0_v7 := by
  funext j
  show (V c main_call0_v7 : S1024x1.Idx → EReal) (((cfg2.win 4).blk t).view.emb j) = _
  rw [emb2_4 t j]

/-! ## The scale and the shift -/

/-- The scale column at node n is the scale folded from the arrays of batch sums, sums of squares and γ. -/
theorem scrA2_scaleP (c : Dev nD) (n : Fin 1024) :
    scrA2 V c (ix2 n 0) = scaleP (partOf (V c main_call0_v5_1)) (partOf (V c main_call0_v5_2)) (colOf (V c main_call0_v6)) n := by
  unfold scrA2
  rw [sA2_apply, iblk2_1_eq, iblk2_2_eq, iblk2_3_eq]
  rfl

/-- The shift column at node n is the shift folded from the same arrays and β. -/
theorem scrC2_shiftP (c : Dev nD) (n : Fin 1024) :
    scrC2 V c (ix2 n 0) = shiftP (partOf (V c main_call0_v5_1)) (partOf (V c main_call0_v5_2)) (colOf (V c main_call0_v6))
      (colOf (V c main_call0_v7)) n := by
  unfold scrC2
  rw [sC2_apply, iblk2_1_eq, iblk2_2_eq, iblk2_3_eq, iblk2_4_eq]
  rfl

/-! ## The result array -/

/-- What the result array ends holding: the activations times the node's scale plus the node's shift. -/
abbrev result2Of (c : Dev nD) : S16x1024x256.Idx → EReal :=
  arrOf (affine (actOf (V c main_call0_v5_0))
    (scaleP (partOf (V c main_call0_v5_1)) (partOf (V c main_call0_v5_2)) (colOf (V c main_call0_v6)))
    (shiftP (partOf (V c main_call0_v5_1)) (partOf (V c main_call0_v5_2)) (colOf (V c main_call0_v6)) (colOf (V c main_call0_v7))))

/-- What point t writes back is block t of that function. -/
theorem flushed2_5_eq (c : Dev nD) (t : Fin cfg2.N) :
    (dat2 V c).flushed 5 t = ((cfg2.win 5).blk t).view.read (Elt Ideal) (result2Of V c) := by
  show (cfg2.win 5).cut (grid2.coords t) ((dat2 V c).after 5 t) = _
  rw [after2_5]
  funext j
  obtain ⟨i, n, d, rfl⟩ : ∃ (i : Fin 8) (n : Fin 1024) (d : Fin 256), j = ix3 i n d := ⟨j 0, j 1, j 2, eq_ix3 j⟩
  have ht : t.val < 2 := (cov_idx2_5 t).2.2.2
  have h : 8 * t.val + i.val < 16 := by have := i.isLt; omega
  show out2_5 (iblk2 V c 0 t) (scrA2 V c) (scrC2 V c) (ix3 i n d) = result2Of V c (((cfg2.win 5).blk t).view.emb (ix3 i n d))
  rw [emb2_5 t i n d h, out2_5_apply, iblk2_0_apply V c t i n d h, scrA2_scaleP, scrC2_shiftP]
  rfl

/-- The result array after the call. -/
theorem arr2_out (c : Dev nD) :
    (dat2 (F := Ideal) V c).arrAt 5 cfg2.N
      = arrOf (affine (actOf (V c main_call0_v5_0))
          (scaleP (partOf (V c main_call0_v5_1)) (partOf (V c main_call0_v5_2)) (colOf (V c main_call0_v6)))
          (shiftP (partOf (V c main_call0_v5_1)) (partOf (V c main_call0_v5_2)) (colOf (V c main_call0_v6))
            (colOf (V c main_call0_v7)))) :=
  (dat2 V c).arrAt_eq_of_cover 5 (result2Of V c) (fun t _ => flushed2_5_eq V c t) tile2_5

end Cert.KernelIdeal.H

end
-- ==== Proof.RefRunOps.lean ====
/-
  The reference program as a straight line: its 104 host operations in order, the outlined functions' operations
  listed at their call sites over the calls' buffer records, cut into four windows (the first layer's convolution
  and clamp, its batch normalisation, and the same two for the second layer); the program equals the line, and
  every operation touches TensorCore references only.
-/
import proofs.«160428_g88656714924069_cont_sun_m_1396_13_alg».proof.ReferenceIdeal
import Idealize.ShloMosaic.Lib.StableHlo.Run

noncomputable section

namespace Cert.ReferenceIdeal.H

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The first layer's convolution and clamp: operations 1 … 8. -/
abbrev ops_c1 : List (HloOp τ sig (Elt F)) :=
  [ StableHlo.binary main_arg0 main_arg2 main_v0 ((fun l r => Host.dotGeneral dot_S16x1024x256_S256x256_S16x1024x256_2_0_01_1_n_n none l r) : (⟨S16x1024x256, .f32⟩ : BufTy).Contents (Elt F) → (⟨S256x256, .f32⟩ : BufTy).Contents (Elt F) → (⟨S16x1024x256, .f32⟩ : BufTy).Contents (Elt F)),
    StableHlo.binary main_arg1 main_v0 main_v1 ((fun l r => Host.dotGeneral dot_S16x1024x1024_S16x1024x256_S16x1024x256_2_1_1_2_0_0 none l r) : (⟨S16x1024x1024, .f32⟩ : BufTy).Contents (Elt F) → (⟨S16x1024x256, .f32⟩ : BufTy).Contents (Elt F) → (⟨S16x1024x256, .f32⟩ : BufTy).Contents (Elt F)),
    StableHlo.unary main_arg3 main_v2 (broadcastInDim S1x1x256 ![2] bcast_S256_S1x1x256_2 : (⟨S256, .f32⟩ : BufTy).Contents (Elt F) → (⟨S1x1x256, .f32⟩ : BufTy).Contents (Elt F)),
    StableHlo.unary main_v2 main_v3 (broadcastInDim S16x1024x256 ![0, 1, 2] bcast_S1x1x256_S16x1024x256_0_1_2 : (⟨S1x1x256, .f32⟩ : BufTy).Contents (Elt F) → (⟨S16x1024x256, .f32⟩ : BufTy).Contents (Elt F)),
    StableHlo.binary main_v1 main_v3 main_v4 (addf : (⟨S16x1024x256, .f32⟩ : BufTy).Contents (Elt F) → (⟨S16x1024x256, .f32⟩ : BufTy).Contents (Elt F) → (⟨S16x1024x256, .f32⟩ : BufTy).Contents (Elt F)),
    StableHlo.TRef.nullary main_call0.cst (constant S_ .f32 0x00000000#32),
    StableHlo.TRef.unary main_call0.cst main_call0.v0 (broadcastInDim S16x1024x256 ![] bcast_S_S16x1024x256),
    StableHlo.TRef.binary (StableHlo.TRef.of main_v4 : StableHlo.TRef sig ⟨S16x1024x256, .f32⟩) main_call0.v0 main_call0.v1 maximumf ]

/-- The first layer's batch normalisation: operations 9 … 52. -/
abbrev ops_b1 : List (HloOp τ sig (Elt F)) :=
  [ StableHlo.nullary main_cst (constant S_ .f32 0x00000000#32),
    StableHlo.binary main_v5 main_cst main_v6 ((fun x v => Host.reduceAdd x v reducesTo_S16x1024x256_S1024_d0_2 h_S_) : (⟨S16x1024x256, .f32⟩ : BufTy).Contents (Elt F) → (⟨S_, .f32⟩ : BufTy).Contents (Elt F) → (⟨S1024, .f32⟩ : BufTy).Contents (Elt F)),
    StableHlo.unary main_v6 main_v7 (broadcastInDim S1x1024x1 ![1] bcast_S1024_S1x1024x1_1 : (⟨S1024, .f32⟩ : BufTy).Contents (Elt F) → (⟨S1x1024x1, .f32⟩ : BufTy).Contents (Elt F)),
    StableHlo.nullary main_cst_0 (constant S_ .f32 0x45800000#32),
    StableHlo.unary main_cst_0 main_v8 (broadcastInDim S1x1024x1 ![] bcast_S_S1x1024x1 : (⟨S_, .f32⟩ : BufTy).Contents (Elt F) → (⟨S1x1024x1, .f32⟩ : BufTy).Contents (Elt F)),
    StableHlo.binary main_v7 main_v8 main_v9 (Host.divf : (⟨S1x1024x1, .f32⟩ : BufTy).Contents (Elt F) → (⟨S1x1024x1, .f32⟩ : BufTy).Contents (Elt F) → (⟨S1x1024x1, .f32⟩ : BufTy).Contents (Elt F)),
    StableHlo.nullary main_c (constantI S_ 32 0#32),
    StableHlo.TRef.nullary main_call1.cst (constant S_ .f32 0x00000000#32),
    StableHlo.TRef.binary (StableHlo.TRef.of main_v5 : StableHlo.TRef sig ⟨S16x1024x256, .f32⟩) main_call1.cst main_call1.v0 (fun x v => Host.reduceAdd x v reducesTo_S16x1024x256_S1024_d0_2 h_S_),
    StableHlo.TRef.unary main_call1.v0 main_call1.v1 (broadcastInDim S1x1024x1 ![1] bcast_S1024_S1x1024x1_1),
    StableHlo.TRef.nullary main_call1.cst_0 (constant S_ .f32 0x45800000#32),
    StableHlo.TRef.unary main_call1.cst_0 main_call1.v2 (broadcastInDim S1x1024x1 ![] bcast_S_S1x1024x1),
    StableHlo.TRef.binary main_call1.v1 main_call1.v2 main_call1.v3 Host.divf,
    StableHlo.TRef.unary main_call1.v3 main_call1.v4 (broadcastInDim S16x1024x256 ![0, 1, 2] bcast_S1x1024x1_S16x1024x256_0_1_2),
    StableHlo.TRef.binary (StableHlo.TRef.of main_v5 : StableHlo.TRef sig ⟨S16x1024x256, .f32⟩) main_call1.v4 main_call1.v5 subf,
    StableHlo.TRef.binary main_call1.v5 main_call1.v5 main_call1.v6 mulf,
    StableHlo.TRef.unary (StableHlo.TRef.of main_c : StableHlo.TRef sig ⟨S_, .i32⟩) main_call1.v7 (sitofp .f32),
    StableHlo.TRef.nullary main_call1.cst_1 (constant S_ .f32 0x45800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S16x1024x256_S1024_d0_2 h_S_),
    StableHlo.TRef.unary main_call1.v9 main_call1.v10 (broadcastInDim S1x1024x1 ![1] bcast_S1024_S1x1024x1_1),
    StableHlo.TRef.unary main_call1.v8 main_call1.v11 (broadcastInDim S1x1024x1 ![] bcast_S_S1x1024x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1x1024x1 ![] bcast_S_S1x1024x1),
    StableHlo.TRef.ternary main_call1.v13 main_call1.v12 main_call1.call0.v1 main_call1.call0.v2 (fun p a b => select (broadcastInDim S1x1024x1 ![] bcast_S_S1x1024x1 p) a b),
    StableHlo.unary main_v9 main_v11 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v5 main_v11 main_v12 (subf : (⟨S16x1024x256, .f32⟩ : BufTy).Contents (Elt F) → (⟨S16x1024x256, .f32⟩ : BufTy).Contents (Elt F) → (⟨S16x1024x256, .f32⟩ : BufTy).Contents (Elt F)),
    StableHlo.nullary main_cst_1 (constant S_ .f32 0x3727C5AC#32),
    StableHlo.unary main_cst_1 main_v13 (broadcastInDim S1x1024x1 ![] bcast_S_S1x1024x1 : (⟨S_, .f32⟩ : BufTy).Contents (Elt F) → (⟨S1x1024x1, .f32⟩ : BufTy).Contents (Elt F)),
    StableHlo.binary main_v10 main_v13 main_v14 (addf : (⟨S1x1024x1, .f32⟩ : BufTy).Contents (Elt F) → (⟨S1x1024x1, .f32⟩ : BufTy).Contents (Elt F) → (⟨S1x1024x1, .f32⟩ : BufTy).Contents (Elt F)),
    StableHlo.unary main_v14 main_v15 (Host.rsqrt : (⟨S1x1024x1, .f32⟩ : BufTy).Contents (Elt F) → (⟨S1x1024x1, .f32⟩ : BufTy).Contents (Elt F)),
    StableHlo.unary main_v15 main_v16 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v12 main_v16 main_v17 (mulf : (⟨S16x1024x256, .f32⟩ : BufTy).Contents (Elt F) → (⟨S16x1024x256, .f32⟩ : BufTy).Contents (Elt F) → (⟨S16x1024x256, .f32⟩ : BufTy).Contents (Elt F)),
    StableHlo.unary main_arg6 main_v18 (broadcastInDim S1x1024x1 ![1] bcast_S1024_S1x1024x1_1 : (⟨S1024, .f32⟩ : BufTy).Contents (Elt F) → (⟨S1x1024x1, .f32⟩ : BufTy).Contents (Elt F)),
    StableHlo.unary main_v18 main_v19 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v17 main_v19 main_v20 (mulf : (⟨S16x1024x256, .f32⟩ : BufTy).Contents (Elt F) → (⟨S16x1024x256, .f32⟩ : BufTy).Contents (Elt F) → (⟨S16x1024x256, .f32⟩ : BufTy).Contents (Elt F)),
    StableHlo.unary main_arg7 main_v21 (broadcastInDim S1x1024x1 ![1] bcast_S1024_S1x1024x1_1 : (⟨S1024, .f32⟩ : BufTy).Contents (Elt F) → (⟨S1x1024x1, .f32⟩ : BufTy).Contents (Elt F)),
    StableHlo.unary main_v21 main_v22 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v20 main_v22 main_v23 (addf : (⟨S16x1024x256, .f32⟩ : BufTy).Contents (Elt F) → (⟨S16x1024x256, .f32⟩ : BufTy).Contents (Elt F) → (⟨S16x1024x256, .f32⟩ : BufTy).Contents (Elt F)) ]

/-- The second layer's convolution and clamp: operations 53 … 60. -/
abbrev ops_c2 : List (HloOp τ sig (Elt F)) :=
  [ StableHlo.binary main_v23 main_arg4 main_v24 ((fun l r => Host.dotGeneral dot_S16x1024x256_S256x256_S16x1024x256_2_0_01_1_n_n none l r) : (⟨S16x1024x256, .f32⟩ : BufTy).Contents (Elt F) → (⟨S256x256, .f32⟩ : BufTy).Contents (Elt F) → (⟨S16x1024x256, .f32⟩ : BufTy).Contents (Elt F)),
    StableHlo.binary main_arg1 main_v24 main_v25 ((fun l r => Host.dotGeneral dot_S16x1024x1024_S16x1024x256_S16x1024x256_2_1_1_2_0_0 none l r) : (⟨S16x1024x1024, .f32⟩ : BufTy).Contents (Elt F) → (⟨S16x1024x256, .f32⟩ : BufTy).Contents (Elt F) → (⟨S16x1024x256, .f32⟩ : BufTy).Contents (Elt F)),
    StableHlo.unary main_arg5 main_v26 (broadcastInDim S1x1x256 ![2] bcast_S256_S1x1x256_2 : (⟨S256, .f32⟩ : BufTy).Contents (Elt F) → (⟨S1x1x256, .f32⟩ : BufTy).Contents (Elt F)),
    StableHlo.unary main_v26 main_v27 (broadcastInDim S16x1024x256 ![0, 1, 2] bcast_S1x1x256_S16x1024x256_0_1_2 : (⟨S1x1x256, .f32⟩ : BufTy).Contents (Elt F) → (⟨S16x1024x256, .f32⟩ : BufTy).Contents (Elt F)),
    StableHlo.binary main_v25 main_v27 main_v28 (addf : (⟨S16x1024x256, .f32⟩ : BufTy).Contents (Elt F) → (⟨S16x1024x256, .f32⟩ : BufTy).Contents (Elt F) → (⟨S16x1024x256, .f32⟩ : BufTy).Contents (Elt F)),
    StableHlo.TRef.nullary main_call2.cst (constant S_ .f32 0x00000000#32),
    StableHlo.TRef.unary main_call2.cst main_call2.v0 (broadcastInDim S16x1024x256 ![] bcast_S_S16x1024x256),
    StableHlo.TRef.binary (StableHlo.TRef.of main_v28 : StableHlo.TRef sig ⟨S16x1024x256, .f32⟩) main_call2.v0 main_call2.v1 maximumf ]

/-- The second layer's batch normalisation: operations 61 … 104. -/
abbrev ops_b2 : List (HloOp τ sig (Elt F)) :=
  [ StableHlo.nullary main_cst_2 (constant S_ .f32 0x00000000#32),
    StableHlo.binary main_v29 main_cst_2 main_v30 ((fun x v => Host.reduceAdd x v reducesTo_S16x1024x256_S1024_d0_2 h_S_) : (⟨S16x1024x256, .f32⟩ : BufTy).Contents (Elt F) → (⟨S_, .f32⟩ : BufTy).Contents (Elt F) → (⟨S1024, .f32⟩ : BufTy).Contents (Elt F)),
    StableHlo.unary main_v30 main_v31 (broadcastInDim S1x1024x1 ![1] bcast_S1024_S1x1024x1_1 : (⟨S1024, .f32⟩ : BufTy).Contents (Elt F) → (⟨S1x1024x1, .f32⟩ : BufTy).Contents (Elt F)),
    StableHlo.nullary main_cst_3 (constant S_ .f32 0x45800000#32),
    StableHlo.unary main_cst_3 main_v32 (broadcastInDim S1x1024x1 ![] bcast_S_S1x1024x1 : (⟨S_, .f32⟩ : BufTy).Contents (Elt F) → (⟨S1x1024x1, .f32⟩ : BufTy).Contents (Elt F)),
    StableHlo.binary main_v31 main_v32 main_v33 (Host.divf : (⟨S1x1024x1, .f32⟩ : BufTy).Contents (Elt F) → (⟨S1x1024x1, .f32⟩ : BufTy).Contents (Elt F) → (⟨S1x1024x1, .f32⟩ : BufTy).Contents (Elt F)),
    StableHlo.nullary main_c_4 (constantI S_ 32 0#32),
    StableHlo.TRef.nullary main_call3.cst (constant S_ .f32 0x00000000#32),
    StableHlo.TRef.binary (StableHlo.TRef.of main_v29 : StableHlo.TRef sig ⟨S16x1024x256, .f32⟩) main_call3.cst main_call3.v0 (fun x v => Host.reduceAdd x v reducesTo_S16x1024x256_S1024_d0_2 h_S_),
    StableHlo.TRef.unary main_call3.v0 main_call3.v1 (broadcastInDim S1x1024x1 ![1] bcast_S1024_S1x1024x1_1),
    StableHlo.TRef.nullary main_call3.cst_0 (constant S_ .f32 0x45800000#32),
    StableHlo.TRef.unary main_call3.cst_0 main_call3.v2 (broadcastInDim S1x1024x1 ![] bcast_S_S1x1024x1),
    StableHlo.TRef.binary main_call3.v1 main_call3.v2 main_call3.v3 Host.divf,
    StableHlo.TRef.unary main_call3.v3 main_call3.v4 (broadcastInDim S16x1024x256 ![0, 1, 2] bcast_S1x1024x1_S16x1024x256_0_1_2),
    StableHlo.TRef.binary (StableHlo.TRef.of main_v29 : StableHlo.TRef sig ⟨S16x1024x256, .f32⟩) main_call3.v4 main_call3.v5 subf,
    StableHlo.TRef.binary main_call3.v5 main_call3.v5 main_call3.v6 mulf,
    StableHlo.TRef.unary (StableHlo.TRef.of main_c_4 : StableHlo.TRef sig ⟨S_, .i32⟩) main_call3.v7 (sitofp .f32),
    StableHlo.TRef.nullary main_call3.cst_1 (constant S_ .f32 0x45800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S16x1024x256_S1024_d0_2 h_S_),
    StableHlo.TRef.unary main_call3.v9 main_call3.v10 (broadcastInDim S1x1024x1 ![1] bcast_S1024_S1x1024x1_1),
    StableHlo.TRef.unary main_call3.v8 main_call3.v11 (broadcastInDim S1x1024x1 ![] bcast_S_S1x1024x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1x1024x1 ![] bcast_S_S1x1024x1),
    StableHlo.TRef.ternary main_call3.v13 main_call3.v12 main_call3.call0.v1 main_call3.call0.v2 (fun p a b => select (broadcastInDim S1x1024x1 ![] bcast_S_S1x1024x1 p) a b),
    StableHlo.unary main_v33 main_v35 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v29 main_v35 main_v36 (subf : (⟨S16x1024x256, .f32⟩ : BufTy).Contents (Elt F) → (⟨S16x1024x256, .f32⟩ : BufTy).Contents (Elt F) → (⟨S16x1024x256, .f32⟩ : BufTy).Contents (Elt F)),
    StableHlo.nullary main_cst_5 (constant S_ .f32 0x3727C5AC#32),
    StableHlo.unary main_cst_5 main_v37 (broadcastInDim S1x1024x1 ![] bcast_S_S1x1024x1 : (⟨S_, .f32⟩ : BufTy).Contents (Elt F) → (⟨S1x1024x1, .f32⟩ : BufTy).Contents (Elt F)),
    StableHlo.binary main_v34 main_v37 main_v38 (addf : (⟨S1x1024x1, .f32⟩ : BufTy).Contents (Elt F) → (⟨S1x1024x1, .f32⟩ : BufTy).Contents (Elt F) → (⟨S1x1024x1, .f32⟩ : BufTy).Contents (Elt F)),
    StableHlo.unary main_v38 main_v39 (Host.rsqrt : (⟨S1x1024x1, .f32⟩ : BufTy).Contents (Elt F) → (⟨S1x1024x1, .f32⟩ : BufTy).Contents (Elt F)),
    StableHlo.unary main_v39 main_v40 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v36 main_v40 main_v41 (mulf : (⟨S16x1024x256, .f32⟩ : BufTy).Contents (Elt F) → (⟨S16x1024x256, .f32⟩ : BufTy).Contents (Elt F) → (⟨S16x1024x256, .f32⟩ : BufTy).Contents (Elt F)),
    StableHlo.unary main_arg8 main_v42 (broadcastInDim S1x1024x1 ![1] bcast_S1024_S1x1024x1_1 : (⟨S1024, .f32⟩ : BufTy).Contents (Elt F) → (⟨S1x1024x1, .f32⟩ : BufTy).Contents (Elt F)),
    StableHlo.unary main_v42 main_v43 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v41 main_v43 main_v44 (mulf : (⟨S16x1024x256, .f32⟩ : BufTy).Contents (Elt F) → (⟨S16x1024x256, .f32⟩ : BufTy).Contents (Elt F) → (⟨S16x1024x256, .f32⟩ : BufTy).Contents (Elt F)),
    StableHlo.unary main_arg9 main_v45 (broadcastInDim S1x1024x1 ![1] bcast_S1024_S1x1024x1_1 : (⟨S1024, .f32⟩ : BufTy).Contents (Elt F) → (⟨S1x1024x1, .f32⟩ : BufTy).Contents (Elt F)),
    StableHlo.unary main_v45 main_v46 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v44 main_v46 main_v47 (addf : (⟨S16x1024x256, .f32⟩ : BufTy).Contents (Elt F) → (⟨S16x1024x256, .f32⟩ : BufTy).Contents (Elt F) → (⟨S16x1024x256, .f32⟩ : BufTy).Contents (Elt F)) ]

/-- The 104 operations, in order. -/
abbrev ops : List (HloOp τ sig (Elt F)) :=
  [ StableHlo.binary main_arg0 main_arg2 main_v0 ((fun l r => Host.dotGeneral dot_S16x1024x256_S256x256_S16x1024x256_2_0_01_1_n_n none l r) : (⟨S16x1024x256, .f32⟩ : BufTy).Contents (Elt F) → (⟨S256x256, .f32⟩ : BufTy).Contents (Elt F) → (⟨S16x1024x256, .f32⟩ : BufTy).Contents (Elt F)),
    StableHlo.binary main_arg1 main_v0 main_v1 ((fun l r => Host.dotGeneral dot_S16x1024x1024_S16x1024x256_S16x1024x256_2_1_1_2_0_0 none l r) : (⟨S16x1024x1024, .f32⟩ : BufTy).Contents (Elt F) → (⟨S16x1024x256, .f32⟩ : BufTy).Contents (Elt F) → (⟨S16x1024x256, .f32⟩ : BufTy).Contents (Elt F)),
    StableHlo.unary main_arg3 main_v2 (broadcastInDim S1x1x256 ![2] bcast_S256_S1x1x256_2 : (⟨S256, .f32⟩ : BufTy).Contents (Elt F) → (⟨S1x1x256, .f32⟩ : BufTy).Contents (Elt F)),
    StableHlo.unary main_v2 main_v3 (broadcastInDim S16x1024x256 ![0, 1, 2] bcast_S1x1x256_S16x1024x256_0_1_2 : (⟨S1x1x256, .f32⟩ : BufTy).Contents (Elt F) → (⟨S16x1024x256, .f32⟩ : BufTy).Contents (Elt F)),
    StableHlo.binary main_v1 main_v3 main_v4 (addf : (⟨S16x1024x256, .f32⟩ : BufTy).Contents (Elt F) → (⟨S16x1024x256, .f32⟩ : BufTy).Contents (Elt F) → (⟨S16x1024x256, .f32⟩ : BufTy).Contents (Elt F)),
    StableHlo.TRef.nullary main_call0.cst (constant S_ .f32 0x00000000#32),
    StableHlo.TRef.unary main_call0.cst main_call0.v0 (broadcastInDim S16x1024x256 ![] bcast_S_S16x1024x256),
    StableHlo.TRef.binary (StableHlo.TRef.of main_v4 : StableHlo.TRef sig ⟨S16x1024x256, .f32⟩) main_call0.v0 main_call0.v1 maximumf,
    StableHlo.nullary main_cst (constant S_ .f32 0x00000000#32),
    StableHlo.binary main_v5 main_cst main_v6 ((fun x v => Host.reduceAdd x v reducesTo_S16x1024x256_S1024_d0_2 h_S_) : (⟨S16x1024x256, .f32⟩ : BufTy).Contents (Elt F) → (⟨S_, .f32⟩ : BufTy).Contents (Elt F) → (⟨S1024, .f32⟩ : BufTy).Contents (Elt F)),
    StableHlo.unary main_v6 main_v7 (broadcastInDim S1x1024x1 ![1] bcast_S1024_S1x1024x1_1 : (⟨S1024, .f32⟩ : BufTy).Contents (Elt F) → (⟨S1x1024x1, .f32⟩ : BufTy).Contents (Elt F)),
    StableHlo.nullary main_cst_0 (constant S_ .f32 0x45800000#32),
    StableHlo.unary main_cst_0 main_v8 (broadcastInDim S1x1024x1 ![] bcast_S_S1x1024x1 : (⟨S_, .f32⟩ : BufTy).Contents (Elt F) → (⟨S1x1024x1, .f32⟩ : BufTy).Contents (Elt F)),
    StableHlo.binary main_v7 main_v8 main_v9 (Host.divf : (⟨S1x1024x1, .f32⟩ : BufTy).Contents (Elt F) → (⟨S1x1024x1, .f32⟩ : BufTy).Contents (Elt F) → (⟨S1x1024x1, .f32⟩ : BufTy).Contents (Elt F)),
    StableHlo.nullary main_c (constantI S_ 32 0#32),
    StableHlo.TRef.nullary main_call1.cst (constant S_ .f32 0x00000000#32),
    StableHlo.TRef.binary (StableHlo.TRef.of main_v5 : StableHlo.TRef sig ⟨S16x1024x256, .f32⟩) main_call1.cst main_call1.v0 (fun x v => Host.reduceAdd x v reducesTo_S16x1024x256_S1024_d0_2 h_S_),
    StableHlo.TRef.unary main_call1.v0 main_call1.v1 (broadcastInDim S1x1024x1 ![1] bcast_S1024_S1x1024x1_1),
    StableHlo.TRef.nullary main_call1.cst_0 (constant S_ .f32 0x45800000#32),
    StableHlo.TRef.unary main_call1.cst_0 main_call1.v2 (broadcastInDim S1x1024x1 ![] bcast_S_S1x1024x1),
    StableHlo.TRef.binary main_call1.v1 main_call1.v2 main_call1.v3 Host.divf,
    StableHlo.TRef.unary main_call1.v3 main_call1.v4 (broadcastInDim S16x1024x256 ![0, 1, 2] bcast_S1x1024x1_S16x1024x256_0_1_2),
    StableHlo.TRef.binary (StableHlo.TRef.of main_v5 : StableHlo.TRef sig ⟨S16x1024x256, .f32⟩) main_call1.v4 main_call1.v5 subf,
    StableHlo.TRef.binary main_call1.v5 main_call1.v5 main_call1.v6 mulf,
    StableHlo.TRef.unary (StableHlo.TRef.of main_c : StableHlo.TRef sig ⟨S_, .i32⟩) main_call1.v7 (sitofp .f32),
    StableHlo.TRef.nullary main_call1.cst_1 (constant S_ .f32 0x45800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S16x1024x256_S1024_d0_2 h_S_),
    StableHlo.TRef.unary main_call1.v9 main_call1.v10 (broadcastInDim S1x1024x1 ![1] bcast_S1024_S1x1024x1_1),
    StableHlo.TRef.unary main_call1.v8 main_call1.v11 (broadcastInDim S1x1024x1 ![] bcast_S_S1x1024x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1x1024x1 ![] bcast_S_S1x1024x1),
    StableHlo.TRef.ternary main_call1.v13 main_call1.v12 main_call1.call0.v1 main_call1.call0.v2 (fun p a b => select (broadcastInDim S1x1024x1 ![] bcast_S_S1x1024x1 p) a b),
    StableHlo.unary main_v9 main_v11 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v5 main_v11 main_v12 (subf : (⟨S16x1024x256, .f32⟩ : BufTy).Contents (Elt F) → (⟨S16x1024x256, .f32⟩ : BufTy).Contents (Elt F) → (⟨S16x1024x256, .f32⟩ : BufTy).Contents (Elt F)),
    StableHlo.nullary main_cst_1 (constant S_ .f32 0x3727C5AC#32),
    StableHlo.unary main_cst_1 main_v13 (broadcastInDim S1x1024x1 ![] bcast_S_S1x1024x1 : (⟨S_, .f32⟩ : BufTy).Contents (Elt F) → (⟨S1x1024x1, .f32⟩ : BufTy).Contents (Elt F)),
    StableHlo.binary main_v10 main_v13 main_v14 (addf : (⟨S1x1024x1, .f32⟩ : BufTy).Contents (Elt F) → (⟨S1x1024x1, .f32⟩ : BufTy).Contents (Elt F) → (⟨S1x1024x1, .f32⟩ : BufTy).Contents (Elt F)),
    StableHlo.unary main_v14 main_v15 (Host.rsqrt : (⟨S1x1024x1, .f32⟩ : BufTy).Contents (Elt F) → (⟨S1x1024x1, .f32⟩ : BufTy).Contents (Elt F)),
    StableHlo.unary main_v15 main_v16 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v12 main_v16 main_v17 (mulf : (⟨S16x1024x256, .f32⟩ : BufTy).Contents (Elt F) → (⟨S16x1024x256, .f32⟩ : BufTy).Contents (Elt F) → (⟨S16x1024x256, .f32⟩ : BufTy).Contents (Elt F)),
    StableHlo.unary main_arg6 main_v18 (broadcastInDim S1x1024x1 ![1] bcast_S1024_S1x1024x1_1 : (⟨S1024, .f32⟩ : BufTy).Contents (Elt F) → (⟨S1x1024x1, .f32⟩ : BufTy).Contents (Elt F)),
    StableHlo.unary main_v18 main_v19 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v17 main_v19 main_v20 (mulf : (⟨S16x1024x256, .f32⟩ : BufTy).Contents (Elt F) → (⟨S16x1024x256, .f32⟩ : BufTy).Contents (Elt F) → (⟨S16x1024x256, .f32⟩ : BufTy).Contents (Elt F)),
    StableHlo.unary main_arg7 main_v21 (broadcastInDim S1x1024x1 ![1] bcast_S1024_S1x1024x1_1 : (⟨S1024, .f32⟩ : BufTy).Contents (Elt F) → (⟨S1x1024x1, .f32⟩ : BufTy).Contents (Elt F)),
    StableHlo.unary main_v21 main_v22 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v20 main_v22 main_v23 (addf : (⟨S16x1024x256, .f32⟩ : BufTy).Contents (Elt F) → (⟨S16x1024x256, .f32⟩ : BufTy).Contents (Elt F) → (⟨S16x1024x256, .f32⟩ : BufTy).Contents (Elt F)),
    StableHlo.binary main_v23 main_arg4 main_v24 ((fun l r => Host.dotGeneral dot_S16x1024x256_S256x256_S16x1024x256_2_0_01_1_n_n none l r) : (⟨S16x1024x256, .f32⟩ : BufTy).Contents (Elt F) → (⟨S256x256, .f32⟩ : BufTy).Contents (Elt F) → (⟨S16x1024x256, .f32⟩ : BufTy).Contents (Elt F)),
    StableHlo.binary main_arg1 main_v24 main_v25 ((fun l r => Host.dotGeneral dot_S16x1024x1024_S16x1024x256_S16x1024x256_2_1_1_2_0_0 none l r) : (⟨S16x1024x1024, .f32⟩ : BufTy).Contents (Elt F) → (⟨S16x1024x256, .f32⟩ : BufTy).Contents (Elt F) → (⟨S16x1024x256, .f32⟩ : BufTy).Contents (Elt F)),
    StableHlo.unary main_arg5 main_v26 (broadcastInDim S1x1x256 ![2] bcast_S256_S1x1x256_2 : (⟨S256, .f32⟩ : BufTy).Contents (Elt F) → (⟨S1x1x256, .f32⟩ : BufTy).Contents (Elt F)),
    StableHlo.unary main_v26 main_v27 (broadcastInDim S16x1024x256 ![0, 1, 2] bcast_S1x1x256_S16x1024x256_0_1_2 : (⟨S1x1x256, .f32⟩ : BufTy).Contents (Elt F) → (⟨S16x1024x256, .f32⟩ : BufTy).Contents (Elt F)),
    StableHlo.binary main_v25 main_v27 main_v28 (addf : (⟨S16x1024x256, .f32⟩ : BufTy).Contents (Elt F) → (⟨S16x1024x256, .f32⟩ : BufTy).Contents (Elt F) → (⟨S16x1024x256, .f32⟩ : BufTy).Contents (Elt F)),
    StableHlo.TRef.nullary main_call2.cst (constant S_ .f32 0x00000000#32),
    StableHlo.TRef.unary main_call2.cst main_call2.v0 (broadcastInDim S16x1024x256 ![] bcast_S_S16x1024x256),
    StableHlo.TRef.binary (StableHlo.TRef.of main_v28 : StableHlo.TRef sig ⟨S16x1024x256, .f32⟩) main_call2.v0 main_call2.v1 maximumf,
    StableHlo.nullary main_cst_2 (constant S_ .f32 0x00000000#32),
    StableHlo.binary main_v29 main_cst_2 main_v30 ((fun x v => Host.reduceAdd x v reducesTo_S16x1024x256_S1024_d0_2 h_S_) : (⟨S16x1024x256, .f32⟩ : BufTy).Contents (Elt F) → (⟨S_, .f32⟩ : BufTy).Contents (Elt F) → (⟨S1024, .f32⟩ : BufTy).Contents (Elt F)),
    StableHlo.unary main_v30 main_v31 (broadcastInDim S1x1024x1 ![1] bcast_S1024_S1x1024x1_1 : (⟨S1024, .f32⟩ : BufTy).Contents (Elt F) → (⟨S1x1024x1, .f32⟩ : BufTy).Contents (Elt F)),
    StableHlo.nullary main_cst_3 (constant S_ .f32 0x45800000#32),
    StableHlo.unary main_cst_3 main_v32 (broadcastInDim S1x1024x1 ![] bcast_S_S1x1024x1 : (⟨S_, .f32⟩ : BufTy).Contents (Elt F) → (⟨S1x1024x1, .f32⟩ : BufTy).Contents (Elt F)),
    StableHlo.binary main_v31 main_v32 main_v33 (Host.divf : (⟨S1x1024x1, .f32⟩ : BufTy).Contents (Elt F) → (⟨S1x1024x1, .f32⟩ : BufTy).Contents (Elt F) → (⟨S1x1024x1, .f32⟩ : BufTy).Contents (Elt F)),
    StableHlo.nullary main_c_4 (constantI S_ 32 0#32),
    StableHlo.TRef.nullary main_call3.cst (constant S_ .f32 0x00000000#32),
    StableHlo.TRef.binary (StableHlo.TRef.of main_v29 : StableHlo.TRef sig ⟨S16x1024x256, .f32⟩) main_call3.cst main_call3.v0 (fun x v => Host.reduceAdd x v reducesTo_S16x1024x256_S1024_d0_2 h_S_),
    StableHlo.TRef.unary main_call3.v0 main_call3.v1 (broadcastInDim S1x1024x1 ![1] bcast_S1024_S1x1024x1_1),
    StableHlo.TRef.nullary main_call3.cst_0 (constant S_ .f32 0x45800000#32),
    StableHlo.TRef.unary main_call3.cst_0 main_call3.v2 (broadcastInDim S1x1024x1 ![] bcast_S_S1x1024x1),
    StableHlo.TRef.binary main_call3.v1 main_call3.v2 main_call3.v3 Host.divf,
    StableHlo.TRef.unary main_call3.v3 main_call3.v4 (broadcastInDim S16x1024x256 ![0, 1, 2] bcast_S1x1024x1_S16x1024x256_0_1_2),
    StableHlo.TRef.binary (StableHlo.TRef.of main_v29 : StableHlo.TRef sig ⟨S16x1024x256, .f32⟩) main_call3.v4 main_call3.v5 subf,
    StableHlo.TRef.binary main_call3.v5 main_call3.v5 main_call3.v6 mulf,
    StableHlo.TRef.unary (StableHlo.TRef.of main_c_4 : StableHlo.TRef sig ⟨S_, .i32⟩) main_call3.v7 (sitofp .f32),
    StableHlo.TRef.nullary main_call3.cst_1 (constant S_ .f32 0x45800000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S16x1024x256_S1024_d0_2 h_S_),
    StableHlo.TRef.unary main_call3.v9 main_call3.v10 (broadcastInDim S1x1024x1 ![1] bcast_S1024_S1x1024x1_1),
    StableHlo.TRef.unary main_call3.v8 main_call3.v11 (broadcastInDim S1x1024x1 ![] bcast_S_S1x1024x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S1x1024x1 ![] bcast_S_S1x1024x1),
    StableHlo.TRef.ternary main_call3.v13 main_call3.v12 main_call3.call0.v1 main_call3.call0.v2 (fun p a b => select (broadcastInDim S1x1024x1 ![] bcast_S_S1x1024x1 p) a b),
    StableHlo.unary main_v33 main_v35 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v29 main_v35 main_v36 (subf : (⟨S16x1024x256, .f32⟩ : BufTy).Contents (Elt F) → (⟨S16x1024x256, .f32⟩ : BufTy).Contents (Elt F) → (⟨S16x1024x256, .f32⟩ : BufTy).Contents (Elt F)),
    StableHlo.nullary main_cst_5 (constant S_ .f32 0x3727C5AC#32),
    StableHlo.unary main_cst_5 main_v37 (broadcastInDim S1x1024x1 ![] bcast_S_S1x1024x1 : (⟨S_, .f32⟩ : BufTy).Contents (Elt F) → (⟨S1x1024x1, .f32⟩ : BufTy).Contents (Elt F)),
    StableHlo.binary main_v34 main_v37 main_v38 (addf : (⟨S1x1024x1, .f32⟩ : BufTy).Contents (Elt F) → (⟨S1x1024x1, .f32⟩ : BufTy).Contents (Elt F) → (⟨S1x1024x1, .f32⟩ : BufTy).Contents (Elt F)),
    StableHlo.unary main_v38 main_v39 (Host.rsqrt : (⟨S1x1024x1, .f32⟩ : BufTy).Contents (Elt F) → (⟨S1x1024x1, .f32⟩ : BufTy).Contents (Elt F)),
    StableHlo.unary main_v39 main_v40 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v36 main_v40 main_v41 (mulf : (⟨S16x1024x256, .f32⟩ : BufTy).Contents (Elt F) → (⟨S16x1024x256, .f32⟩ : BufTy).Contents (Elt F) → (⟨S16x1024x256, .f32⟩ : BufTy).Contents (Elt F)),
    StableHlo.unary main_arg8 main_v42 (broadcastInDim S1x1024x1 ![1] bcast_S1024_S1x1024x1_1 : (⟨S1024, .f32⟩ : BufTy).Contents (Elt F) → (⟨S1x1024x1, .f32⟩ : BufTy).Contents (Elt F)),
    StableHlo.unary main_v42 main_v43 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v41 main_v43 main_v44 (mulf : (⟨S16x1024x256, .f32⟩ : BufTy).Contents (Elt F) → (⟨S16x1024x256, .f32⟩ : BufTy).Contents (Elt F) → (⟨S16x1024x256, .f32⟩ : BufTy).Contents (Elt F)),
    StableHlo.unary main_arg9 main_v45 (broadcastInDim S1x1024x1 ![1] bcast_S1024_S1x1024x1_1 : (⟨S1024, .f32⟩ : BufTy).Contents (Elt F) → (⟨S1x1024x1, .f32⟩ : BufTy).Contents (Elt F)),
    StableHlo.unary main_v45 main_v46 (broadcastInDim S16x1024x256 ![0, 1, 2] bcast_S1x1024x1_S16x1024x256_0_1_2 : (⟨S1x1024x1, .f32⟩ : BufTy).Contents (Elt F) → (⟨S16x1024x256, .f32⟩ : BufTy).Contents (Elt F)),
    StableHlo.binary main_v44 main_v46 main_v47 (addf : (⟨S16x1024x256, .f32⟩ : BufTy).Contents (Elt F) → (⟨S16x1024x256, .f32⟩ : BufTy).Contents (Elt F) → (⟨S16x1024x256, .f32⟩ : BufTy).Contents (Elt F)) ]

/-- The line is its four windows, one after the other. -/
theorem ops_split : (ops : List (HloOp τ sig (Elt F))) = ops_c1 ++ (ops_b1 ++ (ops_c2 ++ ops_b2)) := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- A line run after another: the fold of the concatenation is the fold of the second over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

end Cert.ReferenceIdeal.H

end
-- ==== Proof.RefRunMain.lean ====
/-
  The reference program is its straight line of 104 operations: the outlined functions unfold at their calls and
  the calls' records at their fields, and sequencing computes, so both sides are one chain of steps.
-/
import proofs.«160428_g88656714924069_cont_sun_m_1396_13_alg».proof.Proof.RefRunOps

noncomputable section

namespace Cert.ReferenceIdeal.H

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

-- fifty-six statements, three of them calls that unfold to more: the comparison recurses once per step of the chain
set_option maxRecDepth 8192 in
set_option maxHeartbeats 4000000 in
theorem main_eq (c : Dev nD) : main (F := F) c = seq ops := rfl

end Cert.ReferenceIdeal.H

end
-- ==== Proof.RefTerm.lean ====
/-
  The reference program's result as one pure term of its ten argument arrays, built operation by operation as the
  program prints them. The program is two identical layers, each a dense graph convolution clamped at zero
  (eight operations: x · W, adj · (x · W), the bias broadcast and added, the maximum with a broadcast zero)
  followed by a per-node batch normalisation (forty-four operations: the mean over batches and channels, the
  variance as the mean of squared deviations, its guard against a non-positive count, the normalisation, the
  scale and the shift). Each operation is one definition named after the buffer it writes in the first layer;
  the second layer applies the same definitions to the first layer's result and its own weights.
-/
import proofs.«160428_g88656714924069_cont_sun_m_1396_13_alg».proof.ReferenceIdeal
import Idealize.ShloMosaic.PureOps.Ideal

noncomputable section

namespace Cert.ReferenceIdeal.H

open Idealize.ShloMosaic Cert.ReferenceIdeal
open Cert.ReferenceIdeal.Facts₀ Cert.ReferenceIdeal.Facts

variable [Cert.ReferenceIdeal.Facts]

/-- Activations: batch, node, channel. -/
abbrev TAct : Type := FVec Ideal S16x1024x256 .f32
/-- Adjacency: batch, node, node. -/
abbrev TAdj : Type := FVec Ideal S16x1024x1024 .f32
/-- A weight matrix. -/
abbrev TMat : Type := FVec Ideal S256x256 .f32
/-- A per-channel vector. -/
abbrev TChan : Type := FVec Ideal S256 .f32
/-- A per-channel vector as a 1 × 1 × 256 array. -/
abbrev TChan3 : Type := FVec Ideal S1x1x256 .f32
/-- A per-node vector. -/
abbrev TNode : Type := FVec Ideal S1024 .f32
/-- A per-node vector as a 1 × 1024 × 1 array. -/
abbrev TRow : Type := FVec Ideal S1x1024x1 .f32
/-- A scalar. -/
abbrev TScal : Type := FVec Ideal S_ .f32

/-! ## The convolution, clamped at zero: the operations writing v0 … v5 (and v24 … v29) -/

/-- x · W, contracting the channel. -/
def cv_v0 (x : TAct) (W : TMat) : TAct := Host.dotGeneral dot_S16x1024x256_S256x256_S16x1024x256_2_0_01_1_n_n none x W
/-- adj · (x · W), per batch, contracting the node. -/
def cv_v1 (x : TAct) (adj : TAdj) (W : TMat) : TAct := Host.dotGeneral dot_S16x1024x1024_S16x1024x256_S16x1024x256_2_1_1_2_0_0 none adj (cv_v0 x W)
/-- The bias as a 1 × 1 × 256 array. -/
def cv_v2 (b : TChan) : TChan3 := broadcastInDim S1x1x256 ![2] bcast_S256_S1x1x256_2 b
/-- The bias at every batch and node. -/
def cv_v3 (b : TChan) : TAct := broadcastInDim S16x1024x256 ![0, 1, 2] bcast_S1x1x256_S16x1024x256_0_1_2 (cv_v2 b)
/-- adj · (x · W) + b. -/
def cv_v4 (x : TAct) (adj : TAdj) (W : TMat) (b : TChan) : TAct := addf (cv_v1 x adj W) (cv_v3 b)
/-- The scalar zero of the clamp. -/
def cv_call_cst : TScal := constant S_ .f32 0x00000000#32
/-- Zero everywhere. -/
def cv_call_v0 : TAct := broadcastInDim S16x1024x256 ![] bcast_S_S16x1024x256 cv_call_cst
/-- max (adj · (x · W) + b) 0. -/
def cv_v5 (x : TAct) (adj : TAdj) (W : TMat) (b : TChan) : TAct := maximumf (cv_v4 x adj W b) cv_call_v0

/-! ## The mean: the operations writing cst, v6 … v9, c (and cst_2, v30 … v33, c_4) -/

def bn_cst : TScal := constant S_ .f32 0x00000000#32
/-- Σ over batches and channels, per node. -/
def bn_v6 (y : TAct) : TNode := Host.reduceAdd y bn_cst reducesTo_S16x1024x256_S1024_d0_2 h_S_
def bn_v7 (y : TAct) : TRow := broadcastInDim S1x1024x1 ![1] bcast_S1024_S1x1024x1_1 (bn_v6 y)
/-- 4096, the number of entries summed. -/
def bn_cst_0 : TScal := constant S_ .f32 0x45800000#32
def bn_v8 : TRow := broadcastInDim S1x1024x1 ![] bcast_S_S1x1024x1 bn_cst_0
/-- The mean. -/
def bn_v9 (y : TAct) : TRow := Host.divf (bn_v7 y) bn_v8
/-- The integer zero subtracted from the count (no correction of the degrees of freedom). -/
def bn_c : IVec S_ 32 := constantI S_ 32 0#32

/-! ## The variance: the operations of the outlined variance function and of the selection it calls -/

def var_cst : TScal := constant S_ .f32 0x00000000#32
def var_v0 (y : TAct) : TNode := Host.reduceAdd y var_cst reducesTo_S16x1024x256_S1024_d0_2 h_S_
def var_v1 (y : TAct) : TRow := broadcastInDim S1x1024x1 ![1] bcast_S1024_S1x1024x1_1 (var_v0 y)
def var_cst_0 : TScal := constant S_ .f32 0x45800000#32
def var_v2 : TRow := broadcastInDim S1x1024x1 ![] bcast_S_S1x1024x1 var_cst_0
/-- The mean again. -/
def var_v3 (y : TAct) : TRow := Host.divf (var_v1 y) var_v2
def var_v4 (y : TAct) : TAct := broadcastInDim S16x1024x256 ![0, 1, 2] bcast_S1x1024x1_S16x1024x256_0_1_2 (var_v3 y)
/-- The deviation from the mean. -/
def var_v5 (y : TAct) : TAct := subf y (var_v4 y)
/-- Its square. -/
def var_v6 (y : TAct) : TAct := mulf (var_v5 y) (var_v5 y)
/-- The integer zero as a float. -/
def var_v7 : TScal := sitofp .f32 bn_c
def var_cst_1 : TScal := constant S_ .f32 0x45800000#32
/-- The count less the correction: 4096 − 0. -/
def var_v8 : TScal := subf var_cst_1 var_v7
def var_cst_2 : TScal := constant S_ .f32 0x00000000#32
/-- Σ of squared deviations over batches and channels, per node. -/
def var_v9 (y : TAct) : TNode := Host.reduceAdd (var_v6 y) var_cst_2 reducesTo_S16x1024x256_S1024_d0_2 h_S_
def var_v10 (y : TAct) : TRow := broadcastInDim S1x1024x1 ![1] bcast_S1024_S1x1024x1_1 (var_v9 y)
def var_v11 : TRow := broadcastInDim S1x1024x1 ![] bcast_S_S1x1024x1 var_v8
/-- The mean of squared deviations. -/
def var_v12 (y : TAct) : TRow := Host.divf (var_v10 y) var_v11
def var_cst_3 : TScal := constant S_ .f32 0x00000000#32
/-- Whether the corrected count is positive. -/
def var_v13 : IVec S_ 1 := cmpf .ogt var_v8 var_cst_3
/-- The value the variance takes when the corrected count is not positive. -/
def var_cst_4 : TScal := constant S_ .f32 0x7FC00000#32
def where_v0 : TScal := id var_cst_4
def where_v1 : TRow := broadcastInDim S1x1024x1 ![] bcast_S_S1x1024x1 where_v0
/-- The variance: the mean of squared deviations where the corrected count is positive. -/
def bn_v10 (y : TAct) : TRow := select (broadcastInDim S1x1024x1 ![] bcast_S_S1x1024x1 var_v13) (var_v12 y) where_v1

/-! ## The normalisation, scale and shift: the operations writing v11 … v23 (and v35 … v47) -/

def bn_v11 (y : TAct) : TAct := broadcastInDim S16x1024x256 ![0, 1, 2] bcast_S1x1024x1_S16x1024x256_0_1_2 (bn_v9 y)
/-- y − mean. -/
def bn_v12 (y : TAct) : TAct := subf y (bn_v11 y)
/-- ε. -/
def bn_cst_1 : TScal := constant S_ .f32 0x3727C5AC#32
def bn_v13 : TRow := broadcastInDim S1x1024x1 ![] bcast_S_S1x1024x1 bn_cst_1
/-- var + ε. -/
def bn_v14 (y : TAct) : TRow := addf (bn_v10 y) bn_v13
/-- 1 / √(var + ε). -/
def bn_v15 (y : TAct) : TRow := Host.rsqrt (bn_v14 y)
def bn_v16 (y : TAct) : TAct := broadcastInDim S16x1024x256 ![0, 1, 2] bcast_S1x1024x1_S16x1024x256_0_1_2 (bn_v15 y)
/-- (y − mean) / √(var + ε). -/
def bn_v17 (y : TAct) : TAct := mulf (bn_v12 y) (bn_v16 y)
def bn_v18 (γ : TNode) : TRow := broadcastInDim S1x1024x1 ![1] bcast_S1024_S1x1024x1_1 γ
def bn_v19 (γ : TNode) : TAct := broadcastInDim S16x1024x256 ![0, 1, 2] bcast_S1x1024x1_S16x1024x256_0_1_2 (bn_v18 γ)
/-- … · γ. -/
def bn_v20 (y : TAct) (γ : TNode) : TAct := mulf (bn_v17 y) (bn_v19 γ)
def bn_v21 (β : TNode) : TRow := broadcastInDim S1x1024x1 ![1] bcast_S1024_S1x1024x1_1 β
def bn_v22 (β : TNode) : TAct := broadcastInDim S16x1024x256 ![0, 1, 2] bcast_S1x1024x1_S16x1024x256_0_1_2 (bn_v21 β)
/-- … + β. -/
def bn_v23 (y : TAct) (γ β : TNode) : TAct := addf (bn_v20 y γ) (bn_v22 β)

/-! ## The two layers -/

/-- The first layer's convolution, clamped: the value of v5. -/
def val_v5 (a0 : TAct) (a1 : TAdj) (a2 : TMat) (a3 : TChan) : TAct := cv_v5 a0 a1 a2 a3
/-- The first layer's result: the value of v23. -/
def val_v23 (a0 : TAct) (a1 : TAdj) (a2 : TMat) (a3 : TChan) (a6 a7 : TNode) : TAct := bn_v23 (val_v5 a0 a1 a2 a3) a6 a7
/-- The second layer's convolution, clamped: the value of v29. -/
def val_v29 (a0 : TAct) (a1 : TAdj) (a2 : TMat) (a3 : TChan) (a4 : TMat) (a5 : TChan) (a6 a7 : TNode) : TAct :=
  cv_v5 (val_v23 a0 a1 a2 a3 a6 a7) a1 a4 a5
/-- The second layer's result: the value of v47. -/
def val_v47 (a0 : TAct) (a1 : TAdj) (a2 : TMat) (a3 : TChan) (a4 : TMat) (a5 : TChan) (a6 a7 a8 a9 : TNode) : TAct :=
  bn_v23 (val_v29 a0 a1 a2 a3 a4 a5 a6 a7) a8 a9

/-- What the reference program returns, of its ten arguments. -/
def refOut (a0 : FVec Ideal S16x1024x256 .f32) (a1 : FVec Ideal S16x1024x1024 .f32) (a2 : FVec Ideal S256x256 .f32)
    (a3 : FVec Ideal S256 .f32) (a4 : FVec Ideal S256x256 .f32) (a5 : FVec Ideal S256 .f32)
    (a6 a7 a8 a9 : FVec Ideal S1024 .f32) : FVec Ideal S16x1024x256 .f32 :=
  val_v47 a0 a1 a2 a3 a4 a5 a6 a7 a8 a9

end Cert.ReferenceIdeal.H

end
-- ==== Proof.RefRunC1.lean ====
/-
  The first layer's convolution and clamp, run: the eight operations leave at the clamp's result the stage's term of
  the four argument arrays they read, and write only their own eight buffers.
-/
import proofs.«160428_g88656714924069_cont_sun_m_1396_13_alg».proof.Proof.RefRunOps
import proofs.«160428_g88656714924069_cont_sun_m_1396_13_alg».proof.Proof.RefTerm

noncomputable section

namespace Cert.ReferenceIdeal.H

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The buffers the first layer's convolution and clamp write, in order. -/
abbrev W_c1 : List (Ref sig .tc) :=
  [main_v0, main_v1, main_v2, main_v3, main_v4, main_call0.cst.ref, main_call0.v0.ref, main_call0.v1.ref]

/-- A buffer among a list's, as a device buffer among the list's device buffers. -/
private theorem wr {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

set_option maxRecDepth 8192 in
/-- Each operation writes its own result buffer only, and that buffer is in the list. -/
theorem c1_writes : (ops_c1 : List (HloOp τ sig (Elt Ideal))).Forall fun op =>
    op.writes ⊆ (W_c1.map (Proc.devRef (τ := τ) .tc)).toFinset :=
  ⟨wr (by decide), wr (by decide), wr (by decide), wr (by decide), wr (by decide), wr (by decide), wr (by decide), wr (by decide)⟩

/-- A buffer these operations do not write keeps its contents through them. -/
theorem c1_keep (V : Valuation τ sig (Elt Ideal)) (r : Ref sig .tc) (h : r ∉ W_c1) :
    after ops_c1 V (Proc.devRef .tc r) = V (Proc.devRef .tc r) :=
  after_of_writes_sub ops_c1 V c1_writes h

set_option maxRecDepth 8192 in
set_option maxHeartbeats 4000000 in
/-- What the first layer's convolution and clamp leave at their last result: each operation's result at its own buffer is its function of its
    operands' contents, and at any other buffer what was there; composed, the stage's term of the contents the
    operations start from. -/
theorem c1_v5 (V : Valuation τ sig (Elt Ideal)) :
    after ops_c1 V (Proc.devRef .tc main_v5) = cv_v5 (V (Proc.devRef .tc main_arg0)) (V (Proc.devRef .tc main_arg1)) (V (Proc.devRef .tc main_arg2)) (V (Proc.devRef .tc main_arg3)) := by
  after_results_simp
  rfl

end Cert.ReferenceIdeal.H

end
-- ==== Proof.RefRunB1.lean ====
/-
  The first layer's batch normalisation, run: the forty-four operations leave at the shifted result the stage's term
  of the clamped convolution and the two per-node arrays they read, and write only their own forty-four buffers.
-/
import proofs.«160428_g88656714924069_cont_sun_m_1396_13_alg».proof.Proof.RefRunOps
import proofs.«160428_g88656714924069_cont_sun_m_1396_13_alg».proof.Proof.RefTerm

noncomputable section

namespace Cert.ReferenceIdeal.H

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The buffers the first layer's batch normalisation write, in order. -/
abbrev W_b1 : List (Ref sig .tc) :=
  [main_cst, main_v6, main_v7, main_cst_0, main_v8, main_v9, main_c, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.v12.ref, main_call1.cst_3.ref, main_call1.v13.ref, main_call1.cst_4.ref, main_call1.call0.v0.ref, main_call1.call0.v1.ref, main_call1.call0.v2.ref, main_v11, main_v12, main_cst_1, main_v13, main_v14, main_v15, main_v16, main_v17, main_v18, main_v19, main_v20, main_v21, main_v22, main_v23]

/-- A buffer among a list's, as a device buffer among the list's device buffers. -/
private theorem wr {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

set_option maxRecDepth 8192 in
/-- Each operation writes its own result buffer only, and that buffer is in the list. -/
theorem b1_writes : (ops_b1 : List (HloOp τ sig (Elt Ideal))).Forall fun op =>
    op.writes ⊆ (W_b1.map (Proc.devRef (τ := τ) .tc)).toFinset :=
  ⟨wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide)⟩

/-- A buffer these operations do not write keeps its contents through them. -/
theorem b1_keep (V : Valuation τ sig (Elt Ideal)) (r : Ref sig .tc) (h : r ∉ W_b1) :
    after ops_b1 V (Proc.devRef .tc r) = V (Proc.devRef .tc r) :=
  after_of_writes_sub ops_b1 V b1_writes h

set_option maxRecDepth 8192 in
set_option maxHeartbeats 4000000 in
/-- What the first layer's batch normalisation leave at their last result: each operation's result at its own buffer is its function of its
    operands' contents, and at any other buffer what was there; composed, the stage's term of the contents the
    operations start from. -/
theorem b1_v23 (V : Valuation τ sig (Elt Ideal)) :
    after ops_b1 V (Proc.devRef .tc main_v23) = bn_v23 (V (Proc.devRef .tc main_v5)) (V (Proc.devRef .tc main_arg6)) (V (Proc.devRef .tc main_arg7)) := by
  after_results_simp
  rfl

end Cert.ReferenceIdeal.H

end
-- ==== Proof.RefRunC2.lean ====
/-
  The second layer's convolution and clamp, run: the eight operations leave at the clamp's result the stage's term of
  the first layer's result and the three argument arrays they read, and write only their own eight buffers.
-/
import proofs.«160428_g88656714924069_cont_sun_m_1396_13_alg».proof.Proof.RefRunOps
import proofs.«160428_g88656714924069_cont_sun_m_1396_13_alg».proof.Proof.RefTerm

noncomputable section

namespace Cert.ReferenceIdeal.H

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The buffers the second layer's convolution and clamp write, in order. -/
abbrev W_c2 : List (Ref sig .tc) :=
  [main_v24, main_v25, main_v26, main_v27, main_v28, main_call2.cst.ref, main_call2.v0.ref, main_call2.v1.ref]

/-- A buffer among a list's, as a device buffer among the list's device buffers. -/
private theorem wr {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

set_option maxRecDepth 8192 in
/-- Each operation writes its own result buffer only, and that buffer is in the list. -/
theorem c2_writes : (ops_c2 : List (HloOp τ sig (Elt Ideal))).Forall fun op =>
    op.writes ⊆ (W_c2.map (Proc.devRef (τ := τ) .tc)).toFinset :=
  ⟨wr (by decide), wr (by decide), wr (by decide), wr (by decide), wr (by decide), wr (by decide), wr (by decide), wr (by decide)⟩

/-- A buffer these operations do not write keeps its contents through them. -/
theorem c2_keep (V : Valuation τ sig (Elt Ideal)) (r : Ref sig .tc) (h : r ∉ W_c2) :
    after ops_c2 V (Proc.devRef .tc r) = V (Proc.devRef .tc r) :=
  after_of_writes_sub ops_c2 V c2_writes h

set_option maxRecDepth 8192 in
set_option maxHeartbeats 4000000 in
/-- What the second layer's convolution and clamp leave at their last result: each operation's result at its own buffer is its function of its
    operands' contents, and at any other buffer what was there; composed, the stage's term of the contents the
    operations start from. -/
theorem c2_v29 (V : Valuation τ sig (Elt Ideal)) :
    after ops_c2 V (Proc.devRef .tc main_v29) = cv_v5 (V (Proc.devRef .tc main_v23)) (V (Proc.devRef .tc main_arg1)) (V (Proc.devRef .tc main_arg4)) (V (Proc.devRef .tc main_arg5)) := by
  after_results_simp
  rfl

end Cert.ReferenceIdeal.H

end
-- ==== Proof.RefRunB2.lean ====
/-
  The second layer's batch normalisation, run: the forty-four operations leave at the shifted result the stage's term
  of the clamped convolution and the two per-node arrays they read, and write only their own forty-four buffers.
-/
import proofs.«160428_g88656714924069_cont_sun_m_1396_13_alg».proof.Proof.RefRunOps
import proofs.«160428_g88656714924069_cont_sun_m_1396_13_alg».proof.Proof.RefTerm

noncomputable section

namespace Cert.ReferenceIdeal.H

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The buffers the second layer's batch normalisation write, in order. -/
abbrev W_b2 : List (Ref sig .tc) :=
  [main_cst_2, main_v30, main_v31, main_cst_3, main_v32, main_v33, main_c_4, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.v12.ref, main_call3.cst_3.ref, main_call3.v13.ref, main_call3.cst_4.ref, main_call3.call0.v0.ref, main_call3.call0.v1.ref, main_call3.call0.v2.ref, main_v35, main_v36, main_cst_5, main_v37, main_v38, main_v39, main_v40, main_v41, main_v42, main_v43, main_v44, main_v45, main_v46, main_v47]

/-- A buffer among a list's, as a device buffer among the list's device buffers. -/
private theorem wr {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

set_option maxRecDepth 8192 in
/-- Each operation writes its own result buffer only, and that buffer is in the list. -/
theorem b2_writes : (ops_b2 : List (HloOp τ sig (Elt Ideal))).Forall fun op =>
    op.writes ⊆ (W_b2.map (Proc.devRef (τ := τ) .tc)).toFinset :=
  ⟨wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide)⟩

/-- A buffer these operations do not write keeps its contents through them. -/
theorem b2_keep (V : Valuation τ sig (Elt Ideal)) (r : Ref sig .tc) (h : r ∉ W_b2) :
    after ops_b2 V (Proc.devRef .tc r) = V (Proc.devRef .tc r) :=
  after_of_writes_sub ops_b2 V b2_writes h

set_option maxRecDepth 8192 in
set_option maxHeartbeats 4000000 in
/-- What the second layer's batch normalisation leave at their last result: each operation's result at its own buffer is its function of its
    operands' contents, and at any other buffer what was there; composed, the stage's term of the contents the
    operations start from. -/
theorem b2_v47 (V : Valuation τ sig (Elt Ideal)) :
    after ops_b2 V (Proc.devRef .tc main_v47) = bn_v23 (V (Proc.devRef .tc main_v29)) (V (Proc.devRef .tc main_arg8)) (V (Proc.devRef .tc main_arg9)) := by
  after_results_simp
  rfl

end Cert.ReferenceIdeal.H

end
-- ==== Proof.RefRun.lean ====
/-
  The reference program's run. The program is a straight line of 104 host operations, so every weakly fair execution
  terminates with each buffer at the fold of the operations' results over the launch contents. The line is four
  windows; through each, the buffers it does not write keep their contents and its last result is its stage's term
  of what it reads. Chained, the final result is the reference term of the ten argument arrays, and the arguments,
  which no operation writes, are unchanged.
-/
import proofs.«160428_g88656714924069_cont_sun_m_1396_13_alg».proof.Proof.RefRunMain
import proofs.«160428_g88656714924069_cont_sun_m_1396_13_alg».proof.Proof.RefRunC1
import proofs.«160428_g88656714924069_cont_sun_m_1396_13_alg».proof.Proof.RefRunB1
import proofs.«160428_g88656714924069_cont_sun_m_1396_13_alg».proof.Proof.RefRunC2
import proofs.«160428_g88656714924069_cont_sun_m_1396_13_alg».proof.Proof.RefRunB2

noncomputable section

namespace Cert.ReferenceIdeal.H

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The fold of the whole line at the final result: the reference term of the arguments' contents. -/
theorem after_v47 (V : Valuation τ sig (Elt Ideal)) :
    after ops V (Proc.devRef .tc main_v47) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split, after_append', after_append', after_append']
  rw [b2_v47, c2_v29, c2_keep _ main_arg8 (by decide), c2_keep _ main_arg9 (by decide)]
  rw [b1_v23, b1_keep _ main_arg1 (by decide), b1_keep _ main_arg4 (by decide), b1_keep _ main_arg5 (by decide),
    b1_keep _ main_arg8 (by decide), b1_keep _ main_arg9 (by decide)]
  rw [c1_v5, c1_keep _ main_arg1 (by decide), c1_keep _ main_arg4 (by decide), c1_keep _ main_arg5 (by decide),
    c1_keep _ main_arg6 (by decide), c1_keep _ main_arg7 (by decide), c1_keep _ main_arg8 (by decide),
    c1_keep _ main_arg9 (by decide)]
  rfl

/-- A buffer no window writes keeps its contents through the whole line. -/
theorem after_keep (V : Valuation τ sig (Elt Ideal)) (r : Ref sig .tc) (h1 : r ∉ W_c1) (h2 : r ∉ W_b1) (h3 : r ∉ W_c2)
    (h4 : r ∉ W_b2) : after ops V (Proc.devRef .tc r) = V (Proc.devRef .tc r) := by
  rw [ops_split, after_append', after_append', after_append', b2_keep _ r h4, c2_keep _ r h3, b1_keep _ r h2, c1_keep _ r h1]

set_option maxRecDepth 8192 in
/-- On every device, from any memory with zero counters: every weakly fair execution of the reference program
    terminates with its result at the reference term of the arguments' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v47) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run defs _ _).mono (fun _ h c => ⟨(h c main_v47).trans (after_v47 (launchContents m c)),
      (h c main_arg0).trans (after_keep (launchContents m c) main_arg0 (by decide) (by decide) (by decide) (by decide)),
      (h c main_arg1).trans (after_keep (launchContents m c) main_arg1 (by decide) (by decide) (by decide) (by decide)),
      (h c main_arg2).trans (after_keep (launchContents m c) main_arg2 (by decide) (by decide) (by decide) (by decide)),
      (h c main_arg3).trans (after_keep (launchContents m c) main_arg3 (by decide) (by decide) (by decide) (by decide)),
      (h c main_arg4).trans (after_keep (launchContents m c) main_arg4 (by decide) (by decide) (by decide) (by decide)),
      (h c main_arg5).trans (after_keep (launchContents m c) main_arg5 (by decide) (by decide) (by decide) (by decide)),
      (h c main_arg6).trans (after_keep (launchContents m c) main_arg6 (by decide) (by decide) (by decide) (by decide)),
      (h c main_arg7).trans (after_keep (launchContents m c) main_arg7 (by decide) (by decide) (by decide) (by decide)),
      (h c main_arg8).trans (after_keep (launchContents m c) main_arg8 (by decide) (by decide) (by decide) (by decide)),
      (h c main_arg9).trans (after_keep (launchContents m c) main_arg9 (by decide) (by decide) (by decide) (by decide))⟩)
    (run_seq scopedRefs_eq scopedSems_eq defs main (fun _ => ops) main_eq (fun _ => ops_sub) m ρ)

end Cert.ReferenceIdeal.H

end
-- ==== Proof.LibDotRows.lean ====
/-
  The product of a stack of row blocks by one matrix, read at an index.

  `dot_general` over [G, m, k] and [k, n] with no batch axis and contracting axes 2 and 0 — every row of every block of the
  stack times one matrix — is, at the ideal values and at (g, a, b), the sum over the contracted
  coordinate c of x[g, a, c] · W[c, b]. Stated for any extents.
-/
import Idealize.ShloMosaic.PureOps.Ideal
import Idealize.ShloMosaic.PureOps.Ideal.Laws
import Idealize.ShloMosaic.Lib.ValueIdx

noncomputable section

open scoped BigOperators

namespace Cert.Lib.DotRows

open Idealize.ShloMosaic Idealize.ShloMosaic.ValueIdx

variable {G m n : Nat}

/-- The product of a stack [G, m, k] by a matrix [k, n], contracting the stack's last axis with the matrix's first,
    read at (g, a, b): the sum over c of A[g, a, c] · B[c, b]. `w` is the record's well-formedness, which a program
    states. -/
theorem dotGeneral_rows_apply {k : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

end Cert.Lib.DotRows

end
-- ==== Proof.LibBcastRank3.lean ====
/-
  The host's broadcast_in_dim between a vector and a rank-3 array through a rank-3 array with two unit axes, read at an
  index, at any extents and element type:
  a vector [c] set out along the last axis as [1, 1, c] (dims [2]) and that array spread over [a, b, c] (dims [0, 1, 2]);
  a vector [b] set out along the middle axis as [1, b, 1] (dims [1]) and that array spread over [a, b, c].
  These are the two steps by which a per-channel vector (along the last axis) or a per-row vector (along the middle
  axis) is spread over a rank-3 array before a pointwise operation.
  Each entry of the result is one entry of the operand: the operand's index keeps the coordinates of the axes it has
  and is 0 on an axis of extent 1.
-/
import Idealize.ShloMosaic.Lib.Pipeline.Value
import Idealize.ShloMosaic.Lib.ValueIdx

noncomputable section

namespace Cert.Lib.BcastRank3

open Idealize.ShloMosaic Idealize.ShloMosaic.ValueIdx

variable {α : Type}

/-- A vector [c] set out along the last axis as [1, 1, c]: entry (·, ·, r) is v[r]. -/
theorem bcast_vec_last {c : ℕ} (v : (⟨1, ![c]⟩ : Shape).Idx → α)
    (h : (⟨1, ![c]⟩ : Shape).BroadcastsInDim ⟨3, ![1, 1, c]⟩ ![2]) (u w : Fin 1) (r : Fin c) :
    broadcastInDim ⟨3, ![1, 1, c]⟩ ![2] h v (ix3 u w r) = v (ix1 r) :=
  broadcastInDim_apply ![2] h v (ix3 u w r) (ix1 r) fun ax => by
    match ax with
    | ⟨0, _⟩ =>
      show r.val = if c = 1 then 0 else r.val
      split_ifs with h1
      · have := r.isLt; omega
      · rfl

/-- An array [1, 1, c] spread over [a, b, c]: entry (p, q, r) is the operand's entry (0, 0, r). -/
theorem bcast_last_full {a b c : ℕ} (v : (⟨3, ![1, 1, c]⟩ : Shape).Idx → α)
    (h : (⟨3, ![1, 1, c]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 (0 : Fin 1) (0 : Fin 1) r) :=
  broadcastInDim_apply ![0, 1, 2] h v (ix3 p q r) (ix3 (0 : Fin 1) (0 : Fin 1) r) fun ax => by
    match ax with
    | ⟨0, _⟩ =>
      show (0 : ℕ) = if 1 = 1 then 0 else p.val
      rfl
    | ⟨1, _⟩ =>
      show (0 : ℕ) = if 1 = 1 then 0 else q.val
      rfl
    | ⟨2, _⟩ =>
      show r.val = if c = 1 then 0 else r.val
      split_ifs with h1
      · have := r.isLt; omega
      · rfl

/-- A vector [b] set out along the middle axis as [1, b, 1]: entry (·, q, ·) is v[q]. -/
theorem bcast_vec_mid {b : ℕ} (v : (⟨1, ![b]⟩ : Shape).Idx → α)
    (h : (⟨1, ![b]⟩ : Shape).BroadcastsInDim ⟨3, ![1, b, 1]⟩ ![1]) (u : Fin 1) (q : Fin b) (w : Fin 1) :
    broadcastInDim ⟨3, ![1, b, 1]⟩ ![1] h v (ix3 u q w) = v (ix1 q) :=
  broadcastInDim_apply ![1] h v (ix3 u q w) (ix1 q) fun ax => by
    match ax with
    | ⟨0, _⟩ =>
      show q.val = if b = 1 then 0 else q.val
      split_ifs with h1
      · have := q.isLt; omega
      · rfl

/-- An array [1, b, 1] spread over [a, b, c]: entry (p, q, r) is the operand's entry (0, q, 0). -/
theorem bcast_mid_full {a b c : ℕ} (v : (⟨3, ![1, b, 1]⟩ : Shape).Idx → α)
    (h : (⟨3, ![1, b, 1]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 (0 : Fin 1) q (0 : Fin 1)) :=
  broadcastInDim_apply ![0, 1, 2] h v (ix3 p q r) (ix3 (0 : Fin 1) q (0 : Fin 1)) fun ax => by
    match ax with
    | ⟨0, _⟩ =>
      show (0 : ℕ) = if 1 = 1 then 0 else p.val
      rfl
    | ⟨1, _⟩ =>
      show q.val = if b = 1 then 0 else q.val
      split_ifs with h1
      · have := q.isLt; omega
      · rfl
    | ⟨2, _⟩ =>
      show (0 : ℕ) = if 1 = 1 then 0 else r.val
      rfl

end Cert.Lib.BcastRank3

end
-- ==== Proof.RefReadConv.lean ====
/-
  The reference's convolution layer read at an index.

  The layer is eight operations: x · W contracting the channel, adj · (x · W) per batch contracting the node, the bias
  set out along the last axis and spread over every batch and node, their sum, and the maximum with a zero spread over
  the whole array. Read at (p, n, d) it is
    max (Σ_k adj[p, n, k] · (Σ_c x[p, k, c] · W[c, d]) + b[d]) 0,
  the specification's `conv` of the arrays read at coordinates.
-/
import proofs.«160428_g88656714924069_cont_sun_m_1396_13_alg».proof.Proof.RefTerm
import proofs.«160428_g88656714924069_cont_sun_m_1396_13_alg».proof.Proof.SpecIdx
import proofs.«160428_g88656714924069_cont_sun_m_1396_13_alg».proof.Proof.LibDotRows
import proofs.«160428_g88656714924069_cont_sun_m_1396_13_alg».proof.Proof.LibBcastRank3
import Idealize.ShloMosaic.Lib.StackMember
import Idealize.ShloMosaic.Lib.IdealHost

noncomputable section

namespace Cert.ReferenceIdeal.H

open Idealize.ShloMosaic Idealize.ShloMosaic.ValueIdx Cert.ReferenceIdeal
open Cert.ReferenceIdeal.Facts₀ Cert.ReferenceIdeal.Facts

variable [Cert.ReferenceIdeal.Facts]

/-- x · W at (p, k, d): the sum over the channel c of x[p, k, c] · W[c, d]. -/
theorem cv_v0_apply (x : TAct) (W : TMat) (p : Fin 16) (k : Fin 1024) (d : Fin 256) :
    cv_v0 x W (ix3 p k d) = ∑ c : Fin 256, x (ix3 p k c) * W (ix2 c d) :=
  Cert.Lib.DotRows.dotGeneral_rows_apply _ none x W p k d

/-- adj · (x · W) at (p, n, d): the sum over the node k of adj[p, n, k] · (x · W)[p, k, d]. -/
theorem cv_v1_apply (x : TAct) (adj : TAdj) (W : TMat) (p : Fin 16) (n : Fin 1024) (d : Fin 256) :
    cv_v1 x adj W (ix3 p n d) = ∑ k : Fin 1024, adj (ix3 p n k) * cv_v0 x W (ix3 p k d) :=
  StackMember.dotGeneral_stack_apply _ none adj (cv_v0 x W) p n d

/-- The bias spread over every batch and node reads b[d]. -/
theorem cv_v3_apply (b : TChan) (p : Fin 16) (n : Fin 1024) (d : Fin 256) : cv_v3 b (ix3 p n d) = b (ix1 d) :=
  (Cert.Lib.BcastRank3.bcast_last_full (cv_v2 b) _ p n d).trans (Cert.Lib.BcastRank3.bcast_vec_last b _ 0 0 d)

/-- The zero spread over the whole array reads the word of zero. -/
theorem cv_call_v0_apply (j : S16x1024x256.Idx) : cv_call_v0 j = Cert.Spec.zero32 :=
  broadcastInDim_scalar_apply _ cv_call_cst j

/-- The clamped convolution at (p, n, d) is the specification's. -/
theorem cv_v5_apply (x : TAct) (adj : TAdj) (W : TMat) (b : TChan) (p : Fin 16) (n : Fin 1024) (d : Fin 256) :
    cv_v5 x adj W b (ix3 p n d)
      = Cert.Spec.conv (Cert.Spec.actOf x) (Cert.Spec.adjOf adj) (Cert.Spec.matOf W) (Cert.Spec.chanOf b) p n d := by
  show max (cv_v1 x adj W (ix3 p n d) + cv_v3 b (ix3 p n d)) (cv_call_v0 (ix3 p n d)) = _
  rw [cv_v1_apply, cv_v3_apply, cv_call_v0_apply]
  simp only [cv_v0_apply]
  rfl

/-- The clamped convolution, as an array, is the specification's. -/
theorem cv_v5_eq (x : TAct) (adj : TAdj) (W : TMat) (b : TChan) :
    cv_v5 x adj W b
      = Cert.Spec.arrOf (Cert.Spec.conv (Cert.Spec.actOf x) (Cert.Spec.adjOf adj) (Cert.Spec.matOf W) (Cert.Spec.chanOf b)) :=
  Cert.Spec.arr_ext fun p n d => cv_v5_apply x adj W b p n d

end Cert.ReferenceIdeal.H

end
-- ==== Proof.LibSumOuterTwo.lean ====
/-
  A host sum over the first and last axes of a rank-3 array, read at an index.

  On the extended reals the host's sum over axes 0 and 2 of an `[n0, n1, n2]` array is, at item `b` of the middle
  axis, the initial value plus the double sum over the two reduced coordinates, the first axis outermost: the source
  indices that drop to `b` are exactly those with middle coordinate `b`, and they are in bijection with the pairs of the
  other two coordinates. Stated for any extents.
-/
import Idealize.ShloMosaic.PureOps.Ideal
import Idealize.ShloMosaic.Lib.ValueIdx
import Idealize.ShloMosaic.Lib.IdealHost

noncomputable section

namespace Cert.Lib.SumOuterTwo

open Idealize.ShloMosaic Idealize.ShloMosaic.ValueIdx

/-- The sum a `stablehlo.reduce` takes over the first and last axes of a rank-3 array, read at the item `b` of the
    middle axis: the initial value plus the double sum over the two reduced coordinates. The indices that drop to `b`
    are exactly those whose middle coordinate is `b`, and they correspond to the pairs of the other two coordinates. -/
theorem hostReduceAdd_outer_two {n0 n1 n2 : Nat}
    (h : (⟨3, ![n0, n1, n2]⟩ : Shape).ReducesTo [0, 2] ⟨1, ![n1]⟩)
    (x : (⟨3, ![n0, n1, n2]⟩ : Shape).Idx → EReal) (init : EReal) (b : Fin n1) :
    Ideal.hostReduceAdd h x init (ix1 b) = init + ∑ p : Fin n0, ∑ q : Fin n2, x (ix3 p b q) := by
  unfold Ideal.hostReduceAdd
  have key : ∀ i : (⟨3, ![n0, n1, n2]⟩ : Shape).Idx, h.drop i = ix1 b → i 1 = b := by
    intro i e
    have e0 := congrFun e 0
    exact Fin.ext (congrArg Fin.val e0)
  have back : ∀ (p : Fin n0) (q : Fin n2), h.drop (ix3 p b q) = ix1 b := by
    intro p q
    funext d
    obtain rfl : d = 0 := Subsingleton.elim _ _
    exact Fin.ext rfl
  refine congrArg (init + ·) ?_
  rw [← Fintype.sum_prod_type']
  refine Finset.sum_nbij' (fun i => (i 0, i 2)) (fun pq => ix3 pq.1 b pq.2) ?_ ?_ ?_ ?_ ?_
  · intro i _; exact Finset.mem_univ _
  · intro pq _; exact Finset.mem_filter.mpr ⟨Finset.mem_univ _, back pq.1 pq.2⟩
  · intro i hi
    have hb := key i (Finset.mem_filter.mp hi).2
    subst hb
    exact (eq_ix3 i).symm
  · intro pq _; rfl
  · intro i hi
    have hb := key i (Finset.mem_filter.mp hi).2
    subst hb
    exact congrArg x (eq_ix3 i)

/-- The host's float `reduce` with `add` over the first and last axes, from a scalar initial array, read at `b`. -/
theorem reduceAdd_outer_two {n0 n1 n2 : Nat} {φ : FTy}
    (h : (⟨3, ![n0, n1, n2]⟩ : Shape).ReducesTo [0, 2] ⟨1, ![n1]⟩) (hu : 0 < (⟨0, ![]⟩ : Shape).numel)
    (x : FVec Ideal ⟨3, ![n0, n1, n2]⟩ φ) (init : FVec Ideal ⟨0, ![]⟩ φ) (b : Fin n1) :
    Host.reduceAdd x init h hu (ix1 b) = init ix0 + ∑ p : Fin n0, ∑ q : Fin n2, x (ix3 p b q) := by
  rw [hostReduceAdd_apply, hostReduceAdd_outer_two, eq_ix0 (Shape.Idx.first hu)]

end Cert.Lib.SumOuterTwo

end
-- ==== Proof.RefReadMean.lean ====
/-
  The reference's per-node mean read at an index.

  The mean is six operations: the sum of the activations over batches and channels from a zero initial value, set out
  along the middle axis of a 1 × 1024 × 1 array, and divided by the word of 4096 spread over that array. Read at
  (0, n, 0) it is (Σ_p Σ_d y[p, n, d]) / 4096, the specification's two-pass mean. The variance function computes the
  same six operations again, and reads the same.
-/
import proofs.«160428_g88656714924069_cont_sun_m_1396_13_alg».proof.Proof.RefTerm
import proofs.«160428_g88656714924069_cont_sun_m_1396_13_alg».proof.Proof.SpecIdx
import proofs.«160428_g88656714924069_cont_sun_m_1396_13_alg».proof.Proof.LibSumOuterTwo
import proofs.«160428_g88656714924069_cont_sun_m_1396_13_alg».proof.Proof.LibBcastRank3
import Idealize.ShloMosaic.PureOps.Ideal.Laws
import Idealize.ShloMosaic.Lib.IdealHost

noncomputable section

namespace Cert.ReferenceIdeal.H

open Idealize.ShloMosaic Idealize.ShloMosaic.ValueIdx Cert.ReferenceIdeal
open Cert.ReferenceIdeal.Facts₀ Cert.ReferenceIdeal.Facts

variable [Cert.ReferenceIdeal.Facts]

/-- The sum over batches and channels from the zero word, at node n, is the specification's. -/
theorem bn_v6_apply (y : TAct) (n : Fin 1024) : bn_v6 y (ix1 n) = Cert.Spec.sumPD (Cert.Spec.actOf y) n := by
  refine (Cert.Lib.SumOuterTwo.reduceAdd_outer_two _ _ y bn_cst n).trans ?_
  show Ideal.ofBits .f32 0x00000000#32 + _ = _
  rw [Ideal.ofBits_zero_f32, zero_add]
  rfl

/-- The sum set out along the middle axis reads the sum at its node. -/
theorem bn_v7_apply (y : TAct) (n : Fin 1024) : bn_v7 y (ix3 (0 : Fin 1) n (0 : Fin 1)) = bn_v6 y (ix1 n) :=
  Cert.Lib.BcastRank3.bcast_vec_mid (bn_v6 y) _ 0 n 0

/-- The count spread over the 1 × 1024 × 1 array reads the word of 4096. -/
theorem bn_v8_apply (j : S1x1024x1.Idx) : bn_v8 j = Cert.Spec.n4096 :=
  broadcastInDim_scalar_apply _ bn_cst_0 j

/-- The mean at node n is the specification's two-pass mean. -/
theorem bn_v9_apply (y : TAct) (n : Fin 1024) :
    bn_v9 y (ix3 (0 : Fin 1) n (0 : Fin 1)) = Cert.Spec.meanR (Cert.Spec.actOf y) n := by
  show Ideal.div (bn_v7 y (ix3 (0 : Fin 1) n (0 : Fin 1))) (bn_v8 (ix3 (0 : Fin 1) n (0 : Fin 1))) = _
  rw [bn_v7_apply, bn_v8_apply, bn_v6_apply]
  rfl

/-- The variance function's own mean is the same six operations. -/
theorem var_v3_eq (y : TAct) : var_v3 y = bn_v9 y := rfl

/-- The mean spread back over the whole array reads the mean of its node. -/
theorem bn_v11_apply (y : TAct) (p : Fin 16) (n : Fin 1024) (d : Fin 256) :
    bn_v11 y (ix3 p n d) = Cert.Spec.meanR (Cert.Spec.actOf y) n :=
  (Cert.Lib.BcastRank3.bcast_mid_full (bn_v9 y) _ p n d).trans (bn_v9_apply y n)

/-- The variance function's mean spread back over the whole array likewise. -/
theorem var_v4_apply (y : TAct) (p : Fin 16) (n : Fin 1024) (d : Fin 256) :
    var_v4 y (ix3 p n d) = Cert.Spec.meanR (Cert.Spec.actOf y) n :=
  (Cert.Lib.BcastRank3.bcast_mid_full (var_v3 y) _ p n d).trans
    ((congrFun (var_v3_eq y) _).trans (bn_v9_apply y n))

end Cert.ReferenceIdeal.H

end
-- ==== Proof.LibScalarGuard.lean ====
/-
  A selection guarded by one scalar comparison, read at an index, at the extended reals.

  A mean over a count that a correction may bring to zero is guarded: the quotient is kept where the corrected count is
  above zero and replaced by a fill value otherwise. The guard is one comparison of two scalars, spread over the shape
  of the quotient. Read at any index, the selection is its first operand when the comparison holds and its second
  when it does not. With it, the integer zero converted to a float is the extended real zero.
-/
import Idealize.ShloMosaic.PureOps.Ideal
import Idealize.ShloMosaic.PureOps.Ideal.Laws
import Idealize.ShloMosaic.Lib.ValueIdx
import Idealize.ShloMosaic.Lib.IdealHost

noncomputable section

namespace Cert.Lib.ScalarGuard

open Idealize.ShloMosaic Idealize.ShloMosaic.ValueIdx

variable {T : Shape} {φ : FTy}

/-- A selection on a scalar condition spread over a shape selects, at every index, on the scalar's one word. -/
theorem select_scalar_apply {α : Type} (h : (⟨0, ![]⟩ : Shape).BroadcastsInDim T ![]) (c : IVec ⟨0, ![]⟩ 1)
    (a b : T.Idx → α) (j : T.Idx) :
    select (broadcastInDim T ![] h c) a b j = Scalar.select (c ix0) (a j) (b j) := by
  rw [select_apply, broadcastInDim_scalar_apply]

/-- Guarded by "x is above z" for two scalars with z below x, the selection is its first operand. -/
theorem select_ogt_of_lt (h : (⟨0, ![]⟩ : Shape).BroadcastsInDim T ![]) (x z : FVec Ideal ⟨0, ![]⟩ φ)
    (a b : FVec Ideal T φ) (j : T.Idx) (hlt : z ix0 < x ix0) :
    select (broadcastInDim T ![] h (cmpf .ogt x z)) a b j = a j := by
  rw [select_scalar_apply, cmpf_apply, Ideal.cmpf_def]
  have h1 : Ideal.cmp .ogt (x ix0) (z ix0) = 1#1 := by
    unfold Ideal.cmp
    simp only [hlt, decide_true]
    rfl
  rw [h1, select_one]

/-- Guarded by "x is above z" for two scalars with z not below x, the selection is its second operand. -/
theorem select_ogt_of_not_lt (h : (⟨0, ![]⟩ : Shape).BroadcastsInDim T ![]) (x z : FVec Ideal ⟨0, ![]⟩ φ)
    (a b : FVec Ideal T φ) (j : T.Idx) (hlt : ¬ z ix0 < x ix0) :
    select (broadcastInDim T ![] h (cmpf .ogt x z)) a b j = b j := by
  rw [select_scalar_apply, cmpf_apply, Ideal.cmpf_def]
  have h0 : Ideal.cmp .ogt (x ix0) (z ix0) = 0#1 := by
    unfold Ideal.cmp
    simp only [hlt, decide_false]
    rfl
  rw [h0, select_zero]

/-- The integer zero word, converted signed to a float, is the extended real zero. -/
theorem sitofp_zero_apply {s : Shape} (i : s.Idx) :
    (sitofp φ (constantI s 32 0#32) : FVec Ideal s φ) i = 0 := by
  show ((((0#32 : BitVec 32).toInt : ℤ) : ℝ) : EReal) = 0
  simp

end Cert.Lib.ScalarGuard

end
-- ==== Proof.RefReadVar.lean ====
/-
  The reference's per-node variance read at an index.

  The variance is the mean of the squared deviations from the mean: the deviation y − mean and its square over the
  whole array, their sum over batches and channels from a zero initial value, set out along the middle axis, and
  divided by the corrected count 4096 − 0 (the integer zero converted to a float) spread over the 1 × 1024 × 1 array;
  the quotient is kept where the corrected count is above zero and replaced by a fill word otherwise. The corrected
  count is 4096, above zero, so the selection keeps the quotient: read at (0, n, 0) the variance is
  (Σ_p Σ_d (y[p, n, d] − mean[n])²) / (4096 − 0), the specification's two-pass variance.
-/
import proofs.«160428_g88656714924069_cont_sun_m_1396_13_alg».proof.Proof.RefReadMean
import proofs.«160428_g88656714924069_cont_sun_m_1396_13_alg».proof.Proof.LibScalarGuard

noncomputable section

namespace Cert.ReferenceIdeal.H

open Idealize.ShloMosaic Idealize.ShloMosaic.ValueIdx Cert.ReferenceIdeal
open Cert.ReferenceIdeal.Facts₀ Cert.ReferenceIdeal.Facts

variable [Cert.ReferenceIdeal.Facts]

/-- The word of 4096.0 denotes the real 4096. -/
theorem ofBits_4096_f32 : Ideal.ofBits .f32 0x45800000#32 = ((4096 : ℝ) : EReal) := by
  simp [Ideal.ofBits, Ideal.ieee, -EReal.coe_mul]; norm_num

/-- The squared deviation at (p, n, d). -/
theorem var_v6_apply (y : TAct) (p : Fin 16) (n : Fin 1024) (d : Fin 256) :
    var_v6 y (ix3 p n d)
      = (y (ix3 p n d) - Cert.Spec.meanR (Cert.Spec.actOf y) n) * (y (ix3 p n d) - Cert.Spec.meanR (Cert.Spec.actOf y) n) := by
  show (y (ix3 p n d) - var_v4 y (ix3 p n d)) * (y (ix3 p n d) - var_v4 y (ix3 p n d)) = _
  rw [var_v4_apply]

/-- The sum of squared deviations over batches and channels, at node n. -/
theorem var_v9_apply (y : TAct) (n : Fin 1024) :
    var_v9 y (ix1 n)
      = ∑ p : Fin 16, ∑ d : Fin 256,
          (y (ix3 p n d) - Cert.Spec.meanR (Cert.Spec.actOf y) n) * (y (ix3 p n d) - Cert.Spec.meanR (Cert.Spec.actOf y) n) := by
  refine (Cert.Lib.SumOuterTwo.reduceAdd_outer_two _ _ (var_v6 y) var_cst_2 n).trans ?_
  show Ideal.ofBits .f32 0x00000000#32 + _ = _
  rw [Ideal.ofBits_zero_f32, zero_add]
  simp only [var_v6_apply]

/-- That sum set out along the middle axis reads the sum at its node. -/
theorem var_v10_apply (y : TAct) (n : Fin 1024) : var_v10 y (ix3 (0 : Fin 1) n (0 : Fin 1)) = var_v9 y (ix1 n) :=
  Cert.Lib.BcastRank3.bcast_vec_mid (var_v9 y) _ 0 n 0

/-- The corrected count is the word of 4096 less the word of zero. -/
theorem var_v8_apply : var_v8 ix0 = Cert.Spec.n4096 - Cert.Spec.zero32 := by
  show Cert.Spec.n4096 - var_v7 ix0 = Cert.Spec.n4096 - Cert.Spec.zero32
  rw [show var_v7 ix0 = Cert.Spec.zero32 from
    (Cert.Lib.ScalarGuard.sitofp_zero_apply ix0).trans Ideal.ofBits_zero_f32.symm]

/-- The corrected count spread over the 1 × 1024 × 1 array. -/
theorem var_v11_apply (j : S1x1024x1.Idx) : var_v11 j = Cert.Spec.n4096 - Cert.Spec.zero32 :=
  (broadcastInDim_scalar_apply _ var_v8 j).trans var_v8_apply

/-- The corrected count is above zero. -/
theorem var_v8_pos : var_cst_3 ix0 < var_v8 ix0 := by
  rw [var_v8_apply]
  show Ideal.ofBits .f32 0x00000000#32 < Ideal.ofBits .f32 0x45800000#32 - Ideal.ofBits .f32 0x00000000#32
  rw [Ideal.ofBits_zero_f32, sub_zero, ofBits_4096_f32]
  exact EReal.coe_pos.mpr (by norm_num)

/-- The mean of squared deviations at node n is the specification's two-pass variance. -/
theorem var_v12_apply (y : TAct) (n : Fin 1024) :
    var_v12 y (ix3 (0 : Fin 1) n (0 : Fin 1)) = Cert.Spec.varR (Cert.Spec.actOf y) n := by
  show Ideal.div (var_v10 y (ix3 (0 : Fin 1) n (0 : Fin 1))) (var_v11 (ix3 (0 : Fin 1) n (0 : Fin 1))) = _
  rw [var_v10_apply, var_v9_apply, var_v11_apply]
  rfl

/-- The guarded variance at node n: the guard holds, so it is the mean of squared deviations. -/
theorem bn_v10_apply (y : TAct) (n : Fin 1024) :
    bn_v10 y (ix3 (0 : Fin 1) n (0 : Fin 1)) = Cert.Spec.varR (Cert.Spec.actOf y) n :=
  (Cert.Lib.ScalarGuard.select_ogt_of_lt _ var_v8 var_cst_3 (var_v12 y) where_v1 _ var_v8_pos).trans
    (var_v12_apply y n)

end Cert.ReferenceIdeal.H

end
-- ==== Proof.RefReadNorm.lean ====
/-
  The reference's normalisation, scale and shift read at an index.

  Thirteen operations: the mean spread back over the whole array and subtracted, the word of ε spread over the
  1 × 1024 × 1 array and added to the variance, the reciprocal square root of that, spread back over the whole array and
  multiplied in, then γ and β, each set out along the middle axis and spread over the whole array, multiplied in and
  added. Read at (p, n, d) the result is
    (y[p, n, d] − mean[n]) · rsqrt (var[n] + ε) · γ[n] + β[n],
  the specification's two-pass batch normalisation of the arrays read at coordinates.
-/
import proofs.«160428_g88656714924069_cont_sun_m_1396_13_alg».proof.Proof.RefReadVar

noncomputable section

namespace Cert.ReferenceIdeal.H

open Idealize.ShloMosaic Idealize.ShloMosaic.ValueIdx Cert.ReferenceIdeal
open Cert.ReferenceIdeal.Facts₀ Cert.ReferenceIdeal.Facts

variable [Cert.ReferenceIdeal.Facts]

/-- The word of ε spread over the 1 × 1024 × 1 array. -/
theorem bn_v13_apply (j : S1x1024x1.Idx) : bn_v13 j = Cert.Spec.eps :=
  broadcastInDim_scalar_apply _ bn_cst_1 j

/-- The reciprocal square root of the variance plus ε, at node n. -/
theorem bn_v15_apply (y : TAct) (n : Fin 1024) :
    bn_v15 y (ix3 (0 : Fin 1) n (0 : Fin 1)) = Ideal.rsqrt (Cert.Spec.varR (Cert.Spec.actOf y) n + Cert.Spec.eps) := by
  show Ideal.rsqrt (bn_v10 y (ix3 (0 : Fin 1) n (0 : Fin 1)) + bn_v13 (ix3 (0 : Fin 1) n (0 : Fin 1))) = _
  rw [bn_v10_apply, bn_v13_apply]

/-- The same spread back over the whole array. -/
theorem bn_v16_apply (y : TAct) (p : Fin 16) (n : Fin 1024) (d : Fin 256) :
    bn_v16 y (ix3 p n d) = Ideal.rsqrt (Cert.Spec.varR (Cert.Spec.actOf y) n + Cert.Spec.eps) :=
  (Cert.Lib.BcastRank3.bcast_mid_full (bn_v15 y) _ p n d).trans (bn_v15_apply y n)

/-- γ spread over the whole array reads γ[n]. -/
theorem bn_v19_apply (γ : TNode) (p : Fin 16) (n : Fin 1024) (d : Fin 256) : bn_v19 γ (ix3 p n d) = γ (ix1 n) :=
  (Cert.Lib.BcastRank3.bcast_mid_full (bn_v18 γ) _ p n d).trans (Cert.Lib.BcastRank3.bcast_vec_mid γ _ 0 n 0)

/-- β spread over the whole array reads β[n]. -/
theorem bn_v22_apply (β : TNode) (p : Fin 16) (n : Fin 1024) (d : Fin 256) : bn_v22 β (ix3 p n d) = β (ix1 n) :=
  (Cert.Lib.BcastRank3.bcast_mid_full (bn_v21 β) _ p n d).trans (Cert.Lib.BcastRank3.bcast_vec_mid β _ 0 n 0)

/-- The normalised, scaled and shifted activation at (p, n, d) is the specification's. -/
theorem bn_v23_apply (y : TAct) (γ β : TNode) (p : Fin 16) (n : Fin 1024) (d : Fin 256) :
    bn_v23 y γ β (ix3 p n d)
      = Cert.Spec.bnR (Cert.Spec.actOf y) (Cert.Spec.nodeOf γ) (Cert.Spec.nodeOf β) p n d := by
  show (y (ix3 p n d) - bn_v11 y (ix3 p n d)) * bn_v16 y (ix3 p n d) * bn_v19 γ (ix3 p n d) + bn_v22 β (ix3 p n d) = _
  rw [bn_v11_apply, bn_v16_apply, bn_v19_apply, bn_v22_apply]
  rfl

/-- The batch normalisation, as an array, is the specification's. -/
theorem bn_v23_eq (y : TAct) (γ β : TNode) :
    bn_v23 y γ β = Cert.Spec.arrOf (Cert.Spec.bnR (Cert.Spec.actOf y) (Cert.Spec.nodeOf γ) (Cert.Spec.nodeOf β)) :=
  Cert.Spec.arr_ext fun p n d => bn_v23_apply y γ β p n d

end Cert.ReferenceIdeal.H

end
-- ==== Proof.RefRead.lean ====
/-
  The reference's result is the specification's two-pass network of its arguments read at coordinates.

  The program is two layers, each a clamped convolution followed by a batch normalisation; each of the two, as an
  array, is the specification's function of the arrays read at coordinates, and reading an array built from a function
  of coordinates gives the function back. So the composition is the specification's composition.
-/
import proofs.«160428_g88656714924069_cont_sun_m_1396_13_alg».proof.Proof.RefReadConv
import proofs.«160428_g88656714924069_cont_sun_m_1396_13_alg».proof.Proof.RefReadNorm

noncomputable section

namespace Cert.ReferenceIdeal.H

open Idealize.ShloMosaic Idealize.ShloMosaic.ValueIdx Cert.ReferenceIdeal
open Cert.ReferenceIdeal.Facts₀ Cert.ReferenceIdeal.Facts

variable [Cert.ReferenceIdeal.Facts]

/-- An array built from a function of coordinates, read at coordinates, is the function. -/
theorem actOf_arrOf (a : Cert.Spec.Act) : Cert.Spec.actOf (Cert.Spec.arrOf a) = a := rfl

/-- The reference's result, of its ten arguments, is the two-pass network of the arguments read at coordinates. -/
theorem refOut_eq (a0 : FVec Ideal S16x1024x256 .f32) (a1 : FVec Ideal S16x1024x1024 .f32) (a2 : FVec Ideal S256x256 .f32)
    (a3 : FVec Ideal S256 .f32) (a4 : FVec Ideal S256x256 .f32) (a5 : FVec Ideal S256 .f32)
    (a6 a7 a8 a9 : FVec Ideal S1024 .f32) :
    refOut a0 a1 a2 a3 a4 a5 a6 a7 a8 a9
      = Cert.Spec.arrOf (Cert.Spec.netR (Cert.Spec.actOf a0) (Cert.Spec.adjOf a1) (Cert.Spec.matOf a2) (Cert.Spec.chanOf a3)
          (Cert.Spec.matOf a4) (Cert.Spec.chanOf a5) (Cert.Spec.nodeOf a6) (Cert.Spec.nodeOf a7) (Cert.Spec.nodeOf a8)
          (Cert.Spec.nodeOf a9)) := by
  unfold refOut val_v47 val_v29 val_v23 val_v5
  rw [cv_v5_eq a0 a1 a2 a3, bn_v23_eq _ a6 a7, actOf_arrOf, cv_v5_eq _ a1 a4 a5, actOf_arrOf, bn_v23_eq _ a8 a9, actOf_arrOf]
  rfl

end Cert.ReferenceIdeal.H

end
-- ==== Proof.LibBatchNormFold.lean ====
/-
  Batch normalisation folded into one multiply-add, on the extended reals.

  A layer  h ↦ ((h − μ) · r) · γ + β  with the batch statistics
      μ = (∑ h) / n,   v = (∑ (h − μ)²) / n,   r = (v + ε)^(−1/2)
  is often computed from the two running sums  s = ∑ h  and  q = ∑ h²  instead:
      μ = s / n,   v' = q / n − μ · μ,   r' = (v' + ε)^(−1/2),   a = γ · r',   b = β − μ · a,   h · a + b.
  For FINITE h, γ, β, a batch of n ≠ 0 elements and ε > 0 the two are one extended real. The lemmas below say so
  over the operations floats mean at the exact instance: the quotient `Ideal.div`, the inverse root
  `Ideal.rsqrt`, and the extended reals' own + − ·. Finiteness is what makes it true: with an infinite h the product
  (h − μ) · r · γ does not distribute over the difference. Also here: a quotient by √1024 is the product with 1/32
  at every extended real, and the three float words such a layer spells (1024, 32768, 1/32) as the reals they denote.
-/
import Idealize.ShloMosaic.PureOps.Ideal
import Mathlib.Tactic.Ring
import Mathlib.Tactic.FieldSimp
import Mathlib.Tactic.NormNum
import Mathlib.Tactic.Positivity

noncomputable section

namespace LibBatchNormFold

open Idealize.ShloMosaic
open scoped BigOperators

variable {ι : Type*}

/-! ## Finite sums and quotients of reals, read in the extended reals -/

/-- A finite sum of reals, read in the extended reals, is the sum of the readings. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exact quotient of two reals, the divisor not zero, is the real quotient. -/
theorem div_coe_coe (x y : ℝ) (hy : y ≠ 0) : Ideal.div (x : EReal) (y : EReal) = ((x / y : ℝ) : EReal) := by
  rw [Ideal.div_coe hy, ← EReal.coe_mul, mul_one_div]

/-! ## The variance from the two running sums -/

/-- Over the reals: the mean of the squared deviations from the mean is the mean of the squares less the squared
    mean (n is the number of elements, as a real). -/
theorem var_real [Fintype ι] (h : ι → ℝ) (n : ℝ) (hn : n ≠ 0) (hcard : (Fintype.card ι : ℝ) = n) :
    (∑ b, (h b - (∑ b, h b) / n) * (h b - (∑ b, h b) / n)) / n
      = (∑ b, h b * h b) / n - ((∑ b, h b) / n) * ((∑ b, h b) / n) := by
  have e : ∀ b, (h b - (∑ b, h b) / n) * (h b - (∑ b, h b) / n)
      = h b * h b - 2 * ((∑ b, h b) / n) * h b + ((∑ b, h b) / n) * ((∑ b, h b) / n) := fun b => by ring
  simp only [e, Finset.sum_add_distrib, Finset.sum_sub_distrib, ← Finset.mul_sum, Finset.sum_const,
    Finset.card_univ, nsmul_eq_mul, hcard]
  field_simp
  ring

/-- The mean of the squared deviations is not negative. -/
theorem var_real_nonneg [Fintype ι] (h : ι → ℝ) (n : ℝ) (hn : 0 < n) :
    0 ≤ (∑ b, (h b - (∑ b, h b) / n) * (h b - (∑ b, h b) / n)) / n :=
  div_nonneg (Finset.sum_nonneg fun b _ => mul_self_nonneg _) hn.le

/-- The same law on the extended reals, over the exact quotient: both variances of finite numbers are one value. -/
theorem var_fold [Fintype ι] (h : ι → ℝ) (n : ℝ) (hn : n ≠ 0) (hcard : (Fintype.card ι : ℝ) = n) :
    Ideal.div (∑ b, ((h b : EReal) - Ideal.div (∑ b, (h b : EReal)) (n : EReal))
        * ((h b : EReal) - Ideal.div (∑ b, (h b : EReal)) (n : EReal))) (n : EReal)
      = Ideal.div (∑ b, (h b : EReal) * (h b : EReal)) (n : EReal)
          - Ideal.div (∑ b, (h b : EReal)) (n : EReal) * Ideal.div (∑ b, (h b : EReal)) (n : EReal) := by
  rw [← coe_sum, div_coe_coe _ _ hn]
  simp only [← EReal.coe_sub, ← EReal.coe_mul, ← coe_sum]
  rw [div_coe_coe _ _ hn, div_coe_coe _ _ hn, ← EReal.coe_sub]
  exact congrArg _ (var_real h n hn hcard)

/-! ## The inverse root of a positive real -/

/-- The inverse root of a nonnegative real plus a positive one is a real: the reciprocal of the real root. -/
theorem rsqrt_add_pos (v ε : ℝ) (hv : 0 ≤ v) (hε : 0 < ε) :
    Ideal.rsqrt ((v : EReal) + (ε : EReal)) = (((Real.sqrt (v + ε))⁻¹ : ℝ) : EReal) := by
  have hpos : 0 < v + ε := by positivity
  rw [← EReal.coe_add, Ideal.rsqrt_coe, if_neg (not_lt.mpr hpos.le), if_neg hpos.ne']

/-! ## The fold -/

/-- Over finite numbers, normalise-scale-shift is one multiply-add with a folded scale and shift. -/
theorem affine_fold (h μ r g β : ℝ) :
    (((h : EReal) - (μ : EReal)) * (r : EReal)) * (g : EReal) + (β : EReal)
      = (h : EReal) * ((g : EReal) * (r : EReal)) + ((β : EReal) - (μ : EReal) * ((g : EReal) * (r : EReal))) := by
  simp only [← EReal.coe_sub, ← EReal.coe_mul, ← EReal.coe_add]
  exact congrArg _ (by ring)

/-- THE LAW. For a batch `h` of n finite numbers, finite γ and β, and ε > 0: the layer written with the two-pass
    variance, `((h − μ) · rsqrt (v + ε)) · γ + β`, is the layer written from the running sums,
    `h · (γ · rsqrt (q/n − μ·μ + ε)) + (β − μ · (γ · rsqrt (q/n − μ·μ + ε)))`, at every element. -/
theorem bn_fold [Fintype ι] (h : ι → ℝ) (n ε g β : ℝ) (hn : 0 < n) (hcard : (Fintype.card ι : ℝ) = n) (hε : 0 < ε)
    (b₀ : ι) :
    ((((h b₀ : ℝ) : EReal) - Ideal.div (∑ b, (h b : EReal)) (n : EReal))
        * Ideal.rsqrt (Ideal.div (∑ b, ((h b : EReal) - Ideal.div (∑ b, (h b : EReal)) (n : EReal))
            * ((h b : EReal) - Ideal.div (∑ b, (h b : EReal)) (n : EReal))) (n : EReal) + (ε : EReal)))
        * (g : EReal) + (β : EReal)
      = ((h b₀ : ℝ) : EReal) * ((g : EReal)
            * Ideal.rsqrt (Ideal.div (∑ b, (h b : EReal) * (h b : EReal)) (n : EReal)
                - Ideal.div (∑ b, (h b : EReal)) (n : EReal) * Ideal.div (∑ b, (h b : EReal)) (n : EReal) + (ε : EReal)))
          + ((β : EReal) - Ideal.div (∑ b, (h b : EReal)) (n : EReal) * ((g : EReal)
            * Ideal.rsqrt (Ideal.div (∑ b, (h b : EReal) * (h b : EReal)) (n : EReal)
                - Ideal.div (∑ b, (h b : EReal)) (n : EReal) * Ideal.div (∑ b, (h b : EReal)) (n : EReal) + (ε : EReal)))) := by
  rw [← var_fold h n hn.ne' hcard]
  have hμ : Ideal.div (∑ b, (h b : EReal)) (n : EReal) = (((∑ b, h b) / n : ℝ) : EReal) := by
    rw [← coe_sum, div_coe_coe _ _ hn.ne']
  have hv : Ideal.div (∑ b, ((h b : EReal) - Ideal.div (∑ b, (h b : EReal)) (n : EReal))
        * ((h b : EReal) - Ideal.div (∑ b, (h b : EReal)) (n : EReal))) (n : EReal)
      = (((∑ b, (h b - (∑ b, h b) / n) * (h b - (∑ b, h b) / n)) / n : ℝ) : EReal) := by
    rw [hμ]
    simp only [← EReal.coe_sub, ← EReal.coe_mul, ← coe_sum]
    rw [div_coe_coe _ _ hn.ne']
  rw [hv, rsqrt_add_pos _ _ (var_real_nonneg h n hn) hε, hμ]
  exact affine_fold _ _ _ _ _

/-! ## The attention scale and the words of the layer -/

/-- A quotient by the root of 1024 is the product with 1/32, at the infinities too. -/
theorem div_sqrt_1024 (x : EReal) : Ideal.div x (Ideal.sqrt ((1024 : ℝ) : EReal)) = x * ((1 / 32 : ℝ) : EReal) := by
  have h32 : Real.sqrt 1024 = 32 := by
    rw [show (1024 : ℝ) = 32 ^ 2 by norm_num]; exact Real.sqrt_sq (by norm_num)
  rw [Ideal.sqrt_coe, if_neg (by norm_num), h32, Ideal.div_coe (by norm_num)]

/-- The word of `1024.0` denotes the real 1024. -/
theorem ofBits_1024 : Ideal.ofBits .f32 0x44800000#32 = ((1024 : ℝ) : EReal) := by
  simp [Ideal.ofBits, Ideal.ieee, -EReal.coe_mul]; norm_num

/-- The word of `32768.0` denotes the real 32768. -/
theorem ofBits_32768 : Ideal.ofBits .f32 0x47000000#32 = ((32768 : ℝ) : EReal) := by
  simp [Ideal.ofBits, Ideal.ieee, -EReal.coe_mul]; norm_num

/-- The word of `0.03125` denotes the real 1/32. -/
theorem ofBits_inv32 : Ideal.ofBits .f32 0x3D000000#32 = ((1 / 32 : ℝ) : EReal) := by
  simp [Ideal.ofBits, Ideal.ieee, -EReal.coe_mul]; norm_num

end LibBatchNormFold

end
-- ==== Proof.LibLinComb.lean ====
/-
  Linear combinations on the extended reals.

  The extended reals [-∞, +∞] are not a ring: a product does not distribute over a sum when an infinity meets
  its opposite. On the finite values — the image of the reals — every ring law holds, because sums, products
  and negations of finite values are computed in the reals. This file names the finite values (`IsReal`),
  shows which operations keep a value finite, and states the three identities a matrix-times-vector argument
  needs: a plane-rotation step commutes with a linear combination, a scaling commutes with a linear
  combination, and a 0/1 indicator row picks one entry.
-/
import Idealize.ShloMosaic.PureOps.Ideal

namespace LinComb

open scoped BigOperators

/-- An extended real is finite: it is the image of a real number. -/
def IsReal (v : EReal) : Prop := ∃ r : ℝ, v = (r : EReal)

/-- The image of a real number is finite. -/
theorem isReal_coe (r : ℝ) : IsReal (r : EReal) := ⟨r, rfl⟩

/-- Zero is finite. -/
theorem isReal_zero : IsReal (0 : EReal) := ⟨0, rfl⟩

/-- One is finite. -/
theorem isReal_one : IsReal (1 : EReal) := ⟨1, rfl⟩

/-- The sum of two finite values is finite: it is the image of the real sum. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two finite values is finite: it is the image of the real product. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The negation of a finite value is finite: it is the image of the real negation. -/
theorem IsReal.neg {a : EReal} (ha : IsReal a) : IsReal (-a) := by
  obtain ⟨r, rfl⟩ := ha
  exact ⟨-r, (EReal.coe_neg r).symm⟩

/-- A finite sum of finite values is finite. -/
theorem isReal_sum {n : ℕ} (f : Fin n → EReal) (h : ∀ j, IsReal (f j)) : IsReal (∑ j, f j) :=
  Finset.sum_induction f IsReal (fun _ _ ha hb => ha.add hb) isReal_zero (fun j _ => h j)

/-- The cosine of a finite value is finite: it is the image of the real cosine. -/
theorem isReal_cos {a : EReal} (ha : IsReal a) : IsReal (Idealize.ShloMosaic.Ideal.cos a) := by
  obtain ⟨r, rfl⟩ := ha
  exact ⟨Real.cos r, rfl⟩

/-- The sine of a finite value is finite: it is the image of the real sine. -/
theorem isReal_sin {a : EReal} (ha : IsReal a) : IsReal (Idealize.ShloMosaic.Ideal.sin a) := by
  obtain ⟨r, rfl⟩ := ha
  exact ⟨Real.sin r, rfl⟩

/-- The hyperbolic tangent is finite everywhere: its values at -∞ and +∞ are its limits -1 and 1. -/
theorem isReal_tanh (a : EReal) : IsReal (Idealize.ShloMosaic.Ideal.tanh a) := by
  induction a using EReal.rec with
  | bot => exact ⟨-1, rfl⟩
  | coe r => exact ⟨Real.tanh r, rfl⟩
  | top => exact ⟨1, rfl⟩

/-- Clipping any extended real to a real interval gives a finite value: -∞ goes to min hi lo, +∞ to hi,
    and a real r to min hi (max lo r). -/
theorem isReal_clip (lo hi : ℝ) (a : EReal) : IsReal (min (hi : EReal) (max (lo : EReal) a)) := by
  induction a using EReal.rec with
  | bot =>
    refine ⟨min hi lo, ?_⟩
    rw [max_eq_left bot_le]
    exact (EReal.coe_strictMono.monotone.map_min).symm
  | coe r =>
    refine ⟨min hi (max lo r), ?_⟩
    have h1 : ((max lo r : ℝ) : EReal) = max (lo : EReal) (r : EReal) :=
      EReal.coe_strictMono.monotone.map_max
    have h2 : ((min hi (max lo r) : ℝ) : EReal) = min (hi : EReal) ((max lo r : ℝ) : EReal) :=
      EReal.coe_strictMono.monotone.map_min
    rw [h2, h1]
  | top =>
    refine ⟨hi, ?_⟩
    rw [max_eq_right le_top, min_eq_left le_top]

/-- A value whose absolute value max a (-a) is below +∞ is finite: the absolute value of either infinity
    is +∞. -/
theorem isReal_of_abs_lt_top {a : EReal} (h : max a (-a) < ⊤) : IsReal a := by
  induction a using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- The image of a finite real sum is the sum of the images. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of finite values is the image of a family of reals. -/
private theorem exists_real_fun {n : ℕ} (z : Fin n → EReal) (hz : ∀ j, IsReal (z j)) :
    ∃ z' : Fin n → ℝ, z = fun j => (z' j : EReal) := by
  choose z' hz' using hz
  exact ⟨z', funext hz'⟩

/-- A rotation step commutes with a linear combination: for finite coefficients P, Q, finite rows zl, zr and a
    finite vector x,  P · (Σ zl j · x j) + Q · (Σ zr j · x j) = Σ (P · zl j + Q · zr j) · x j.
    Both sides are images of the same real number, by distributivity in the reals. -/
theorem step {n : ℕ} (P Q : EReal) (zl zr x : Fin n → EReal) (hP : IsReal P) (hQ : IsReal Q)
    (hzl : ∀ j, IsReal (zl j)) (hzr : ∀ j, IsReal (zr j)) (hx : ∀ j, IsReal (x j)) :
    P * (∑ j, zl j * x j) + Q * (∑ j, zr j * x j) = ∑ j, (P * zl j + Q * zr j) * x j := by
  obtain ⟨p, rfl⟩ := hP
  obtain ⟨q, rfl⟩ := hQ
  obtain ⟨zl', rfl⟩ := exists_real_fun zl hzl
  obtain ⟨zr', rfl⟩ := exists_real_fun zr hzr
  obtain ⟨x', rfl⟩ := exists_real_fun x hx
  simp only [← EReal.coe_mul, ← EReal.coe_add, ← coe_sum]
  congr 1
  rw [Finset.mul_sum, Finset.mul_sum, ← Finset.sum_add_distrib]
  exact Finset.sum_congr rfl (fun j _ => by ring)

/-- A scaling commutes with a linear combination: for a finite factor d, a finite row z and a finite vector x,
    (Σ z j · x j) · d = Σ (d · z j) · x j. -/
theorem scale {n : ℕ} (d : EReal) (z x : Fin n → EReal) (hd : IsReal d) (hz : ∀ j, IsReal (z j))
    (hx : ∀ j, IsReal (x j)) :
    (∑ j, z j * x j) * d = ∑ j, (d * z j) * x j := by
  obtain ⟨d', rfl⟩ := hd
  obtain ⟨z', rfl⟩ := exists_real_fun z hz
  obtain ⟨x', rfl⟩ := exists_real_fun x hx
  simp only [← EReal.coe_mul, ← coe_sum]
  congr 1
  rw [Finset.sum_mul]
  exact Finset.sum_congr rfl (fun j _ => by ring)

/-- A 0/1 indicator row picks one entry: if e j is 1 at j = i and 0 elsewhere, then Σ e j · x j = x i. This holds
    for EVERY vector x of extended reals, infinite entries included, because 0 · v = 0 for every extended real v
    (also for the infinities) and 1 · v = v. -/
theorem unit_sum {n : ℕ} (i : Fin n) (e x : Fin n → EReal) (he : ∀ j, e j = if i = j then 1 else 0) :
    ∑ j, e j * x j = x i := by
  have h : ∀ j, e j * x j = if i = j then x j else 0 := by
    intro j
    rw [he j]
    split_ifs
    · exact one_mul _
    · exact zero_mul _
  rw [Finset.sum_congr rfl (fun j _ => h j), Finset.sum_ite_eq]
  simp

end LinComb
-- ==== Proof.SpecAlgebra.lean ====
/-
  The two spellings of the network agree on real inputs.

  A graph-convolution layer of real inputs is real-valued (finite sums and products of reals, clamped at zero), and on a
  real-valued layer the two spellings of the per-node batch normalisation are one function: the running-sums form
  y · (γ · rsqrt (E[y²] − E[y]² + ε)) + (β − E[y] · (γ · rsqrt (…))) and the two-pass form
  (y − E[y]) · rsqrt (E[(y − E[y])²] + ε) · γ + β. The statistics of a node run over batch × channel, 16 · 256 = 4096
  entries; the word 2⁻¹² is 1/4096, so a product with it is the quotient by 4096.
-/
import proofs.«160428_g88656714924069_cont_sun_m_1396_13_alg».proof.Proof.Spec
import proofs.«160428_g88656714924069_cont_sun_m_1396_13_alg».proof.Proof.LibBatchNormFold
import proofs.«160428_g88656714924069_cont_sun_m_1396_13_alg».proof.Proof.LibLinComb
import Mathlib.Tactic.Ring
import Mathlib.Tactic.NormNum
import Mathlib.Tactic.Positivity

noncomputable section

namespace Cert.Spec

open Idealize.ShloMosaic
open scoped BigOperators

/-! ## The four literal words as the reals they denote -/

/-- The word 2⁻¹² denotes the real 1/4096. -/
theorem inv4096_eq : inv4096 = ((1 / 4096 : ℝ) : EReal) := by
  simp [Ideal.ofBits, Ideal.ieee, -EReal.coe_mul]; norm_num

/-- The word 4096.0 denotes the real 4096. -/
theorem n4096_eq : n4096 = ((4096 : ℝ) : EReal) := by
  simp [Ideal.ofBits, Ideal.ieee, -EReal.coe_mul]; norm_num

/-- The word 0.0 denotes zero. -/
theorem zero32_eq : zero32 = 0 := by
  simp [Ideal.ofBits, Ideal.ieee]

/-- The word of ε denotes a positive real (10995116 · 2⁻⁴⁰, about 1e-5). -/
theorem eps_pos : ∃ e : ℝ, 0 < e ∧ eps = (e : EReal) := by
  refine ⟨(10995116 : ℝ) * (2 : ℝ) ^ (-40 : Int), by positivity, ?_⟩
  simp [Ideal.ofBits, Ideal.ieee, -EReal.coe_mul]

/-- Batch × channel has 4096 elements. -/
theorem card_pd : (Fintype.card (Fin 16 × Fin 256) : ℝ) = 4096 := by
  simp

/-! ## A convolution layer of real inputs is real-valued -/

/-- The larger of two finite values is finite. -/
theorem isReal_max {a b : EReal} (ha : LinComb.IsReal a) (hb : LinComb.IsReal b) : LinComb.IsReal (max a b) := by
  rcases max_choice a b with h | h
  · rw [h]; exact ha
  · rw [h]; exact hb

theorem conv_real {x : Act} {adj : Adj} {W : Mat} {b : ChanVec} (hx : RealAct x) (hadj : RealAdj adj)
    (hW : RealMat W) (hb : RealChan b) : RealAct (conv x adj W b) := by
  intro p n d
  show LinComb.IsReal (max ((∑ k : Fin 1024, adj p n k * (∑ c : Fin 256, x p k c * W c d)) + b d) zero32)
  refine isReal_max (LinComb.IsReal.add (LinComb.isReal_sum _ fun k => LinComb.IsReal.mul (hadj p n k)
    (LinComb.isReal_sum _ fun c => LinComb.IsReal.mul (hx p k c) (hW c d))) (hb d)) ?_
  rw [zero32_eq]
  exact LinComb.isReal_zero

/-! ## A node's statistics as sums over batch × channel, every quotient by the real 4096 -/

theorem sumPD_eq (y : Act) (n : Fin 1024) : sumPD y n = ∑ b : Fin 16 × Fin 256, y b.1 n b.2 :=
  (Fintype.sum_prod_type' fun p d => y p n d).symm

theorem sumSqPD_eq (y : Act) (n : Fin 1024) :
    sumSqPD y n = ∑ b : Fin 16 × Fin 256, y b.1 n b.2 * y b.1 n b.2 :=
  (Fintype.sum_prod_type' fun p d => y p n d * y p n d).symm

theorem meanK_eq (y : Act) (n : Fin 1024) :
    meanK y n = Ideal.div (∑ b : Fin 16 × Fin 256, y b.1 n b.2) ((4096 : ℝ) : EReal) := by
  unfold meanK
  rw [sumPD_eq, inv4096_eq, ← Ideal.div_coe (by norm_num)]

theorem meanR_eq (y : Act) (n : Fin 1024) :
    meanR y n = Ideal.div (∑ b : Fin 16 × Fin 256, y b.1 n b.2) ((4096 : ℝ) : EReal) := by
  unfold meanR
  rw [sumPD_eq, n4096_eq]

theorem varK_eq (y : Act) (n : Fin 1024) :
    varK y n = Ideal.div (∑ b : Fin 16 × Fin 256, y b.1 n b.2 * y b.1 n b.2) ((4096 : ℝ) : EReal)
      - Ideal.div (∑ b : Fin 16 × Fin 256, y b.1 n b.2) ((4096 : ℝ) : EReal)
        * Ideal.div (∑ b : Fin 16 × Fin 256, y b.1 n b.2) ((4096 : ℝ) : EReal) := by
  unfold varK
  rw [meanK_eq, sumSqPD_eq, inv4096_eq, ← Ideal.div_coe (by norm_num)]

theorem varR_eq (y : Act) (n : Fin 1024) :
    varR y n = Ideal.div (∑ b : Fin 16 × Fin 256,
        (y b.1 n b.2 - Ideal.div (∑ b : Fin 16 × Fin 256, y b.1 n b.2) ((4096 : ℝ) : EReal))
        * (y b.1 n b.2 - Ideal.div (∑ b : Fin 16 × Fin 256, y b.1 n b.2) ((4096 : ℝ) : EReal)))
      ((4096 : ℝ) : EReal) := by
  unfold varR
  rw [meanR_eq, n4096_eq, zero32_eq, sub_zero]
  exact congrArg (fun s => Ideal.div s ((4096 : ℝ) : EReal))
    (Fintype.sum_prod_type' fun p d =>
      (y p n d - Ideal.div (∑ b : Fin 16 × Fin 256, y b.1 n b.2) ((4096 : ℝ) : EReal))
      * (y p n d - Ideal.div (∑ b : Fin 16 × Fin 256, y b.1 n b.2) ((4096 : ℝ) : EReal))).symm

/-! ## The two spellings of the normalisation on a real-valued layer -/

/-- On real y, γ, β the running-sums form is the two-pass form. -/
theorem bn_eq {y : Act} {γ β : NodeVec} (hy : RealAct y) (hγ : RealNode γ) (hβ : RealNode β) :
    bnK y γ β = bnR y γ β := by
  choose y' hy' using hy
  choose g hg using hγ
  choose b hb using hβ
  obtain ⟨e, he, hE⟩ := eps_pos
  funext p n d
  have key := LibBatchNormFold.bn_fold (fun pd : Fin 16 × Fin 256 => y' pd.1 n pd.2) 4096 e (g n) (b n)
    (by norm_num) card_pd he (p, d)
  show y p n d * (γ n * Ideal.rsqrt (varK y n + eps))
        + (β n - meanK y n * (γ n * Ideal.rsqrt (varK y n + eps)))
      = (y p n d - meanR y n) * Ideal.rsqrt (varR y n + eps) * γ n + β n
  rw [varK_eq, varR_eq, meanK_eq, meanR_eq, hE, hg n, hb n]
  simp only [hy']
  exact key.symm

/-- On real y, γ, β the two-pass form is real-valued: the variance is a mean of squares, so variance + ε is a
    positive real and its inverse root is a real. -/
theorem bnR_real {y : Act} {γ β : NodeVec} (hy : RealAct y) (hγ : RealNode γ) (hβ : RealNode β) :
    RealAct (bnR y γ β) := by
  choose y' hy' using hy
  choose g hg using hγ
  choose b hb using hβ
  obtain ⟨e, he, hE⟩ := eps_pos
  intro p n d
  show ∃ r : ℝ, (y p n d - meanR y n) * Ideal.rsqrt (varR y n + eps) * γ n + β n = (r : EReal)
  rw [varR_eq, meanR_eq, hE, hg n, hb n]
  simp only [hy']
  rw [← LibBatchNormFold.coe_sum, LibBatchNormFold.div_coe_coe _ _ (by norm_num)]
  simp only [← EReal.coe_sub, ← EReal.coe_mul, ← LibBatchNormFold.coe_sum]
  rw [LibBatchNormFold.div_coe_coe _ _ (by norm_num),
    LibBatchNormFold.rsqrt_add_pos _ _
      (LibBatchNormFold.var_real_nonneg (fun pd : Fin 16 × Fin 256 => y' pd.1 n pd.2) 4096 (by norm_num)) he]
  simp only [← EReal.coe_mul, ← EReal.coe_add]
  exact ⟨_, rfl⟩

/-! ## The network -/

theorem netK_eq_netR (x : Act) (adj : Adj) (W1 : Mat) (b1 : ChanVec) (W2 : Mat) (b2 : ChanVec)
    (γ1 β1 γ2 β2 : NodeVec) (hx : RealAct x) (hadj : RealAdj adj) (hW1 : RealMat W1) (hb1 : RealChan b1)
    (hW2 : RealMat W2) (hb2 : RealChan b2) (hγ1 : RealNode γ1) (hβ1 : RealNode β1) (hγ2 : RealNode γ2)
    (hβ2 : RealNode β2) :
    netK x adj W1 b1 W2 b2 γ1 β1 γ2 β2 = netR x adj W1 b1 W2 b2 γ1 β1 γ2 β2 := by
  have h1 : RealAct (conv x adj W1 b1) := conv_real hx hadj hW1 hb1
  have e1 : bnK (conv x adj W1 b1) γ1 β1 = bnR (conv x adj W1 b1) γ1 β1 := bn_eq h1 hγ1 hβ1
  have h2 : RealAct (bnR (conv x adj W1 b1) γ1 β1) := bnR_real h1 hγ1 hβ1
  have h3 : RealAct (conv (bnR (conv x adj W1 b1) γ1 β1) adj W2 b2) := conv_real h2 hadj hW2 hb2
  unfold netK netR
  rw [e1]
  exact bn_eq h3 hγ2 hβ2

end Cert.Spec

end
-- ==== Proof.Finite.lean ====
/-
  From the stated precondition to "every input entry is a real number".

  The precondition is the conjunction, over the ten argument arrays, of "every entry's absolute value is below +∞".
  It is spelt as one `and`-reduction per array of the elementwise comparison |x| < +∞, the ten results joined by
  `and`, and the claim states that the result is 1. An `and` that is 1 had both operands 1; an `and`-reduction over
  every axis that is 1 met a 1 at every index; and an extended real whose absolute value max x (−x) is below +∞ is
  neither infinity, so it is a real.
-/
import proofs.«160428_g88656714924069_cont_sun_m_1396_13_alg».proof.Defs
import proofs.«160428_g88656714924069_cont_sun_m_1396_13_alg».proof.Proof.Gen.Pre_finite_inputs
import proofs.«160428_g88656714924069_cont_sun_m_1396_13_alg».proof.Proof.SpecIdx
import Idealize.ShloMosaic.Lib.ReduceAll
import Idealize.ShloMosaic.Lib.IdealHost

noncomputable section

namespace Cert.Finite

open Idealize.ShloMosaic Idealize.SL.Sem Idealize.ShloMosaic.ValueIdx Cert.Spec Cert.Pre_finite_inputs

/-- The scalar shape has one index. -/
instance : Subsingleton S_.Idx := ⟨fun a b => funext fun d => d.elim0⟩

/-- The word 0x7F800000 denotes +∞. -/
theorem top_word : Ideal.ofBits .f32 0x7F800000#32 = ⊤ := by
  simp [Ideal.ofBits, Ideal.ieee]

/-- An extended real whose absolute value compares below the word of +∞ is a real. -/
theorem real_of_abs_lt (x : EReal)
    (h : Ideal.cmp .olt (max x (-x)) (Ideal.ofBits .f32 0x7F800000#32) = 1#1) : ∃ r : ℝ, x = (r : EReal) := by
  rw [top_word] at h
  induction x using EReal.rec with
  | bot => simp [Ideal.cmp] at h
  | coe r => exact ⟨r, rfl⟩
  | top => simp [Ideal.cmp] at h

/-- One array's conjunct: if the `and`-reduction over every axis of |a| < +∞ is 1, every entry of a is a real. -/
theorem all_real {s : Shape} {axes : List (Fin s.rank)} (hb : S_.BroadcastsInDim s ![]) (hr : s.ReducesTo axes S_)
    (hS : 0 < S_.numel) (a : FVec Ideal s .f32)
    (h : Host.reduce IntOp.andi
        (cmpf .olt (Host.absf a) (broadcastInDim s ![] hb (constant (F := Ideal) S_ .f32 0x7F800000#32)))
        (constantI S_ 1 1#1) hr hS ix0 = 1#1) (i : s.Idx) : ∃ r : ℝ, a i = (r : EReal) := by
  have e := Host.reduce_andi_all _ _ hr hS ix0 h i
  rw [cmpf_apply, broadcastInDim_scalar_apply, constant_apply] at e
  exact real_of_abs_lt (a i) e

/-- The predicate, all ones, says every entry of every argument is a real. -/
theorem fn_real [Facts] (a0 : FVec Ideal S16x1024x256 .f32) (a1 : FVec Ideal S16x1024x1024 .f32) (a2 : FVec Ideal S256x256 .f32) (a3 : FVec Ideal S256 .f32) (a4 : FVec Ideal S256x256 .f32) (a5 : FVec Ideal S256 .f32) (a6 : FVec Ideal S1024 .f32) (a7 : FVec Ideal S1024 .f32) (a8 : FVec Ideal S1024 .f32) (a9 : FVec Ideal S1024 .f32)
    (h : fn (F := Ideal) a0 a1 a2 a3 a4 a5 a6 a7 a8 a9 = fun _ => 1#1) :
    (∀ i : S16x1024x256.Idx, ∃ r : ℝ, a0 i = (r : EReal))
      ∧ (∀ i : S16x1024x1024.Idx, ∃ r : ℝ, a1 i = (r : EReal))
      ∧ (∀ i : S256x256.Idx, ∃ r : ℝ, a2 i = (r : EReal))
      ∧ (∀ i : S256.Idx, ∃ r : ℝ, a3 i = (r : EReal))
      ∧ (∀ i : S256x256.Idx, ∃ r : ℝ, a4 i = (r : EReal))
      ∧ (∀ i : S256.Idx, ∃ r : ℝ, a5 i = (r : EReal))
      ∧ (∀ i : S1024.Idx, ∃ r : ℝ, a6 i = (r : EReal))
      ∧ (∀ i : S1024.Idx, ∃ r : ℝ, a7 i = (r : EReal))
      ∧ (∀ i : S1024.Idx, ∃ r : ℝ, a8 i = (r : EReal))
      ∧ (∀ i : S1024.Idx, ∃ r : ℝ, a9 i = (r : EReal)) := by
  have h0 := congrFun h ix0
  dsimp only [fn, fn_part1, fn_part2, andi] at h0
  simp only [IntOp.andi_eq_one] at h0
  obtain ⟨⟨⟨⟨⟨⟨⟨⟨⟨h0, h1⟩, h2⟩, h3⟩, h4⟩, h5⟩, h6⟩, h7⟩, h8⟩, h9⟩ := h0
  exact ⟨all_real _ _ _ a0 h0, all_real _ _ _ a1 h1, all_real _ _ _ a2 h2, all_real _ _ _ a3 h3,
    all_real _ _ _ a4 h4, all_real _ _ _ a5 h5, all_real _ _ _ a6 h6, all_real _ _ _ a7 h7,
    all_real _ _ _ a8 h8, all_real _ _ _ a9 h9⟩

/-- Under the precondition every entry of every argument array of the idealized program, read at coordinates, is a
    real. -/
theorem real_args [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    RealAct (actOf (m ((c.tc : Thread Cert.KernelIdeal.nD Cert.KernelIdeal.τ).loc Cert.KernelIdeal.main_arg0)))
      ∧ RealAdj (adjOf (m ((c.tc : Thread Cert.KernelIdeal.nD Cert.KernelIdeal.τ).loc Cert.KernelIdeal.main_arg1)))
      ∧ RealMat (matOf (m ((c.tc : Thread Cert.KernelIdeal.nD Cert.KernelIdeal.τ).loc Cert.KernelIdeal.main_arg2)))
      ∧ RealChan (chanOf (m ((c.tc : Thread Cert.KernelIdeal.nD Cert.KernelIdeal.τ).loc Cert.KernelIdeal.main_arg3)))
      ∧ RealMat (matOf (m ((c.tc : Thread Cert.KernelIdeal.nD Cert.KernelIdeal.τ).loc Cert.KernelIdeal.main_arg4)))
      ∧ RealChan (chanOf (m ((c.tc : Thread Cert.KernelIdeal.nD Cert.KernelIdeal.τ).loc Cert.KernelIdeal.main_arg5)))
      ∧ RealNode (nodeOf (m ((c.tc : Thread Cert.KernelIdeal.nD Cert.KernelIdeal.τ).loc Cert.KernelIdeal.main_arg6)))
      ∧ RealNode (nodeOf (m ((c.tc : Thread Cert.KernelIdeal.nD Cert.KernelIdeal.τ).loc Cert.KernelIdeal.main_arg7)))
      ∧ RealNode (nodeOf (m ((c.tc : Thread Cert.KernelIdeal.nD Cert.KernelIdeal.τ).loc Cert.KernelIdeal.main_arg8)))
      ∧ RealNode (nodeOf (m ((c.tc : Thread Cert.KernelIdeal.nD Cert.KernelIdeal.τ).loc Cert.KernelIdeal.main_arg9))) := by
  obtain ⟨r0, r1, r2, r3, r4, r5, r6, r7, r8, r9⟩ := fn_real _ _ _ _ _ _ _ _ _ _ (h c)
  exact ⟨fun p n d => r0 (ix3 p n d), fun p n k => r1 (ix3 p n k), fun a d => r2 (ix2 a d), fun d => r3 (ix1 d),
    fun a d => r4 (ix2 a d), fun d => r5 (ix1 d), fun n => r6 (ix1 n), fun n => r7 (ix1 n), fun n => r8 (ix1 n),
    fun n => r9 (ix1 n)⟩

end Cert.Finite

end
-- ==== Proof.lean ====
/-
  The certificate: two stacked dense graph-convolution layers, each followed by a batch normalisation whose statistics
  are taken per node over all batches and channels.

  The kernel program computes each layer in one region (two matrix products, the bias, the clamp at zero) together
  with, per batch and node, the channel sum and the channel sum of squares; the next region reduces those partial sums
  over the batch, folds γ and β into a per-node scale and shift, and applies them. The reference computes the mean, then
  the mean of squared deviations, then (y − mean) · rsqrt (var + ε) · γ + β.

  On the extended reals both results are read index by index as one function of the ten argument arrays: the kernel's as
  the running-sums form `Cert.Spec.netK`, the reference's as the two-pass form `Cert.Spec.netR`. Neither reading needs
  finiteness. The two forms agree when every input entry is a real number — E[y²] − E[y]² = E[(y − E[y])²], 2⁻¹² = 1/4096,
  and a real factor distributes over a sum — and that is exactly what the precondition provides.

  The three frames: the kernel program's run is assembled from its three regions and the host reshapes between them, at
  either float instance; the reference's is its run with the result dropped. The idealization rewrote nothing.
-/
import proofs.«160428_g88656714924069_cont_sun_m_1396_13_alg».proof.Defs
import proofs.«160428_g88656714924069_cont_sun_m_1396_13_alg».proof.Proof.Gen.Kernel
import proofs.«160428_g88656714924069_cont_sun_m_1396_13_alg».proof.Proof.Gen.KernelIdeal
import proofs.«160428_g88656714924069_cont_sun_m_1396_13_alg».proof.Proof.Gen.ReferenceIdeal
import proofs.«160428_g88656714924069_cont_sun_m_1396_13_alg».proof.Proof.Gen.Pre_finite_inputs
import proofs.«160428_g88656714924069_cont_sun_m_1396_13_alg».proof.Proof.BKArgs
import proofs.«160428_g88656714924069_cont_sun_m_1396_13_alg».proof.Proof.KNet
import proofs.«160428_g88656714924069_cont_sun_m_1396_13_alg».proof.Proof.K0Array
import proofs.«160428_g88656714924069_cont_sun_m_1396_13_alg».proof.Proof.K1Array
import proofs.«160428_g88656714924069_cont_sun_m_1396_13_alg».proof.Proof.K2Array
import proofs.«160428_g88656714924069_cont_sun_m_1396_13_alg».proof.Proof.RefRun
import proofs.«160428_g88656714924069_cont_sun_m_1396_13_alg».proof.Proof.RefRead
import proofs.«160428_g88656714924069_cont_sun_m_1396_13_alg».proof.Proof.SpecAlgebra
import proofs.«160428_g88656714924069_cont_sun_m_1396_13_alg».proof.Proof.Finite
import Idealize.ShloMosaic.Adequacy
import Idealize.ShloMosaic.Init

noncomputable section

namespace Cert.Proof

open Idealize.ShloMosaic Idealize.SL.Sem Cert.Spec

/-- The word-level kernel program runs and leaves its arguments as launched. -/
theorem frame_k : Cert.frame_Kernel := fun m ρ _ =>
  (θ_run Cert.Kernel.defs _ _).mono (fun _ h c => (h c).2) (Cert.Kernel.H.run_frame (F := Bits) m ρ)

/-- The idealized kernel program runs and leaves its arguments as launched. -/
theorem frame_ki : Cert.frame_KernelIdeal := fun m ρ _ =>
  (θ_run Cert.KernelIdeal.defs _ _).mono (fun _ h c => (h c).2) (Cert.KernelIdeal.H.run_frame (F := Ideal) m ρ)

/-- The reference runs and leaves its arguments as launched. -/
theorem frame_ri : Cert.frame_ReferenceIdeal := fun m ρ _ =>
  (θ_run Cert.ReferenceIdeal.defs _ _).mono (fun _ h c => (h c).2) (Cert.ReferenceIdeal.H.run m ρ)

/-- The idealization rewrote no operation. -/
theorem preserves : Cert.preserves_Kernel_KernelIdeal := trivial

/-- From memories agreeing on the arguments both programs end with the same result array: the kernel's is the
    running-sums form of the arguments, the reference's the two-pass form, and on real inputs these are one function. -/
theorem algebraic : Cert.algebraic_KernelIdeal_ReferenceIdeal := by
  intro m ρ m' ρ' hpre hagree
  refine ⟨fun c => arrOf (netK (actOf (m ((c.tc : Thread Cert.KernelIdeal.nD Cert.KernelIdeal.τ).loc Cert.KernelIdeal.main_arg0))) (adjOf (m ((c.tc : Thread Cert.KernelIdeal.nD Cert.KernelIdeal.τ).loc Cert.KernelIdeal.main_arg1))) (matOf (m ((c.tc : Thread Cert.KernelIdeal.nD Cert.KernelIdeal.τ).loc Cert.KernelIdeal.main_arg2))) (chanOf (m ((c.tc : Thread Cert.KernelIdeal.nD Cert.KernelIdeal.τ).loc Cert.KernelIdeal.main_arg3))) (matOf (m ((c.tc : Thread Cert.KernelIdeal.nD Cert.KernelIdeal.τ).loc Cert.KernelIdeal.main_arg4))) (chanOf (m ((c.tc : Thread Cert.KernelIdeal.nD Cert.KernelIdeal.τ).loc Cert.KernelIdeal.main_arg5))) (nodeOf (m ((c.tc : Thread Cert.KernelIdeal.nD Cert.KernelIdeal.τ).loc Cert.KernelIdeal.main_arg6))) (nodeOf (m ((c.tc : Thread Cert.KernelIdeal.nD Cert.KernelIdeal.τ).loc Cert.KernelIdeal.main_arg7))) (nodeOf (m ((c.tc : Thread Cert.KernelIdeal.nD Cert.KernelIdeal.τ).loc Cert.KernelIdeal.main_arg8))) (nodeOf (m ((c.tc : Thread Cert.KernelIdeal.nD Cert.KernelIdeal.τ).loc Cert.KernelIdeal.main_arg9)))), ?_, ?_⟩
  · refine (θ_run Cert.KernelIdeal.defs _ _).mono (fun _ h c => ⟨(h c).1.trans ?_, (h c).2⟩)
      (Cert.KernelIdeal.H.run_frame (F := Ideal) m ρ)
    exact Cert.KernelIdeal.H.net_of_arrays m c
      (Cert.KernelIdeal.H.arr0_y _ c) (Cert.KernelIdeal.H.arr0_s _ c) (Cert.KernelIdeal.H.arr0_q _ c)
      (Cert.KernelIdeal.H.arr1_y _ c) (Cert.KernelIdeal.H.arr1_s _ c) (Cert.KernelIdeal.H.arr1_q _ c)
      (Cert.KernelIdeal.H.arr2_out _ c)
  · refine (θ_run Cert.ReferenceIdeal.defs _ _).mono (fun _ h c => ⟨(h c).1.trans ?_, (h c).2⟩)
      (Cert.ReferenceIdeal.H.run m' ρ')
    obtain ⟨hx, hadj, hW1, hb1, hW2, hb2, hγ1, hβ1, hγ2, hβ2⟩ := Cert.Finite.real_args m hpre c
    obtain ⟨e0, e1, e2, e3, e4, e5, e6, e7, e8, e9⟩ := hagree c
    rw [Cert.ReferenceIdeal.H.refOut_eq, e0, e1, e2, e3, e4, e5, e6, e7, e8, e9]
    exact congrArg arrOf (netK_eq_netR _ _ _ _ _ _ _ _ _ _ hx hadj hW1 hb1 hW2 hb2 hγ1 hβ1 hγ2 hβ2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
